-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)) →
    ∃ (v0 : (c : Dev Cert.KernelIdeal.nD) → Buf (Elt Ideal) ((c.tc : Thread Cert.KernelIdeal.nD Cert.KernelIdeal.τ).loc Cert.KernelIdeal.main_v109)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v109) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v163) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x50 : Shape := ⟨2, ![100000, 50]⟩
abbrev S1000x3 : Shape := ⟨2, ![1000, 3]⟩
abbrev S1600000 : Shape := ⟨1, ![1600000]⟩
abbrev S100000 : Shape := ⟨1, ![100000]⟩
abbrev S50x100 : Shape := ⟨2, ![50, 100]⟩
abbrev S100 : Shape := ⟨1, ![100]⟩
abbrev S100x100 : Shape := ⟨2, ![100, 100]⟩
abbrev S100x20 : Shape := ⟨2, ![100, 20]⟩
abbrev S20 : Shape := ⟨1, ![20]⟩
abbrev S20x20 : Shape := ⟨2, ![20, 20]⟩
abbrev S23x10 : Shape := ⟨2, ![23, 10]⟩
abbrev S10 : Shape := ⟨1, ![10]⟩
abbrev S10x1 : Shape := ⟨2, ![10, 1]⟩
abbrev S1 : Shape := ⟨1, ![1]⟩
abbrev S_ : Shape := ⟨0, ![]⟩

class Facts : Prop where
  bcast_S_S100000x50 : S_.BroadcastsInDim S100000x50 (![] : Fin 0 → Fin S100000x50.rank)
  reducesTo_S100000x50_S_d0_1 : S100000x50.ReducesTo [0, 1] S_
  h_S_ : 0 < S_.numel
  bcast_S_S1000x3 : S_.BroadcastsInDim S1000x3 (![] : Fin 0 → Fin S1000x3.rank)
  reducesTo_S1000x3_S_d0_1 : S1000x3.ReducesTo [0, 1] S_
  bcast_S_S50x100 : S_.BroadcastsInDim S50x100 (![] : Fin 0 → Fin S50x100.rank)
  reducesTo_S50x100_S_d0_1 : S50x100.ReducesTo [0, 1] S_
  bcast_S_S100 : S_.BroadcastsInDim S100 (![] : Fin 0 → Fin S100.rank)
  reducesTo_S100_S_d0 : S100.ReducesTo [0] S_
  bcast_S_S100x100 : S_.BroadcastsInDim S100x100 (![] : Fin 0 → Fin S100x100.rank)
  reducesTo_S100x100_S_d0_1 : S100x100.ReducesTo [0, 1] S_
  bcast_S_S100x20 : S_.BroadcastsInDim S100x20 (![] : Fin 0 → Fin S100x20.rank)
  reducesTo_S100x20_S_d0_1 : S100x20.ReducesTo [0, 1] S_
  bcast_S_S20 : S_.BroadcastsInDim S20 (![] : Fin 0 → Fin S20.rank)
  reducesTo_S20_S_d0 : S20.ReducesTo [0] S_
  bcast_S_S20x20 : S_.BroadcastsInDim S20x20 (![] : Fin 0 → Fin S20x20.rank)
  reducesTo_S20x20_S_d0_1 : S20x20.ReducesTo [0, 1] S_
  bcast_S_S23x10 : S_.BroadcastsInDim S23x10 (![] : Fin 0 → Fin S23x10.rank)
  reducesTo_S23x10_S_d0_1 : S23x10.ReducesTo [0, 1] S_
  bcast_S_S10 : S_.BroadcastsInDim S10 (![] : Fin 0 → Fin S10.rank)
  reducesTo_S10_S_d0 : S10.ReducesTo [0] S_
  bcast_S_S10x1 : S_.BroadcastsInDim S10x1 (![] : Fin 0 → Fin S10x1.rank)
  reducesTo_S10x1_S_d0_1 : S10x1.ReducesTo [0, 1] S_
  bcast_S_S1 : S_.BroadcastsInDim S1 (![] : Fin 0 → Fin S1.rank)
  reducesTo_S1_S_d0 : S1.ReducesTo [0] S_

variable [Facts]

def fn_part6 {F : FTy → Type} [FloatOps F] (main_arg24 : FVec F S1 .f32) (main_v98 : IVec S_ 1) (main_v101 : IVec S10x1 1) (main_c_39 : IVec S_ 1) : IVec S_ 1 :=
  let main_v102 : IVec S_ 1 := (fun x v => Host.reduce IntOp.andi x v reducesTo_S10x1_S_d0_1 h_S_) main_v101 main_c_39
  let main_v103 : IVec S_ 1 := andi main_v98 main_v102
  let main_v104 : FVec F S1 .f32 := Host.absf main_arg24
  let main_cst_40 : FVec F S_ .f32 := constant S_ .f32 0x7F800000#32
  let main_v105 : FVec F S1 .f32 := broadcastInDim S1 ![] bcast_S_S1 main_cst_40
  let main_v106 : IVec S1 1 := cmpf .olt main_v104 main_v105
  let main_c_41 : IVec S_ 1 := constantI S_ 1 1#1
  let main_v107 : IVec S_ 1 := (fun x v => Host.reduce IntOp.andi x v reducesTo_S1_S_d0 h_S_) main_v106 main_c_41
  let main_v108 : IVec S_ 1 := andi main_v103 main_v107
  main_v108

def fn_part5 {F : FTy → Type} [FloatOps F] (main_arg21 : FVec F S23x10 .f32) (main_arg22 : FVec F S10 .f32) (main_arg23 : FVec F S10x1 .f32) (main_arg24 : FVec F S1 .f32) (main_v83 : IVec S_ 1) (main_v84 : FVec F S20 .f32) (main_cst_32 : FVec F S_ .f32) : IVec S_ 1 :=
  let main_v85 : FVec F S20 .f32 := broadcastInDim S20 ![] bcast_S_S20 main_cst_32
  let main_v86 : IVec S20 1 := cmpf .olt main_v84 main_v85
  let main_c_33 : IVec S_ 1 := constantI S_ 1 1#1
  let main_v87 : IVec S_ 1 := (fun x v => Host.reduce IntOp.andi x v reducesTo_S20_S_d0 h_S_) main_v86 main_c_33
  let main_v88 : IVec S_ 1 := andi main_v83 main_v87
  let main_v89 : FVec F S23x10 .f32 := Host.absf main_arg21
  let main_cst_34 : FVec F S_ .f32 := constant S_ .f32 0x7F800000#32
  let main_v90 : FVec F S23x10 .f32 := broadcastInDim S23x10 ![] bcast_S_S23x10 main_cst_34
  let main_v91 : IVec S23x10 1 := cmpf .olt main_v89 main_v90
  let main_c_35 : IVec S_ 1 := constantI S_ 1 1#1
  let main_v92 : IVec S_ 1 := (fun x v => Host.reduce IntOp.andi x v reducesTo_S23x10_S_d0_1 h_S_) main_v91 main_c_35
  let main_v93 : IVec S_ 1 := andi main_v88 main_v92
  let main_v94 : FVec F S10 .f32 := Host.absf main_arg22
  let main_cst_36 : FVec F S_ .f32 := constant S_ .f32 0x7F800000#32
  let main_v95 : FVec F S10 .f32 := broadcastInDim S10 ![] bcast_S_S10 main_cst_36
  let main_v96 : IVec S10 1 := cmpf .olt main_v94 main_v95
  let main_c_37 : IVec S_ 1 := constantI S_ 1 1#1
  let main_v97 : IVec S_ 1 := (fun x v => Host.reduce IntOp.andi x v reducesTo_S10_S_d0 h_S_) main_v96 main_c_37
  let main_v98 : IVec S_ 1 := andi main_v93 main_v97
  let main_v99 : FVec F S10x1 .f32 := Host.absf main_arg23
  let main_cst_38 : FVec F S_ .f32 := constant S_ .f32 0x7F800000#32
  let main_v100 : FVec F S10x1 .f32 := broadcastInDim S10x1 ![] bcast_S_S10x1 main_cst_38
  let main_v101 : IVec S10x1 1 := cmpf .olt main_v99 main_v100
  let main_c_39 : IVec S_ 1 := constantI S_ 1 1#1
  fn_part6 (F := F) main_arg24 main_v98 main_v101 main_c_39

def fn_part4 {F : FTy → Type} [FloatOps F] (main_arg17 : FVec F S20x20 .f32) (main_arg18 : FVec F S20 .f32) (main_arg19 : FVec F S20 .f32) (main_arg20 : FVec F S20 .f32) (main_arg21 : FVec F S23x10 .f32) (main_arg22 : FVec F S10 .f32) (main_arg23 : FVec F S10x1 .f32) (main_arg24 : FVec F S1 .f32) (main_v63 : IVec S_ 1) (main_v67 : IVec S_ 1) : IVec S_ 1 :=
  let main_v68 : IVec S_ 1 := andi main_v63 main_v67
  let main_v69 : FVec F S20x20 .f32 := Host.absf main_arg17
  let main_cst_26 : FVec F S_ .f32 := constant S_ .f32 0x7F800000#32
  let main_v70 : FVec F S20x20 .f32 := broadcastInDim S20x20 ![] bcast_S_S20x20 main_cst_26
  let main_v71 : IVec S20x20 1 := cmpf .olt main_v69 main_v70
  let main_c_27 : IVec S_ 1 := constantI S_ 1 1#1
  let main_v72 : IVec S_ 1 := (fun x v => Host.reduce IntOp.andi x v reducesTo_S20x20_S_d0_1 h_S_) main_v71 main_c_27
  let main_v73 : IVec S_ 1 := andi main_v68 main_v72
  let main_v74 : FVec F S20 .f32 := Host.absf main_arg18
  let main_cst_28 : FVec F S_ .f32 := constant S_ .f32 0x7F800000#32
  let main_v75 : FVec F S20 .f32 := broadcastInDim S20 ![] bcast_S_S20 main_cst_28
  let main_v76 : IVec S20 1 := cmpf .olt main_v74 main_v75
  let main_c_29 : IVec S_ 1 := constantI S_ 1 1#1
  let main_v77 : IVec S_ 1 := (fun x v => Host.reduce IntOp.andi x v reducesTo_S20_S_d0 h_S_) main_v76 main_c_29
  let main_v78 : IVec S_ 1 := andi main_v73 main_v77
  let main_v79 : FVec F S20 .f32 := Host.absf main_arg19
  let main_cst_30 : FVec F S_ .f32 := constant S_ .f32 0x7F800000#32
  let main_v80 : FVec F S20 .f32 := broadcastInDim S20 ![] bcast_S_S20 main_cst_30
  let main_v81 : IVec S20 1 := cmpf .olt main_v79 main_v80
  let main_c_31 : IVec S_ 1 := constantI S_ 1 1#1
  let main_v82 : IVec S_ 1 := (fun x v => Host.reduce IntOp.andi x v reducesTo_S20_S_d0 h_S_) main_v81 main_c_31
  let main_v83 : IVec S_ 1 := andi main_v78 main_v82
  let main_v84 : FVec F S20 .f32 := Host.absf main_arg20
  let main_cst_32 : FVec F S_ .f32 := constant S_ .f32 0x7F800000#32
  fn_part5 (F := F) main_arg21 main_arg22 main_arg23 main_arg24 main_v83 main_v84 main_cst_32

def fn_part3 {F : FTy → Type} [FloatOps F] (main_arg14 : FVec F S20 .f32) (main_arg15 : FVec F S20 .f32) (main_arg16 : FVec F S20 .f32) (main_arg17 : FVec F S20x20 .f32) (main_arg18 : FVec F S20 .f32) (main_arg19 : FVec F S20 .f32) (main_arg20 : FVec F S20 .f32) (main_arg21 : FVec F S23x10 .f32) (main_arg22 : FVec F S10 .f32) (main_arg23 : FVec F S10x1 .f32) (main_arg24 : FVec F S1 .f32) (main_v48 : IVec S_ 1) (main_v49 : FVec F S100x20 .f32) (main_v50 : FVec F S100x20 .f32) : IVec S_ 1 :=
  let main_v51 : IVec S100x20 1 := cmpf .olt main_v49 main_v50
  let main_c_19 : IVec S_ 1 := constantI S_ 1 1#1
  let main_v52 : IVec S_ 1 := (fun x v => Host.reduce IntOp.andi x v reducesTo_S100x20_S_d0_1 h_S_) main_v51 main_c_19
  let main_v53 : IVec S_ 1 := andi main_v48 main_v52
  let main_v54 : FVec F S20 .f32 := Host.absf main_arg14
  let main_cst_20 : FVec F S_ .f32 := constant S_ .f32 0x7F800000#32
  let main_v55 : FVec F S20 .f32 := broadcastInDim S20 ![] bcast_S_S20 main_cst_20
  let main_v56 : IVec S20 1 := cmpf .olt main_v54 main_v55
  let main_c_21 : IVec S_ 1 := constantI S_ 1 1#1
  let main_v57 : IVec S_ 1 := (fun x v => Host.reduce IntOp.andi x v reducesTo_S20_S_d0 h_S_) main_v56 main_c_21
  let main_v58 : IVec S_ 1 := andi main_v53 main_v57
  let main_v59 : FVec F S20 .f32 := Host.absf main_arg15
  let main_cst_22 : FVec F S_ .f32 := constant S_ .f32 0x7F800000#32
  let main_v60 : FVec F S20 .f32 := broadcastInDim S20 ![] bcast_S_S20 main_cst_22
  let main_v61 : IVec S20 1 := cmpf .olt main_v59 main_v60
  let main_c_23 : IVec S_ 1 := constantI S_ 1 1#1
  let main_v62 : IVec S_ 1 := (fun x v => Host.reduce IntOp.andi x v reducesTo_S20_S_d0 h_S_) main_v61 main_c_23
  let main_v63 : IVec S_ 1 := andi main_v58 main_v62
  let main_v64 : FVec F S20 .f32 := Host.absf main_arg16
  let main_cst_24 : FVec F S_ .f32 := constant S_ .f32 0x7F800000#32
  let main_v65 : FVec F S20 .f32 := broadcastInDim S20 ![] bcast_S_S20 main_cst_24
  let main_v66 : IVec S20 1 := cmpf .olt main_v64 main_v65
  let main_c_25 : IVec S_ 1 := constantI S_ 1 1#1
  let main_v67 : IVec S_ 1 := (fun x v => Host.reduce IntOp.andi x v reducesTo_S20_S_d0 h_S_) main_v66 main_c_25
  fn_part4 (F := F) main_arg17 main_arg18 main_arg19 main_arg20 main_arg21 main_arg22 main_arg23 main_arg24 main_v63 main_v67

def fn_part2 {F : FTy → Type} [FloatOps F] (main_arg10 : FVec F S100 .f32) (main_arg11 : FVec F S100 .f32) (main_arg12 : FVec F S100 .f32) (main_arg13 : FVec F S100x20 .f32) (main_arg14 : FVec F S20 .f32) (main_arg15 : FVec F S20 .f32) (main_arg16 : FVec F S20 .f32) (main_arg17 : FVec F S20x20 .f32) (main_arg18 : FVec F S20 .f32) (main_arg19 : FVec F S20 .f32) (main_arg20 : FVec F S20 .f32) (main_arg21 : FVec F S23x10 .f32) (main_arg22 : FVec F S10 .f32) (main_arg23 : FVec F S10x1 .f32) (main_arg24 : FVec F S1 .f32) (main_v33 : IVec S_ 1) : IVec S_ 1 :=
  let main_v34 : FVec F S100 .f32 := Host.absf main_arg10
  let main_cst_12 : FVec F S_ .f32 := constant S_ .f32 0x7F800000#32
  let main_v35 : FVec F S100 .f32 := broadcastInDim S100 ![] bcast_S_S100 main_cst_12
  let main_v36 : IVec S100 1 := cmpf .olt main_v34 main_v35
  let main_c_13 : IVec S_ 1 := constantI S_ 1 1#1
  let main_v37 : IVec S_ 1 := (fun x v => Host.reduce IntOp.andi x v reducesTo_S100_S_d0 h_S_) main_v36 main_c_13
  let main_v38 : IVec S_ 1 := andi main_v33 main_v37
  let main_v39 : FVec F S100 .f32 := Host.absf main_arg11
  let main_cst_14 : FVec F S_ .f32 := constant S_ .f32 0x7F800000#32
  let main_v40 : FVec F S100 .f32 := broadcastInDim S100 ![] bcast_S_S100 main_cst_14
  let main_v41 : IVec S100 1 := cmpf .olt main_v39 main_v40
  let main_c_15 : IVec S_ 1 := constantI S_ 1 1#1
  let main_v42 : IVec S_ 1 := (fun x v => Host.reduce IntOp.andi x v reducesTo_S100_S_d0 h_S_) main_v41 main_c_15
  let main_v43 : IVec S_ 1 := andi main_v38 main_v42
  let main_v44 : FVec F S100 .f32 := Host.absf main_arg12
  let main_cst_16 : FVec F S_ .f32 := constant S_ .f32 0x7F800000#32
  let main_v45 : FVec F S100 .f32 := broadcastInDim S100 ![] bcast_S_S100 main_cst_16
  let main_v46 : IVec S100 1 := cmpf .olt main_v44 main_v45
  let main_c_17 : IVec S_ 1 := constantI S_ 1 1#1
  let main_v47 : IVec S_ 1 := (fun x v => Host.reduce IntOp.andi x v reducesTo_S100_S_d0 h_S_) main_v46 main_c_17
  let main_v48 : IVec S_ 1 := andi main_v43 main_v47
  let main_v49 : FVec F S100x20 .f32 := Host.absf main_arg13
  let main_cst_18 : FVec F S_ .f32 := constant S_ .f32 0x7F800000#32
  let main_v50 : FVec F S100x20 .f32 := broadcastInDim S100x20 ![] bcast_S_S100x20 main_cst_18
  fn_part3 (F := F) main_arg14 main_arg15 main_arg16 main_arg17 main_arg18 main_arg19 main_arg20 main_arg21 main_arg22 main_arg23 main_arg24 main_v48 main_v49 main_v50

def fn_part1 {F : FTy → Type} [FloatOps F] (main_arg7 : FVec F S100 .f32) (main_arg8 : FVec F S100 .f32) (main_arg9 : FVec F S100x100 .f32) (main_arg10 : FVec F S100 .f32) (main_arg11 : FVec F S100 .f32) (main_arg12 : FVec F S100 .f32) (main_arg13 : FVec F S100x20 .f32) (main_arg14 : FVec F S20 .f32) (main_arg15 : FVec F S20 .f32) (main_arg16 : FVec F S20 .f32) (main_arg17 : FVec F S20x20 .f32) (main_arg18 : FVec F S20 .f32) (main_arg19 : FVec F S20 .f32) (main_arg20 : FVec F S20 .f32) (main_arg21 : FVec F S23x10 .f32) (main_arg22 : FVec F S10 .f32) (main_arg23 : FVec F S10x1 .f32) (main_arg24 : FVec F S1 .f32) (main_v13 : IVec S_ 1) (main_v16 : IVec S100 1) : IVec S_ 1 :=
  let main_c_5 : IVec S_ 1 := constantI S_ 1 1#1
  let main_v17 : IVec S_ 1 := (fun x v => Host.reduce IntOp.andi x v reducesTo_S100_S_d0 h_S_) main_v16 main_c_5
  let main_v18 : IVec S_ 1 := andi main_v13 main_v17
  let main_v19 : FVec F S100 .f32 := Host.absf main_arg7
  let main_cst_6 : FVec F S_ .f32 := constant S_ .f32 0x7F800000#32
  let main_v20 : FVec F S100 .f32 := broadcastInDim S100 ![] bcast_S_S100 main_cst_6
  let main_v21 : IVec S100 1 := cmpf .olt main_v19 main_v20
  let main_c_7 : IVec S_ 1 := constantI S_ 1 1#1
  let main_v22 : IVec S_ 1 := (fun x v => Host.reduce IntOp.andi x v reducesTo_S100_S_d0 h_S_) main_v21 main_c_7
  let main_v23 : IVec S_ 1 := andi main_v18 main_v22
  let main_v24 : FVec F S100 .f32 := Host.absf main_arg8
  let main_cst_8 : FVec F S_ .f32 := constant S_ .f32 0x7F800000#32
  let main_v25 : FVec F S100 .f32 := broadcastInDim S100 ![] bcast_S_S100 main_cst_8
  let main_v26 : IVec S100 1 := cmpf .olt main_v24 main_v25
  let main_c_9 : IVec S_ 1 := constantI S_ 1 1#1
  let main_v27 : IVec S_ 1 := (fun x v => Host.reduce IntOp.andi x v reducesTo_S100_S_d0 h_S_) main_v26 main_c_9
  let main_v28 : IVec S_ 1 := andi main_v23 main_v27
  let main_v29 : FVec F S100x100 .f32 := Host.absf main_arg9
  let main_cst_10 : FVec F S_ .f32 := constant S_ .f32 0x7F800000#32
  let main_v30 : FVec F S100x100 .f32 := broadcastInDim S100x100 ![] bcast_S_S100x100 main_cst_10
  let main_v31 : IVec S100x100 1 := cmpf .olt main_v29 main_v30
  let main_c_11 : IVec S_ 1 := constantI S_ 1 1#1
  let main_v32 : IVec S_ 1 := (fun x v => Host.reduce IntOp.andi x v reducesTo_S100x100_S_d0_1 h_S_) main_v31 main_c_11
  let main_v33 : IVec S_ 1 := andi main_v28 main_v32
  fn_part2 (F := F) main_arg10 main_arg11 main_arg12 main_arg13 main_arg14 main_arg15 main_arg16 main_arg17 main_arg18 main_arg19 main_arg20 main_arg21 main_arg22 main_arg23 main_arg24 main_v33

def fn {F : FTy → Type} [FloatOps F] (main_arg0 : FVec F S100000x50 .f32) (main_arg1 : FVec F S1000x3 .f32) (main_arg2 : IVec S1600000 32) (main_arg3 : IVec S1600000 32) (main_arg4 : IVec S100000 32) (main_arg5 : FVec F S50x100 .f32) (main_arg6 : FVec F S100 .f32) (main_arg7 : FVec F S100 .f32) (main_arg8 : FVec F S100 .f32) (main_arg9 : FVec F S100x100 .f32) (main_arg10 : FVec F S100 .f32) (main_arg11 : FVec F S100 .f32) (main_arg12 : FVec F S100 .f32) (main_arg13 : FVec F S100x20 .f32) (main_arg14 : FVec F S20 .f32) (main_arg15 : FVec F S20 .f32) (main_arg16 : FVec F S20 .f32) (main_arg17 : FVec F S20x20 .f32) (main_arg18 : FVec F S20 .f32) (main_arg19 : FVec F S20 .f32) (main_arg20 : FVec F S20 .f32) (main_arg21 : FVec F S23x10 .f32) (main_arg22 : FVec F S10 .f32) (main_arg23 : FVec F S10x1 .f32) (main_arg24 : FVec F S1 .f32) : IVec S_ 1 :=
  let main_v0 : FVec F S100000x50 .f32 := Host.absf main_arg0
  let main_cst : FVec F S_ .f32 := constant S_ .f32 0x7F800000#32
  let main_v1 : FVec F S100000x50 .f32 := broadcastInDim S100000x50 ![] bcast_S_S100000x50 main_cst
  let main_v2 : IVec S100000x50 1 := cmpf .olt main_v0 main_v1
  let main_c : IVec S_ 1 := constantI S_ 1 1#1
  let main_v3 : IVec S_ 1 := (fun x v => Host.reduce IntOp.andi x v reducesTo_S100000x50_S_d0_1 h_S_) main_v2 main_c
  let main_v4 : FVec F S1000x3 .f32 := Host.absf main_arg1
  let main_cst_0 : FVec F S_ .f32 := constant S_ .f32 0x7F800000#32
  let main_v5 : FVec F S1000x3 .f32 := broadcastInDim S1000x3 ![] bcast_S_S1000x3 main_cst_0
  let main_v6 : IVec S1000x3 1 := cmpf .olt main_v4 main_v5
  let main_c_1 : IVec S_ 1 := constantI S_ 1 1#1
  let main_v7 : IVec S_ 1 := (fun x v => Host.reduce IntOp.andi x v reducesTo_S1000x3_S_d0_1 h_S_) main_v6 main_c_1
  let main_v8 : IVec S_ 1 := andi main_v3 main_v7
  let main_v9 : FVec F S50x100 .f32 := Host.absf main_arg5
  let main_cst_2 : FVec F S_ .f32 := constant S_ .f32 0x7F800000#32
  let main_v10 : FVec F S50x100 .f32 := broadcastInDim S50x100 ![] bcast_S_S50x100 main_cst_2
  let main_v11 : IVec S50x100 1 := cmpf .olt main_v9 main_v10
  let main_c_3 : IVec S_ 1 := constantI S_ 1 1#1
  let main_v12 : IVec S_ 1 := (fun x v => Host.reduce IntOp.andi x v reducesTo_S50x100_S_d0_1 h_S_) main_v11 main_c_3
  let main_v13 : IVec S_ 1 := andi main_v8 main_v12
  let main_v14 : FVec F S100 .f32 := Host.absf main_arg6
  let main_cst_4 : FVec F S_ .f32 := constant S_ .f32 0x7F800000#32
  let main_v15 : FVec F S100 .f32 := broadcastInDim S100 ![] bcast_S_S100 main_cst_4
  let main_v16 : IVec S100 1 := cmpf .olt main_v14 main_v15
  fn_part1 (F := F) main_arg7 main_arg8 main_arg9 main_arg10 main_arg11 main_arg12 main_arg13 main_arg14 main_arg15 main_arg16 main_arg17 main_arg18 main_arg19 main_arg20 main_arg21 main_arg22 main_arg23 main_arg24 main_v13 main_v16
-- ==== Kernel.lean ====
abbrev S100000x50 : Shape := ⟨2, ![100000, 50]⟩
abbrev S1000x3 : Shape := ⟨2, ![1000, 3]⟩
abbrev S1600000 : Shape := ⟨1, ![1600000]⟩
abbrev S100000 : Shape := ⟨1, ![100000]⟩
abbrev S50x100 : Shape := ⟨2, ![50, 100]⟩
abbrev S100 : Shape := ⟨1, ![100]⟩
abbrev S100x100 : Shape := ⟨2, ![100, 100]⟩
abbrev S100x20 : Shape := ⟨2, ![100, 20]⟩
abbrev S20 : Shape := ⟨1, ![20]⟩
abbrev S20x20 : Shape := ⟨2, ![20, 20]⟩
abbrev S23x10 : Shape := ⟨2, ![23, 10]⟩
abbrev S10 : Shape := ⟨1, ![10]⟩
abbrev S10x1 : Shape := ⟨2, ![10, 1]⟩
abbrev S1 : Shape := ⟨1, ![1]⟩
abbrev S_ : Shape := ⟨0, ![]⟩
abbrev S1600000x1 : Shape := ⟨2, ![1600000, 1]⟩
abbrev S1600000x50 : Shape := ⟨2, ![1600000, 50]⟩
abbrev S1x100 : Shape := ⟨2, ![1, 100]⟩
abbrev S100000x100 : Shape := ⟨2, ![100000, 100]⟩
abbrev S10000x50 : Shape := ⟨2, ![10000, 50]⟩
abbrev S10000x100 : Shape := ⟨2, ![10000, 100]⟩
abbrev S1600000x100 : Shape := ⟨2, ![1600000, 100]⟩
abbrev S1x20 : Shape := ⟨2, ![1, 20]⟩
abbrev S100000x20 : Shape := ⟨2, ![100000, 20]⟩
abbrev S10000x20 : Shape := ⟨2, ![10000, 20]⟩
abbrev S1000x20 : Shape := ⟨2, ![1000, 20]⟩
abbrev S100000x1 : Shape := ⟨2, ![100000, 1]⟩
abbrev S1000 : Shape := ⟨1, ![1000]⟩
abbrev S1000x1 : Shape := ⟨2, ![1000, 1]⟩
abbrev S1000x23 : Shape := ⟨2, ![1000, 23]⟩
abbrev S1000x10 : Shape := ⟨2, ![1000, 10]⟩
abbrev S1x10 : Shape := ⟨2, ![1, 10]⟩
abbrev S1x1 : Shape := ⟨2, ![1, 1]⟩

abbrev nBuf : Space → Nat
  | .hbm => 163
  | .vmem => 48
  | .smem => 0
  | _ => 0

abbrev hbmTy0_0 (i : Nat) : BufTy := match i % 128 with
  | 0 => ⟨S100000x50, .f32⟩
  | 1 => ⟨S1000x3, .f32⟩
  | 2 => ⟨S1600000, .i32⟩
  | 3 => ⟨S1600000, .i32⟩
  | 4 => ⟨S100000, .i32⟩
  | 5 => ⟨S50x100, .f32⟩
  | 6 => ⟨S100, .f32⟩
  | 7 => ⟨S100, .f32⟩
  | 8 => ⟨S100, .f32⟩
  | 9 => ⟨S100x100, .f32⟩
  | 10 => ⟨S100, .f32⟩
  | 11 => ⟨S100, .f32⟩
  | 12 => ⟨S100, .f32⟩
  | 13 => ⟨S100x20, .f32⟩
  | 14 => ⟨S20, .f32⟩
  | 15 => ⟨S20, .f32⟩
  | 16 => ⟨S20, .f32⟩
  | 17 => ⟨S20x20, .f32⟩
  | 18 => ⟨S20, .f32⟩
  | 19 => ⟨S20, .f32⟩
  | 20 => ⟨S20, .f32⟩
  | 21 => ⟨S23x10, .f32⟩
  | 22 => ⟨S10, .f32⟩
  | 23 => ⟨S10x1, .f32⟩
  | 24 => ⟨S1, .f32⟩
  | 25 => ⟨S_, .i32⟩
  | 26 => ⟨S1600000, .i32⟩
  | 27 => ⟨S1600000, .i1⟩
  | 28 => ⟨S_, .i32⟩
  | 29 => ⟨S1600000, .i32⟩
  | 30 => ⟨S1600000, .i32⟩
  | 31 => ⟨S1600000, .i32⟩
  | 32 => ⟨S1600000x1, .i32⟩
  | 33 => ⟨S1600000x50, .f32⟩
  | 34 => ⟨S_, .f32⟩
  | 35 => ⟨S100000x50, .f32⟩
  | 36 => ⟨S1600000x1, .i32⟩
  | 37 => ⟨S100000x50, .f32⟩
  | 38 => ⟨S100000x50, .f32⟩
  | 39 => ⟨S1x100, .f32⟩
  | 40 => ⟨S100000x100, .f32⟩
  | 41 => ⟨S_, .f32⟩
  | 42 => ⟨S100, .f32⟩
  | 43 => ⟨S_, .f32⟩
  | 44 => ⟨S100, .f32⟩
  | 45 => ⟨S100, .f32⟩
  | 46 => ⟨S1x100, .f32⟩
  | 47 => ⟨S100000x100, .f32⟩
  | 48 => ⟨S100000x100, .f32⟩
  | 49 => ⟨S100000x100, .f32⟩
  | 50 => ⟨S_, .f32⟩
  | 51 => ⟨S100, .f32⟩
  | 52 => ⟨S_, .f32⟩
  | 53 => ⟨S100, .f32⟩
  | 54 => ⟨S100, .f32⟩
  | 55 => ⟨S1x100, .f32⟩
  | 56 => ⟨S1x100, .f32⟩
  | 57 => ⟨S1x100, .f32⟩
  | 58 => ⟨S1x100, .f32⟩
  | 59 => ⟨S1x100, .f32⟩
  | 60 => ⟨S100000x100, .f32⟩
  | 61 => ⟨S_, .f32⟩
  | 62 => ⟨S100, .f32⟩
  | 63 => ⟨S_, .f32⟩
  | 64 => ⟨S100, .f32⟩
  | 65 => ⟨S100, .f32⟩
  | 66 => ⟨S1x100, .f32⟩
  | 67 => ⟨S100000x100, .f32⟩
  | 68 => ⟨S100000x100, .f32⟩
  | 69 => ⟨S100000x100, .f32⟩
  | 70 => ⟨S_, .f32⟩
  | 71 => ⟨S100, .f32⟩
  | 72 => ⟨S_, .f32⟩
  | 73 => ⟨S100, .f32⟩
  | 74 => ⟨S100, .f32⟩
  | 75 => ⟨S1x100, .f32⟩
  | 76 => ⟨S1x100, .f32⟩
  | 77 => ⟨S1x100, .f32⟩
  | 78 => ⟨S1x100, .f32⟩
  | 79 => ⟨S100000x100, .f32⟩
  | 80 => ⟨S_, .i32⟩
  | 81 => ⟨S1600000, .i32⟩
  | 82 => ⟨S1600000, .i1⟩
  | 83 => ⟨S_, .i32⟩
  | 84 => ⟨S1600000, .i32⟩
  | 85 => ⟨S1600000, .i32⟩
  | 86 => ⟨S1600000, .i32⟩
  | 87 => ⟨S1600000x1, .i32⟩
  | 88 => ⟨S1600000x100, .f32⟩
  | 89 => ⟨S_, .f32⟩
  | 90 => ⟨S100000x100, .f32⟩
  | 91 => ⟨S1600000x1, .i32⟩
  | 92 => ⟨S100000x100, .f32⟩
  | 93 => ⟨S100000x100, .f32⟩
  | 94 => ⟨S1x20, .f32⟩
  | 95 => ⟨S100000x20, .f32⟩
  | 96 => ⟨S_, .f32⟩
  | 97 => ⟨S20, .f32⟩
  | 98 => ⟨S_, .f32⟩
  | 99 => ⟨S20, .f32⟩
  | 100 => ⟨S20, .f32⟩
  | 101 => ⟨S1x20, .f32⟩
  | 102 => ⟨S100000x20, .f32⟩
  | 103 => ⟨S100000x20, .f32⟩
  | 104 => ⟨S100000x20, .f32⟩
  | 105 => ⟨S_, .f32⟩
  | 106 => ⟨S20, .f32⟩
  | 107 => ⟨S_, .f32⟩
  | 108 => ⟨S20, .f32⟩
  | 109 => ⟨S20, .f32⟩
  | 110 => ⟨S1x20, .f32⟩
  | 111 => ⟨S1x20, .f32⟩
  | 112 => ⟨S1x20, .f32⟩
  | 113 => ⟨S1x20, .f32⟩
  | 114 => ⟨S1x20, .f32⟩
  | 115 => ⟨S100000x20, .f32⟩
  | 116 => ⟨S_, .f32⟩
  | 117 => ⟨S20, .f32⟩
  | 118 => ⟨S_, .f32⟩
  | 119 => ⟨S20, .f32⟩
  | 120 => ⟨S20, .f32⟩
  | 121 => ⟨S1x20, .f32⟩
  | 122 => ⟨S100000x20, .f32⟩
  | 123 => ⟨S100000x20, .f32⟩
  | 124 => ⟨S100000x20, .f32⟩
  | 125 => ⟨S_, .f32⟩
  | 126 => ⟨S20, .f32⟩
  | 127 => ⟨S_, .f32⟩
  | _ => ⟨S100000x50, .f32⟩

abbrev hbmTy0_1 (i : Nat) : BufTy := match i % 128 with
  | 0 => ⟨S20, .f32⟩
  | 1 => ⟨S20, .f32⟩
  | 2 => ⟨S1x20, .f32⟩
  | 3 => ⟨S1x20, .f32⟩
  | 4 => ⟨S1x20, .f32⟩
  | 5 => ⟨S1x20, .f32⟩
  | 6 => ⟨S100000x20, .f32⟩
  | 7 => ⟨S_, .f32⟩
  | 8 => ⟨S1000x20, .f32⟩
  | 9 => ⟨S100000x1, .i32⟩
  | 10 => ⟨S1000x20, .f32⟩
  | 11 => ⟨S_, .f32⟩
  | 12 => ⟨S100000, .f32⟩
  | 13 => ⟨S_, .f32⟩
  | 14 => ⟨S1000, .f32⟩
  | 15 => ⟨S100000x1, .i32⟩
  | 16 => ⟨S1000, .f32⟩
  | 17 => ⟨S_, .f32⟩
  | 18 => ⟨S1000, .f32⟩
  | 19 => ⟨S1000, .f32⟩
  | 20 => ⟨S1000x1, .f32⟩
  | 21 => ⟨S1000x20, .f32⟩
  | 22 => ⟨S1000x20, .f32⟩
  | 23 => ⟨S1000x23, .f32⟩
  | 24 => ⟨S1000x10, .f32⟩
  | 25 => ⟨S1x10, .f32⟩
  | 26 => ⟨S1000x10, .f32⟩
  | 27 => ⟨S1000x10, .f32⟩
  | 28 => ⟨S_, .f32⟩
  | 29 => ⟨S1000x10, .f32⟩
  | 30 => ⟨S1000x10, .f32⟩
  | 31 => ⟨S1000x1, .f32⟩
  | 32 => ⟨S1x1, .f32⟩
  | 33 => ⟨S1000x1, .f32⟩
  | 34 => ⟨S1000x1, .f32⟩
  | _ => ⟨S100000x50, .f32⟩

abbrev hbmTy (i : Nat) : BufTy := match i / 128 with
  | 0 => hbmTy0_0 i
  | 1 => hbmTy0_1 i
  | _ => ⟨S100000x50, .f32⟩

abbrev bufTy : (tb : Table) → Fin (tcTables nBuf tb) → BufTy
  | .hbm, ⟨i, _⟩ => hbmTy i
  | .local _ .vmem, ⟨0, _⟩ => ⟨S10000x50, .f32⟩
  | .local _ .vmem, ⟨1, _⟩ => ⟨S10000x50, .f32⟩
  | .local _ .vmem, ⟨2, _⟩ => ⟨S50x100, .f32⟩
  | .local _ .vmem, ⟨3, _⟩ => ⟨S1x100, .f32⟩
  | .local _ .vmem, ⟨4, _⟩ => ⟨S10000x100, .f32⟩
  | .local _ .vmem, ⟨5, _⟩ => ⟨S10000x100, .f32⟩
  | .local _ .vmem, ⟨6, _⟩ => ⟨S10000x100, .f32⟩
  | .local _ .vmem, ⟨7, _⟩ => ⟨S10000x100, .f32⟩
  | .local _ .vmem, ⟨8, _⟩ => ⟨S1x100, .f32⟩
  | .local _ .vmem, ⟨9, _⟩ => ⟨S1x100, .f32⟩
  | .local _ .vmem, ⟨10, _⟩ => ⟨S1x100, .f32⟩
  | .local _ .vmem, ⟨11, _⟩ => ⟨S1x100, .f32⟩
  | .local _ .vmem, ⟨12, _⟩ => ⟨S100x100, .f32⟩
  | .local _ .vmem, ⟨13, _⟩ => ⟨S1x100, .f32⟩
  | .local _ .vmem, ⟨14, _⟩ => ⟨S10000x100, .f32⟩
  | .local _ .vmem, ⟨15, _⟩ => ⟨S10000x100, .f32⟩
  | .local _ .vmem, ⟨16, _⟩ => ⟨S10000x100, .f32⟩
  | .local _ .vmem, ⟨17, _⟩ => ⟨S10000x100, .f32⟩
  | .local _ .vmem, ⟨18, _⟩ => ⟨S1x100, .f32⟩
  | .local _ .vmem, ⟨19, _⟩ => ⟨S1x100, .f32⟩
  | .local _ .vmem, ⟨20, _⟩ => ⟨S1x100, .f32⟩
  | .local _ .vmem, ⟨21, _⟩ => ⟨S1x100, .f32⟩
  | .local _ .vmem, ⟨22, _⟩ => ⟨S10000x100, .f32⟩
  | .local _ .vmem, ⟨23, _⟩ => ⟨S10000x100, .f32⟩
  | .local _ .vmem, ⟨24, _⟩ => ⟨S10000x100, .f32⟩
  | .local _ .vmem, ⟨25, _⟩ => ⟨S10000x100, .f32⟩
  | .local _ .vmem, ⟨26, _⟩ => ⟨S100x20, .f32⟩
  | .local _ .vmem, ⟨27, _⟩ => ⟨S1x20, .f32⟩
  | .local _ .vmem, ⟨28, _⟩ => ⟨S10000x20, .f32⟩
  | .local _ .vmem, ⟨29, _⟩ => ⟨S10000x20, .f32⟩
  | .local _ .vmem, ⟨30, _⟩ => ⟨S10000x20, .f32⟩
  | .local _ .vmem, ⟨31, _⟩ => ⟨S10000x20, .f32⟩
  | .local _ .vmem, ⟨32, _⟩ => ⟨S1x20, .f32⟩
  | .local _ .vmem, ⟨33, _⟩ => ⟨S1x20, .f32⟩
  | .local _ .vmem, ⟨34, _⟩ => ⟨S1x20, .f32⟩
  | .local _ .vmem, ⟨35, _⟩ => ⟨S1x20, .f32⟩
  | .local _ .vmem, ⟨36, _⟩ => ⟨S20x20, .f32⟩
  | .local _ .vmem, ⟨37, _⟩ => ⟨S1x20, .f32⟩
  | .local _ .vmem, ⟨38, _⟩ => ⟨S10000x20, .f32⟩
  | .local _ .vmem, ⟨39, _⟩ => ⟨S10000x20, .f32⟩
  | .local _ .vmem, ⟨40, _⟩ => ⟨S10000x20, .f32⟩
  | .local _ .vmem, ⟨41, _⟩ => ⟨S10000x20, .f32⟩
  | .local _ .vmem, ⟨42, _⟩ => ⟨S1x20, .f32⟩
  | .local _ .vmem, ⟨43, _⟩ => ⟨S1x20, .f32⟩
  | .local _ .vmem, ⟨44, _⟩ => ⟨S1x20, .f32⟩
  | .local _ .vmem, ⟨45, _⟩ => ⟨S1x20, .f32⟩
  | .local _ .vmem, ⟨46, _⟩ => ⟨S10000x20, .f32⟩
  | .local _ .vmem, ⟨47, _⟩ => ⟨S10000x20, .f32⟩
  | _, _ => ⟨S100000x50, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_c : Ref sig .tc := ⟨.hbm, 25, rfl⟩
abbrev main_v0 : Ref sig .tc := ⟨.hbm, 26, rfl⟩
abbrev main_v1 : Ref sig .tc := ⟨.hbm, 27, rfl⟩
abbrev main_c_0 : Ref sig .tc := ⟨.hbm, 28, rfl⟩
abbrev main_v2 : Ref sig .tc := ⟨.hbm, 29, rfl⟩
abbrev main_v3 : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_cst : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_cst_1 : Ref sig .tc := ⟨.hbm, 41, rfl⟩
abbrev main_v13 : Ref sig .tc := ⟨.hbm, 42, rfl⟩
abbrev main_cst_2 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_cst_3 : Ref sig .tc := ⟨.hbm, 50, rfl⟩
abbrev main_v20 : Ref sig .tc := ⟨.hbm, 51, rfl⟩
abbrev main_cst_4 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_cst_5 : Ref sig .tc := ⟨.hbm, 61, rfl⟩
abbrev main_v29 : Ref sig .tc := ⟨.hbm, 62, rfl⟩
abbrev main_cst_6 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_cst_7 : Ref sig .tc := ⟨.hbm, 70, rfl⟩
abbrev main_v36 : Ref sig .tc := ⟨.hbm, 71, rfl⟩
abbrev main_cst_8 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_c_9 : Ref sig .tc := ⟨.hbm, 80, rfl⟩
abbrev main_v44 : Ref sig .tc := ⟨.hbm, 81, rfl⟩
abbrev main_v45 : Ref sig .tc := ⟨.hbm, 82, rfl⟩
abbrev main_c_10 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_cst_11 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_cst_12 : Ref sig .tc := ⟨.hbm, 96, rfl⟩
abbrev main_v57 : Ref sig .tc := ⟨.hbm, 97, rfl⟩
abbrev main_cst_13 : Ref sig .tc := ⟨.hbm, 98, rfl⟩
abbrev main_v58 : Ref sig .tc := ⟨.hbm, 99, rfl⟩
abbrev main_v59 : Ref sig .tc := ⟨.hbm, 100, rfl⟩
abbrev main_v60 : Ref sig .tc := ⟨.hbm, 101, rfl⟩
abbrev main_v61 : Ref sig .tc := ⟨.hbm, 102, rfl⟩
abbrev main_v62 : Ref sig .tc := ⟨.hbm, 103, rfl⟩
abbrev main_v63 : Ref sig .tc := ⟨.hbm, 104, rfl⟩
abbrev main_cst_14 : Ref sig .tc := ⟨.hbm, 105, rfl⟩
abbrev main_v64 : Ref sig .tc := ⟨.hbm, 106, rfl⟩
abbrev main_cst_15 : Ref sig .tc := ⟨.hbm, 107, rfl⟩
abbrev main_v65 : Ref sig .tc := ⟨.hbm, 108, rfl⟩
abbrev main_v66 : Ref sig .tc := ⟨.hbm, 109, rfl⟩
abbrev main_v67 : Ref sig .tc := ⟨.hbm, 110, rfl⟩
abbrev main_v68 : Ref sig .tc := ⟨.hbm, 111, rfl⟩
abbrev main_v69 : Ref sig .tc := ⟨.hbm, 112, rfl⟩
abbrev main_v70 : Ref sig .tc := ⟨.hbm, 113, rfl⟩
abbrev main_v71 : Ref sig .tc := ⟨.hbm, 114, rfl⟩
abbrev main_v72 : Ref sig .tc := ⟨.hbm, 115, rfl⟩
abbrev main_cst_16 : Ref sig .tc := ⟨.hbm, 116, rfl⟩
abbrev main_v73 : Ref sig .tc := ⟨.hbm, 117, rfl⟩
abbrev main_cst_17 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_v77 : Ref sig .tc := ⟨.hbm, 122, rfl⟩
abbrev main_v78 : Ref sig .tc := ⟨.hbm, 123, rfl⟩
abbrev main_v79 : Ref sig .tc := ⟨.hbm, 124, rfl⟩
abbrev main_cst_18 : Ref sig .tc := ⟨.hbm, 125, rfl⟩
abbrev main_v80 : Ref sig .tc := ⟨.hbm, 126, rfl⟩
abbrev main_cst_19 : Ref sig .tc := ⟨.hbm, 127, rfl⟩
abbrev main_v81 : Ref sig .tc := ⟨.hbm, 128, rfl⟩
abbrev main_v82 : Ref sig .tc := ⟨.hbm, 129, rfl⟩
abbrev main_v83 : Ref sig .tc := ⟨.hbm, 130, rfl⟩
abbrev main_v84 : Ref sig .tc := ⟨.hbm, 131, rfl⟩
abbrev main_v85 : Ref sig .tc := ⟨.hbm, 132, rfl⟩
abbrev main_v86 : Ref sig .tc := ⟨.hbm, 133, rfl⟩
abbrev main_v87 : Ref sig .tc := ⟨.hbm, 134, rfl⟩
abbrev main_cst_20 : Ref sig .tc := ⟨.hbm, 135, rfl⟩
abbrev main_v88 : Ref sig .tc := ⟨.hbm, 136, rfl⟩
abbrev main_v89 : Ref sig .tc := ⟨.hbm, 137, rfl⟩
abbrev main_v90 : Ref sig .tc := ⟨.hbm, 138, rfl⟩
abbrev main_cst_21 : Ref sig .tc := ⟨.hbm, 139, rfl⟩
abbrev main_v91 : Ref sig .tc := ⟨.hbm, 140, rfl⟩
abbrev main_cst_22 : Ref sig .tc := ⟨.hbm, 141, rfl⟩
abbrev main_v92 : Ref sig .tc := ⟨.hbm, 142, rfl⟩
abbrev main_v93 : Ref sig .tc := ⟨.hbm, 143, rfl⟩
abbrev main_v94 : Ref sig .tc := ⟨.hbm, 144, rfl⟩
abbrev main_cst_23 : Ref sig .tc := ⟨.hbm, 145, rfl⟩
abbrev main_v95 : Ref sig .tc := ⟨.hbm, 146, rfl⟩
abbrev main_v96 : Ref sig .tc := ⟨.hbm, 147, rfl⟩
abbrev main_v97 : Ref sig .tc := ⟨.hbm, 148, rfl⟩
abbrev main_v98 : Ref sig .tc := ⟨.hbm, 149, rfl⟩
abbrev main_v99 : Ref sig .tc := ⟨.hbm, 150, rfl⟩
abbrev main_v100 : Ref sig .tc := ⟨.hbm, 151, rfl⟩
abbrev main_v101 : Ref sig .tc := ⟨.hbm, 152, rfl⟩
abbrev main_v102 : Ref sig .tc := ⟨.hbm, 153, rfl⟩
abbrev main_v103 : Ref sig .tc := ⟨.hbm, 154, rfl⟩
abbrev main_v104 : Ref sig .tc := ⟨.hbm, 155, rfl⟩
abbrev main_call0_cst : Ref sig .tc := ⟨.hbm, 156, rfl⟩
abbrev main_call0_v0 : Ref sig .tc := ⟨.hbm, 157, rfl⟩
abbrev main_v105 : Ref sig .tc := ⟨.hbm, 158, rfl⟩
abbrev main_v106 : Ref sig .tc := ⟨.hbm, 159, rfl⟩
abbrev main_v107 : Ref sig .tc := ⟨.hbm, 160, rfl⟩
abbrev main_v108 : Ref sig .tc := ⟨.hbm, 161, rfl⟩
abbrev main_v109 : Ref sig .tc := ⟨.hbm, 162, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg6_0 : Ref sig .tc := ⟨.vmem, 13, rfl⟩
abbrev cc1_stg7_0 : Ref sig .tc := ⟨.vmem, 14, rfl⟩
abbrev cc1_stg7_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg5_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg2_0 : Ref sig .tc := ⟨.vmem, 27, rfl⟩
abbrev cc3_stg3_0 : Ref sig .tc := ⟨.vmem, 28, rfl⟩
abbrev cc3_stg3_1 : Ref sig .tc := ⟨.vmem, 29, rfl⟩
abbrev cc4_stg0_0 : Ref sig .tc := ⟨.vmem, 30, rfl⟩
abbrev cc4_stg0_1 : Ref sig .tc := ⟨.vmem, 31, rfl⟩
abbrev cc4_stg1_0 : Ref sig .tc := ⟨.vmem, 32, rfl⟩
abbrev cc4_stg2_0 : Ref sig .tc := ⟨.vmem, 33, rfl⟩
abbrev cc4_stg3_0 : Ref sig .tc := ⟨.vmem, 34, rfl⟩
abbrev cc4_stg4_0 : Ref sig .tc := ⟨.vmem, 35, rfl⟩
abbrev cc4_stg5_0 : Ref sig .tc := ⟨.vmem, 36, rfl⟩
abbrev cc4_stg6_0 : Ref sig .tc := ⟨.vmem, 37, rfl⟩
abbrev cc4_stg7_0 : Ref sig .tc := ⟨.vmem, 38, rfl⟩
abbrev cc4_stg7_1 : Ref sig .tc := ⟨.vmem, 39, rfl⟩
abbrev cc5_stg0_0 : Ref sig .tc := ⟨.vmem, 40, rfl⟩
abbrev cc5_stg0_1 : Ref sig .tc := ⟨.vmem, 41, rfl⟩
abbrev cc5_stg1_0 : Ref sig .tc := ⟨.vmem, 42, rfl⟩
abbrev cc5_stg2_0 : Ref sig .tc := ⟨.vmem, 43, rfl⟩
abbrev cc5_stg3_0 : Ref sig .tc := ⟨.vmem, 44, rfl⟩
abbrev cc5_stg4_0 : Ref sig .tc := ⟨.vmem, 45, rfl⟩
abbrev cc5_stg5_0 : Ref sig .tc := ⟨.vmem, 46, rfl⟩
abbrev cc5_stg5_1 : Ref sig .tc := ⟨.vmem, 47, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem6_0 : DmaSem sig := 13
abbrev cc1_sem7_0 : DmaSem sig := 14
abbrev cc1_sem7_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem3_0 : DmaSem sig := 20
abbrev cc2_sem4_0 : DmaSem sig := 21
abbrev cc2_sem5_0 : DmaSem sig := 22
abbrev cc2_sem5_1 : DmaSem sig := 23
abbrev cc3_sem0_0 : DmaSem sig := 24
abbrev cc3_sem0_1 : DmaSem sig := 25
abbrev cc3_sem1_0 : DmaSem sig := 26
abbrev cc3_sem2_0 : DmaSem sig := 27
abbrev cc3_sem3_0 : DmaSem sig := 28
abbrev cc3_sem3_1 : DmaSem sig := 29
abbrev cc4_sem0_0 : DmaSem sig := 30
abbrev cc4_sem0_1 : DmaSem sig := 31
abbrev cc4_sem1_0 : DmaSem sig := 32
abbrev cc4_sem2_0 : DmaSem sig := 33
abbrev cc4_sem3_0 : DmaSem sig := 34
abbrev cc4_sem4_0 : DmaSem sig := 35
abbrev cc4_sem5_0 : DmaSem sig := 36
abbrev cc4_sem6_0 : DmaSem sig := 37
abbrev cc4_sem7_0 : DmaSem sig := 38
abbrev cc4_sem7_1 : DmaSem sig := 39
abbrev cc5_sem0_0 : DmaSem sig := 40
abbrev cc5_sem0_1 : DmaSem sig := 41
abbrev cc5_sem1_0 : DmaSem sig := 42
abbrev cc5_sem2_0 : DmaSem sig := 43
abbrev cc5_sem3_0 : DmaSem sig := 44
abbrev cc5_sem4_0 : DmaSem sig := 45
abbrev cc5_sem5_0 : DmaSem sig := 46
abbrev cc5_sem5_1 : DmaSem sig := 47

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x50 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S50x100 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x100 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x100 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x100 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x100 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x100 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x100 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x100 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S100x100 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x100 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S10000x100 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x100 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x100 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x100 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x100 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x100 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S10000x100 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x100 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S100x20 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x20 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S10000x20 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x20 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x20 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x20 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x20 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x20 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S20x20 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x20 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 2 → Memref sig .tc .vmem S10000x20 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x20 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x20 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x20 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x20 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x20 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S10000x20 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x50 : S_.BroadcastsInDim S100000x50 (![] : Fin 0 → Fin S100000x50.rank)
  shapeCasts_S100_S1x100 : S100.ShapeCasts S1x100
  inb_S10000x50_S10000x50_0_0 : ∀ a, (![0, 0] : Fin 2 → Nat) a + S10000x50.size a ≤ S10000x50.size a
  h_S10000x50 : 0 < S10000x50.numel
  shapeCasts_S10000x50_S10000x50 : S10000x50.ShapeCasts S10000x50
  bitsLt_bf16_f32 : FTy.bits .bf16 < FTy.bits .f32
  inb_S50x100_S50x100_0_0 : ∀ a, (![0, 0] : Fin 2 → Nat) a + S50x100.size a ≤ S50x100.size a
  h_S50x100 : 0 < S50x100.numel
  inb_S1x100_S1x100_0_0 : ∀ a, (![0, 0] : Fin 2 → Nat) a + S1x100.size a ≤ S1x100.size a
  h_S1x100 : 0 < S1x100.numel
  shapeCasts_S1x100_S1x100 : S1x100.ShapeCasts S1x100
  broadcasts_S1x100_S10000x100 : S1x100.Broadcasts S10000x100
  inb_S10000x100_S10000x100_0_0 : ∀ a, (![0, 0] : Fin 2 → Nat) a + S10000x100.size a ≤ S10000x100.size a
  h_S10000x100 : 0 < S10000x100.numel
  reducesTo_S100000x100_S100_d0 : S100000x100.ReducesTo [0] S100
  h_S_ : 0 < S_.numel
  bcast_S_S100 : S_.BroadcastsInDim S100 (![] : Fin 0 → Fin S100.rank)
  bcast_S100_S1x100_1 : S100.BroadcastsInDim S1x100 (![1] : Fin 1 → Fin S1x100.rank)
  bcast_S1x100_S100000x100_0_1 : S1x100.BroadcastsInDim S100000x100 (![0, 1] : Fin 2 → Fin S100000x100.rank)
  shapeCasts_S10000x100_S10000x100 : S10000x100.ShapeCasts S10000x100
  inb_S100x100_S100x100_0_0 : ∀ a, (![0, 0] : Fin 2 → Nat) a + S100x100.size a ≤ S100x100.size a
  h_S100x100 : 0 < S100x100.numel
  bcast_S_S100000x100 : S_.BroadcastsInDim S100000x100 (![] : Fin 0 → Fin S100000x100.rank)
  shapeCasts_S20_S1x20 : S20.ShapeCasts S1x20
  inb_S100x20_S100x20_0_0 : ∀ a, (![0, 0] : Fin 2 → Nat) a + S100x20.size a ≤ S100x20.size a
  h_S100x20 : 0 < S100x20.numel
  inb_S1x20_S1x20_0_0 : ∀ a, (![0, 0] : Fin 2 → Nat) a + S1x20.size a ≤ S1x20.size a
  h_S1x20 : 0 < S1x20.numel
  shapeCasts_S1x20_S1x20 : S1x20.ShapeCasts S1x20
  broadcasts_S1x20_S10000x20 : S1x20.Broadcasts S10000x20
  inb_S10000x20_S10000x20_0_0 : ∀ a, (![0, 0] : Fin 2 → Nat) a + S10000x20.size a ≤ S10000x20.size a
  h_S10000x20 : 0 < S10000x20.numel
  reducesTo_S100000x20_S20_d0 : S100000x20.ReducesTo [0] S20
  bcast_S_S20 : S_.BroadcastsInDim S20 (![] : Fin 0 → Fin S20.rank)
  bcast_S20_S1x20_1 : S20.BroadcastsInDim S1x20 (![1] : Fin 1 → Fin S1x20.rank)
  bcast_S1x20_S100000x20_0_1 : S1x20.BroadcastsInDim S100000x20 (![0, 1] : Fin 2 → Fin S100000x20.rank)
  shapeCasts_S10000x20_S10000x20 : S10000x20.ShapeCasts S10000x20
  inb_S20x20_S20x20_0_0 : ∀ a, (![0, 0] : Fin 2 → Nat) a + S20x20.size a ≤ S20x20.size a
  h_S20x20 : 0 < S20x20.numel
  bcast_S_S1000x20 : S_.BroadcastsInDim S1000x20 (![] : Fin 0 → Fin S1000x20.rank)
  bcast_S100000_S100000x1_0 : S100000.BroadcastsInDim S100000x1 (![0] : Fin 1 → Fin S100000x1.rank)
  bcast_S_S100000 : S_.BroadcastsInDim S100000 (![] : Fin 0 → Fin S100000.rank)
  bcast_S_S1000 : S_.BroadcastsInDim S1000 (![] : Fin 0 → Fin S1000.rank)
  bcast_S1000_S1000x1_0 : S1000.BroadcastsInDim S1000x1 (![0] : Fin 1 → Fin S1000x1.rank)
  bcast_S1000x1_S1000x20_0_1 : S1000x1.BroadcastsInDim S1000x20 (![0, 1] : Fin 2 → Fin S1000x20.rank)
  concatenates_S1000x20_S1000x3_S1000x23_d1 : Shape.Concatenates [S1000x20, S1000x3] S1000x23 1
  bcast_S10_S1x10_1 : S10.BroadcastsInDim S1x10 (![1] : Fin 1 → Fin S1x10.rank)
  bcast_S1x10_S1000x10_0_1 : S1x10.BroadcastsInDim S1000x10 (![0, 1] : Fin 2 → Fin S1000x10.rank)
  bcast_S_S1000x10 : S_.BroadcastsInDim S1000x10 (![] : Fin 0 → Fin S1000x10.rank)
  bcast_S1_S1x1_1 : S1.BroadcastsInDim S1x1 (![1] : Fin 1 → Fin S1x1.rank)
  bcast_S1x1_S1000x1_0_1 : S1x1.BroadcastsInDim S1000x1 (![0, 1] : Fin 2 → Fin S1000x1.rank)
  gather_S100000x50_S1600000x1_S1600000x50_1_0_n_n_0_1_150_wf : GatherDims.WF S100000x50 S1600000x1 S1600000x50 [1] [0] [] [0] [] 1 ![1, 50]
  scatter_S100000x50_S1600000x1_S1600000x50_1_0_0_1_wf : ScatterDims.WF S100000x50 S1600000x1 S1600000x50 [1] [0] [0] 1
  dot_S10000x50_S50x100_S10000x100_1_0_0_1_n_n_wf : DotDims.WF S10000x50 S50x100 S10000x100 [1] [0] [0] [1] [] []
  dot_S10000x100_S100x100_S10000x100_1_0_0_1_n_n_wf : DotDims.WF S10000x100 S100x100 S10000x100 [1] [0] [0] [1] [] []
  gather_S100000x100_S1600000x1_S1600000x100_1_0_n_n_0_1_1100_wf : GatherDims.WF S100000x100 S1600000x1 S1600000x100 [1] [0] [] [0] [] 1 ![1, 100]
  scatter_S100000x100_S1600000x1_S1600000x100_1_0_0_1_wf : ScatterDims.WF S100000x100 S1600000x1 S1600000x100 [1] [0] [0] 1
  dot_S10000x100_S100x20_S10000x20_1_0_0_1_n_n_wf : DotDims.WF S10000x100 S100x20 S10000x20 [1] [0] [0] [1] [] []
  dot_S10000x20_S20x20_S10000x20_1_0_0_1_n_n_wf : DotDims.WF S10000x20 S20x20 S10000x20 [1] [0] [0] [1] [] []
  scatter_S1000x20_S100000x1_S100000x20_1_0_0_1_wf : ScatterDims.WF S1000x20 S100000x1 S100000x20 [1] [0] [0] 1
  scatter_S1000_S100000x1_S100000_n_0_0_1_wf : ScatterDims.WF S1000 S100000x1 S100000 [] [0] [0] 1
  dot_S1000x23_S23x10_S1000x10_1_0_0_1_n_n_wf : DotDims.WF S1000x23 S23x10 S1000x10 [1] [0] [0] [1] [] []
  dot_S1000x10_S10x1_S1000x1_1_0_0_1_n_n_wf : DotDims.WF S1000x10 S10x1 S1000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x50.size a ≤ S100000x50.size a
  hwx0_0 : ∀ i : grid0.Coords, EltTy.bits .f32 = 32 ∨ (Rect.block (s := S100000x50) S10000x50.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S50x100.size a ≤ S50x100.size a
  hwx0_1 : ∀ i : grid0.Coords, EltTy.bits .f32 = 32 ∨ (Rect.block (s := S50x100) S50x100.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x100.size a ≤ S1x100.size a
  hwx0_2 : ∀ i : grid0.Coords, EltTy.bits .f32 = 32 ∨ (Rect.block (s := S1x100) S1x100.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x100.size a ≤ S100000x100.size a
  hwx0_3 : ∀ i : grid0.Coords, EltTy.bits .f32 = 32 ∨ (Rect.block (s := S100000x100) S10000x100.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x100.size a ≤ S100000x100.size a
  hwx1_0 : ∀ i : grid1.Coords, EltTy.bits .f32 = 32 ∨ (Rect.block (s := S100000x100) S10000x100.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x100.size a ≤ S1x100.size a
  hwx1_1 : ∀ i : grid1.Coords, EltTy.bits .f32 = 32 ∨ (Rect.block (s := S1x100) S1x100.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x100.size a ≤ S1x100.size a
  hwx1_2 : ∀ i : grid1.Coords, EltTy.bits .f32 = 32 ∨ (Rect.block (s := S1x100) S1x100.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x100.size a ≤ S1x100.size a
  hwx1_3 : ∀ i : grid1.Coords, EltTy.bits .f32 = 32 ∨ (Rect.block (s := S1x100) S1x100.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x100.size a ≤ S1x100.size a
  hwx1_4 : ∀ i : grid1.Coords, EltTy.bits .f32 = 32 ∨ (Rect.block (s := S1x100) S1x100.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S100x100.size a ≤ S100x100.size a
  hwx1_5 : ∀ i : grid1.Coords, EltTy.bits .f32 = 32 ∨ (Rect.block (s := S100x100) S100x100.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x100.size a ≤ S1x100.size a
  hwx1_6 : ∀ i : grid1.Coords, EltTy.bits .f32 = 32 ∨ (Rect.block (s := S1x100) S1x100.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S10000x100.size a ≤ S100000x100.size a
  hwx1_7 : ∀ i : grid1.Coords, EltTy.bits .f32 = 32 ∨ (Rect.block (s := S100000x100) S10000x100.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x100.size a ≤ S100000x100.size a
  hwx2_0 : ∀ i : grid2.Coords, EltTy.bits .f32 = 32 ∨ (Rect.block (s := S100000x100) S10000x100.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x100.size a ≤ S1x100.size a
  hwx2_1 : ∀ i : grid2.Coords, EltTy.bits .f32 = 32 ∨ (Rect.block (s := S1x100) S1x100.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x100.size a ≤ S1x100.size a
  hwx2_2 : ∀ i : grid2.Coords, EltTy.bits .f32 = 32 ∨ (Rect.block (s := S1x100) S1x100.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x100.size a ≤ S1x100.size a
  hwx2_3 : ∀ i : grid2.Coords, EltTy.bits .f32 = 32 ∨ (Rect.block (s := S1x100) S1x100.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x100.size a ≤ S1x100.size a
  hwx2_4 : ∀ i : grid2.Coords, EltTy.bits .f32 = 32 ∨ (Rect.block (s := S1x100) S1x100.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S10000x100.size a ≤ S100000x100.size a
  hwx2_5 : ∀ i : grid2.Coords, EltTy.bits .f32 = 32 ∨ (Rect.block (s := S100000x100) S10000x100.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x100.size a ≤ S100000x100.size a
  hwx3_0 : ∀ i : grid3.Coords, EltTy.bits .f32 = 32 ∨ (Rect.block (s := S100000x100) S10000x100.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S100x20.size a ≤ S100x20.size a
  hwx3_1 : ∀ i : grid3.Coords, EltTy.bits .f32 = 32 ∨ (Rect.block (s := S100x20) S100x20.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x20.size a ≤ S1x20.size a
  hwx3_2 : ∀ i : grid3.Coords, EltTy.bits .f32 = 32 ∨ (Rect.block (s := S1x20) S1x20.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S10000x20.size a ≤ S100000x20.size a
  hwx3_3 : ∀ i : grid3.Coords, EltTy.bits .f32 = 32 ∨ (Rect.block (s := S100000x20) S10000x20.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x20.size a ≤ S100000x20.size a
  hwx4_0 : ∀ i : grid4.Coords, EltTy.bits .f32 = 32 ∨ (Rect.block (s := S100000x20) S10000x20.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x20.size a ≤ S1x20.size a
  hwx4_1 : ∀ i : grid4.Coords, EltTy.bits .f32 = 32 ∨ (Rect.block (s := S1x20) S1x20.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x20.size a ≤ S1x20.size a
  hwx4_2 : ∀ i : grid4.Coords, EltTy.bits .f32 = 32 ∨ (Rect.block (s := S1x20) S1x20.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x20.size a ≤ S1x20.size a
  hwx4_3 : ∀ i : grid4.Coords, EltTy.bits .f32 = 32 ∨ (Rect.block (s := S1x20) S1x20.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x20.size a ≤ S1x20.size a
  hwx4_4 : ∀ i : grid4.Coords, EltTy.bits .f32 = 32 ∨ (Rect.block (s := S1x20) S1x20.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S20x20.size a ≤ S20x20.size a
  hwx4_5 : ∀ i : grid4.Coords, EltTy.bits .f32 = 32 ∨ (Rect.block (s := S20x20) S20x20.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x20.size a ≤ S1x20.size a
  hwx4_6 : ∀ i : grid4.Coords, EltTy.bits .f32 = 32 ∨ (Rect.block (s := S1x20) S1x20.size (cc4_transform_6 i) (hinb4_6 i)).WholeWords (EltTy.packing .f32)
  hstage4_7 : ∀ j, (stage4_7 j).IsWhole
  nbuf4_7 : grid4.bufCount reads4_7 false = 2
  hreads4_7 : ∀ i i' : grid4.Coords, (∀ a, reads4_7 a = true → i a = i' a) → cc4_transform_7 i = cc4_transform_7 i'
  hinb4_7 : ∀ (i : grid4.Coords) a, (cc4_transform_7 i a + 1) * S10000x20.size a ≤ S100000x20.size a
  hwx4_7 : ∀ i : grid4.Coords, EltTy.bits .f32 = 32 ∨ (Rect.block (s := S100000x20) S10000x20.size (cc4_transform_7 i) (hinb4_7 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x20.size a ≤ S100000x20.size a
  hwx5_0 : ∀ i : grid5.Coords, EltTy.bits .f32 = 32 ∨ (Rect.block (s := S100000x20) S10000x20.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x20.size a ≤ S1x20.size a
  hwx5_1 : ∀ i : grid5.Coords, EltTy.bits .f32 = 32 ∨ (Rect.block (s := S1x20) S1x20.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x20.size a ≤ S1x20.size a
  hwx5_2 : ∀ i : grid5.Coords, EltTy.bits .f32 = 32 ∨ (Rect.block (s := S1x20) S1x20.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x20.size a ≤ S1x20.size a
  hwx5_3 : ∀ i : grid5.Coords, EltTy.bits .f32 = 32 ∨ (Rect.block (s := S1x20) S1x20.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x20.size a ≤ S1x20.size a
  hwx5_4 : ∀ i : grid5.Coords, EltTy.bits .f32 = 32 ∨ (Rect.block (s := S1x20) S1x20.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S10000x20.size a ≤ S100000x20.size a
  hwx5_5 : ∀ i : grid5.Coords, EltTy.bits .f32 = 32 ∨ (Rect.block (s := S100000x20) S10000x20.size (cc5_transform_5 i) (hinb5_5 i)).WholeWords (EltTy.packing .f32)

variable [Facts₀]

def gather_S100000x50_S1600000x1_S1600000x50_1_0_n_n_0_1_150 : GatherDims S100000x50 S1600000x1 S1600000x50 where
  offsetDims := [1]
  collapsedSliceDims := [0]
  operandBatchingDims := []
  startIndicesBatchingDims := []
  startIndexMap := [0]
  indexVectorDim := 1
  sliceSizes := ![1, 50]
  wf := gather_S100000x50_S1600000x1_S1600000x50_1_0_n_n_0_1_150_wf
def scatter_S100000x50_S1600000x1_S1600000x50_1_0_0_1 : ScatterDims S100000x50 S1600000x1 S1600000x50 where
  updateWindowDims := [1]
  insertedWindowDims := [0]
  scatterDimsToOperandDims := [0]
  indexVectorDim := 1
  wf := scatter_S100000x50_S1600000x1_S1600000x50_1_0_0_1_wf
def dot_S10000x50_S50x100_S10000x100_1_0_0_1_n_n : DotDims S10000x50 S50x100 S10000x100 where
  lhsContracting := [1]
  rhsContracting := [0]
  lhsNonContracting := [0]
  rhsNonContracting := [1]
  lhsBatch := []
  rhsBatch := []
  wf := dot_S10000x50_S50x100_S10000x100_1_0_0_1_n_n_wf
def dot_S10000x100_S100x100_S10000x100_1_0_0_1_n_n : DotDims S10000x100 S100x100 S10000x100 where
  lhsContracting := [1]
  rhsContracting := [0]
  lhsNonContracting := [0]
  rhsNonContracting := [1]
  lhsBatch := []
  rhsBatch := []
  wf := dot_S10000x100_S100x100_S10000x100_1_0_0_1_n_n_wf
def gather_S100000x100_S1600000x1_S1600000x100_1_0_n_n_0_1_1100 : GatherDims S100000x100 S1600000x1 S1600000x100 where
  offsetDims := [1]
  collapsedSliceDims := [0]
  operandBatchingDims := []
  startIndicesBatchingDims := []
  startIndexMap := [0]
  indexVectorDim := 1
  sliceSizes := ![1, 100]
  wf := gather_S100000x100_S1600000x1_S1600000x100_1_0_n_n_0_1_1100_wf
def scatter_S100000x100_S1600000x1_S1600000x100_1_0_0_1 : ScatterDims S100000x100 S1600000x1 S1600000x100 where
  updateWindowDims := [1]
  insertedWindowDims := [0]
  scatterDimsToOperandDims := [0]
  indexVectorDim := 1
  wf := scatter_S100000x100_S1600000x1_S1600000x100_1_0_0_1_wf
def dot_S10000x100_S100x20_S10000x20_1_0_0_1_n_n : DotDims S10000x100 S100x20 S10000x20 where
  lhsContracting := [1]
  rhsContracting := [0]
  lhsNonContracting := [0]
  rhsNonContracting := [1]
  lhsBatch := []
  rhsBatch := []
  wf := dot_S10000x100_S100x20_S10000x20_1_0_0_1_n_n_wf
def dot_S10000x20_S20x20_S10000x20_1_0_0_1_n_n : DotDims S10000x20 S20x20 S10000x20 where
  lhsContracting := [1]
  rhsContracting := [0]
  lhsNonContracting := [0]
  rhsNonContracting := [1]
  lhsBatch := []
  rhsBatch := []
  wf := dot_S10000x20_S20x20_S10000x20_1_0_0_1_n_n_wf
def scatter_S1000x20_S100000x1_S100000x20_1_0_0_1 : ScatterDims S1000x20 S100000x1 S100000x20 where
  updateWindowDims := [1]
  insertedWindowDims := [0]
  scatterDimsToOperandDims := [0]
  indexVectorDim := 1
  wf := scatter_S1000x20_S100000x1_S100000x20_1_0_0_1_wf
def scatter_S1000_S100000x1_S100000_n_0_0_1 : ScatterDims S1000 S100000x1 S100000 where
  updateWindowDims := []
  insertedWindowDims := [0]
  scatterDimsToOperandDims := [0]
  indexVectorDim := 1
  wf := scatter_S1000_S100000x1_S100000_n_0_0_1_wf
def dot_S1000x23_S23x10_S1000x10_1_0_0_1_n_n : DotDims S1000x23 S23x10 S1000x10 where
  lhsContracting := [1]
  rhsContracting := [0]
  lhsNonContracting := [0]
  rhsNonContracting := [1]
  lhsBatch := []
  rhsBatch := []
  wf := dot_S1000x23_S23x10_S1000x10_1_0_0_1_n_n_wf
def dot_S1000x10_S10x1_S1000x1_1_0_0_1_n_n : DotDims S1000x10 S10x1 S1000x1 where
  lhsContracting := [1]
  rhsContracting := [0]
  lhsNonContracting := [0]
  rhsNonContracting := [1]
  lhsBatch := []
  rhsBatch := []
  wf := dot_S1000x10_S10x1_S1000x1_1_0_0_1_n_n_wf

abbrev win0_0 : Pipeline.Window sig grid0 :=
  Pipeline.Window.ofSpec (Memref.whole main_v10) S10000x50.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg5) S50x100.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S1x100.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v12) S10000x100.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v12) S10000x100.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v23) S1x100.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v24) S1x100.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v25) S1x100.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v26) S1x100.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg9) S100x100.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v27) S1x100.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v28) S10000x100.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v28) S10000x100.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v39) S1x100.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v40) S1x100.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v41) S1x100.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v42) S1x100.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v43) S10000x100.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v54) S10000x100.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg13) S100x20.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v55) S1x20.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v56) S10000x20.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v56) S10000x20.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v67) S1x20.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v68) S1x20.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v69) S1x20.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v70) S1x20.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_arg17) S20x20.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v71) S1x20.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v72) S10000x20.size cc4_transform_7 reads4_7 true false 2 stage4_7 sem4_7
    hrank4 hreads4_7 hinb4_7 nbuf4_7 (Memref.isWhole_whole _) hwx4_7 hstage4_7

abbrev win4 : Fin 8 → Pipeline.Window sig grid4 := fun | 0 => win4_0 | 1 => win4_1 | 2 => win4_2 | 3 => win4_3 | 4 => win4_4 | 5 => win4_5 | 6 => win4_6 | 7 => win4_7 | ⟨_ + 8, h⟩ => absurd h (Nat.not_lt.2 (Nat.le_add_left _ _))
abbrev spec4 : Fin 8 → Pipeline.WinSpec sig grid4.rank := fun w => (win4 w).toWinSpec

abbrev win5_0 : Pipeline.Window sig grid5 :=
  Pipeline.Window.ofSpec (Memref.whole main_v72) S10000x20.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v83) S1x20.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v84) S1x20.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v85) S1x20.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v86) S1x20.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v87) S10000x20.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

class Facts : Prop extends Facts₀ where

variable [Facts]
-- ==== ReferenceIdeal.lean ====
abbrev S100000x50 : Shape := ⟨2, ![100000, 50]⟩
abbrev S1000x3 : Shape := ⟨2, ![1000, 3]⟩
abbrev S1600000 : Shape := ⟨1, ![1600000]⟩
abbrev S100000 : Shape := ⟨1, ![100000]⟩
abbrev S50x100 : Shape := ⟨2, ![50, 100]⟩
abbrev S100 : Shape := ⟨1, ![100]⟩
abbrev S100x100 : Shape := ⟨2, ![100, 100]⟩
abbrev S100x20 : Shape := ⟨2, ![100, 20]⟩
abbrev S20 : Shape := ⟨1, ![20]⟩
abbrev S20x20 : Shape := ⟨2, ![20, 20]⟩
abbrev S23x10 : Shape := ⟨2, ![23, 10]⟩
abbrev S10 : Shape := ⟨1, ![10]⟩
abbrev S10x1 : Shape := ⟨2, ![10, 1]⟩
abbrev S1 : Shape := ⟨1, ![1]⟩
abbrev S_ : Shape := ⟨0, ![]⟩
abbrev S1600000x1 : Shape := ⟨2, ![1600000, 1]⟩
abbrev S1600000x50 : Shape := ⟨2, ![1600000, 50]⟩
abbrev S100000x100 : Shape := ⟨2, ![100000, 100]⟩
abbrev S1x100 : Shape := ⟨2, ![1, 100]⟩
abbrev S1600000x100 : Shape := ⟨2, ![1600000, 100]⟩
abbrev S100000x20 : Shape := ⟨2, ![100000, 20]⟩
abbrev S1x20 : Shape := ⟨2, ![1, 20]⟩
abbrev S1000x20 : Shape := ⟨2, ![1000, 20]⟩
abbrev S100000x1 : Shape := ⟨2, ![100000, 1]⟩
abbrev S1000 : Shape := ⟨1, ![1000]⟩
abbrev S1000x1 : Shape := ⟨2, ![1000, 1]⟩
abbrev S1000x23 : Shape := ⟨2, ![1000, 23]⟩
abbrev S1000x10 : Shape := ⟨2, ![1000, 10]⟩
abbrev S1x10 : Shape := ⟨2, ![1, 10]⟩
abbrev S1x1 : Shape := ⟨2, ![1, 1]⟩

abbrev nBuf : Space → Nat
  | .hbm => 229
  | .vmem => 0
  | .smem => 0
  | _ => 0

abbrev hbmTy0_0 (i : Nat) : BufTy := match i % 128 with
  | 0 => ⟨S100000x50, .f32⟩
  | 1 => ⟨S1000x3, .f32⟩
  | 2 => ⟨S1600000, .i32⟩
  | 3 => ⟨S1600000, .i32⟩
  | 4 => ⟨S100000, .i32⟩
  | 5 => ⟨S50x100, .f32⟩
  | 6 => ⟨S100, .f32⟩
  | 7 => ⟨S100, .f32⟩
  | 8 => ⟨S100, .f32⟩
  | 9 => ⟨S100x100, .f32⟩
  | 10 => ⟨S100, .f32⟩
  | 11 => ⟨S100, .f32⟩
  | 12 => ⟨S100, .f32⟩
  | 13 => ⟨S100x20, .f32⟩
  | 14 => ⟨S20, .f32⟩
  | 15 => ⟨S20, .f32⟩
  | 16 => ⟨S20, .f32⟩
  | 17 => ⟨S20x20, .f32⟩
  | 18 => ⟨S20, .f32⟩
  | 19 => ⟨S20, .f32⟩
  | 20 => ⟨S20, .f32⟩
  | 21 => ⟨S23x10, .f32⟩
  | 22 => ⟨S10, .f32⟩
  | 23 => ⟨S10x1, .f32⟩
  | 24 => ⟨S1, .f32⟩
  | 25 => ⟨S_, .i32⟩
  | 26 => ⟨S1600000, .i32⟩
  | 27 => ⟨S1600000, .i1⟩
  | 28 => ⟨S_, .i32⟩
  | 29 => ⟨S1600000, .i32⟩
  | 30 => ⟨S1600000, .i32⟩
  | 31 => ⟨S1600000, .i32⟩
  | 32 => ⟨S1600000x1, .i32⟩
  | 33 => ⟨S1600000x50, .f32⟩
  | 34 => ⟨S_, .f32⟩
  | 35 => ⟨S100000x50, .f32⟩
  | 36 => ⟨S1600000x1, .i32⟩
  | 37 => ⟨S100000x50, .f32⟩
  | 38 => ⟨S100000x50, .f32⟩
  | 39 => ⟨S100000x100, .f32⟩
  | 40 => ⟨S1x100, .f32⟩
  | 41 => ⟨S100000x100, .f32⟩
  | 42 => ⟨S100000x100, .f32⟩
  | 43 => ⟨S_, .f32⟩
  | 44 => ⟨S100, .f32⟩
  | 45 => ⟨S_, .f32⟩
  | 46 => ⟨S100, .f32⟩
  | 47 => ⟨S100, .f32⟩
  | 48 => ⟨S1x100, .f32⟩
  | 49 => ⟨S100000x100, .f32⟩
  | 50 => ⟨S100000x100, .f32⟩
  | 51 => ⟨S100000x100, .f32⟩
  | 52 => ⟨S_, .f32⟩
  | 53 => ⟨S100, .f32⟩
  | 54 => ⟨S_, .f32⟩
  | 55 => ⟨S100, .f32⟩
  | 56 => ⟨S100, .f32⟩
  | 57 => ⟨S1x100, .f32⟩
  | 58 => ⟨S100000x100, .f32⟩
  | 59 => ⟨S100000x100, .f32⟩
  | 60 => ⟨S_, .f32⟩
  | 61 => ⟨S100, .f32⟩
  | 62 => ⟨S100, .f32⟩
  | 63 => ⟨S100, .f32⟩
  | 64 => ⟨S1x100, .f32⟩
  | 65 => ⟨S100000x100, .f32⟩
  | 66 => ⟨S100000x100, .f32⟩
  | 67 => ⟨S1x100, .f32⟩
  | 68 => ⟨S100000x100, .f32⟩
  | 69 => ⟨S100000x100, .f32⟩
  | 70 => ⟨S1x100, .f32⟩
  | 71 => ⟨S100000x100, .f32⟩
  | 72 => ⟨S100000x100, .f32⟩
  | 73 => ⟨S_, .f32⟩
  | 74 => ⟨S100000x100, .f32⟩
  | 75 => ⟨S100000x100, .f32⟩
  | 76 => ⟨S100000x100, .f32⟩
  | 77 => ⟨S1x100, .f32⟩
  | 78 => ⟨S100000x100, .f32⟩
  | 79 => ⟨S100000x100, .f32⟩
  | 80 => ⟨S_, .f32⟩
  | 81 => ⟨S100, .f32⟩
  | 82 => ⟨S_, .f32⟩
  | 83 => ⟨S100, .f32⟩
  | 84 => ⟨S100, .f32⟩
  | 85 => ⟨S1x100, .f32⟩
  | 86 => ⟨S100000x100, .f32⟩
  | 87 => ⟨S100000x100, .f32⟩
  | 88 => ⟨S100000x100, .f32⟩
  | 89 => ⟨S_, .f32⟩
  | 90 => ⟨S100, .f32⟩
  | 91 => ⟨S_, .f32⟩
  | 92 => ⟨S100, .f32⟩
  | 93 => ⟨S100, .f32⟩
  | 94 => ⟨S1x100, .f32⟩
  | 95 => ⟨S100000x100, .f32⟩
  | 96 => ⟨S100000x100, .f32⟩
  | 97 => ⟨S_, .f32⟩
  | 98 => ⟨S100, .f32⟩
  | 99 => ⟨S100, .f32⟩
  | 100 => ⟨S100, .f32⟩
  | 101 => ⟨S1x100, .f32⟩
  | 102 => ⟨S100000x100, .f32⟩
  | 103 => ⟨S100000x100, .f32⟩
  | 104 => ⟨S1x100, .f32⟩
  | 105 => ⟨S100000x100, .f32⟩
  | 106 => ⟨S100000x100, .f32⟩
  | 107 => ⟨S1x100, .f32⟩
  | 108 => ⟨S100000x100, .f32⟩
  | 109 => ⟨S100000x100, .f32⟩
  | 110 => ⟨S_, .f32⟩
  | 111 => ⟨S100000x100, .f32⟩
  | 112 => ⟨S100000x100, .f32⟩
  | 113 => ⟨S_, .i32⟩
  | 114 => ⟨S1600000, .i32⟩
  | 115 => ⟨S1600000, .i1⟩
  | 116 => ⟨S_, .i32⟩
  | 117 => ⟨S1600000, .i32⟩
  | 118 => ⟨S1600000, .i32⟩
  | 119 => ⟨S1600000, .i32⟩
  | 120 => ⟨S1600000x1, .i32⟩
  | 121 => ⟨S1600000x100, .f32⟩
  | 122 => ⟨S_, .f32⟩
  | 123 => ⟨S100000x100, .f32⟩
  | 124 => ⟨S1600000x1, .i32⟩
  | 125 => ⟨S100000x100, .f32⟩
  | 126 => ⟨S100000x100, .f32⟩
  | 127 => ⟨S100000x20, .f32⟩
  | _ => ⟨S100000x50, .f32⟩

abbrev hbmTy0_1 (i : Nat) : BufTy := match i % 128 with
  | 0 => ⟨S1x20, .f32⟩
  | 1 => ⟨S100000x20, .f32⟩
  | 2 => ⟨S100000x20, .f32⟩
  | 3 => ⟨S_, .f32⟩
  | 4 => ⟨S20, .f32⟩
  | 5 => ⟨S_, .f32⟩
  | 6 => ⟨S20, .f32⟩
  | 7 => ⟨S20, .f32⟩
  | 8 => ⟨S1x20, .f32⟩
  | 9 => ⟨S100000x20, .f32⟩
  | 10 => ⟨S100000x20, .f32⟩
  | 11 => ⟨S100000x20, .f32⟩
  | 12 => ⟨S_, .f32⟩
  | 13 => ⟨S20, .f32⟩
  | 14 => ⟨S_, .f32⟩
  | 15 => ⟨S20, .f32⟩
  | 16 => ⟨S20, .f32⟩
  | 17 => ⟨S1x20, .f32⟩
  | 18 => ⟨S100000x20, .f32⟩
  | 19 => ⟨S100000x20, .f32⟩
  | 20 => ⟨S_, .f32⟩
  | 21 => ⟨S20, .f32⟩
  | 22 => ⟨S20, .f32⟩
  | 23 => ⟨S20, .f32⟩
  | 24 => ⟨S1x20, .f32⟩
  | 25 => ⟨S100000x20, .f32⟩
  | 26 => ⟨S100000x20, .f32⟩
  | 27 => ⟨S1x20, .f32⟩
  | 28 => ⟨S100000x20, .f32⟩
  | 29 => ⟨S100000x20, .f32⟩
  | 30 => ⟨S1x20, .f32⟩
  | 31 => ⟨S100000x20, .f32⟩
  | 32 => ⟨S100000x20, .f32⟩
  | 33 => ⟨S_, .f32⟩
  | 34 => ⟨S100000x20, .f32⟩
  | 35 => ⟨S100000x20, .f32⟩
  | 36 => ⟨S100000x20, .f32⟩
  | 37 => ⟨S1x20, .f32⟩
  | 38 => ⟨S100000x20, .f32⟩
  | 39 => ⟨S100000x20, .f32⟩
  | 40 => ⟨S_, .f32⟩
  | 41 => ⟨S20, .f32⟩
  | 42 => ⟨S_, .f32⟩
  | 43 => ⟨S20, .f32⟩
  | 44 => ⟨S20, .f32⟩
  | 45 => ⟨S1x20, .f32⟩
  | 46 => ⟨S100000x20, .f32⟩
  | 47 => ⟨S100000x20, .f32⟩
  | 48 => ⟨S100000x20, .f32⟩
  | 49 => ⟨S_, .f32⟩
  | 50 => ⟨S20, .f32⟩
  | 51 => ⟨S_, .f32⟩
  | 52 => ⟨S20, .f32⟩
  | 53 => ⟨S20, .f32⟩
  | 54 => ⟨S1x20, .f32⟩
  | 55 => ⟨S100000x20, .f32⟩
  | 56 => ⟨S100000x20, .f32⟩
  | 57 => ⟨S_, .f32⟩
  | 58 => ⟨S20, .f32⟩
  | 59 => ⟨S20, .f32⟩
  | 60 => ⟨S20, .f32⟩
  | 61 => ⟨S1x20, .f32⟩
  | 62 => ⟨S100000x20, .f32⟩
  | 63 => ⟨S100000x20, .f32⟩
  | 64 => ⟨S1x20, .f32⟩
  | 65 => ⟨S100000x20, .f32⟩
  | 66 => ⟨S100000x20, .f32⟩
  | 67 => ⟨S1x20, .f32⟩
  | 68 => ⟨S100000x20, .f32⟩
  | 69 => ⟨S100000x20, .f32⟩
  | 70 => ⟨S_, .f32⟩
  | 71 => ⟨S100000x20, .f32⟩
  | 72 => ⟨S100000x20, .f32⟩
  | 73 => ⟨S_, .f32⟩
  | 74 => ⟨S1000x20, .f32⟩
  | 75 => ⟨S100000x1, .i32⟩
  | 76 => ⟨S1000x20, .f32⟩
  | 77 => ⟨S_, .f32⟩
  | 78 => ⟨S100000, .f32⟩
  | 79 => ⟨S_, .f32⟩
  | 80 => ⟨S1000, .f32⟩
  | 81 => ⟨S100000x1, .i32⟩
  | 82 => ⟨S1000, .f32⟩
  | 83 => ⟨S_, .f32⟩
  | 84 => ⟨S1000, .f32⟩
  | 85 => ⟨S1000, .f32⟩
  | 86 => ⟨S1000x1, .f32⟩
  | 87 => ⟨S1000x20, .f32⟩
  | 88 => ⟨S1000x20, .f32⟩
  | 89 => ⟨S1000x23, .f32⟩
  | 90 => ⟨S1000x10, .f32⟩
  | 91 => ⟨S1x10, .f32⟩
  | 92 => ⟨S1000x10, .f32⟩
  | 93 => ⟨S1000x10, .f32⟩
  | 94 => ⟨S_, .f32⟩
  | 95 => ⟨S1000x10, .f32⟩
  | 96 => ⟨S1000x10, .f32⟩
  | 97 => ⟨S1000x1, .f32⟩
  | 98 => ⟨S1x1, .f32⟩
  | 99 => ⟨S1000x1, .f32⟩
  | 100 => ⟨S1000x1, .f32⟩
  | _ => ⟨S100000x50, .f32⟩

abbrev hbmTy (i : Nat) : BufTy := match i / 128 with
  | 0 => hbmTy0_0 i
  | 1 => hbmTy0_1 i
  | _ => ⟨S100000x50, .f32⟩

abbrev bufTy : (tb : Table) → Fin (tcTables nBuf tb) → BufTy
  | .hbm, ⟨i, _⟩ => hbmTy i
  | _, _ => ⟨S100000x50, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_c : Ref sig .tc := ⟨.hbm, 25, rfl⟩
abbrev main_v0 : Ref sig .tc := ⟨.hbm, 26, rfl⟩
abbrev main_v1 : Ref sig .tc := ⟨.hbm, 27, rfl⟩
abbrev main_c_0 : Ref sig .tc := ⟨.hbm, 28, rfl⟩
abbrev main_v2 : Ref sig .tc := ⟨.hbm, 29, rfl⟩
abbrev main_v3 : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_cst : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_cst_1 : Ref sig .tc := ⟨.hbm, 43, rfl⟩
abbrev main_v15 : Ref sig .tc := ⟨.hbm, 44, rfl⟩
abbrev main_cst_2 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_cst_3 : Ref sig .tc := ⟨.hbm, 52, rfl⟩
abbrev main_v22 : Ref sig .tc := ⟨.hbm, 53, rfl⟩
abbrev main_cst_4 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_cst_5 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_call0_cst : Ref sig .tc := ⟨.hbm, 73, rfl⟩
abbrev main_call0_v0 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_cst_6 : Ref sig .tc := ⟨.hbm, 80, rfl⟩
abbrev main_v45 : Ref sig .tc := ⟨.hbm, 81, rfl⟩
abbrev main_cst_7 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_cst_8 : Ref sig .tc := ⟨.hbm, 89, rfl⟩
abbrev main_v52 : Ref sig .tc := ⟨.hbm, 90, rfl⟩
abbrev main_cst_9 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_cst_10 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_call1_cst : Ref sig .tc := ⟨.hbm, 110, rfl⟩
abbrev main_call1_v0 : Ref sig .tc := ⟨.hbm, 111, rfl⟩
abbrev main_v70 : Ref sig .tc := ⟨.hbm, 112, rfl⟩
abbrev main_c_11 : Ref sig .tc := ⟨.hbm, 113, rfl⟩
abbrev main_v71 : Ref sig .tc := ⟨.hbm, 114, rfl⟩
abbrev main_v72 : Ref sig .tc := ⟨.hbm, 115, rfl⟩
abbrev main_c_12 : Ref sig .tc := ⟨.hbm, 116, rfl⟩
abbrev main_v73 : Ref sig .tc := ⟨.hbm, 117, rfl⟩
abbrev main_v74 : Ref sig .tc := ⟨.hbm, 118, rfl⟩
abbrev main_v75 : Ref sig .tc := ⟨.hbm, 119, rfl⟩
abbrev main_v76 : Ref sig .tc := ⟨.hbm, 120, rfl⟩
abbrev main_v77 : Ref sig .tc := ⟨.hbm, 121, rfl⟩
abbrev main_cst_13 : Ref sig .tc := ⟨.hbm, 122, rfl⟩
abbrev main_v78 : Ref sig .tc := ⟨.hbm, 123, rfl⟩
abbrev main_v79 : Ref sig .tc := ⟨.hbm, 124, rfl⟩
abbrev main_v80 : Ref sig .tc := ⟨.hbm, 125, rfl⟩
abbrev main_v81 : Ref sig .tc := ⟨.hbm, 126, rfl⟩
abbrev main_v82 : Ref sig .tc := ⟨.hbm, 127, rfl⟩
abbrev main_v83 : Ref sig .tc := ⟨.hbm, 128, rfl⟩
abbrev main_v84 : Ref sig .tc := ⟨.hbm, 129, rfl⟩
abbrev main_v85 : Ref sig .tc := ⟨.hbm, 130, rfl⟩
abbrev main_cst_14 : Ref sig .tc := ⟨.hbm, 131, rfl⟩
abbrev main_v86 : Ref sig .tc := ⟨.hbm, 132, rfl⟩
abbrev main_cst_15 : Ref sig .tc := ⟨.hbm, 133, rfl⟩
abbrev main_v87 : Ref sig .tc := ⟨.hbm, 134, rfl⟩
abbrev main_v88 : Ref sig .tc := ⟨.hbm, 135, rfl⟩
abbrev main_v89 : Ref sig .tc := ⟨.hbm, 136, rfl⟩
abbrev main_v90 : Ref sig .tc := ⟨.hbm, 137, rfl⟩
abbrev main_v91 : Ref sig .tc := ⟨.hbm, 138, rfl⟩
abbrev main_v92 : Ref sig .tc := ⟨.hbm, 139, rfl⟩
abbrev main_cst_16 : Ref sig .tc := ⟨.hbm, 140, rfl⟩
abbrev main_v93 : Ref sig .tc := ⟨.hbm, 141, rfl⟩
abbrev main_cst_17 : Ref sig .tc := ⟨.hbm, 142, rfl⟩
abbrev main_v94 : Ref sig .tc := ⟨.hbm, 143, rfl⟩
abbrev main_v95 : Ref sig .tc := ⟨.hbm, 144, rfl⟩
abbrev main_v96 : Ref sig .tc := ⟨.hbm, 145, rfl⟩
abbrev main_v97 : Ref sig .tc := ⟨.hbm, 146, rfl⟩
abbrev main_v98 : Ref sig .tc := ⟨.hbm, 147, rfl⟩
abbrev main_cst_18 : Ref sig .tc := ⟨.hbm, 148, rfl⟩
abbrev main_v99 : Ref sig .tc := ⟨.hbm, 149, rfl⟩
abbrev main_v100 : Ref sig .tc := ⟨.hbm, 150, rfl⟩
abbrev main_v101 : Ref sig .tc := ⟨.hbm, 151, rfl⟩
abbrev main_v102 : Ref sig .tc := ⟨.hbm, 152, rfl⟩
abbrev main_v103 : Ref sig .tc := ⟨.hbm, 153, rfl⟩
abbrev main_v104 : Ref sig .tc := ⟨.hbm, 154, rfl⟩
abbrev main_v105 : Ref sig .tc := ⟨.hbm, 155, rfl⟩
abbrev main_v106 : Ref sig .tc := ⟨.hbm, 156, rfl⟩
abbrev main_v107 : Ref sig .tc := ⟨.hbm, 157, rfl⟩
abbrev main_v108 : Ref sig .tc := ⟨.hbm, 158, rfl⟩
abbrev main_v109 : Ref sig .tc := ⟨.hbm, 159, rfl⟩
abbrev main_v110 : Ref sig .tc := ⟨.hbm, 160, rfl⟩
abbrev main_call2_cst : Ref sig .tc := ⟨.hbm, 161, rfl⟩
abbrev main_call2_v0 : Ref sig .tc := ⟨.hbm, 162, rfl⟩
abbrev main_v111 : Ref sig .tc := ⟨.hbm, 163, rfl⟩
abbrev main_v112 : Ref sig .tc := ⟨.hbm, 164, rfl⟩
abbrev main_v113 : Ref sig .tc := ⟨.hbm, 165, rfl⟩
abbrev main_v114 : Ref sig .tc := ⟨.hbm, 166, rfl⟩
abbrev main_v115 : Ref sig .tc := ⟨.hbm, 167, rfl⟩
abbrev main_cst_19 : Ref sig .tc := ⟨.hbm, 168, rfl⟩
abbrev main_v116 : Ref sig .tc := ⟨.hbm, 169, rfl⟩
abbrev main_cst_20 : Ref sig .tc := ⟨.hbm, 170, rfl⟩
abbrev main_v117 : Ref sig .tc := ⟨.hbm, 171, rfl⟩
abbrev main_v118 : Ref sig .tc := ⟨.hbm, 172, rfl⟩
abbrev main_v119 : Ref sig .tc := ⟨.hbm, 173, rfl⟩
abbrev main_v120 : Ref sig .tc := ⟨.hbm, 174, rfl⟩
abbrev main_v121 : Ref sig .tc := ⟨.hbm, 175, rfl⟩
abbrev main_v122 : Ref sig .tc := ⟨.hbm, 176, rfl⟩
abbrev main_cst_21 : Ref sig .tc := ⟨.hbm, 177, rfl⟩
abbrev main_v123 : Ref sig .tc := ⟨.hbm, 178, rfl⟩
abbrev main_cst_22 : Ref sig .tc := ⟨.hbm, 179, rfl⟩
abbrev main_v124 : Ref sig .tc := ⟨.hbm, 180, rfl⟩
abbrev main_v125 : Ref sig .tc := ⟨.hbm, 181, rfl⟩
abbrev main_v126 : Ref sig .tc := ⟨.hbm, 182, rfl⟩
abbrev main_v127 : Ref sig .tc := ⟨.hbm, 183, rfl⟩
abbrev main_v128 : Ref sig .tc := ⟨.hbm, 184, rfl⟩
abbrev main_cst_23 : Ref sig .tc := ⟨.hbm, 185, rfl⟩
abbrev main_v129 : Ref sig .tc := ⟨.hbm, 186, rfl⟩
abbrev main_v130 : Ref sig .tc := ⟨.hbm, 187, rfl⟩
abbrev main_v131 : Ref sig .tc := ⟨.hbm, 188, rfl⟩
abbrev main_v132 : Ref sig .tc := ⟨.hbm, 189, rfl⟩
abbrev main_v133 : Ref sig .tc := ⟨.hbm, 190, rfl⟩
abbrev main_v134 : Ref sig .tc := ⟨.hbm, 191, rfl⟩
abbrev main_v135 : Ref sig .tc := ⟨.hbm, 192, rfl⟩
abbrev main_v136 : Ref sig .tc := ⟨.hbm, 193, rfl⟩
abbrev main_v137 : Ref sig .tc := ⟨.hbm, 194, rfl⟩
abbrev main_v138 : Ref sig .tc := ⟨.hbm, 195, rfl⟩
abbrev main_v139 : Ref sig .tc := ⟨.hbm, 196, rfl⟩
abbrev main_v140 : Ref sig .tc := ⟨.hbm, 197, rfl⟩
abbrev main_call3_cst : Ref sig .tc := ⟨.hbm, 198, rfl⟩
abbrev main_call3_v0 : Ref sig .tc := ⟨.hbm, 199, rfl⟩
abbrev main_v141 : Ref sig .tc := ⟨.hbm, 200, rfl⟩
abbrev main_cst_24 : Ref sig .tc := ⟨.hbm, 201, rfl⟩
abbrev main_v142 : Ref sig .tc := ⟨.hbm, 202, rfl⟩
abbrev main_v143 : Ref sig .tc := ⟨.hbm, 203, rfl⟩
abbrev main_v144 : Ref sig .tc := ⟨.hbm, 204, rfl⟩
abbrev main_cst_25 : Ref sig .tc := ⟨.hbm, 205, rfl⟩
abbrev main_v145 : Ref sig .tc := ⟨.hbm, 206, rfl⟩
abbrev main_cst_26 : Ref sig .tc := ⟨.hbm, 207, rfl⟩
abbrev main_v146 : Ref sig .tc := ⟨.hbm, 208, rfl⟩
abbrev main_v147 : Ref sig .tc := ⟨.hbm, 209, rfl⟩
abbrev main_v148 : Ref sig .tc := ⟨.hbm, 210, rfl⟩
abbrev main_cst_27 : Ref sig .tc := ⟨.hbm, 211, rfl⟩
abbrev main_v149 : Ref sig .tc := ⟨.hbm, 212, rfl⟩
abbrev main_v150 : Ref sig .tc := ⟨.hbm, 213, rfl⟩
abbrev main_v151 : Ref sig .tc := ⟨.hbm, 214, rfl⟩
abbrev main_v152 : Ref sig .tc := ⟨.hbm, 215, rfl⟩
abbrev main_v153 : Ref sig .tc := ⟨.hbm, 216, rfl⟩
abbrev main_v154 : Ref sig .tc := ⟨.hbm, 217, rfl⟩
abbrev main_v155 : Ref sig .tc := ⟨.hbm, 218, rfl⟩
abbrev main_v156 : Ref sig .tc := ⟨.hbm, 219, rfl⟩
abbrev main_v157 : Ref sig .tc := ⟨.hbm, 220, rfl⟩
abbrev main_v158 : Ref sig .tc := ⟨.hbm, 221, rfl⟩
abbrev main_call4_cst : Ref sig .tc := ⟨.hbm, 222, rfl⟩
abbrev main_call4_v0 : Ref sig .tc := ⟨.hbm, 223, rfl⟩
abbrev main_v159 : Ref sig .tc := ⟨.hbm, 224, rfl⟩
abbrev main_v160 : Ref sig .tc := ⟨.hbm, 225, rfl⟩
abbrev main_v161 : Ref sig .tc := ⟨.hbm, 226, rfl⟩
abbrev main_v162 : Ref sig .tc := ⟨.hbm, 227, rfl⟩
abbrev main_v163 : Ref sig .tc := ⟨.hbm, 228, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x50 : S_.BroadcastsInDim S100000x50 (![] : Fin 0 → Fin S100000x50.rank)
  bcast_S100_S1x100_1 : S100.BroadcastsInDim S1x100 (![1] : Fin 1 → Fin S1x100.rank)
  bcast_S1x100_S100000x100_0_1 : S1x100.BroadcastsInDim S100000x100 (![0, 1] : Fin 2 → Fin S100000x100.rank)
  reducesTo_S100000x100_S100_d0 : S100000x100.ReducesTo [0] S100
  h_S_ : 0 < S_.numel
  bcast_S_S100 : S_.BroadcastsInDim S100 (![] : Fin 0 → Fin S100.rank)
  bcast_S_S100000x100 : S_.BroadcastsInDim S100000x100 (![] : Fin 0 → Fin S100000x100.rank)
  bcast_S20_S1x20_1 : S20.BroadcastsInDim S1x20 (![1] : Fin 1 → Fin S1x20.rank)
  bcast_S1x20_S100000x20_0_1 : S1x20.BroadcastsInDim S100000x20 (![0, 1] : Fin 2 → Fin S100000x20.rank)
  reducesTo_S100000x20_S20_d0 : S100000x20.ReducesTo [0] S20
  bcast_S_S20 : S_.BroadcastsInDim S20 (![] : Fin 0 → Fin S20.rank)
  bcast_S_S100000x20 : S_.BroadcastsInDim S100000x20 (![] : Fin 0 → Fin S100000x20.rank)
  bcast_S_S1000x20 : S_.BroadcastsInDim S1000x20 (![] : Fin 0 → Fin S1000x20.rank)
  bcast_S100000_S100000x1_0 : S100000.BroadcastsInDim S100000x1 (![0] : Fin 1 → Fin S100000x1.rank)
  bcast_S_S100000 : S_.BroadcastsInDim S100000 (![] : Fin 0 → Fin S100000.rank)
  bcast_S_S1000 : S_.BroadcastsInDim S1000 (![] : Fin 0 → Fin S1000.rank)
  bcast_S1000_S1000x1_0 : S1000.BroadcastsInDim S1000x1 (![0] : Fin 1 → Fin S1000x1.rank)
  bcast_S1000x1_S1000x20_0_1 : S1000x1.BroadcastsInDim S1000x20 (![0, 1] : Fin 2 → Fin S1000x20.rank)
  concatenates_S1000x20_S1000x3_S1000x23_d1 : Shape.Concatenates [S1000x20, S1000x3] S1000x23 1
  bcast_S10_S1x10_1 : S10.BroadcastsInDim S1x10 (![1] : Fin 1 → Fin S1x10.rank)
  bcast_S1x10_S1000x10_0_1 : S1x10.BroadcastsInDim S1000x10 (![0, 1] : Fin 2 → Fin S1000x10.rank)
  bcast_S_S1000x10 : S_.BroadcastsInDim S1000x10 (![] : Fin 0 → Fin S1000x10.rank)
  bcast_S1_S1x1_1 : S1.BroadcastsInDim S1x1 (![1] : Fin 1 → Fin S1x1.rank)
  bcast_S1x1_S1000x1_0_1 : S1x1.BroadcastsInDim S1000x1 (![0, 1] : Fin 2 → Fin S1000x1.rank)
  gather_S100000x50_S1600000x1_S1600000x50_1_0_n_n_0_1_150_wf : GatherDims.WF S100000x50 S1600000x1 S1600000x50 [1] [0] [] [0] [] 1 ![1, 50]
  scatter_S100000x50_S1600000x1_S1600000x50_1_0_0_1_wf : ScatterDims.WF S100000x50 S1600000x1 S1600000x50 [1] [0] [0] 1
  dot_S100000x50_S50x100_S100000x100_1_0_0_1_n_n_wf : DotDims.WF S100000x50 S50x100 S100000x100 [1] [0] [0] [1] [] []
  dot_S100000x100_S100x100_S100000x100_1_0_0_1_n_n_wf : DotDims.WF S100000x100 S100x100 S100000x100 [1] [0] [0] [1] [] []
  gather_S100000x100_S1600000x1_S1600000x100_1_0_n_n_0_1_1100_wf : GatherDims.WF S100000x100 S1600000x1 S1600000x100 [1] [0] [] [0] [] 1 ![1, 100]
  scatter_S100000x100_S1600000x1_S1600000x100_1_0_0_1_wf : ScatterDims.WF S100000x100 S1600000x1 S1600000x100 [1] [0] [0] 1
  dot_S100000x100_S100x20_S100000x20_1_0_0_1_n_n_wf : DotDims.WF S100000x100 S100x20 S100000x20 [1] [0] [0] [1] [] []
  dot_S100000x20_S20x20_S100000x20_1_0_0_1_n_n_wf : DotDims.WF S100000x20 S20x20 S100000x20 [1] [0] [0] [1] [] []
  scatter_S1000x20_S100000x1_S100000x20_1_0_0_1_wf : ScatterDims.WF S1000x20 S100000x1 S100000x20 [1] [0] [0] 1
  scatter_S1000_S100000x1_S100000_n_0_0_1_wf : ScatterDims.WF S1000 S100000x1 S100000 [] [0] [0] 1
  dot_S1000x23_S23x10_S1000x10_1_0_0_1_n_n_wf : DotDims.WF S1000x23 S23x10 S1000x10 [1] [0] [0] [1] [] []
  dot_S1000x10_S10x1_S1000x1_1_0_0_1_n_n_wf : DotDims.WF S1000x10 S10x1 S1000x1 [1] [0] [0] [1] [] []

variable [Facts₀]

def gather_S100000x50_S1600000x1_S1600000x50_1_0_n_n_0_1_150 : GatherDims S100000x50 S1600000x1 S1600000x50 where
  offsetDims := [1]
  collapsedSliceDims := [0]
  operandBatchingDims := []
  startIndicesBatchingDims := []
  startIndexMap := [0]
  indexVectorDim := 1
  sliceSizes := ![1, 50]
  wf := gather_S100000x50_S1600000x1_S1600000x50_1_0_n_n_0_1_150_wf
def scatter_S100000x50_S1600000x1_S1600000x50_1_0_0_1 : ScatterDims S100000x50 S1600000x1 S1600000x50 where
  updateWindowDims := [1]
  insertedWindowDims := [0]
  scatterDimsToOperandDims := [0]
  indexVectorDim := 1
  wf := scatter_S100000x50_S1600000x1_S1600000x50_1_0_0_1_wf
def dot_S100000x50_S50x100_S100000x100_1_0_0_1_n_n : DotDims S100000x50 S50x100 S100000x100 where
  lhsContracting := [1]
  rhsContracting := [0]
  lhsNonContracting := [0]
  rhsNonContracting := [1]
  lhsBatch := []
  rhsBatch := []
  wf := dot_S100000x50_S50x100_S100000x100_1_0_0_1_n_n_wf
def dot_S100000x100_S100x100_S100000x100_1_0_0_1_n_n : DotDims S100000x100 S100x100 S100000x100 where
  lhsContracting := [1]
  rhsContracting := [0]
  lhsNonContracting := [0]
  rhsNonContracting := [1]
  lhsBatch := []
  rhsBatch := []
  wf := dot_S100000x100_S100x100_S100000x100_1_0_0_1_n_n_wf
def gather_S100000x100_S1600000x1_S1600000x100_1_0_n_n_0_1_1100 : GatherDims S100000x100 S1600000x1 S1600000x100 where
  offsetDims := [1]
  collapsedSliceDims := [0]
  operandBatchingDims := []
  startIndicesBatchingDims := []
  startIndexMap := [0]
  indexVectorDim := 1
  sliceSizes := ![1, 100]
  wf := gather_S100000x100_S1600000x1_S1600000x100_1_0_n_n_0_1_1100_wf
def scatter_S100000x100_S1600000x1_S1600000x100_1_0_0_1 : ScatterDims S100000x100 S1600000x1 S1600000x100 where
  updateWindowDims := [1]
  insertedWindowDims := [0]
  scatterDimsToOperandDims := [0]
  indexVectorDim := 1
  wf := scatter_S100000x100_S1600000x1_S1600000x100_1_0_0_1_wf
def dot_S100000x100_S100x20_S100000x20_1_0_0_1_n_n : DotDims S100000x100 S100x20 S100000x20 where
  lhsContracting := [1]
  rhsContracting := [0]
  lhsNonContracting := [0]
  rhsNonContracting := [1]
  lhsBatch := []
  rhsBatch := []
  wf := dot_S100000x100_S100x20_S100000x20_1_0_0_1_n_n_wf
def dot_S100000x20_S20x20_S100000x20_1_0_0_1_n_n : DotDims S100000x20 S20x20 S100000x20 where
  lhsContracting := [1]
  rhsContracting := [0]
  lhsNonContracting := [0]
  rhsNonContracting := [1]
  lhsBatch := []
  rhsBatch := []
  wf := dot_S100000x20_S20x20_S100000x20_1_0_0_1_n_n_wf
def scatter_S1000x20_S100000x1_S100000x20_1_0_0_1 : ScatterDims S1000x20 S100000x1 S100000x20 where
  updateWindowDims := [1]
  insertedWindowDims := [0]
  scatterDimsToOperandDims := [0]
  indexVectorDim := 1
  wf := scatter_S1000x20_S100000x1_S100000x20_1_0_0_1_wf
def scatter_S1000_S100000x1_S100000_n_0_0_1 : ScatterDims S1000 S100000x1 S100000 where
  updateWindowDims := []
  insertedWindowDims := [0]
  scatterDimsToOperandDims := [0]
  indexVectorDim := 1
  wf := scatter_S1000_S100000x1_S100000_n_0_0_1_wf
def dot_S1000x23_S23x10_S1000x10_1_0_0_1_n_n : DotDims S1000x23 S23x10 S1000x10 where
  lhsContracting := [1]
  rhsContracting := [0]
  lhsNonContracting := [0]
  rhsNonContracting := [1]
  lhsBatch := []
  rhsBatch := []
  wf := dot_S1000x23_S23x10_S1000x10_1_0_0_1_n_n_wf
def dot_S1000x10_S10x1_S1000x1_1_0_0_1_n_n : DotDims S1000x10 S10x1 S1000x1 where
  lhsContracting := [1]
  rhsContracting := [0]
  lhsNonContracting := [0]
  rhsNonContracting := [1]
  lhsBatch := []
  rhsBatch := []
  wf := dot_S1000x10_S10x1_S1000x1_1_0_0_1_n_n_wf

class Facts : Prop extends Facts₀ where

variable [Facts]
-- ==== Proof.RefRun.lean ====
/-
  The idealized reference program's run, read stage by stage: every weakly fair execution terminates with the result
  buffer at the last stage of the arguments — the stages being the program's own operations, one definition each, every
  array that several later operations read named once instead of written out at every use — and with the arguments
  unchanged. The run itself is the library's run of the program's operation list. The list is cut after each of the
  six large intermediate arrays (the two dense layers' outputs and the four normalised layers' outputs): what the
  program's buffers hold after each piece is named, the one large array a piece hands to the next is identified with
  its stage, and so the fold of all the operations' results at the result buffer is the last stage; no operation
  writes an argument's buffer.
-/
import proofs.«112823_j61375082659915_1_alg».proof.Proof.RunP
import proofs.«112823_j61375082659915_1_alg».proof.Proof.ReadP

set_option maxRecDepth 8192

noncomputable section

namespace Cert.ReferenceIdeal.RefRun

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

/-- No operation of a piece writes the buffer: every operation's set of written buffers is a singleton of another
    reference. -/
macro "not_written " ops:ident : tactic =>
  `(tactic| (simp only [$ops:ident, List.flatten_cons, List.flatten_nil, List.append_nil, List.cons_append, List.nil_append, List.Forall, Idealize.ShloMosaic.StableHlo.nullary_writes, Idealize.ShloMosaic.StableHlo.unary_writes, Idealize.ShloMosaic.StableHlo.binary_writes, Idealize.ShloMosaic.StableHlo.ternary_writes, Idealize.ShloMosaic.StableHlo.quaternary_writes, Idealize.ShloMosaic.StableHlo.reshape_writes, Idealize.ShloMosaic.StableHlo.binaryIndexed_writes, Finset.mem_singleton] <;> (repeat' apply And.intro) <;> exact Idealize.ShloMosaic.StableHlo.devRef_ne_of_ne (by decide)))

/-- The results of the operations still standing inside an operand list, one rewrite per operation and reference. -/
macro "results_loop" : tactic =>
  `(tactic| repeat (first
      | rw [Idealize.ShloMosaic.StableHlo.nullary_result] | rw [Idealize.ShloMosaic.StableHlo.unary_result] | rw [Idealize.ShloMosaic.StableHlo.binary_result] | rw [Idealize.ShloMosaic.StableHlo.ternary_result]
      | rw [Idealize.ShloMosaic.StableHlo.reshape_result]
      | (rw [Idealize.ShloMosaic.StableHlo.nullary_result_ne]; rotate_left; decide)
      | (rw [Idealize.ShloMosaic.StableHlo.unary_result_ne]; rotate_left; decide)
      | (rw [Idealize.ShloMosaic.StableHlo.binary_result_ne]; rotate_left; decide)
      | (rw [Idealize.ShloMosaic.StableHlo.ternary_result_ne]; rotate_left; decide)
      | (rw [Idealize.ShloMosaic.StableHlo.reshape_result_ne]; rotate_left; decide)))

variable {F : FTy → Type} [FloatOps F]

/-- Operations 1 … 18 of the program, in order. -/
abbrev seg0 : List (HloOp τ sig (Elt F)) :=
  [ nullary main_c (constantI S_ 32 0#32),
    unary main_c main_v0 (broadcastInDim S1600000 ![] bcast_S_S1600000 : (⟨S_, .i32⟩ : BufTy).Contents (Elt F) → (⟨S1600000, .i32⟩ : BufTy).Contents (Elt F)),
    binary main_arg2 main_v0 main_v1 (cmpi .slt : (⟨S1600000, .i32⟩ : BufTy).Contents (Elt F) → (⟨S1600000, .i32⟩ : BufTy).Contents (Elt F) → (⟨S1600000, .i1⟩ : BufTy).Contents (Elt F)),
    nullary main_c_0 (constantI S_ 32 100000#32),
    unary main_c_0 main_v2 (broadcastInDim S1600000 ![] bcast_S_S1600000 : (⟨S_, .i32⟩ : BufTy).Contents (Elt F) → (⟨S1600000, .i32⟩ : BufTy).Contents (Elt F)),
    binary main_arg2 main_v2 main_v3 (addi : (⟨S1600000, .i32⟩ : BufTy).Contents (Elt F) → (⟨S1600000, .i32⟩ : BufTy).Contents (Elt F) → (⟨S1600000, .i32⟩ : BufTy).Contents (Elt F)),
    ternary main_v1 main_v3 main_arg2 main_v4 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v4 main_v5 (broadcastInDim S1600000x1 ![0] bcast_S1600000_S1600000x1_0 : (⟨S1600000, .i32⟩ : BufTy).Contents (Elt F) → (⟨S1600000x1, .i32⟩ : BufTy).Contents (Elt F)),
    binary main_arg0 main_v5 main_v6 ((fun x i => Host.gather gather_S100000x50_S1600000x1_S1600000x50_1_0_n_n_0_1_150 x i) : (⟨S100000x50, .f32⟩ : BufTy).Contents (Elt F) → (⟨S1600000x1, .i32⟩ : BufTy).Contents (Elt F) → (⟨S1600000x50, .f32⟩ : BufTy).Contents (Elt F)),
    nullary main_cst (constant S_ .f32 0x00000000#32),
    unary main_cst main_v7 (broadcastInDim S100000x50 ![] bcast_S_S100000x50 : (⟨S_, .f32⟩ : BufTy).Contents (Elt F) → (⟨S100000x50, .f32⟩ : BufTy).Contents (Elt F)),
    unary main_arg3 main_v8 (broadcastInDim S1600000x1 ![0] bcast_S1600000_S1600000x1_0 : (⟨S1600000, .i32⟩ : BufTy).Contents (Elt F) → (⟨S1600000x1, .i32⟩ : BufTy).Contents (Elt F)),
    ternary main_v7 main_v8 main_v6 main_v9 ((fun x i u => Host.scatterAdd scatter_S100000x50_S1600000x1_S1600000x50_1_0_0_1 x i u) : (⟨S100000x50, .f32⟩ : BufTy).Contents (Elt F) → (⟨S1600000x1, .i32⟩ : BufTy).Contents (Elt F) → (⟨S1600000x50, .f32⟩ : BufTy).Contents (Elt F) → (⟨S100000x50, .f32⟩ : BufTy).Contents (Elt F)),
    binary main_arg0 main_v9 main_v10 (addf : (⟨S100000x50, .f32⟩ : BufTy).Contents (Elt F) → (⟨S100000x50, .f32⟩ : BufTy).Contents (Elt F) → (⟨S100000x50, .f32⟩ : BufTy).Contents (Elt F)),
    binary main_v10 main_arg5 main_v11 ((fun l r => Host.dotGeneral dot_S100000x50_S50x100_S100000x100_1_0_0_1_n_n none l r) : (⟨S100000x50, .f32⟩ : BufTy).Contents (Elt F) → (⟨S50x100, .f32⟩ : BufTy).Contents (Elt F) → (⟨S100000x100, .f32⟩ : BufTy).Contents (Elt F)),
    unary main_arg6 main_v12 (broadcastInDim S1x100 ![1] bcast_S100_S1x100_1 : (⟨S100, .f32⟩ : BufTy).Contents (Elt F) → (⟨S1x100, .f32⟩ : BufTy).Contents (Elt F)),
    unary main_v12 main_v13 (broadcastInDim S100000x100 ![0, 1] bcast_S1x100_S100000x100_0_1 : (⟨S1x100, .f32⟩ : BufTy).Contents (Elt F) → (⟨S100000x100, .f32⟩ : BufTy).Contents (Elt F)),
    binary main_v11 main_v13 main_v14 (addf : (⟨S100000x100, .f32⟩ : BufTy).Contents (Elt F) → (⟨S100000x100, .f32⟩ : BufTy).Contents (Elt F) → (⟨S100000x100, .f32⟩ : BufTy).Contents (Elt F)) ]

/-- Operations 19 … 55 of the program, in order. -/
abbrev seg1 : List (HloOp τ sig (Elt F)) :=
  [ nullary main_cst_1 (constant S_ .f32 0x00000000#32),
    binary main_v14 main_cst_1 main_v15 ((fun x v => Host.reduceAdd x v reducesTo_S100000x100_S100_d0 h_S_) : (⟨S100000x100, .f32⟩ : BufTy).Contents (Elt F) → (⟨S_, .f32⟩ : BufTy).Contents (Elt F) → (⟨S100, .f32⟩ : BufTy).Contents (Elt F)),
    nullary main_cst_2 (constant S_ .f32 0x47C35000#32),
    unary main_cst_2 main_v16 (broadcastInDim S100 ![] bcast_S_S100 : (⟨S_, .f32⟩ : BufTy).Contents (Elt F) → (⟨S100, .f32⟩ : BufTy).Contents (Elt F)),
    binary main_v15 main_v16 main_v17 (Host.divf : (⟨S100, .f32⟩ : BufTy).Contents (Elt F) → (⟨S100, .f32⟩ : BufTy).Contents (Elt F) → (⟨S100, .f32⟩ : BufTy).Contents (Elt F)),
    unary main_v17 main_v18 (broadcastInDim S1x100 ![1] bcast_S100_S1x100_1 : (⟨S100, .f32⟩ : BufTy).Contents (Elt F) → (⟨S1x100, .f32⟩ : BufTy).Contents (Elt F)),
    unary main_v18 main_v19 (broadcastInDim S100000x100 ![0, 1] bcast_S1x100_S100000x100_0_1 : (⟨S1x100, .f32⟩ : BufTy).Contents (Elt F) → (⟨S100000x100, .f32⟩ : BufTy).Contents (Elt F)),
    binary main_v14 main_v19 main_v20 (subf : (⟨S100000x100, .f32⟩ : BufTy).Contents (Elt F) → (⟨S100000x100, .f32⟩ : BufTy).Contents (Elt F) → (⟨S100000x100, .f32⟩ : BufTy).Contents (Elt F)),
    binary main_v20 main_v20 main_v21 (mulf : (⟨S100000x100, .f32⟩ : BufTy).Contents (Elt F) → (⟨S100000x100, .f32⟩ : BufTy).Contents (Elt F) → (⟨S100000x100, .f32⟩ : BufTy).Contents (Elt F)),
    nullary main_cst_3 (constant S_ .f32 0x00000000#32),
    binary main_v21 main_cst_3 main_v22 ((fun x v => Host.reduceAdd x v reducesTo_S100000x100_S100_d0 h_S_) : (⟨S100000x100, .f32⟩ : BufTy).Contents (Elt F) → (⟨S_, .f32⟩ : BufTy).Contents (Elt F) → (⟨S100, .f32⟩ : BufTy).Contents (Elt F)),
    nullary main_cst_4 (constant S_ .f32 0x47C35000#32),
    unary main_cst_4 main_v23 (broadcastInDim S100 ![] bcast_S_S100 : (⟨S_, .f32⟩ : BufTy).Contents (Elt F) → (⟨S100, .f32⟩ : BufTy).Contents (Elt F)),
    binary main_v22 main_v23 main_v24 (Host.divf : (⟨S100, .f32⟩ : BufTy).Contents (Elt F) → (⟨S100, .f32⟩ : BufTy).Contents (Elt F) → (⟨S100, .f32⟩ : BufTy).Contents (Elt F)),
    unary main_v17 main_v25 (broadcastInDim S1x100 ![1] bcast_S100_S1x100_1 : (⟨S100, .f32⟩ : BufTy).Contents (Elt F) → (⟨S1x100, .f32⟩ : BufTy).Contents (Elt F)),
    unary main_v25 main_v26 (broadcastInDim S100000x100 ![0, 1] bcast_S1x100_S100000x100_0_1 : (⟨S1x100, .f32⟩ : BufTy).Contents (Elt F) → (⟨S100000x100, .f32⟩ : BufTy).Contents (Elt F)),
    binary main_v14 main_v26 main_v27 (subf : (⟨S100000x100, .f32⟩ : BufTy).Contents (Elt F) → (⟨S100000x100, .f32⟩ : BufTy).Contents (Elt F) → (⟨S100000x100, .f32⟩ : BufTy).Contents (Elt F)),
    nullary main_cst_5 (constant S_ .f32 0x3727C5AC#32),
    unary main_cst_5 main_v28 (broadcastInDim S100 ![] bcast_S_S100 : (⟨S_, .f32⟩ : BufTy).Contents (Elt F) → (⟨S100, .f32⟩ : BufTy).Contents (Elt F)),
    binary main_v24 main_v28 main_v29 (addf : (⟨S100, .f32⟩ : BufTy).Contents (Elt F) → (⟨S100, .f32⟩ : BufTy).Contents (Elt F) → (⟨S100, .f32⟩ : BufTy).Contents (Elt F)),
    unary main_v29 main_v30 (Host.rsqrt : (⟨S100, .f32⟩ : BufTy).Contents (Elt F) → (⟨S100, .f32⟩ : BufTy).Contents (Elt F)),
    unary main_v30 main_v31 (broadcastInDim S1x100 ![1] bcast_S100_S1x100_1 : (⟨S100, .f32⟩ : BufTy).Contents (Elt F) → (⟨S1x100, .f32⟩ : BufTy).Contents (Elt F)),
    unary main_v31 main_v32 (broadcastInDim S100000x100 ![0, 1] bcast_S1x100_S100000x100_0_1 : (⟨S1x100, .f32⟩ : BufTy).Contents (Elt F) → (⟨S100000x100, .f32⟩ : BufTy).Contents (Elt F)),
    binary main_v27 main_v32 main_v33 (mulf : (⟨S100000x100, .f32⟩ : BufTy).Contents (Elt F) → (⟨S100000x100, .f32⟩ : BufTy).Contents (Elt F) → (⟨S100000x100, .f32⟩ : BufTy).Contents (Elt F)),
    unary main_arg7 main_v34 (broadcastInDim S1x100 ![1] bcast_S100_S1x100_1 : (⟨S100, .f32⟩ : BufTy).Contents (Elt F) → (⟨S1x100, .f32⟩ : BufTy).Contents (Elt F)),
    unary main_v34 main_v35 (broadcastInDim S100000x100 ![0, 1] bcast_S1x100_S100000x100_0_1 : (⟨S1x100, .f32⟩ : BufTy).Contents (Elt F) → (⟨S100000x100, .f32⟩ : BufTy).Contents (Elt F)),
    binary main_v33 main_v35 main_v36 (mulf : (⟨S100000x100, .f32⟩ : BufTy).Contents (Elt F) → (⟨S100000x100, .f32⟩ : BufTy).Contents (Elt F) → (⟨S100000x100, .f32⟩ : BufTy).Contents (Elt F)),
    unary main_arg8 main_v37 (broadcastInDim S1x100 ![1] bcast_S100_S1x100_1 : (⟨S100, .f32⟩ : BufTy).Contents (Elt F) → (⟨S1x100, .f32⟩ : BufTy).Contents (Elt F)),
    unary main_v37 main_v38 (broadcastInDim S100000x100 ![0, 1] bcast_S1x100_S100000x100_0_1 : (⟨S1x100, .f32⟩ : BufTy).Contents (Elt F) → (⟨S100000x100, .f32⟩ : BufTy).Contents (Elt F)),
    binary main_v36 main_v38 main_v39 (addf : (⟨S100000x100, .f32⟩ : BufTy).Contents (Elt F) → (⟨S100000x100, .f32⟩ : BufTy).Contents (Elt F) → (⟨S100000x100, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S100000x100, .f32⟩) main_call0_v0) (broadcastInDim S100000x100 ![] bcast_S_S100000x100),
    TRef.binary (TRef.of (T := ⟨S100000x100, .f32⟩) main_v39) (TRef.of (T := ⟨S100000x100, .f32⟩) main_call0_v0) (TRef.of (T := ⟨S100000x100, .f32⟩) main_v40) maximumf,
    binary main_v40 main_arg9 main_v41 ((fun l r => Host.dotGeneral dot_S100000x100_S100x100_S100000x100_1_0_0_1_n_n none l r) : (⟨S100000x100, .f32⟩ : BufTy).Contents (Elt F) → (⟨S100x100, .f32⟩ : BufTy).Contents (Elt F) → (⟨S100000x100, .f32⟩ : BufTy).Contents (Elt F)),
    unary main_arg10 main_v42 (broadcastInDim S1x100 ![1] bcast_S100_S1x100_1 : (⟨S100, .f32⟩ : BufTy).Contents (Elt F) → (⟨S1x100, .f32⟩ : BufTy).Contents (Elt F)),
    unary main_v42 main_v43 (broadcastInDim S100000x100 ![0, 1] bcast_S1x100_S100000x100_0_1 : (⟨S1x100, .f32⟩ : BufTy).Contents (Elt F) → (⟨S100000x100, .f32⟩ : BufTy).Contents (Elt F)),
    binary main_v41 main_v43 main_v44 (addf : (⟨S100000x100, .f32⟩ : BufTy).Contents (Elt F) → (⟨S100000x100, .f32⟩ : BufTy).Contents (Elt F) → (⟨S100000x100, .f32⟩ : BufTy).Contents (Elt F)) ]

/-- Operations 56 … 88 of the program, in order. -/
abbrev seg2 : List (HloOp τ sig (Elt F)) :=
  [ nullary main_cst_6 (constant S_ .f32 0x00000000#32),
    binary main_v44 main_cst_6 main_v45 ((fun x v => Host.reduceAdd x v reducesTo_S100000x100_S100_d0 h_S_) : (⟨S100000x100, .f32⟩ : BufTy).Contents (Elt F) → (⟨S_, .f32⟩ : BufTy).Contents (Elt F) → (⟨S100, .f32⟩ : BufTy).Contents (Elt F)),
    nullary main_cst_7 (constant S_ .f32 0x47C35000#32),
    unary main_cst_7 main_v46 (broadcastInDim S100 ![] bcast_S_S100 : (⟨S_, .f32⟩ : BufTy).Contents (Elt F) → (⟨S100, .f32⟩ : BufTy).Contents (Elt F)),
    binary main_v45 main_v46 main_v47 (Host.divf : (⟨S100, .f32⟩ : BufTy).Contents (Elt F) → (⟨S100, .f32⟩ : BufTy).Contents (Elt F) → (⟨S100, .f32⟩ : BufTy).Contents (Elt F)),
    unary main_v47 main_v48 (broadcastInDim S1x100 ![1] bcast_S100_S1x100_1 : (⟨S100, .f32⟩ : BufTy).Contents (Elt F) → (⟨S1x100, .f32⟩ : BufTy).Contents (Elt F)),
    unary main_v48 main_v49 (broadcastInDim S100000x100 ![0, 1] bcast_S1x100_S100000x100_0_1 : (⟨S1x100, .f32⟩ : BufTy).Contents (Elt F) → (⟨S100000x100, .f32⟩ : BufTy).Contents (Elt F)),
    binary main_v44 main_v49 main_v50 (subf : (⟨S100000x100, .f32⟩ : BufTy).Contents (Elt F) → (⟨S100000x100, .f32⟩ : BufTy).Contents (Elt F) → (⟨S100000x100, .f32⟩ : BufTy).Contents (Elt F)),
    binary main_v50 main_v50 main_v51 (mulf : (⟨S100000x100, .f32⟩ : BufTy).Contents (Elt F) → (⟨S100000x100, .f32⟩ : BufTy).Contents (Elt F) → (⟨S100000x100, .f32⟩ : BufTy).Contents (Elt F)),
    nullary main_cst_8 (constant S_ .f32 0x00000000#32),
    binary main_v51 main_cst_8 main_v52 ((fun x v => Host.reduceAdd x v reducesTo_S100000x100_S100_d0 h_S_) : (⟨S100000x100, .f32⟩ : BufTy).Contents (Elt F) → (⟨S_, .f32⟩ : BufTy).Contents (Elt F) → (⟨S100, .f32⟩ : BufTy).Contents (Elt F)),
    nullary main_cst_9 (constant S_ .f32 0x47C35000#32),
    unary main_cst_9 main_v53 (broadcastInDim S100 ![] bcast_S_S100 : (⟨S_, .f32⟩ : BufTy).Contents (Elt F) → (⟨S100, .f32⟩ : BufTy).Contents (Elt F)),
    binary main_v52 main_v53 main_v54 (Host.divf : (⟨S100, .f32⟩ : BufTy).Contents (Elt F) → (⟨S100, .f32⟩ : BufTy).Contents (Elt F) → (⟨S100, .f32⟩ : BufTy).Contents (Elt F)),
    unary main_v47 main_v55 (broadcastInDim S1x100 ![1] bcast_S100_S1x100_1 : (⟨S100, .f32⟩ : BufTy).Contents (Elt F) → (⟨S1x100, .f32⟩ : BufTy).Contents (Elt F)),
    unary main_v55 main_v56 (broadcastInDim S100000x100 ![0, 1] bcast_S1x100_S100000x100_0_1 : (⟨S1x100, .f32⟩ : BufTy).Contents (Elt F) → (⟨S100000x100, .f32⟩ : BufTy).Contents (Elt F)),
    binary main_v44 main_v56 main_v57 (subf : (⟨S100000x100, .f32⟩ : BufTy).Contents (Elt F) → (⟨S100000x100, .f32⟩ : BufTy).Contents (Elt F) → (⟨S100000x100, .f32⟩ : BufTy).Contents (Elt F)),
    nullary main_cst_10 (constant S_ .f32 0x3727C5AC#32),
    unary main_cst_10 main_v58 (broadcastInDim S100 ![] bcast_S_S100 : (⟨S_, .f32⟩ : BufTy).Contents (Elt F) → (⟨S100, .f32⟩ : BufTy).Contents (Elt F)),
    binary main_v54 main_v58 main_v59 (addf : (⟨S100, .f32⟩ : BufTy).Contents (Elt F) → (⟨S100, .f32⟩ : BufTy).Contents (Elt F) → (⟨S100, .f32⟩ : BufTy).Contents (Elt F)),
    unary main_v59 main_v60 (Host.rsqrt : (⟨S100, .f32⟩ : BufTy).Contents (Elt F) → (⟨S100, .f32⟩ : BufTy).Contents (Elt F)),
    unary main_v60 main_v61 (broadcastInDim S1x100 ![1] bcast_S100_S1x100_1 : (⟨S100, .f32⟩ : BufTy).Contents (Elt F) → (⟨S1x100, .f32⟩ : BufTy).Contents (Elt F)),
    unary main_v61 main_v62 (broadcastInDim S100000x100 ![0, 1] bcast_S1x100_S100000x100_0_1 : (⟨S1x100, .f32⟩ : BufTy).Contents (Elt F) → (⟨S100000x100, .f32⟩ : BufTy).Contents (Elt F)),
    binary main_v57 main_v62 main_v63 (mulf : (⟨S100000x100, .f32⟩ : BufTy).Contents (Elt F) → (⟨S100000x100, .f32⟩ : BufTy).Contents (Elt F) → (⟨S100000x100, .f32⟩ : BufTy).Contents (Elt F)),
    unary main_arg11 main_v64 (broadcastInDim S1x100 ![1] bcast_S100_S1x100_1 : (⟨S100, .f32⟩ : BufTy).Contents (Elt F) → (⟨S1x100, .f32⟩ : BufTy).Contents (Elt F)),
    unary main_v64 main_v65 (broadcastInDim S100000x100 ![0, 1] bcast_S1x100_S100000x100_0_1 : (⟨S1x100, .f32⟩ : BufTy).Contents (Elt F) → (⟨S100000x100, .f32⟩ : BufTy).Contents (Elt F)),
    binary main_v63 main_v65 main_v66 (mulf : (⟨S100000x100, .f32⟩ : BufTy).Contents (Elt F) → (⟨S100000x100, .f32⟩ : BufTy).Contents (Elt F) → (⟨S100000x100, .f32⟩ : BufTy).Contents (Elt F)),
    unary main_arg12 main_v67 (broadcastInDim S1x100 ![1] bcast_S100_S1x100_1 : (⟨S100, .f32⟩ : BufTy).Contents (Elt F) → (⟨S1x100, .f32⟩ : BufTy).Contents (Elt F)),
    unary main_v67 main_v68 (broadcastInDim S100000x100 ![0, 1] bcast_S1x100_S100000x100_0_1 : (⟨S1x100, .f32⟩ : BufTy).Contents (Elt F) → (⟨S100000x100, .f32⟩ : BufTy).Contents (Elt F)),
    binary main_v66 main_v68 main_v69 (addf : (⟨S100000x100, .f32⟩ : BufTy).Contents (Elt F) → (⟨S100000x100, .f32⟩ : BufTy).Contents (Elt F) → (⟨S100000x100, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x100, .f32⟩) main_call1_v0) (broadcastInDim S100000x100 ![] bcast_S_S100000x100),
    TRef.binary (TRef.of (T := ⟨S100000x100, .f32⟩) main_v69) (TRef.of (T := ⟨S100000x100, .f32⟩) main_call1_v0) (TRef.of (T := ⟨S100000x100, .f32⟩) main_v70) maximumf ]

/-- Operations 89 … 106 of the program, in order. -/
abbrev seg3 : List (HloOp τ sig (Elt F)) :=
  [ nullary main_c_11 (constantI S_ 32 0#32),
    unary main_c_11 main_v71 (broadcastInDim S1600000 ![] bcast_S_S1600000 : (⟨S_, .i32⟩ : BufTy).Contents (Elt F) → (⟨S1600000, .i32⟩ : BufTy).Contents (Elt F)),
    binary main_arg2 main_v71 main_v72 (cmpi .slt : (⟨S1600000, .i32⟩ : BufTy).Contents (Elt F) → (⟨S1600000, .i32⟩ : BufTy).Contents (Elt F) → (⟨S1600000, .i1⟩ : BufTy).Contents (Elt F)),
    nullary main_c_12 (constantI S_ 32 100000#32),
    unary main_c_12 main_v73 (broadcastInDim S1600000 ![] bcast_S_S1600000 : (⟨S_, .i32⟩ : BufTy).Contents (Elt F) → (⟨S1600000, .i32⟩ : BufTy).Contents (Elt F)),
    binary main_arg2 main_v73 main_v74 (addi : (⟨S1600000, .i32⟩ : BufTy).Contents (Elt F) → (⟨S1600000, .i32⟩ : BufTy).Contents (Elt F) → (⟨S1600000, .i32⟩ : BufTy).Contents (Elt F)),
    ternary main_v72 main_v74 main_arg2 main_v75 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v75 main_v76 (broadcastInDim S1600000x1 ![0] bcast_S1600000_S1600000x1_0 : (⟨S1600000, .i32⟩ : BufTy).Contents (Elt F) → (⟨S1600000x1, .i32⟩ : BufTy).Contents (Elt F)),
    binary main_v70 main_v76 main_v77 ((fun x i => Host.gather gather_S100000x100_S1600000x1_S1600000x100_1_0_n_n_0_1_1100 x i) : (⟨S100000x100, .f32⟩ : BufTy).Contents (Elt F) → (⟨S1600000x1, .i32⟩ : BufTy).Contents (Elt F) → (⟨S1600000x100, .f32⟩ : BufTy).Contents (Elt F)),
    nullary main_cst_13 (constant S_ .f32 0x00000000#32),
    unary main_cst_13 main_v78 (broadcastInDim S100000x100 ![] bcast_S_S100000x100 : (⟨S_, .f32⟩ : BufTy).Contents (Elt F) → (⟨S100000x100, .f32⟩ : BufTy).Contents (Elt F)),
    unary main_arg3 main_v79 (broadcastInDim S1600000x1 ![0] bcast_S1600000_S1600000x1_0 : (⟨S1600000, .i32⟩ : BufTy).Contents (Elt F) → (⟨S1600000x1, .i32⟩ : BufTy).Contents (Elt F)),
    ternary main_v78 main_v79 main_v77 main_v80 ((fun x i u => Host.scatterAdd scatter_S100000x100_S1600000x1_S1600000x100_1_0_0_1 x i u) : (⟨S100000x100, .f32⟩ : BufTy).Contents (Elt F) → (⟨S1600000x1, .i32⟩ : BufTy).Contents (Elt F) → (⟨S1600000x100, .f32⟩ : BufTy).Contents (Elt F) → (⟨S100000x100, .f32⟩ : BufTy).Contents (Elt F)),
    binary main_v70 main_v80 main_v81 (addf : (⟨S100000x100, .f32⟩ : BufTy).Contents (Elt F) → (⟨S100000x100, .f32⟩ : BufTy).Contents (Elt F) → (⟨S100000x100, .f32⟩ : BufTy).Contents (Elt F)),
    binary main_v81 main_arg13 main_v82 ((fun l r => Host.dotGeneral dot_S100000x100_S100x20_S100000x20_1_0_0_1_n_n none l r) : (⟨S100000x100, .f32⟩ : BufTy).Contents (Elt F) → (⟨S100x20, .f32⟩ : BufTy).Contents (Elt F) → (⟨S100000x20, .f32⟩ : BufTy).Contents (Elt F)),
    unary main_arg14 main_v83 (broadcastInDim S1x20 ![1] bcast_S20_S1x20_1 : (⟨S20, .f32⟩ : BufTy).Contents (Elt F) → (⟨S1x20, .f32⟩ : BufTy).Contents (Elt F)),
    unary main_v83 main_v84 (broadcastInDim S100000x20 ![0, 1] bcast_S1x20_S100000x20_0_1 : (⟨S1x20, .f32⟩ : BufTy).Contents (Elt F) → (⟨S100000x20, .f32⟩ : BufTy).Contents (Elt F)),
    binary main_v82 main_v84 main_v85 (addf : (⟨S100000x20, .f32⟩ : BufTy).Contents (Elt F) → (⟨S100000x20, .f32⟩ : BufTy).Contents (Elt F) → (⟨S100000x20, .f32⟩ : BufTy).Contents (Elt F)) ]

/-- Operations 107 … 143 of the program, in order. -/
abbrev seg4 : List (HloOp τ sig (Elt F)) :=
  [ nullary main_cst_14 (constant S_ .f32 0x00000000#32),
    binary main_v85 main_cst_14 main_v86 ((fun x v => Host.reduceAdd x v reducesTo_S100000x20_S20_d0 h_S_) : (⟨S100000x20, .f32⟩ : BufTy).Contents (Elt F) → (⟨S_, .f32⟩ : BufTy).Contents (Elt F) → (⟨S20, .f32⟩ : BufTy).Contents (Elt F)),
    nullary main_cst_15 (constant S_ .f32 0x47C35000#32),
    unary main_cst_15 main_v87 (broadcastInDim S20 ![] bcast_S_S20 : (⟨S_, .f32⟩ : BufTy).Contents (Elt F) → (⟨S20, .f32⟩ : BufTy).Contents (Elt F)),
    binary main_v86 main_v87 main_v88 (Host.divf : (⟨S20, .f32⟩ : BufTy).Contents (Elt F) → (⟨S20, .f32⟩ : BufTy).Contents (Elt F) → (⟨S20, .f32⟩ : BufTy).Contents (Elt F)),
    unary main_v88 main_v89 (broadcastInDim S1x20 ![1] bcast_S20_S1x20_1 : (⟨S20, .f32⟩ : BufTy).Contents (Elt F) → (⟨S1x20, .f32⟩ : BufTy).Contents (Elt F)),
    unary main_v89 main_v90 (broadcastInDim S100000x20 ![0, 1] bcast_S1x20_S100000x20_0_1 : (⟨S1x20, .f32⟩ : BufTy).Contents (Elt F) → (⟨S100000x20, .f32⟩ : BufTy).Contents (Elt F)),
    binary main_v85 main_v90 main_v91 (subf : (⟨S100000x20, .f32⟩ : BufTy).Contents (Elt F) → (⟨S100000x20, .f32⟩ : BufTy).Contents (Elt F) → (⟨S100000x20, .f32⟩ : BufTy).Contents (Elt F)),
    binary main_v91 main_v91 main_v92 (mulf : (⟨S100000x20, .f32⟩ : BufTy).Contents (Elt F) → (⟨S100000x20, .f32⟩ : BufTy).Contents (Elt F) → (⟨S100000x20, .f32⟩ : BufTy).Contents (Elt F)),
    nullary main_cst_16 (constant S_ .f32 0x00000000#32),
    binary main_v92 main_cst_16 main_v93 ((fun x v => Host.reduceAdd x v reducesTo_S100000x20_S20_d0 h_S_) : (⟨S100000x20, .f32⟩ : BufTy).Contents (Elt F) → (⟨S_, .f32⟩ : BufTy).Contents (Elt F) → (⟨S20, .f32⟩ : BufTy).Contents (Elt F)),
    nullary main_cst_17 (constant S_ .f32 0x47C35000#32),
    unary main_cst_17 main_v94 (broadcastInDim S20 ![] bcast_S_S20 : (⟨S_, .f32⟩ : BufTy).Contents (Elt F) → (⟨S20, .f32⟩ : BufTy).Contents (Elt F)),
    binary main_v93 main_v94 main_v95 (Host.divf : (⟨S20, .f32⟩ : BufTy).Contents (Elt F) → (⟨S20, .f32⟩ : BufTy).Contents (Elt F) → (⟨S20, .f32⟩ : BufTy).Contents (Elt F)),
    unary main_v88 main_v96 (broadcastInDim S1x20 ![1] bcast_S20_S1x20_1 : (⟨S20, .f32⟩ : BufTy).Contents (Elt F) → (⟨S1x20, .f32⟩ : BufTy).Contents (Elt F)),
    unary main_v96 main_v97 (broadcastInDim S100000x20 ![0, 1] bcast_S1x20_S100000x20_0_1 : (⟨S1x20, .f32⟩ : BufTy).Contents (Elt F) → (⟨S100000x20, .f32⟩ : BufTy).Contents (Elt F)),
    binary main_v85 main_v97 main_v98 (subf : (⟨S100000x20, .f32⟩ : BufTy).Contents (Elt F) → (⟨S100000x20, .f32⟩ : BufTy).Contents (Elt F) → (⟨S100000x20, .f32⟩ : BufTy).Contents (Elt F)),
    nullary main_cst_18 (constant S_ .f32 0x3727C5AC#32),
    unary main_cst_18 main_v99 (broadcastInDim S20 ![] bcast_S_S20 : (⟨S_, .f32⟩ : BufTy).Contents (Elt F) → (⟨S20, .f32⟩ : BufTy).Contents (Elt F)),
    binary main_v95 main_v99 main_v100 (addf : (⟨S20, .f32⟩ : BufTy).Contents (Elt F) → (⟨S20, .f32⟩ : BufTy).Contents (Elt F) → (⟨S20, .f32⟩ : BufTy).Contents (Elt F)),
    unary main_v100 main_v101 (Host.rsqrt : (⟨S20, .f32⟩ : BufTy).Contents (Elt F) → (⟨S20, .f32⟩ : BufTy).Contents (Elt F)),
    unary main_v101 main_v102 (broadcastInDim S1x20 ![1] bcast_S20_S1x20_1 : (⟨S20, .f32⟩ : BufTy).Contents (Elt F) → (⟨S1x20, .f32⟩ : BufTy).Contents (Elt F)),
    unary main_v102 main_v103 (broadcastInDim S100000x20 ![0, 1] bcast_S1x20_S100000x20_0_1 : (⟨S1x20, .f32⟩ : BufTy).Contents (Elt F) → (⟨S100000x20, .f32⟩ : BufTy).Contents (Elt F)),
    binary main_v98 main_v103 main_v104 (mulf : (⟨S100000x20, .f32⟩ : BufTy).Contents (Elt F) → (⟨S100000x20, .f32⟩ : BufTy).Contents (Elt F) → (⟨S100000x20, .f32⟩ : BufTy).Contents (Elt F)),
    unary main_arg15 main_v105 (broadcastInDim S1x20 ![1] bcast_S20_S1x20_1 : (⟨S20, .f32⟩ : BufTy).Contents (Elt F) → (⟨S1x20, .f32⟩ : BufTy).Contents (Elt F)),
    unary main_v105 main_v106 (broadcastInDim S100000x20 ![0, 1] bcast_S1x20_S100000x20_0_1 : (⟨S1x20, .f32⟩ : BufTy).Contents (Elt F) → (⟨S100000x20, .f32⟩ : BufTy).Contents (Elt F)),
    binary main_v104 main_v106 main_v107 (mulf : (⟨S100000x20, .f32⟩ : BufTy).Contents (Elt F) → (⟨S100000x20, .f32⟩ : BufTy).Contents (Elt F) → (⟨S100000x20, .f32⟩ : BufTy).Contents (Elt F)),
    unary main_arg16 main_v108 (broadcastInDim S1x20 ![1] bcast_S20_S1x20_1 : (⟨S20, .f32⟩ : BufTy).Contents (Elt F) → (⟨S1x20, .f32⟩ : BufTy).Contents (Elt F)),
    unary main_v108 main_v109 (broadcastInDim S100000x20 ![0, 1] bcast_S1x20_S100000x20_0_1 : (⟨S1x20, .f32⟩ : BufTy).Contents (Elt F) → (⟨S100000x20, .f32⟩ : BufTy).Contents (Elt F)),
    binary main_v107 main_v109 main_v110 (addf : (⟨S100000x20, .f32⟩ : BufTy).Contents (Elt F) → (⟨S100000x20, .f32⟩ : BufTy).Contents (Elt F) → (⟨S100000x20, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S100000x20, .f32⟩) main_call2_v0) (broadcastInDim S100000x20 ![] bcast_S_S100000x20),
    TRef.binary (TRef.of (T := ⟨S100000x20, .f32⟩) main_v110) (TRef.of (T := ⟨S100000x20, .f32⟩) main_call2_v0) (TRef.of (T := ⟨S100000x20, .f32⟩) main_v111) maximumf,
    binary main_v111 main_arg17 main_v112 ((fun l r => Host.dotGeneral dot_S100000x20_S20x20_S100000x20_1_0_0_1_n_n none l r) : (⟨S100000x20, .f32⟩ : BufTy).Contents (Elt F) → (⟨S20x20, .f32⟩ : BufTy).Contents (Elt F) → (⟨S100000x20, .f32⟩ : BufTy).Contents (Elt F)),
    unary main_arg18 main_v113 (broadcastInDim S1x20 ![1] bcast_S20_S1x20_1 : (⟨S20, .f32⟩ : BufTy).Contents (Elt F) → (⟨S1x20, .f32⟩ : BufTy).Contents (Elt F)),
    unary main_v113 main_v114 (broadcastInDim S100000x20 ![0, 1] bcast_S1x20_S100000x20_0_1 : (⟨S1x20, .f32⟩ : BufTy).Contents (Elt F) → (⟨S100000x20, .f32⟩ : BufTy).Contents (Elt F)),
    binary main_v112 main_v114 main_v115 (addf : (⟨S100000x20, .f32⟩ : BufTy).Contents (Elt F) → (⟨S100000x20, .f32⟩ : BufTy).Contents (Elt F) → (⟨S100000x20, .f32⟩ : BufTy).Contents (Elt F)) ]

/-- Operations 144 … 176 of the program, in order. -/
abbrev seg5 : List (HloOp τ sig (Elt F)) :=
  [ nullary main_cst_19 (constant S_ .f32 0x00000000#32),
    binary main_v115 main_cst_19 main_v116 ((fun x v => Host.reduceAdd x v reducesTo_S100000x20_S20_d0 h_S_) : (⟨S100000x20, .f32⟩ : BufTy).Contents (Elt F) → (⟨S_, .f32⟩ : BufTy).Contents (Elt F) → (⟨S20, .f32⟩ : BufTy).Contents (Elt F)),
    nullary main_cst_20 (constant S_ .f32 0x47C35000#32),
    unary main_cst_20 main_v117 (broadcastInDim S20 ![] bcast_S_S20 : (⟨S_, .f32⟩ : BufTy).Contents (Elt F) → (⟨S20, .f32⟩ : BufTy).Contents (Elt F)),
    binary main_v116 main_v117 main_v118 (Host.divf : (⟨S20, .f32⟩ : BufTy).Contents (Elt F) → (⟨S20, .f32⟩ : BufTy).Contents (Elt F) → (⟨S20, .f32⟩ : BufTy).Contents (Elt F)),
    unary main_v118 main_v119 (broadcastInDim S1x20 ![1] bcast_S20_S1x20_1 : (⟨S20, .f32⟩ : BufTy).Contents (Elt F) → (⟨S1x20, .f32⟩ : BufTy).Contents (Elt F)),
    unary main_v119 main_v120 (broadcastInDim S100000x20 ![0, 1] bcast_S1x20_S100000x20_0_1 : (⟨S1x20, .f32⟩ : BufTy).Contents (Elt F) → (⟨S100000x20, .f32⟩ : BufTy).Contents (Elt F)),
    binary main_v115 main_v120 main_v121 (subf : (⟨S100000x20, .f32⟩ : BufTy).Contents (Elt F) → (⟨S100000x20, .f32⟩ : BufTy).Contents (Elt F) → (⟨S100000x20, .f32⟩ : BufTy).Contents (Elt F)),
    binary main_v121 main_v121 main_v122 (mulf : (⟨S100000x20, .f32⟩ : BufTy).Contents (Elt F) → (⟨S100000x20, .f32⟩ : BufTy).Contents (Elt F) → (⟨S100000x20, .f32⟩ : BufTy).Contents (Elt F)),
    nullary main_cst_21 (constant S_ .f32 0x00000000#32),
    binary main_v122 main_cst_21 main_v123 ((fun x v => Host.reduceAdd x v reducesTo_S100000x20_S20_d0 h_S_) : (⟨S100000x20, .f32⟩ : BufTy).Contents (Elt F) → (⟨S_, .f32⟩ : BufTy).Contents (Elt F) → (⟨S20, .f32⟩ : BufTy).Contents (Elt F)),
    nullary main_cst_22 (constant S_ .f32 0x47C35000#32),
    unary main_cst_22 main_v124 (broadcastInDim S20 ![] bcast_S_S20 : (⟨S_, .f32⟩ : BufTy).Contents (Elt F) → (⟨S20, .f32⟩ : BufTy).Contents (Elt F)),
    binary main_v123 main_v124 main_v125 (Host.divf : (⟨S20, .f32⟩ : BufTy).Contents (Elt F) → (⟨S20, .f32⟩ : BufTy).Contents (Elt F) → (⟨S20, .f32⟩ : BufTy).Contents (Elt F)),
    unary main_v118 main_v126 (broadcastInDim S1x20 ![1] bcast_S20_S1x20_1 : (⟨S20, .f32⟩ : BufTy).Contents (Elt F) → (⟨S1x20, .f32⟩ : BufTy).Contents (Elt F)),
    unary main_v126 main_v127 (broadcastInDim S100000x20 ![0, 1] bcast_S1x20_S100000x20_0_1 : (⟨S1x20, .f32⟩ : BufTy).Contents (Elt F) → (⟨S100000x20, .f32⟩ : BufTy).Contents (Elt F)),
    binary main_v115 main_v127 main_v128 (subf : (⟨S100000x20, .f32⟩ : BufTy).Contents (Elt F) → (⟨S100000x20, .f32⟩ : BufTy).Contents (Elt F) → (⟨S100000x20, .f32⟩ : BufTy).Contents (Elt F)),
    nullary main_cst_23 (constant S_ .f32 0x3727C5AC#32),
    unary main_cst_23 main_v129 (broadcastInDim S20 ![] bcast_S_S20 : (⟨S_, .f32⟩ : BufTy).Contents (Elt F) → (⟨S20, .f32⟩ : BufTy).Contents (Elt F)),
    binary main_v125 main_v129 main_v130 (addf : (⟨S20, .f32⟩ : BufTy).Contents (Elt F) → (⟨S20, .f32⟩ : BufTy).Contents (Elt F) → (⟨S20, .f32⟩ : BufTy).Contents (Elt F)),
    unary main_v130 main_v131 (Host.rsqrt : (⟨S20, .f32⟩ : BufTy).Contents (Elt F) → (⟨S20, .f32⟩ : BufTy).Contents (Elt F)),
    unary main_v131 main_v132 (broadcastInDim S1x20 ![1] bcast_S20_S1x20_1 : (⟨S20, .f32⟩ : BufTy).Contents (Elt F) → (⟨S1x20, .f32⟩ : BufTy).Contents (Elt F)),
    unary main_v132 main_v133 (broadcastInDim S100000x20 ![0, 1] bcast_S1x20_S100000x20_0_1 : (⟨S1x20, .f32⟩ : BufTy).Contents (Elt F) → (⟨S100000x20, .f32⟩ : BufTy).Contents (Elt F)),
    binary main_v128 main_v133 main_v134 (mulf : (⟨S100000x20, .f32⟩ : BufTy).Contents (Elt F) → (⟨S100000x20, .f32⟩ : BufTy).Contents (Elt F) → (⟨S100000x20, .f32⟩ : BufTy).Contents (Elt F)),
    unary main_arg19 main_v135 (broadcastInDim S1x20 ![1] bcast_S20_S1x20_1 : (⟨S20, .f32⟩ : BufTy).Contents (Elt F) → (⟨S1x20, .f32⟩ : BufTy).Contents (Elt F)),
    unary main_v135 main_v136 (broadcastInDim S100000x20 ![0, 1] bcast_S1x20_S100000x20_0_1 : (⟨S1x20, .f32⟩ : BufTy).Contents (Elt F) → (⟨S100000x20, .f32⟩ : BufTy).Contents (Elt F)),
    binary main_v134 main_v136 main_v137 (mulf : (⟨S100000x20, .f32⟩ : BufTy).Contents (Elt F) → (⟨S100000x20, .f32⟩ : BufTy).Contents (Elt F) → (⟨S100000x20, .f32⟩ : BufTy).Contents (Elt F)),
    unary main_arg20 main_v138 (broadcastInDim S1x20 ![1] bcast_S20_S1x20_1 : (⟨S20, .f32⟩ : BufTy).Contents (Elt F) → (⟨S1x20, .f32⟩ : BufTy).Contents (Elt F)),
    unary main_v138 main_v139 (broadcastInDim S100000x20 ![0, 1] bcast_S1x20_S100000x20_0_1 : (⟨S1x20, .f32⟩ : BufTy).Contents (Elt F) → (⟨S100000x20, .f32⟩ : BufTy).Contents (Elt F)),
    binary main_v137 main_v139 main_v140 (addf : (⟨S100000x20, .f32⟩ : BufTy).Contents (Elt F) → (⟨S100000x20, .f32⟩ : BufTy).Contents (Elt F) → (⟨S100000x20, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S100000x20, .f32⟩) main_call3_v0) (broadcastInDim S100000x20 ![] bcast_S_S100000x20),
    TRef.binary (TRef.of (T := ⟨S100000x20, .f32⟩) main_v140) (TRef.of (T := ⟨S100000x20, .f32⟩) main_call3_v0) (TRef.of (T := ⟨S100000x20, .f32⟩) main_v141) maximumf ]

/-- Operations 177 … 204 of the program, in order. -/
abbrev seg6 : List (HloOp τ sig (Elt F)) :=
  [ nullary main_cst_24 (constant S_ .f32 0x00000000#32),
    unary main_cst_24 main_v142 (broadcastInDim S1000x20 ![] bcast_S_S1000x20 : (⟨S_, .f32⟩ : BufTy).Contents (Elt F) → (⟨S1000x20, .f32⟩ : BufTy).Contents (Elt F)),
    unary main_arg4 main_v143 (broadcastInDim S100000x1 ![0] bcast_S100000_S100000x1_0 : (⟨S100000, .i32⟩ : BufTy).Contents (Elt F) → (⟨S100000x1, .i32⟩ : BufTy).Contents (Elt F)),
    ternary main_v142 main_v143 main_v141 main_v144 ((fun x i u => Host.scatterAdd scatter_S1000x20_S100000x1_S100000x20_1_0_0_1 x i u) : (⟨S1000x20, .f32⟩ : BufTy).Contents (Elt F) → (⟨S100000x1, .i32⟩ : BufTy).Contents (Elt F) → (⟨S100000x20, .f32⟩ : BufTy).Contents (Elt F) → (⟨S1000x20, .f32⟩ : BufTy).Contents (Elt F)),
    nullary main_cst_25 (constant S_ .f32 0x3F800000#32),
    unary main_cst_25 main_v145 (broadcastInDim S100000 ![] bcast_S_S100000 : (⟨S_, .f32⟩ : BufTy).Contents (Elt F) → (⟨S100000, .f32⟩ : BufTy).Contents (Elt F)),
    nullary main_cst_26 (constant S_ .f32 0x00000000#32),
    unary main_cst_26 main_v146 (broadcastInDim S1000 ![] bcast_S_S1000 : (⟨S_, .f32⟩ : BufTy).Contents (Elt F) → (⟨S1000, .f32⟩ : BufTy).Contents (Elt F)),
    unary main_arg4 main_v147 (broadcastInDim S100000x1 ![0] bcast_S100000_S100000x1_0 : (⟨S100000, .i32⟩ : BufTy).Contents (Elt F) → (⟨S100000x1, .i32⟩ : BufTy).Contents (Elt F)),
    ternary main_v146 main_v147 main_v145 main_v148 ((fun x i u => Host.scatterAdd scatter_S1000_S100000x1_S100000_n_0_0_1 x i u) : (⟨S1000, .f32⟩ : BufTy).Contents (Elt F) → (⟨S100000x1, .i32⟩ : BufTy).Contents (Elt F) → (⟨S100000, .f32⟩ : BufTy).Contents (Elt F) → (⟨S1000, .f32⟩ : BufTy).Contents (Elt F)),
    nullary main_cst_27 (constant S_ .f32 0x3F800000#32),
    unary main_cst_27 main_v149 (broadcastInDim S1000 ![] bcast_S_S1000 : (⟨S_, .f32⟩ : BufTy).Contents (Elt F) → (⟨S1000, .f32⟩ : BufTy).Contents (Elt F)),
    binary main_v148 main_v149 main_v150 (maximumf : (⟨S1000, .f32⟩ : BufTy).Contents (Elt F) → (⟨S1000, .f32⟩ : BufTy).Contents (Elt F) → (⟨S1000, .f32⟩ : BufTy).Contents (Elt F)),
    unary main_v150 main_v151 (broadcastInDim S1000x1 ![0] bcast_S1000_S1000x1_0 : (⟨S1000, .f32⟩ : BufTy).Contents (Elt F) → (⟨S1000x1, .f32⟩ : BufTy).Contents (Elt F)),
    unary main_v151 main_v152 (broadcastInDim S1000x20 ![0, 1] bcast_S1000x1_S1000x20_0_1 : (⟨S1000x1, .f32⟩ : BufTy).Contents (Elt F) → (⟨S1000x20, .f32⟩ : BufTy).Contents (Elt F)),
    binary main_v144 main_v152 main_v153 (Host.divf : (⟨S1000x20, .f32⟩ : BufTy).Contents (Elt F) → (⟨S1000x20, .f32⟩ : BufTy).Contents (Elt F) → (⟨S1000x20, .f32⟩ : BufTy).Contents (Elt F)),
    binary main_v153 main_arg1 main_v154 ((fun a b => concatenate S1000x23 1 [⟨S1000x20, a⟩, ⟨S1000x3, b⟩] concatenates_S1000x20_S1000x3_S1000x23_d1) : (⟨S1000x20, .f32⟩ : BufTy).Contents (Elt F) → (⟨S1000x3, .f32⟩ : BufTy).Contents (Elt F) → (⟨S1000x23, .f32⟩ : BufTy).Contents (Elt F)),
    binary main_v154 main_arg21 main_v155 ((fun l r => Host.dotGeneral dot_S1000x23_S23x10_S1000x10_1_0_0_1_n_n none l r) : (⟨S1000x23, .f32⟩ : BufTy).Contents (Elt F) → (⟨S23x10, .f32⟩ : BufTy).Contents (Elt F) → (⟨S1000x10, .f32⟩ : BufTy).Contents (Elt F)),
    unary main_arg22 main_v156 (broadcastInDim S1x10 ![1] bcast_S10_S1x10_1 : (⟨S10, .f32⟩ : BufTy).Contents (Elt F) → (⟨S1x10, .f32⟩ : BufTy).Contents (Elt F)),
    unary main_v156 main_v157 (broadcastInDim S1000x10 ![0, 1] bcast_S1x10_S1000x10_0_1 : (⟨S1x10, .f32⟩ : BufTy).Contents (Elt F) → (⟨S1000x10, .f32⟩ : BufTy).Contents (Elt F)),
    binary main_v155 main_v157 main_v158 (addf : (⟨S1000x10, .f32⟩ : BufTy).Contents (Elt F) → (⟨S1000x10, .f32⟩ : BufTy).Contents (Elt F) → (⟨S1000x10, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S1000x10, .f32⟩) main_call4_v0) (broadcastInDim S1000x10 ![] bcast_S_S1000x10),
    TRef.binary (TRef.of (T := ⟨S1000x10, .f32⟩) main_v158) (TRef.of (T := ⟨S1000x10, .f32⟩) main_call4_v0) (TRef.of (T := ⟨S1000x10, .f32⟩) main_v159) maximumf,
    binary main_v159 main_arg23 main_v160 ((fun l r => Host.dotGeneral dot_S1000x10_S10x1_S1000x1_1_0_0_1_n_n none l r) : (⟨S1000x10, .f32⟩ : BufTy).Contents (Elt F) → (⟨S10x1, .f32⟩ : BufTy).Contents (Elt F) → (⟨S1000x1, .f32⟩ : BufTy).Contents (Elt F)),
    unary main_arg24 main_v161 (broadcastInDim S1x1 ![1] bcast_S1_S1x1_1 : (⟨S1, .f32⟩ : BufTy).Contents (Elt F) → (⟨S1x1, .f32⟩ : BufTy).Contents (Elt F)),
    unary main_v161 main_v162 (broadcastInDim S1000x1 ![0, 1] bcast_S1x1_S1000x1_0_1 : (⟨S1x1, .f32⟩ : BufTy).Contents (Elt F) → (⟨S1000x1, .f32⟩ : BufTy).Contents (Elt F)),
    binary main_v160 main_v162 main_v163 (addf : (⟨S1000x1, .f32⟩ : BufTy).Contents (Elt F) → (⟨S1000x1, .f32⟩ : BufTy).Contents (Elt F) → (⟨S1000x1, .f32⟩ : BufTy).Contents (Elt F)) ]

/-- The program's operation list is the seven pieces in a row. -/
theorem ops_split : (ops : List (HloOp τ sig (Elt F))) = seg0 ++ (seg1 ++ (seg2 ++ (seg3 ++ (seg4 ++ (seg5 ++ seg6))))) := rfl

/-- Running two pieces in a row is running the second from what the first leaves. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih _

variable (m : (ℓ : Loc nD τ sig) → Buf (Elt F) ℓ) (d : Dev nD)

/-- What the buffers hold after each piece. -/
def U1 : Valuation τ sig (Elt F) := after seg0 (launchContents m d)
def U2 : Valuation τ sig (Elt F) := after seg1 (U1 m d)
def U3 : Valuation τ sig (Elt F) := after seg2 (U2 m d)
def U4 : Valuation τ sig (Elt F) := after seg3 (U3 m d)
def U5 : Valuation τ sig (Elt F) := after seg4 (U4 m d)
def U6 : Valuation τ sig (Elt F) := after seg5 (U5 m d)
def U7 : Valuation τ sig (Elt F) := after seg6 (U6 m d)

theorem after_ops : after ops (launchContents m d) = U7 m d := by
  rw [ops_split, after_append, after_append, after_append, after_append, after_append, after_append]
  rfl

/-! ## The arguments as each piece finds them -/

theorem arg1_U1 : U1 m d (Proc.devRef .tc main_arg1) = m ((d.tc : Thread nD τ).loc main_arg1) :=
  (after_of_forall_not_mem (b := Proc.devRef .tc main_arg1) seg0 (launchContents m d) (List.forall_iff_forall_mem.mp (by not_written seg0))).trans rfl
theorem arg1_U2 : U2 m d (Proc.devRef .tc main_arg1) = m ((d.tc : Thread nD τ).loc main_arg1) :=
  (after_of_forall_not_mem (b := Proc.devRef .tc main_arg1) seg1 (U1 m d) (List.forall_iff_forall_mem.mp (by not_written seg1))).trans (arg1_U1 m d)
theorem arg1_U3 : U3 m d (Proc.devRef .tc main_arg1) = m ((d.tc : Thread nD τ).loc main_arg1) :=
  (after_of_forall_not_mem (b := Proc.devRef .tc main_arg1) seg2 (U2 m d) (List.forall_iff_forall_mem.mp (by not_written seg2))).trans (arg1_U2 m d)
theorem arg1_U4 : U4 m d (Proc.devRef .tc main_arg1) = m ((d.tc : Thread nD τ).loc main_arg1) :=
  (after_of_forall_not_mem (b := Proc.devRef .tc main_arg1) seg3 (U3 m d) (List.forall_iff_forall_mem.mp (by not_written seg3))).trans (arg1_U3 m d)
theorem arg1_U5 : U5 m d (Proc.devRef .tc main_arg1) = m ((d.tc : Thread nD τ).loc main_arg1) :=
  (after_of_forall_not_mem (b := Proc.devRef .tc main_arg1) seg4 (U4 m d) (List.forall_iff_forall_mem.mp (by not_written seg4))).trans (arg1_U4 m d)
theorem arg1_U6 : U6 m d (Proc.devRef .tc main_arg1) = m ((d.tc : Thread nD τ).loc main_arg1) :=
  (after_of_forall_not_mem (b := Proc.devRef .tc main_arg1) seg5 (U5 m d) (List.forall_iff_forall_mem.mp (by not_written seg5))).trans (arg1_U5 m d)
theorem arg2_U1 : U1 m d (Proc.devRef .tc main_arg2) = m ((d.tc : Thread nD τ).loc main_arg2) :=
  (after_of_forall_not_mem (b := Proc.devRef .tc main_arg2) seg0 (launchContents m d) (List.forall_iff_forall_mem.mp (by not_written seg0))).trans rfl
theorem arg2_U2 : U2 m d (Proc.devRef .tc main_arg2) = m ((d.tc : Thread nD τ).loc main_arg2) :=
  (after_of_forall_not_mem (b := Proc.devRef .tc main_arg2) seg1 (U1 m d) (List.forall_iff_forall_mem.mp (by not_written seg1))).trans (arg2_U1 m d)
theorem arg2_U3 : U3 m d (Proc.devRef .tc main_arg2) = m ((d.tc : Thread nD τ).loc main_arg2) :=
  (after_of_forall_not_mem (b := Proc.devRef .tc main_arg2) seg2 (U2 m d) (List.forall_iff_forall_mem.mp (by not_written seg2))).trans (arg2_U2 m d)
theorem arg3_U1 : U1 m d (Proc.devRef .tc main_arg3) = m ((d.tc : Thread nD τ).loc main_arg3) :=
  (after_of_forall_not_mem (b := Proc.devRef .tc main_arg3) seg0 (launchContents m d) (List.forall_iff_forall_mem.mp (by not_written seg0))).trans rfl
theorem arg3_U2 : U2 m d (Proc.devRef .tc main_arg3) = m ((d.tc : Thread nD τ).loc main_arg3) :=
  (after_of_forall_not_mem (b := Proc.devRef .tc main_arg3) seg1 (U1 m d) (List.forall_iff_forall_mem.mp (by not_written seg1))).trans (arg3_U1 m d)
theorem arg3_U3 : U3 m d (Proc.devRef .tc main_arg3) = m ((d.tc : Thread nD τ).loc main_arg3) :=
  (after_of_forall_not_mem (b := Proc.devRef .tc main_arg3) seg2 (U2 m d) (List.forall_iff_forall_mem.mp (by not_written seg2))).trans (arg3_U2 m d)
theorem arg4_U1 : U1 m d (Proc.devRef .tc main_arg4) = m ((d.tc : Thread nD τ).loc main_arg4) :=
  (after_of_forall_not_mem (b := Proc.devRef .tc main_arg4) seg0 (launchContents m d) (List.forall_iff_forall_mem.mp (by not_written seg0))).trans rfl
theorem arg4_U2 : U2 m d (Proc.devRef .tc main_arg4) = m ((d.tc : Thread nD τ).loc main_arg4) :=
  (after_of_forall_not_mem (b := Proc.devRef .tc main_arg4) seg1 (U1 m d) (List.forall_iff_forall_mem.mp (by not_written seg1))).trans (arg4_U1 m d)
theorem arg4_U3 : U3 m d (Proc.devRef .tc main_arg4) = m ((d.tc : Thread nD τ).loc main_arg4) :=
  (after_of_forall_not_mem (b := Proc.devRef .tc main_arg4) seg2 (U2 m d) (List.forall_iff_forall_mem.mp (by not_written seg2))).trans (arg4_U2 m d)
theorem arg4_U4 : U4 m d (Proc.devRef .tc main_arg4) = m ((d.tc : Thread nD τ).loc main_arg4) :=
  (after_of_forall_not_mem (b := Proc.devRef .tc main_arg4) seg3 (U3 m d) (List.forall_iff_forall_mem.mp (by not_written seg3))).trans (arg4_U3 m d)
theorem arg4_U5 : U5 m d (Proc.devRef .tc main_arg4) = m ((d.tc : Thread nD τ).loc main_arg4) :=
  (after_of_forall_not_mem (b := Proc.devRef .tc main_arg4) seg4 (U4 m d) (List.forall_iff_forall_mem.mp (by not_written seg4))).trans (arg4_U4 m d)
theorem arg4_U6 : U6 m d (Proc.devRef .tc main_arg4) = m ((d.tc : Thread nD τ).loc main_arg4) :=
  (after_of_forall_not_mem (b := Proc.devRef .tc main_arg4) seg5 (U5 m d) (List.forall_iff_forall_mem.mp (by not_written seg5))).trans (arg4_U5 m d)
theorem arg7_U1 : U1 m d (Proc.devRef .tc main_arg7) = m ((d.tc : Thread nD τ).loc main_arg7) :=
  (after_of_forall_not_mem (b := Proc.devRef .tc main_arg7) seg0 (launchContents m d) (List.forall_iff_forall_mem.mp (by not_written seg0))).trans rfl
theorem arg8_U1 : U1 m d (Proc.devRef .tc main_arg8) = m ((d.tc : Thread nD τ).loc main_arg8) :=
  (after_of_forall_not_mem (b := Proc.devRef .tc main_arg8) seg0 (launchContents m d) (List.forall_iff_forall_mem.mp (by not_written seg0))).trans rfl
theorem arg9_U1 : U1 m d (Proc.devRef .tc main_arg9) = m ((d.tc : Thread nD τ).loc main_arg9) :=
  (after_of_forall_not_mem (b := Proc.devRef .tc main_arg9) seg0 (launchContents m d) (List.forall_iff_forall_mem.mp (by not_written seg0))).trans rfl
theorem arg10_U1 : U1 m d (Proc.devRef .tc main_arg10) = m ((d.tc : Thread nD τ).loc main_arg10) :=
  (after_of_forall_not_mem (b := Proc.devRef .tc main_arg10) seg0 (launchContents m d) (List.forall_iff_forall_mem.mp (by not_written seg0))).trans rfl
theorem arg11_U1 : U1 m d (Proc.devRef .tc main_arg11) = m ((d.tc : Thread nD τ).loc main_arg11) :=
  (after_of_forall_not_mem (b := Proc.devRef .tc main_arg11) seg0 (launchContents m d) (List.forall_iff_forall_mem.mp (by not_written seg0))).trans rfl
theorem arg11_U2 : U2 m d (Proc.devRef .tc main_arg11) = m ((d.tc : Thread nD τ).loc main_arg11) :=
  (after_of_forall_not_mem (b := Proc.devRef .tc main_arg11) seg1 (U1 m d) (List.forall_iff_forall_mem.mp (by not_written seg1))).trans (arg11_U1 m d)
theorem arg12_U1 : U1 m d (Proc.devRef .tc main_arg12) = m ((d.tc : Thread nD τ).loc main_arg12) :=
  (after_of_forall_not_mem (b := Proc.devRef .tc main_arg12) seg0 (launchContents m d) (List.forall_iff_forall_mem.mp (by not_written seg0))).trans rfl
theorem arg12_U2 : U2 m d (Proc.devRef .tc main_arg12) = m ((d.tc : Thread nD τ).loc main_arg12) :=
  (after_of_forall_not_mem (b := Proc.devRef .tc main_arg12) seg1 (U1 m d) (List.forall_iff_forall_mem.mp (by not_written seg1))).trans (arg12_U1 m d)
theorem arg13_U1 : U1 m d (Proc.devRef .tc main_arg13) = m ((d.tc : Thread nD τ).loc main_arg13) :=
  (after_of_forall_not_mem (b := Proc.devRef .tc main_arg13) seg0 (launchContents m d) (List.forall_iff_forall_mem.mp (by not_written seg0))).trans rfl
theorem arg13_U2 : U2 m d (Proc.devRef .tc main_arg13) = m ((d.tc : Thread nD τ).loc main_arg13) :=
  (after_of_forall_not_mem (b := Proc.devRef .tc main_arg13) seg1 (U1 m d) (List.forall_iff_forall_mem.mp (by not_written seg1))).trans (arg13_U1 m d)
theorem arg13_U3 : U3 m d (Proc.devRef .tc main_arg13) = m ((d.tc : Thread nD τ).loc main_arg13) :=
  (after_of_forall_not_mem (b := Proc.devRef .tc main_arg13) seg2 (U2 m d) (List.forall_iff_forall_mem.mp (by not_written seg2))).trans (arg13_U2 m d)
theorem arg14_U1 : U1 m d (Proc.devRef .tc main_arg14) = m ((d.tc : Thread nD τ).loc main_arg14) :=
  (after_of_forall_not_mem (b := Proc.devRef .tc main_arg14) seg0 (launchContents m d) (List.forall_iff_forall_mem.mp (by not_written seg0))).trans rfl
theorem arg14_U2 : U2 m d (Proc.devRef .tc main_arg14) = m ((d.tc : Thread nD τ).loc main_arg14) :=
  (after_of_forall_not_mem (b := Proc.devRef .tc main_arg14) seg1 (U1 m d) (List.forall_iff_forall_mem.mp (by not_written seg1))).trans (arg14_U1 m d)
theorem arg14_U3 : U3 m d (Proc.devRef .tc main_arg14) = m ((d.tc : Thread nD τ).loc main_arg14) :=
  (after_of_forall_not_mem (b := Proc.devRef .tc main_arg14) seg2 (U2 m d) (List.forall_iff_forall_mem.mp (by not_written seg2))).trans (arg14_U2 m d)
theorem arg15_U1 : U1 m d (Proc.devRef .tc main_arg15) = m ((d.tc : Thread nD τ).loc main_arg15) :=
  (after_of_forall_not_mem (b := Proc.devRef .tc main_arg15) seg0 (launchContents m d) (List.forall_iff_forall_mem.mp (by not_written seg0))).trans rfl
theorem arg15_U2 : U2 m d (Proc.devRef .tc main_arg15) = m ((d.tc : Thread nD τ).loc main_arg15) :=
  (after_of_forall_not_mem (b := Proc.devRef .tc main_arg15) seg1 (U1 m d) (List.forall_iff_forall_mem.mp (by not_written seg1))).trans (arg15_U1 m d)
theorem arg15_U3 : U3 m d (Proc.devRef .tc main_arg15) = m ((d.tc : Thread nD τ).loc main_arg15) :=
  (after_of_forall_not_mem (b := Proc.devRef .tc main_arg15) seg2 (U2 m d) (List.forall_iff_forall_mem.mp (by not_written seg2))).trans (arg15_U2 m d)
theorem arg15_U4 : U4 m d (Proc.devRef .tc main_arg15) = m ((d.tc : Thread nD τ).loc main_arg15) :=
  (after_of_forall_not_mem (b := Proc.devRef .tc main_arg15) seg3 (U3 m d) (List.forall_iff_forall_mem.mp (by not_written seg3))).trans (arg15_U3 m d)
theorem arg16_U1 : U1 m d (Proc.devRef .tc main_arg16) = m ((d.tc : Thread nD τ).loc main_arg16) :=
  (after_of_forall_not_mem (b := Proc.devRef .tc main_arg16) seg0 (launchContents m d) (List.forall_iff_forall_mem.mp (by not_written seg0))).trans rfl
theorem arg16_U2 : U2 m d (Proc.devRef .tc main_arg16) = m ((d.tc : Thread nD τ).loc main_arg16) :=
  (after_of_forall_not_mem (b := Proc.devRef .tc main_arg16) seg1 (U1 m d) (List.forall_iff_forall_mem.mp (by not_written seg1))).trans (arg16_U1 m d)
theorem arg16_U3 : U3 m d (Proc.devRef .tc main_arg16) = m ((d.tc : Thread nD τ).loc main_arg16) :=
  (after_of_forall_not_mem (b := Proc.devRef .tc main_arg16) seg2 (U2 m d) (List.forall_iff_forall_mem.mp (by not_written seg2))).trans (arg16_U2 m d)
theorem arg16_U4 : U4 m d (Proc.devRef .tc main_arg16) = m ((d.tc : Thread nD τ).loc main_arg16) :=
  (after_of_forall_not_mem (b := Proc.devRef .tc main_arg16) seg3 (U3 m d) (List.forall_iff_forall_mem.mp (by not_written seg3))).trans (arg16_U3 m d)
theorem arg17_U1 : U1 m d (Proc.devRef .tc main_arg17) = m ((d.tc : Thread nD τ).loc main_arg17) :=
  (after_of_forall_not_mem (b := Proc.devRef .tc main_arg17) seg0 (launchContents m d) (List.forall_iff_forall_mem.mp (by not_written seg0))).trans rfl
theorem arg17_U2 : U2 m d (Proc.devRef .tc main_arg17) = m ((d.tc : Thread nD τ).loc main_arg17) :=
  (after_of_forall_not_mem (b := Proc.devRef .tc main_arg17) seg1 (U1 m d) (List.forall_iff_forall_mem.mp (by not_written seg1))).trans (arg17_U1 m d)
theorem arg17_U3 : U3 m d (Proc.devRef .tc main_arg17) = m ((d.tc : Thread nD τ).loc main_arg17) :=
  (after_of_forall_not_mem (b := Proc.devRef .tc main_arg17) seg2 (U2 m d) (List.forall_iff_forall_mem.mp (by not_written seg2))).trans (arg17_U2 m d)
theorem arg17_U4 : U4 m d (Proc.devRef .tc main_arg17) = m ((d.tc : Thread nD τ).loc main_arg17) :=
  (after_of_forall_not_mem (b := Proc.devRef .tc main_arg17) seg3 (U3 m d) (List.forall_iff_forall_mem.mp (by not_written seg3))).trans (arg17_U3 m d)
theorem arg18_U1 : U1 m d (Proc.devRef .tc main_arg18) = m ((d.tc : Thread nD τ).loc main_arg18) :=
  (after_of_forall_not_mem (b := Proc.devRef .tc main_arg18) seg0 (launchContents m d) (List.forall_iff_forall_mem.mp (by not_written seg0))).trans rfl
theorem arg18_U2 : U2 m d (Proc.devRef .tc main_arg18) = m ((d.tc : Thread nD τ).loc main_arg18) :=
  (after_of_forall_not_mem (b := Proc.devRef .tc main_arg18) seg1 (U1 m d) (List.forall_iff_forall_mem.mp (by not_written seg1))).trans (arg18_U1 m d)
theorem arg18_U3 : U3 m d (Proc.devRef .tc main_arg18) = m ((d.tc : Thread nD τ).loc main_arg18) :=
  (after_of_forall_not_mem (b := Proc.devRef .tc main_arg18) seg2 (U2 m d) (List.forall_iff_forall_mem.mp (by not_written seg2))).trans (arg18_U2 m d)
theorem arg18_U4 : U4 m d (Proc.devRef .tc main_arg18) = m ((d.tc : Thread nD τ).loc main_arg18) :=
  (after_of_forall_not_mem (b := Proc.devRef .tc main_arg18) seg3 (U3 m d) (List.forall_iff_forall_mem.mp (by not_written seg3))).trans (arg18_U3 m d)
theorem arg19_U1 : U1 m d (Proc.devRef .tc main_arg19) = m ((d.tc : Thread nD τ).loc main_arg19) :=
  (after_of_forall_not_mem (b := Proc.devRef .tc main_arg19) seg0 (launchContents m d) (List.forall_iff_forall_mem.mp (by not_written seg0))).trans rfl
theorem arg19_U2 : U2 m d (Proc.devRef .tc main_arg19) = m ((d.tc : Thread nD τ).loc main_arg19) :=
  (after_of_forall_not_mem (b := Proc.devRef .tc main_arg19) seg1 (U1 m d) (List.forall_iff_forall_mem.mp (by not_written seg1))).trans (arg19_U1 m d)
theorem arg19_U3 : U3 m d (Proc.devRef .tc main_arg19) = m ((d.tc : Thread nD τ).loc main_arg19) :=
  (after_of_forall_not_mem (b := Proc.devRef .tc main_arg19) seg2 (U2 m d) (List.forall_iff_forall_mem.mp (by not_written seg2))).trans (arg19_U2 m d)
theorem arg19_U4 : U4 m d (Proc.devRef .tc main_arg19) = m ((d.tc : Thread nD τ).loc main_arg19) :=
  (after_of_forall_not_mem (b := Proc.devRef .tc main_arg19) seg3 (U3 m d) (List.forall_iff_forall_mem.mp (by not_written seg3))).trans (arg19_U3 m d)
theorem arg19_U5 : U5 m d (Proc.devRef .tc main_arg19) = m ((d.tc : Thread nD τ).loc main_arg19) :=
  (after_of_forall_not_mem (b := Proc.devRef .tc main_arg19) seg4 (U4 m d) (List.forall_iff_forall_mem.mp (by not_written seg4))).trans (arg19_U4 m d)
theorem arg20_U1 : U1 m d (Proc.devRef .tc main_arg20) = m ((d.tc : Thread nD τ).loc main_arg20) :=
  (after_of_forall_not_mem (b := Proc.devRef .tc main_arg20) seg0 (launchContents m d) (List.forall_iff_forall_mem.mp (by not_written seg0))).trans rfl
theorem arg20_U2 : U2 m d (Proc.devRef .tc main_arg20) = m ((d.tc : Thread nD τ).loc main_arg20) :=
  (after_of_forall_not_mem (b := Proc.devRef .tc main_arg20) seg1 (U1 m d) (List.forall_iff_forall_mem.mp (by not_written seg1))).trans (arg20_U1 m d)
theorem arg20_U3 : U3 m d (Proc.devRef .tc main_arg20) = m ((d.tc : Thread nD τ).loc main_arg20) :=
  (after_of_forall_not_mem (b := Proc.devRef .tc main_arg20) seg2 (U2 m d) (List.forall_iff_forall_mem.mp (by not_written seg2))).trans (arg20_U2 m d)
theorem arg20_U4 : U4 m d (Proc.devRef .tc main_arg20) = m ((d.tc : Thread nD τ).loc main_arg20) :=
  (after_of_forall_not_mem (b := Proc.devRef .tc main_arg20) seg3 (U3 m d) (List.forall_iff_forall_mem.mp (by not_written seg3))).trans (arg20_U3 m d)
theorem arg20_U5 : U5 m d (Proc.devRef .tc main_arg20) = m ((d.tc : Thread nD τ).loc main_arg20) :=
  (after_of_forall_not_mem (b := Proc.devRef .tc main_arg20) seg4 (U4 m d) (List.forall_iff_forall_mem.mp (by not_written seg4))).trans (arg20_U4 m d)
theorem arg21_U1 : U1 m d (Proc.devRef .tc main_arg21) = m ((d.tc : Thread nD τ).loc main_arg21) :=
  (after_of_forall_not_mem (b := Proc.devRef .tc main_arg21) seg0 (launchContents m d) (List.forall_iff_forall_mem.mp (by not_written seg0))).trans rfl
theorem arg21_U2 : U2 m d (Proc.devRef .tc main_arg21) = m ((d.tc : Thread nD τ).loc main_arg21) :=
  (after_of_forall_not_mem (b := Proc.devRef .tc main_arg21) seg1 (U1 m d) (List.forall_iff_forall_mem.mp (by not_written seg1))).trans (arg21_U1 m d)
theorem arg21_U3 : U3 m d (Proc.devRef .tc main_arg21) = m ((d.tc : Thread nD τ).loc main_arg21) :=
  (after_of_forall_not_mem (b := Proc.devRef .tc main_arg21) seg2 (U2 m d) (List.forall_iff_forall_mem.mp (by not_written seg2))).trans (arg21_U2 m d)
theorem arg21_U4 : U4 m d (Proc.devRef .tc main_arg21) = m ((d.tc : Thread nD τ).loc main_arg21) :=
  (after_of_forall_not_mem (b := Proc.devRef .tc main_arg21) seg3 (U3 m d) (List.forall_iff_forall_mem.mp (by not_written seg3))).trans (arg21_U3 m d)
theorem arg21_U5 : U5 m d (Proc.devRef .tc main_arg21) = m ((d.tc : Thread nD τ).loc main_arg21) :=
  (after_of_forall_not_mem (b := Proc.devRef .tc main_arg21) seg4 (U4 m d) (List.forall_iff_forall_mem.mp (by not_written seg4))).trans (arg21_U4 m d)
theorem arg21_U6 : U6 m d (Proc.devRef .tc main_arg21) = m ((d.tc : Thread nD τ).loc main_arg21) :=
  (after_of_forall_not_mem (b := Proc.devRef .tc main_arg21) seg5 (U5 m d) (List.forall_iff_forall_mem.mp (by not_written seg5))).trans (arg21_U5 m d)
theorem arg22_U1 : U1 m d (Proc.devRef .tc main_arg22) = m ((d.tc : Thread nD τ).loc main_arg22) :=
  (after_of_forall_not_mem (b := Proc.devRef .tc main_arg22) seg0 (launchContents m d) (List.forall_iff_forall_mem.mp (by not_written seg0))).trans rfl
theorem arg22_U2 : U2 m d (Proc.devRef .tc main_arg22) = m ((d.tc : Thread nD τ).loc main_arg22) :=
  (after_of_forall_not_mem (b := Proc.devRef .tc main_arg22) seg1 (U1 m d) (List.forall_iff_forall_mem.mp (by not_written seg1))).trans (arg22_U1 m d)
theorem arg22_U3 : U3 m d (Proc.devRef .tc main_arg22) = m ((d.tc : Thread nD τ).loc main_arg22) :=
  (after_of_forall_not_mem (b := Proc.devRef .tc main_arg22) seg2 (U2 m d) (List.forall_iff_forall_mem.mp (by not_written seg2))).trans (arg22_U2 m d)
theorem arg22_U4 : U4 m d (Proc.devRef .tc main_arg22) = m ((d.tc : Thread nD τ).loc main_arg22) :=
  (after_of_forall_not_mem (b := Proc.devRef .tc main_arg22) seg3 (U3 m d) (List.forall_iff_forall_mem.mp (by not_written seg3))).trans (arg22_U3 m d)
theorem arg22_U5 : U5 m d (Proc.devRef .tc main_arg22) = m ((d.tc : Thread nD τ).loc main_arg22) :=
  (after_of_forall_not_mem (b := Proc.devRef .tc main_arg22) seg4 (U4 m d) (List.forall_iff_forall_mem.mp (by not_written seg4))).trans (arg22_U4 m d)
theorem arg22_U6 : U6 m d (Proc.devRef .tc main_arg22) = m ((d.tc : Thread nD τ).loc main_arg22) :=
  (after_of_forall_not_mem (b := Proc.devRef .tc main_arg22) seg5 (U5 m d) (List.forall_iff_forall_mem.mp (by not_written seg5))).trans (arg22_U5 m d)
theorem arg23_U1 : U1 m d (Proc.devRef .tc main_arg23) = m ((d.tc : Thread nD τ).loc main_arg23) :=
  (after_of_forall_not_mem (b := Proc.devRef .tc main_arg23) seg0 (launchContents m d) (List.forall_iff_forall_mem.mp (by not_written seg0))).trans rfl
theorem arg23_U2 : U2 m d (Proc.devRef .tc main_arg23) = m ((d.tc : Thread nD τ).loc main_arg23) :=
  (after_of_forall_not_mem (b := Proc.devRef .tc main_arg23) seg1 (U1 m d) (List.forall_iff_forall_mem.mp (by not_written seg1))).trans (arg23_U1 m d)
theorem arg23_U3 : U3 m d (Proc.devRef .tc main_arg23) = m ((d.tc : Thread nD τ).loc main_arg23) :=
  (after_of_forall_not_mem (b := Proc.devRef .tc main_arg23) seg2 (U2 m d) (List.forall_iff_forall_mem.mp (by not_written seg2))).trans (arg23_U2 m d)
theorem arg23_U4 : U4 m d (Proc.devRef .tc main_arg23) = m ((d.tc : Thread nD τ).loc main_arg23) :=
  (after_of_forall_not_mem (b := Proc.devRef .tc main_arg23) seg3 (U3 m d) (List.forall_iff_forall_mem.mp (by not_written seg3))).trans (arg23_U3 m d)
theorem arg23_U5 : U5 m d (Proc.devRef .tc main_arg23) = m ((d.tc : Thread nD τ).loc main_arg23) :=
  (after_of_forall_not_mem (b := Proc.devRef .tc main_arg23) seg4 (U4 m d) (List.forall_iff_forall_mem.mp (by not_written seg4))).trans (arg23_U4 m d)
theorem arg23_U6 : U6 m d (Proc.devRef .tc main_arg23) = m ((d.tc : Thread nD τ).loc main_arg23) :=
  (after_of_forall_not_mem (b := Proc.devRef .tc main_arg23) seg5 (U5 m d) (List.forall_iff_forall_mem.mp (by not_written seg5))).trans (arg23_U5 m d)
theorem arg24_U1 : U1 m d (Proc.devRef .tc main_arg24) = m ((d.tc : Thread nD τ).loc main_arg24) :=
  (after_of_forall_not_mem (b := Proc.devRef .tc main_arg24) seg0 (launchContents m d) (List.forall_iff_forall_mem.mp (by not_written seg0))).trans rfl
theorem arg24_U2 : U2 m d (Proc.devRef .tc main_arg24) = m ((d.tc : Thread nD τ).loc main_arg24) :=
  (after_of_forall_not_mem (b := Proc.devRef .tc main_arg24) seg1 (U1 m d) (List.forall_iff_forall_mem.mp (by not_written seg1))).trans (arg24_U1 m d)
theorem arg24_U3 : U3 m d (Proc.devRef .tc main_arg24) = m ((d.tc : Thread nD τ).loc main_arg24) :=
  (after_of_forall_not_mem (b := Proc.devRef .tc main_arg24) seg2 (U2 m d) (List.forall_iff_forall_mem.mp (by not_written seg2))).trans (arg24_U2 m d)
theorem arg24_U4 : U4 m d (Proc.devRef .tc main_arg24) = m ((d.tc : Thread nD τ).loc main_arg24) :=
  (after_of_forall_not_mem (b := Proc.devRef .tc main_arg24) seg3 (U3 m d) (List.forall_iff_forall_mem.mp (by not_written seg3))).trans (arg24_U3 m d)
theorem arg24_U5 : U5 m d (Proc.devRef .tc main_arg24) = m ((d.tc : Thread nD τ).loc main_arg24) :=
  (after_of_forall_not_mem (b := Proc.devRef .tc main_arg24) seg4 (U4 m d) (List.forall_iff_forall_mem.mp (by not_written seg4))).trans (arg24_U4 m d)
theorem arg24_U6 : U6 m d (Proc.devRef .tc main_arg24) = m ((d.tc : Thread nD τ).loc main_arg24) :=
  (after_of_forall_not_mem (b := Proc.devRef .tc main_arg24) seg5 (U5 m d) (List.forall_iff_forall_mem.mp (by not_written seg5))).trans (arg24_U5 m d)

/-! ## The large array each piece hands on -/

set_option maxHeartbeats 16000000 in
theorem v14_U1 : U1 m d (Proc.devRef .tc main_v14) = val_main_v14 (F := F) (m ((d.tc : Thread nD τ).loc main_arg0)) (m ((d.tc : Thread nD τ).loc main_arg2)) (m ((d.tc : Thread nD τ).loc main_arg3)) (m ((d.tc : Thread nD τ).loc main_arg5)) (m ((d.tc : Thread nD τ).loc main_arg6)) := by
  show after seg0 (launchContents m d) (Proc.devRef .tc main_v14) = _
  after_results_simp
  rfl

set_option maxHeartbeats 16000000 in
theorem v44_U2 : U2 m d (Proc.devRef .tc main_v44) = val_main_v44 (F := F) (m ((d.tc : Thread nD τ).loc main_arg0)) (m ((d.tc : Thread nD τ).loc main_arg2)) (m ((d.tc : Thread nD τ).loc main_arg3)) (m ((d.tc : Thread nD τ).loc main_arg5)) (m ((d.tc : Thread nD τ).loc main_arg6)) (m ((d.tc : Thread nD τ).loc main_arg7)) (m ((d.tc : Thread nD τ).loc main_arg8)) (m ((d.tc : Thread nD τ).loc main_arg9)) (m ((d.tc : Thread nD τ).loc main_arg10)) := by
  show after seg1 (U1 m d) (Proc.devRef .tc main_v44) = _
  after_results_simp
  rw [v14_U1, arg7_U1, arg8_U1, arg9_U1, arg10_U1]
  rfl

set_option maxHeartbeats 16000000 in
theorem v70_U3 : U3 m d (Proc.devRef .tc main_v70) = val_main_v70 (F := F) (m ((d.tc : Thread nD τ).loc main_arg0)) (m ((d.tc : Thread nD τ).loc main_arg2)) (m ((d.tc : Thread nD τ).loc main_arg3)) (m ((d.tc : Thread nD τ).loc main_arg5)) (m ((d.tc : Thread nD τ).loc main_arg6)) (m ((d.tc : Thread nD τ).loc main_arg7)) (m ((d.tc : Thread nD τ).loc main_arg8)) (m ((d.tc : Thread nD τ).loc main_arg9)) (m ((d.tc : Thread nD τ).loc main_arg10)) (m ((d.tc : Thread nD τ).loc main_arg11)) (m ((d.tc : Thread nD τ).loc main_arg12)) := by
  show after seg2 (U2 m d) (Proc.devRef .tc main_v70) = _
  after_results_simp
  rw [v44_U2, arg11_U2, arg12_U2]
  rfl

set_option maxHeartbeats 16000000 in
theorem v85_U4 : U4 m d (Proc.devRef .tc main_v85) = val_main_v85 (F := F) (m ((d.tc : Thread nD τ).loc main_arg0)) (m ((d.tc : Thread nD τ).loc main_arg2)) (m ((d.tc : Thread nD τ).loc main_arg3)) (m ((d.tc : Thread nD τ).loc main_arg5)) (m ((d.tc : Thread nD τ).loc main_arg6)) (m ((d.tc : Thread nD τ).loc main_arg7)) (m ((d.tc : Thread nD τ).loc main_arg8)) (m ((d.tc : Thread nD τ).loc main_arg9)) (m ((d.tc : Thread nD τ).loc main_arg10)) (m ((d.tc : Thread nD τ).loc main_arg11)) (m ((d.tc : Thread nD τ).loc main_arg12)) (m ((d.tc : Thread nD τ).loc main_arg13)) (m ((d.tc : Thread nD τ).loc main_arg14)) := by
  show after seg3 (U3 m d) (Proc.devRef .tc main_v85) = _
  after_results_simp
  rw [v70_U3, arg2_U3, arg3_U3, arg13_U3, arg14_U3]
  rfl

set_option maxHeartbeats 16000000 in
theorem v115_U5 : U5 m d (Proc.devRef .tc main_v115) = val_main_v115 (F := F) (m ((d.tc : Thread nD τ).loc main_arg0)) (m ((d.tc : Thread nD τ).loc main_arg2)) (m ((d.tc : Thread nD τ).loc main_arg3)) (m ((d.tc : Thread nD τ).loc main_arg5)) (m ((d.tc : Thread nD τ).loc main_arg6)) (m ((d.tc : Thread nD τ).loc main_arg7)) (m ((d.tc : Thread nD τ).loc main_arg8)) (m ((d.tc : Thread nD τ).loc main_arg9)) (m ((d.tc : Thread nD τ).loc main_arg10)) (m ((d.tc : Thread nD τ).loc main_arg11)) (m ((d.tc : Thread nD τ).loc main_arg12)) (m ((d.tc : Thread nD τ).loc main_arg13)) (m ((d.tc : Thread nD τ).loc main_arg14)) (m ((d.tc : Thread nD τ).loc main_arg15)) (m ((d.tc : Thread nD τ).loc main_arg16)) (m ((d.tc : Thread nD τ).loc main_arg17)) (m ((d.tc : Thread nD τ).loc main_arg18)) := by
  show after seg4 (U4 m d) (Proc.devRef .tc main_v115) = _
  after_results_simp
  rw [v85_U4, arg15_U4, arg16_U4, arg17_U4, arg18_U4]
  rfl

set_option maxHeartbeats 16000000 in
theorem v141_U6 : U6 m d (Proc.devRef .tc main_v141) = val_main_v141 (F := F) (m ((d.tc : Thread nD τ).loc main_arg0)) (m ((d.tc : Thread nD τ).loc main_arg2)) (m ((d.tc : Thread nD τ).loc main_arg3)) (m ((d.tc : Thread nD τ).loc main_arg5)) (m ((d.tc : Thread nD τ).loc main_arg6)) (m ((d.tc : Thread nD τ).loc main_arg7)) (m ((d.tc : Thread nD τ).loc main_arg8)) (m ((d.tc : Thread nD τ).loc main_arg9)) (m ((d.tc : Thread nD τ).loc main_arg10)) (m ((d.tc : Thread nD τ).loc main_arg11)) (m ((d.tc : Thread nD τ).loc main_arg12)) (m ((d.tc : Thread nD τ).loc main_arg13)) (m ((d.tc : Thread nD τ).loc main_arg14)) (m ((d.tc : Thread nD τ).loc main_arg15)) (m ((d.tc : Thread nD τ).loc main_arg16)) (m ((d.tc : Thread nD τ).loc main_arg17)) (m ((d.tc : Thread nD τ).loc main_arg18)) (m ((d.tc : Thread nD τ).loc main_arg19)) (m ((d.tc : Thread nD τ).loc main_arg20)) := by
  show after seg5 (U5 m d) (Proc.devRef .tc main_v141) = _
  after_results_simp
  rw [v115_U5, arg19_U5, arg20_U5]
  rfl

set_option maxHeartbeats 16000000 in
theorem v163_U7 : U7 m d (Proc.devRef .tc main_v163) = val_main_v163 (F := F) (m ((d.tc : Thread nD τ).loc main_arg0)) (m ((d.tc : Thread nD τ).loc main_arg1)) (m ((d.tc : Thread nD τ).loc main_arg2)) (m ((d.tc : Thread nD τ).loc main_arg3)) (m ((d.tc : Thread nD τ).loc main_arg4)) (m ((d.tc : Thread nD τ).loc main_arg5)) (m ((d.tc : Thread nD τ).loc main_arg6)) (m ((d.tc : Thread nD τ).loc main_arg7)) (m ((d.tc : Thread nD τ).loc main_arg8)) (m ((d.tc : Thread nD τ).loc main_arg9)) (m ((d.tc : Thread nD τ).loc main_arg10)) (m ((d.tc : Thread nD τ).loc main_arg11)) (m ((d.tc : Thread nD τ).loc main_arg12)) (m ((d.tc : Thread nD τ).loc main_arg13)) (m ((d.tc : Thread nD τ).loc main_arg14)) (m ((d.tc : Thread nD τ).loc main_arg15)) (m ((d.tc : Thread nD τ).loc main_arg16)) (m ((d.tc : Thread nD τ).loc main_arg17)) (m ((d.tc : Thread nD τ).loc main_arg18)) (m ((d.tc : Thread nD τ).loc main_arg19)) (m ((d.tc : Thread nD τ).loc main_arg20)) (m ((d.tc : Thread nD τ).loc main_arg21)) (m ((d.tc : Thread nD τ).loc main_arg22)) (m ((d.tc : Thread nD τ).loc main_arg23)) (m ((d.tc : Thread nD τ).loc main_arg24)) := by
  show after seg6 (U6 m d) (Proc.devRef .tc main_v163) = _
  after_results_simp
  results_loop
  rw [v141_U6, arg4_U6, arg1_U6, arg21_U6, arg22_U6, arg23_U6, arg24_U6]
  rfl

/-- The operations' results folded over the launch contents, at the result buffer, are the last stage. -/
theorem result_eq : after ops (launchContents m d) (Proc.devRef .tc main_v163) = val_main_v163 (F := F) (m ((d.tc : Thread nD τ).loc main_arg0)) (m ((d.tc : Thread nD τ).loc main_arg1)) (m ((d.tc : Thread nD τ).loc main_arg2)) (m ((d.tc : Thread nD τ).loc main_arg3)) (m ((d.tc : Thread nD τ).loc main_arg4)) (m ((d.tc : Thread nD τ).loc main_arg5)) (m ((d.tc : Thread nD τ).loc main_arg6)) (m ((d.tc : Thread nD τ).loc main_arg7)) (m ((d.tc : Thread nD τ).loc main_arg8)) (m ((d.tc : Thread nD τ).loc main_arg9)) (m ((d.tc : Thread nD τ).loc main_arg10)) (m ((d.tc : Thread nD τ).loc main_arg11)) (m ((d.tc : Thread nD τ).loc main_arg12)) (m ((d.tc : Thread nD τ).loc main_arg13)) (m ((d.tc : Thread nD τ).loc main_arg14)) (m ((d.tc : Thread nD τ).loc main_arg15)) (m ((d.tc : Thread nD τ).loc main_arg16)) (m ((d.tc : Thread nD τ).loc main_arg17)) (m ((d.tc : Thread nD τ).loc main_arg18)) (m ((d.tc : Thread nD τ).loc main_arg19)) (m ((d.tc : Thread nD τ).loc main_arg20)) (m ((d.tc : Thread nD τ).loc main_arg21)) (m ((d.tc : Thread nD τ).loc main_arg22)) (m ((d.tc : Thread nD τ).loc main_arg23)) (m ((d.tc : Thread nD τ).loc main_arg24)) := by
  rw [after_ops]
  exact v163_U7 m d

/-! ## The run -/

set_option maxHeartbeats 16000000 in
/-- On every device, from any memory with zero counters: every weakly fair execution of the program terminates with
    the result at the last stage of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ d : Dev nD,
      r.2.mem ((d.tc : Thread nD τ).loc main_v163) = val_main_v163 (F := F) (m ((d.tc : Thread nD τ).loc main_arg0)) (m ((d.tc : Thread nD τ).loc main_arg1)) (m ((d.tc : Thread nD τ).loc main_arg2)) (m ((d.tc : Thread nD τ).loc main_arg3)) (m ((d.tc : Thread nD τ).loc main_arg4)) (m ((d.tc : Thread nD τ).loc main_arg5)) (m ((d.tc : Thread nD τ).loc main_arg6)) (m ((d.tc : Thread nD τ).loc main_arg7)) (m ((d.tc : Thread nD τ).loc main_arg8)) (m ((d.tc : Thread nD τ).loc main_arg9)) (m ((d.tc : Thread nD τ).loc main_arg10)) (m ((d.tc : Thread nD τ).loc main_arg11)) (m ((d.tc : Thread nD τ).loc main_arg12)) (m ((d.tc : Thread nD τ).loc main_arg13)) (m ((d.tc : Thread nD τ).loc main_arg14)) (m ((d.tc : Thread nD τ).loc main_arg15)) (m ((d.tc : Thread nD τ).loc main_arg16)) (m ((d.tc : Thread nD τ).loc main_arg17)) (m ((d.tc : Thread nD τ).loc main_arg18)) (m ((d.tc : Thread nD τ).loc main_arg19)) (m ((d.tc : Thread nD τ).loc main_arg20)) (m ((d.tc : Thread nD τ).loc main_arg21)) (m ((d.tc : Thread nD τ).loc main_arg22)) (m ((d.tc : Thread nD τ).loc main_arg23)) (m ((d.tc : Thread nD τ).loc main_arg24))
      ∧ r.2.mem ((d.tc : Thread nD τ).loc main_arg0) = m ((d.tc : Thread nD τ).loc main_arg0)
      ∧ r.2.mem ((d.tc : Thread nD τ).loc main_arg1) = m ((d.tc : Thread nD τ).loc main_arg1)
      ∧ r.2.mem ((d.tc : Thread nD τ).loc main_arg2) = m ((d.tc : Thread nD τ).loc main_arg2)
      ∧ r.2.mem ((d.tc : Thread nD τ).loc main_arg3) = m ((d.tc : Thread nD τ).loc main_arg3)
      ∧ r.2.mem ((d.tc : Thread nD τ).loc main_arg4) = m ((d.tc : Thread nD τ).loc main_arg4)
      ∧ r.2.mem ((d.tc : Thread nD τ).loc main_arg5) = m ((d.tc : Thread nD τ).loc main_arg5)
      ∧ r.2.mem ((d.tc : Thread nD τ).loc main_arg6) = m ((d.tc : Thread nD τ).loc main_arg6)
      ∧ r.2.mem ((d.tc : Thread nD τ).loc main_arg7) = m ((d.tc : Thread nD τ).loc main_arg7)
      ∧ r.2.mem ((d.tc : Thread nD τ).loc main_arg8) = m ((d.tc : Thread nD τ).loc main_arg8)
      ∧ r.2.mem ((d.tc : Thread nD τ).loc main_arg9) = m ((d.tc : Thread nD τ).loc main_arg9)
      ∧ r.2.mem ((d.tc : Thread nD τ).loc main_arg10) = m ((d.tc : Thread nD τ).loc main_arg10)
      ∧ r.2.mem ((d.tc : Thread nD τ).loc main_arg11) = m ((d.tc : Thread nD τ).loc main_arg11)
      ∧ r.2.mem ((d.tc : Thread nD τ).loc main_arg12) = m ((d.tc : Thread nD τ).loc main_arg12)
      ∧ r.2.mem ((d.tc : Thread nD τ).loc main_arg13) = m ((d.tc : Thread nD τ).loc main_arg13)
      ∧ r.2.mem ((d.tc : Thread nD τ).loc main_arg14) = m ((d.tc : Thread nD τ).loc main_arg14)
      ∧ r.2.mem ((d.tc : Thread nD τ).loc main_arg15) = m ((d.tc : Thread nD τ).loc main_arg15)
      ∧ r.2.mem ((d.tc : Thread nD τ).loc main_arg16) = m ((d.tc : Thread nD τ).loc main_arg16)
      ∧ r.2.mem ((d.tc : Thread nD τ).loc main_arg17) = m ((d.tc : Thread nD τ).loc main_arg17)
      ∧ r.2.mem ((d.tc : Thread nD τ).loc main_arg18) = m ((d.tc : Thread nD τ).loc main_arg18)
      ∧ r.2.mem ((d.tc : Thread nD τ).loc main_arg19) = m ((d.tc : Thread nD τ).loc main_arg19)
      ∧ r.2.mem ((d.tc : Thread nD τ).loc main_arg20) = m ((d.tc : Thread nD τ).loc main_arg20)
      ∧ r.2.mem ((d.tc : Thread nD τ).loc main_arg21) = m ((d.tc : Thread nD τ).loc main_arg21)
      ∧ r.2.mem ((d.tc : Thread nD τ).loc main_arg22) = m ((d.tc : Thread nD τ).loc main_arg22)
      ∧ r.2.mem ((d.tc : Thread nD τ).loc main_arg23) = m ((d.tc : Thread nD τ).loc main_arg23)
      ∧ r.2.mem ((d.tc : Thread nD τ).loc main_arg24) = m ((d.tc : Thread nD τ).loc main_arg24) :=
  (θ_run defs _ _).mono (fun _ h d => ⟨(h d main_v163).trans (result_eq m d),
      (h d main_arg0).trans ((after_of_forall_not_mem (b := Proc.devRef .tc main_arg0) ops (launchContents m d) (List.forall_iff_forall_mem.mp (by not_written ops))).trans rfl),
      (h d main_arg1).trans ((after_of_forall_not_mem (b := Proc.devRef .tc main_arg1) ops (launchContents m d) (List.forall_iff_forall_mem.mp (by not_written ops))).trans rfl),
      (h d main_arg2).trans ((after_of_forall_not_mem (b := Proc.devRef .tc main_arg2) ops (launchContents m d) (List.forall_iff_forall_mem.mp (by not_written ops))).trans rfl),
      (h d main_arg3).trans ((after_of_forall_not_mem (b := Proc.devRef .tc main_arg3) ops (launchContents m d) (List.forall_iff_forall_mem.mp (by not_written ops))).trans rfl),
      (h d main_arg4).trans ((after_of_forall_not_mem (b := Proc.devRef .tc main_arg4) ops (launchContents m d) (List.forall_iff_forall_mem.mp (by not_written ops))).trans rfl),
      (h d main_arg5).trans ((after_of_forall_not_mem (b := Proc.devRef .tc main_arg5) ops (launchContents m d) (List.forall_iff_forall_mem.mp (by not_written ops))).trans rfl),
      (h d main_arg6).trans ((after_of_forall_not_mem (b := Proc.devRef .tc main_arg6) ops (launchContents m d) (List.forall_iff_forall_mem.mp (by not_written ops))).trans rfl),
      (h d main_arg7).trans ((after_of_forall_not_mem (b := Proc.devRef .tc main_arg7) ops (launchContents m d) (List.forall_iff_forall_mem.mp (by not_written ops))).trans rfl),
      (h d main_arg8).trans ((after_of_forall_not_mem (b := Proc.devRef .tc main_arg8) ops (launchContents m d) (List.forall_iff_forall_mem.mp (by not_written ops))).trans rfl),
      (h d main_arg9).trans ((after_of_forall_not_mem (b := Proc.devRef .tc main_arg9) ops (launchContents m d) (List.forall_iff_forall_mem.mp (by not_written ops))).trans rfl),
      (h d main_arg10).trans ((after_of_forall_not_mem (b := Proc.devRef .tc main_arg10) ops (launchContents m d) (List.forall_iff_forall_mem.mp (by not_written ops))).trans rfl),
      (h d main_arg11).trans ((after_of_forall_not_mem (b := Proc.devRef .tc main_arg11) ops (launchContents m d) (List.forall_iff_forall_mem.mp (by not_written ops))).trans rfl),
      (h d main_arg12).trans ((after_of_forall_not_mem (b := Proc.devRef .tc main_arg12) ops (launchContents m d) (List.forall_iff_forall_mem.mp (by not_written ops))).trans rfl),
      (h d main_arg13).trans ((after_of_forall_not_mem (b := Proc.devRef .tc main_arg13) ops (launchContents m d) (List.forall_iff_forall_mem.mp (by not_written ops))).trans rfl),
      (h d main_arg14).trans ((after_of_forall_not_mem (b := Proc.devRef .tc main_arg14) ops (launchContents m d) (List.forall_iff_forall_mem.mp (by not_written ops))).trans rfl),
      (h d main_arg15).trans ((after_of_forall_not_mem (b := Proc.devRef .tc main_arg15) ops (launchContents m d) (List.forall_iff_forall_mem.mp (by not_written ops))).trans rfl),
      (h d main_arg16).trans ((after_of_forall_not_mem (b := Proc.devRef .tc main_arg16) ops (launchContents m d) (List.forall_iff_forall_mem.mp (by not_written ops))).trans rfl),
      (h d main_arg17).trans ((after_of_forall_not_mem (b := Proc.devRef .tc main_arg17) ops (launchContents m d) (List.forall_iff_forall_mem.mp (by not_written ops))).trans rfl),
      (h d main_arg18).trans ((after_of_forall_not_mem (b := Proc.devRef .tc main_arg18) ops (launchContents m d) (List.forall_iff_forall_mem.mp (by not_written ops))).trans rfl),
      (h d main_arg19).trans ((after_of_forall_not_mem (b := Proc.devRef .tc main_arg19) ops (launchContents m d) (List.forall_iff_forall_mem.mp (by not_written ops))).trans rfl),
      (h d main_arg20).trans ((after_of_forall_not_mem (b := Proc.devRef .tc main_arg20) ops (launchContents m d) (List.forall_iff_forall_mem.mp (by not_written ops))).trans rfl),
      (h d main_arg21).trans ((after_of_forall_not_mem (b := Proc.devRef .tc main_arg21) ops (launchContents m d) (List.forall_iff_forall_mem.mp (by not_written ops))).trans rfl),
      (h d main_arg22).trans ((after_of_forall_not_mem (b := Proc.devRef .tc main_arg22) ops (launchContents m d) (List.forall_iff_forall_mem.mp (by not_written ops))).trans rfl),
      (h d main_arg23).trans ((after_of_forall_not_mem (b := Proc.devRef .tc main_arg23) ops (launchContents m d) (List.forall_iff_forall_mem.mp (by not_written ops))).trans rfl),
      (h d main_arg24).trans ((after_of_forall_not_mem (b := Proc.devRef .tc main_arg24) ops (launchContents m d) (List.forall_iff_forall_mem.mp (by not_written ops))).trans rfl)⟩)
    (run_all m ρ)

end Cert.ReferenceIdeal.RefRun

end
-- ==== Proof.KernelRun.lean ====
/-
  The idealized kernel program's run with every buffer named: from any memory with zero counters every weakly fair
  execution of the program terminates without a fault, and every buffer that outlives the program — each argument,
  each intermediate array, the result — ends holding what the last stretch of host operations leaves there, the
  contents reached by going through the program stretch by stretch and kernel call by kernel call from the launch
  memory. The frame of the program keeps only the arguments of this statement; the value of the result is read from
  the rest.
-/
import proofs.«112823_j61375082659915_1_alg».proof.Proof.Gen.KernelIdeal.Frame

set_option maxRecDepth 16384

noncomputable section

namespace Cert.KernelIdeal.RunAll

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every buffer of the TensorCore that is not scoped to a kernel call ends at the contents the program's last
    boundary names. -/
theorem run_all : θ_run defs (onTc (τ := τ) (main (F := F))) ⟨m, fun _ => 0, ρ⟩ (fun r => ∀ c : Dev nD,
      ∀ b : Ref sig .tc, ¬ (Proc.devRef .tc b : DevRef τ sig).isScoped →
        r.2.mem ((c.tc : Thread nD τ).loc b) = W15 m ρ c (Proc.devRef .tc b)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m ρ c b)
    (hfin := fun c s' => by
      iintro ⟨⟨Hh, -⟩, HSI⟩
      unfold StableHlo.held
      imodintro
      iapply (pointsTo_read_all (Pipeline.ucRefs τ sig) (fun b => (((c : Thread nD τ)).1, b)) (W15 m ρ c) s')
      isplitl [Hh] <;> iassumption)
    (hQ := fun s h c b hb => h c _ (mem_uc b hb))

end Cert.KernelIdeal.RunAll

end
-- ==== Proof.Args.lean ====
/-
  The arguments of the idealized kernel program as every stretch of host operations and every kernel call finds them:
  no host operation and no kernel call writes an argument's buffer, so at every boundary of the program an argument's
  buffer holds what it held at the launch.
-/
import proofs.«112823_j61375082659915_1_alg».proof.Proof.Gen.KernelIdeal.Frame

set_option maxRecDepth 16384

noncomputable section

namespace Cert.KernelIdeal.Args

open Cert.KernelIdeal Cert.KernelIdeal.Gen
open Idealize.ShloMosaic Idealize.ShloMosaic.TcCoe Idealize.SL.Sem

/-- No operation of a stretch writes the buffer: every operation's set of written buffers is a singleton of another
    reference. -/
macro "not_written " ops:ident : tactic =>
  `(tactic| (simp only [$ops:ident, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton] <;> (repeat' apply And.intro) <;> exact StableHlo.devRef_ne_of_ne (by decide)))

variable {F : FTy → Type} [FloatOps F]
variable (m : (ℓ : Loc nD τ sig) → Buf (Elt F) ℓ) (ρ : Dev nD → PrngReg) (c : Dev nD)

theorem arg1_W0 : W0 m ρ c (Proc.devRef .tc main_arg1) = m ((c : Thread nD τ).loc main_arg1) := rfl
theorem arg1_W1 : W1 m ρ c (Proc.devRef .tc main_arg1) = m ((c : Thread nD τ).loc main_arg1) :=
  (StableHlo.after_of_forall_not_mem (b := Proc.devRef .tc main_arg1) _ _ (List.forall_iff_forall_mem.mp (by not_written hostOps0))).trans (arg1_W0 m ρ c)
theorem arg1_W2 : W2 m ρ c (Proc.devRef .tc main_arg1) = m ((c : Thread nD τ).loc main_arg1) :=
  (W2_of_ne m ρ c main_arg1 (by decide)).trans (arg1_W1 m ρ c)
theorem arg1_W3 : W3 m ρ c (Proc.devRef .tc main_arg1) = m ((c : Thread nD τ).loc main_arg1) :=
  (StableHlo.after_of_forall_not_mem (b := Proc.devRef .tc main_arg1) _ _ (List.forall_iff_forall_mem.mp (by not_written hostOps1))).trans (arg1_W2 m ρ c)
theorem arg1_W4 : W4 m ρ c (Proc.devRef .tc main_arg1) = m ((c : Thread nD τ).loc main_arg1) :=
  (W4_of_ne m ρ c main_arg1 (by decide)).trans (arg1_W3 m ρ c)
theorem arg1_W5 : W5 m ρ c (Proc.devRef .tc main_arg1) = m ((c : Thread nD τ).loc main_arg1) :=
  (StableHlo.after_of_forall_not_mem (b := Proc.devRef .tc main_arg1) _ _ (List.forall_iff_forall_mem.mp (by not_written hostOps2))).trans (arg1_W4 m ρ c)
theorem arg1_W6 : W6 m ρ c (Proc.devRef .tc main_arg1) = m ((c : Thread nD τ).loc main_arg1) :=
  (W6_of_ne m ρ c main_arg1 (by decide)).trans (arg1_W5 m ρ c)
theorem arg1_W7 : W7 m ρ c (Proc.devRef .tc main_arg1) = m ((c : Thread nD τ).loc main_arg1) :=
  (StableHlo.after_of_forall_not_mem (b := Proc.devRef .tc main_arg1) _ _ (List.forall_iff_forall_mem.mp (by not_written hostOps3))).trans (arg1_W6 m ρ c)
theorem arg1_W8 : W8 m ρ c (Proc.devRef .tc main_arg1) = m ((c : Thread nD τ).loc main_arg1) :=
  (W8_of_ne m ρ c main_arg1 (by decide)).trans (arg1_W7 m ρ c)
theorem arg1_W9 : W9 m ρ c (Proc.devRef .tc main_arg1) = m ((c : Thread nD τ).loc main_arg1) :=
  (StableHlo.after_of_forall_not_mem (b := Proc.devRef .tc main_arg1) _ _ (List.forall_iff_forall_mem.mp (by not_written hostOps4))).trans (arg1_W8 m ρ c)
theorem arg1_W10 : W10 m ρ c (Proc.devRef .tc main_arg1) = m ((c : Thread nD τ).loc main_arg1) :=
  (W10_of_ne m ρ c main_arg1 (by decide)).trans (arg1_W9 m ρ c)
theorem arg1_W11 : W11 m ρ c (Proc.devRef .tc main_arg1) = m ((c : Thread nD τ).loc main_arg1) :=
  (StableHlo.after_of_forall_not_mem (b := Proc.devRef .tc main_arg1) _ _ (List.forall_iff_forall_mem.mp (by not_written hostOps5))).trans (arg1_W10 m ρ c)
theorem arg1_W12 : W12 m ρ c (Proc.devRef .tc main_arg1) = m ((c : Thread nD τ).loc main_arg1) :=
  (W12_of_ne m ρ c main_arg1 (by decide)).trans (arg1_W11 m ρ c)

theorem arg2_W0 : W0 m ρ c (Proc.devRef .tc main_arg2) = m ((c : Thread nD τ).loc main_arg2) := rfl
theorem arg2_W1 : W1 m ρ c (Proc.devRef .tc main_arg2) = m ((c : Thread nD τ).loc main_arg2) :=
  (StableHlo.after_of_forall_not_mem (b := Proc.devRef .tc main_arg2) _ _ (List.forall_iff_forall_mem.mp (by not_written hostOps0))).trans (arg2_W0 m ρ c)
theorem arg2_W2 : W2 m ρ c (Proc.devRef .tc main_arg2) = m ((c : Thread nD τ).loc main_arg2) :=
  (W2_of_ne m ρ c main_arg2 (by decide)).trans (arg2_W1 m ρ c)
theorem arg2_W3 : W3 m ρ c (Proc.devRef .tc main_arg2) = m ((c : Thread nD τ).loc main_arg2) :=
  (StableHlo.after_of_forall_not_mem (b := Proc.devRef .tc main_arg2) _ _ (List.forall_iff_forall_mem.mp (by not_written hostOps1))).trans (arg2_W2 m ρ c)
theorem arg2_W4 : W4 m ρ c (Proc.devRef .tc main_arg2) = m ((c : Thread nD τ).loc main_arg2) :=
  (W4_of_ne m ρ c main_arg2 (by decide)).trans (arg2_W3 m ρ c)
theorem arg2_W5 : W5 m ρ c (Proc.devRef .tc main_arg2) = m ((c : Thread nD τ).loc main_arg2) :=
  (StableHlo.after_of_forall_not_mem (b := Proc.devRef .tc main_arg2) _ _ (List.forall_iff_forall_mem.mp (by not_written hostOps2))).trans (arg2_W4 m ρ c)
theorem arg2_W6 : W6 m ρ c (Proc.devRef .tc main_arg2) = m ((c : Thread nD τ).loc main_arg2) :=
  (W6_of_ne m ρ c main_arg2 (by decide)).trans (arg2_W5 m ρ c)

theorem arg3_W0 : W0 m ρ c (Proc.devRef .tc main_arg3) = m ((c : Thread nD τ).loc main_arg3) := rfl
theorem arg3_W1 : W1 m ρ c (Proc.devRef .tc main_arg3) = m ((c : Thread nD τ).loc main_arg3) :=
  (StableHlo.after_of_forall_not_mem (b := Proc.devRef .tc main_arg3) _ _ (List.forall_iff_forall_mem.mp (by not_written hostOps0))).trans (arg3_W0 m ρ c)
theorem arg3_W2 : W2 m ρ c (Proc.devRef .tc main_arg3) = m ((c : Thread nD τ).loc main_arg3) :=
  (W2_of_ne m ρ c main_arg3 (by decide)).trans (arg3_W1 m ρ c)
theorem arg3_W3 : W3 m ρ c (Proc.devRef .tc main_arg3) = m ((c : Thread nD τ).loc main_arg3) :=
  (StableHlo.after_of_forall_not_mem (b := Proc.devRef .tc main_arg3) _ _ (List.forall_iff_forall_mem.mp (by not_written hostOps1))).trans (arg3_W2 m ρ c)
theorem arg3_W4 : W4 m ρ c (Proc.devRef .tc main_arg3) = m ((c : Thread nD τ).loc main_arg3) :=
  (W4_of_ne m ρ c main_arg3 (by decide)).trans (arg3_W3 m ρ c)
theorem arg3_W5 : W5 m ρ c (Proc.devRef .tc main_arg3) = m ((c : Thread nD τ).loc main_arg3) :=
  (StableHlo.after_of_forall_not_mem (b := Proc.devRef .tc main_arg3) _ _ (List.forall_iff_forall_mem.mp (by not_written hostOps2))).trans (arg3_W4 m ρ c)
theorem arg3_W6 : W6 m ρ c (Proc.devRef .tc main_arg3) = m ((c : Thread nD τ).loc main_arg3) :=
  (W6_of_ne m ρ c main_arg3 (by decide)).trans (arg3_W5 m ρ c)

theorem arg4_W0 : W0 m ρ c (Proc.devRef .tc main_arg4) = m ((c : Thread nD τ).loc main_arg4) := rfl
theorem arg4_W1 : W1 m ρ c (Proc.devRef .tc main_arg4) = m ((c : Thread nD τ).loc main_arg4) :=
  (StableHlo.after_of_forall_not_mem (b := Proc.devRef .tc main_arg4) _ _ (List.forall_iff_forall_mem.mp (by not_written hostOps0))).trans (arg4_W0 m ρ c)
theorem arg4_W2 : W2 m ρ c (Proc.devRef .tc main_arg4) = m ((c : Thread nD τ).loc main_arg4) :=
  (W2_of_ne m ρ c main_arg4 (by decide)).trans (arg4_W1 m ρ c)
theorem arg4_W3 : W3 m ρ c (Proc.devRef .tc main_arg4) = m ((c : Thread nD τ).loc main_arg4) :=
  (StableHlo.after_of_forall_not_mem (b := Proc.devRef .tc main_arg4) _ _ (List.forall_iff_forall_mem.mp (by not_written hostOps1))).trans (arg4_W2 m ρ c)
theorem arg4_W4 : W4 m ρ c (Proc.devRef .tc main_arg4) = m ((c : Thread nD τ).loc main_arg4) :=
  (W4_of_ne m ρ c main_arg4 (by decide)).trans (arg4_W3 m ρ c)
theorem arg4_W5 : W5 m ρ c (Proc.devRef .tc main_arg4) = m ((c : Thread nD τ).loc main_arg4) :=
  (StableHlo.after_of_forall_not_mem (b := Proc.devRef .tc main_arg4) _ _ (List.forall_iff_forall_mem.mp (by not_written hostOps2))).trans (arg4_W4 m ρ c)
theorem arg4_W6 : W6 m ρ c (Proc.devRef .tc main_arg4) = m ((c : Thread nD τ).loc main_arg4) :=
  (W6_of_ne m ρ c main_arg4 (by decide)).trans (arg4_W5 m ρ c)
theorem arg4_W7 : W7 m ρ c (Proc.devRef .tc main_arg4) = m ((c : Thread nD τ).loc main_arg4) :=
  (StableHlo.after_of_forall_not_mem (b := Proc.devRef .tc main_arg4) _ _ (List.forall_iff_forall_mem.mp (by not_written hostOps3))).trans (arg4_W6 m ρ c)
theorem arg4_W8 : W8 m ρ c (Proc.devRef .tc main_arg4) = m ((c : Thread nD τ).loc main_arg4) :=
  (W8_of_ne m ρ c main_arg4 (by decide)).trans (arg4_W7 m ρ c)
theorem arg4_W9 : W9 m ρ c (Proc.devRef .tc main_arg4) = m ((c : Thread nD τ).loc main_arg4) :=
  (StableHlo.after_of_forall_not_mem (b := Proc.devRef .tc main_arg4) _ _ (List.forall_iff_forall_mem.mp (by not_written hostOps4))).trans (arg4_W8 m ρ c)
theorem arg4_W10 : W10 m ρ c (Proc.devRef .tc main_arg4) = m ((c : Thread nD τ).loc main_arg4) :=
  (W10_of_ne m ρ c main_arg4 (by decide)).trans (arg4_W9 m ρ c)
theorem arg4_W11 : W11 m ρ c (Proc.devRef .tc main_arg4) = m ((c : Thread nD τ).loc main_arg4) :=
  (StableHlo.after_of_forall_not_mem (b := Proc.devRef .tc main_arg4) _ _ (List.forall_iff_forall_mem.mp (by not_written hostOps5))).trans (arg4_W10 m ρ c)
theorem arg4_W12 : W12 m ρ c (Proc.devRef .tc main_arg4) = m ((c : Thread nD τ).loc main_arg4) :=
  (W12_of_ne m ρ c main_arg4 (by decide)).trans (arg4_W11 m ρ c)

theorem arg5_W0 : W0 m ρ c (Proc.devRef .tc main_arg5) = m ((c : Thread nD τ).loc main_arg5) := rfl
theorem arg5_W1 : W1 m ρ c (Proc.devRef .tc main_arg5) = m ((c : Thread nD τ).loc main_arg5) :=
  (StableHlo.after_of_forall_not_mem (b := Proc.devRef .tc main_arg5) _ _ (List.forall_iff_forall_mem.mp (by not_written hostOps0))).trans (arg5_W0 m ρ c)

theorem arg7_W0 : W0 m ρ c (Proc.devRef .tc main_arg7) = m ((c : Thread nD τ).loc main_arg7) := rfl
theorem arg7_W1 : W1 m ρ c (Proc.devRef .tc main_arg7) = m ((c : Thread nD τ).loc main_arg7) :=
  (StableHlo.after_of_forall_not_mem (b := Proc.devRef .tc main_arg7) _ _ (List.forall_iff_forall_mem.mp (by not_written hostOps0))).trans (arg7_W0 m ρ c)
theorem arg7_W2 : W2 m ρ c (Proc.devRef .tc main_arg7) = m ((c : Thread nD τ).loc main_arg7) :=
  (W2_of_ne m ρ c main_arg7 (by decide)).trans (arg7_W1 m ρ c)

theorem arg8_W0 : W0 m ρ c (Proc.devRef .tc main_arg8) = m ((c : Thread nD τ).loc main_arg8) := rfl
theorem arg8_W1 : W1 m ρ c (Proc.devRef .tc main_arg8) = m ((c : Thread nD τ).loc main_arg8) :=
  (StableHlo.after_of_forall_not_mem (b := Proc.devRef .tc main_arg8) _ _ (List.forall_iff_forall_mem.mp (by not_written hostOps0))).trans (arg8_W0 m ρ c)
theorem arg8_W2 : W2 m ρ c (Proc.devRef .tc main_arg8) = m ((c : Thread nD τ).loc main_arg8) :=
  (W2_of_ne m ρ c main_arg8 (by decide)).trans (arg8_W1 m ρ c)

theorem arg9_W0 : W0 m ρ c (Proc.devRef .tc main_arg9) = m ((c : Thread nD τ).loc main_arg9) := rfl
theorem arg9_W1 : W1 m ρ c (Proc.devRef .tc main_arg9) = m ((c : Thread nD τ).loc main_arg9) :=
  (StableHlo.after_of_forall_not_mem (b := Proc.devRef .tc main_arg9) _ _ (List.forall_iff_forall_mem.mp (by not_written hostOps0))).trans (arg9_W0 m ρ c)
theorem arg9_W2 : W2 m ρ c (Proc.devRef .tc main_arg9) = m ((c : Thread nD τ).loc main_arg9) :=
  (W2_of_ne m ρ c main_arg9 (by decide)).trans (arg9_W1 m ρ c)
theorem arg9_W3 : W3 m ρ c (Proc.devRef .tc main_arg9) = m ((c : Thread nD τ).loc main_arg9) :=
  (StableHlo.after_of_forall_not_mem (b := Proc.devRef .tc main_arg9) _ _ (List.forall_iff_forall_mem.mp (by not_written hostOps1))).trans (arg9_W2 m ρ c)

theorem arg10_W0 : W0 m ρ c (Proc.devRef .tc main_arg10) = m ((c : Thread nD τ).loc main_arg10) := rfl
theorem arg10_W1 : W1 m ρ c (Proc.devRef .tc main_arg10) = m ((c : Thread nD τ).loc main_arg10) :=
  (StableHlo.after_of_forall_not_mem (b := Proc.devRef .tc main_arg10) _ _ (List.forall_iff_forall_mem.mp (by not_written hostOps0))).trans (arg10_W0 m ρ c)
theorem arg10_W2 : W2 m ρ c (Proc.devRef .tc main_arg10) = m ((c : Thread nD τ).loc main_arg10) :=
  (W2_of_ne m ρ c main_arg10 (by decide)).trans (arg10_W1 m ρ c)

theorem arg11_W0 : W0 m ρ c (Proc.devRef .tc main_arg11) = m ((c : Thread nD τ).loc main_arg11) := rfl
theorem arg11_W1 : W1 m ρ c (Proc.devRef .tc main_arg11) = m ((c : Thread nD τ).loc main_arg11) :=
  (StableHlo.after_of_forall_not_mem (b := Proc.devRef .tc main_arg11) _ _ (List.forall_iff_forall_mem.mp (by not_written hostOps0))).trans (arg11_W0 m ρ c)
theorem arg11_W2 : W2 m ρ c (Proc.devRef .tc main_arg11) = m ((c : Thread nD τ).loc main_arg11) :=
  (W2_of_ne m ρ c main_arg11 (by decide)).trans (arg11_W1 m ρ c)
theorem arg11_W3 : W3 m ρ c (Proc.devRef .tc main_arg11) = m ((c : Thread nD τ).loc main_arg11) :=
  (StableHlo.after_of_forall_not_mem (b := Proc.devRef .tc main_arg11) _ _ (List.forall_iff_forall_mem.mp (by not_written hostOps1))).trans (arg11_W2 m ρ c)
theorem arg11_W4 : W4 m ρ c (Proc.devRef .tc main_arg11) = m ((c : Thread nD τ).loc main_arg11) :=
  (W4_of_ne m ρ c main_arg11 (by decide)).trans (arg11_W3 m ρ c)

theorem arg12_W0 : W0 m ρ c (Proc.devRef .tc main_arg12) = m ((c : Thread nD τ).loc main_arg12) := rfl
theorem arg12_W1 : W1 m ρ c (Proc.devRef .tc main_arg12) = m ((c : Thread nD τ).loc main_arg12) :=
  (StableHlo.after_of_forall_not_mem (b := Proc.devRef .tc main_arg12) _ _ (List.forall_iff_forall_mem.mp (by not_written hostOps0))).trans (arg12_W0 m ρ c)
theorem arg12_W2 : W2 m ρ c (Proc.devRef .tc main_arg12) = m ((c : Thread nD τ).loc main_arg12) :=
  (W2_of_ne m ρ c main_arg12 (by decide)).trans (arg12_W1 m ρ c)
theorem arg12_W3 : W3 m ρ c (Proc.devRef .tc main_arg12) = m ((c : Thread nD τ).loc main_arg12) :=
  (StableHlo.after_of_forall_not_mem (b := Proc.devRef .tc main_arg12) _ _ (List.forall_iff_forall_mem.mp (by not_written hostOps1))).trans (arg12_W2 m ρ c)
theorem arg12_W4 : W4 m ρ c (Proc.devRef .tc main_arg12) = m ((c : Thread nD τ).loc main_arg12) :=
  (W4_of_ne m ρ c main_arg12 (by decide)).trans (arg12_W3 m ρ c)

theorem arg13_W0 : W0 m ρ c (Proc.devRef .tc main_arg13) = m ((c : Thread nD τ).loc main_arg13) := rfl
theorem arg13_W1 : W1 m ρ c (Proc.devRef .tc main_arg13) = m ((c : Thread nD τ).loc main_arg13) :=
  (StableHlo.after_of_forall_not_mem (b := Proc.devRef .tc main_arg13) _ _ (List.forall_iff_forall_mem.mp (by not_written hostOps0))).trans (arg13_W0 m ρ c)
theorem arg13_W2 : W2 m ρ c (Proc.devRef .tc main_arg13) = m ((c : Thread nD τ).loc main_arg13) :=
  (W2_of_ne m ρ c main_arg13 (by decide)).trans (arg13_W1 m ρ c)
theorem arg13_W3 : W3 m ρ c (Proc.devRef .tc main_arg13) = m ((c : Thread nD τ).loc main_arg13) :=
  (StableHlo.after_of_forall_not_mem (b := Proc.devRef .tc main_arg13) _ _ (List.forall_iff_forall_mem.mp (by not_written hostOps1))).trans (arg13_W2 m ρ c)
theorem arg13_W4 : W4 m ρ c (Proc.devRef .tc main_arg13) = m ((c : Thread nD τ).loc main_arg13) :=
  (W4_of_ne m ρ c main_arg13 (by decide)).trans (arg13_W3 m ρ c)
theorem arg13_W5 : W5 m ρ c (Proc.devRef .tc main_arg13) = m ((c : Thread nD τ).loc main_arg13) :=
  (StableHlo.after_of_forall_not_mem (b := Proc.devRef .tc main_arg13) _ _ (List.forall_iff_forall_mem.mp (by not_written hostOps2))).trans (arg13_W4 m ρ c)
theorem arg13_W6 : W6 m ρ c (Proc.devRef .tc main_arg13) = m ((c : Thread nD τ).loc main_arg13) :=
  (W6_of_ne m ρ c main_arg13 (by decide)).trans (arg13_W5 m ρ c)
theorem arg13_W7 : W7 m ρ c (Proc.devRef .tc main_arg13) = m ((c : Thread nD τ).loc main_arg13) :=
  (StableHlo.after_of_forall_not_mem (b := Proc.devRef .tc main_arg13) _ _ (List.forall_iff_forall_mem.mp (by not_written hostOps3))).trans (arg13_W6 m ρ c)

theorem arg14_W0 : W0 m ρ c (Proc.devRef .tc main_arg14) = m ((c : Thread nD τ).loc main_arg14) := rfl
theorem arg14_W1 : W1 m ρ c (Proc.devRef .tc main_arg14) = m ((c : Thread nD τ).loc main_arg14) :=
  (StableHlo.after_of_forall_not_mem (b := Proc.devRef .tc main_arg14) _ _ (List.forall_iff_forall_mem.mp (by not_written hostOps0))).trans (arg14_W0 m ρ c)
theorem arg14_W2 : W2 m ρ c (Proc.devRef .tc main_arg14) = m ((c : Thread nD τ).loc main_arg14) :=
  (W2_of_ne m ρ c main_arg14 (by decide)).trans (arg14_W1 m ρ c)
theorem arg14_W3 : W3 m ρ c (Proc.devRef .tc main_arg14) = m ((c : Thread nD τ).loc main_arg14) :=
  (StableHlo.after_of_forall_not_mem (b := Proc.devRef .tc main_arg14) _ _ (List.forall_iff_forall_mem.mp (by not_written hostOps1))).trans (arg14_W2 m ρ c)
theorem arg14_W4 : W4 m ρ c (Proc.devRef .tc main_arg14) = m ((c : Thread nD τ).loc main_arg14) :=
  (W4_of_ne m ρ c main_arg14 (by decide)).trans (arg14_W3 m ρ c)
theorem arg14_W5 : W5 m ρ c (Proc.devRef .tc main_arg14) = m ((c : Thread nD τ).loc main_arg14) :=
  (StableHlo.after_of_forall_not_mem (b := Proc.devRef .tc main_arg14) _ _ (List.forall_iff_forall_mem.mp (by not_written hostOps2))).trans (arg14_W4 m ρ c)
theorem arg14_W6 : W6 m ρ c (Proc.devRef .tc main_arg14) = m ((c : Thread nD τ).loc main_arg14) :=
  (W6_of_ne m ρ c main_arg14 (by decide)).trans (arg14_W5 m ρ c)

theorem arg15_W0 : W0 m ρ c (Proc.devRef .tc main_arg15) = m ((c : Thread nD τ).loc main_arg15) := rfl
theorem arg15_W1 : W1 m ρ c (Proc.devRef .tc main_arg15) = m ((c : Thread nD τ).loc main_arg15) :=
  (StableHlo.after_of_forall_not_mem (b := Proc.devRef .tc main_arg15) _ _ (List.forall_iff_forall_mem.mp (by not_written hostOps0))).trans (arg15_W0 m ρ c)
theorem arg15_W2 : W2 m ρ c (Proc.devRef .tc main_arg15) = m ((c : Thread nD τ).loc main_arg15) :=
  (W2_of_ne m ρ c main_arg15 (by decide)).trans (arg15_W1 m ρ c)
theorem arg15_W3 : W3 m ρ c (Proc.devRef .tc main_arg15) = m ((c : Thread nD τ).loc main_arg15) :=
  (StableHlo.after_of_forall_not_mem (b := Proc.devRef .tc main_arg15) _ _ (List.forall_iff_forall_mem.mp (by not_written hostOps1))).trans (arg15_W2 m ρ c)
theorem arg15_W4 : W4 m ρ c (Proc.devRef .tc main_arg15) = m ((c : Thread nD τ).loc main_arg15) :=
  (W4_of_ne m ρ c main_arg15 (by decide)).trans (arg15_W3 m ρ c)
theorem arg15_W5 : W5 m ρ c (Proc.devRef .tc main_arg15) = m ((c : Thread nD τ).loc main_arg15) :=
  (StableHlo.after_of_forall_not_mem (b := Proc.devRef .tc main_arg15) _ _ (List.forall_iff_forall_mem.mp (by not_written hostOps2))).trans (arg15_W4 m ρ c)
theorem arg15_W6 : W6 m ρ c (Proc.devRef .tc main_arg15) = m ((c : Thread nD τ).loc main_arg15) :=
  (W6_of_ne m ρ c main_arg15 (by decide)).trans (arg15_W5 m ρ c)
theorem arg15_W7 : W7 m ρ c (Proc.devRef .tc main_arg15) = m ((c : Thread nD τ).loc main_arg15) :=
  (StableHlo.after_of_forall_not_mem (b := Proc.devRef .tc main_arg15) _ _ (List.forall_iff_forall_mem.mp (by not_written hostOps3))).trans (arg15_W6 m ρ c)
theorem arg15_W8 : W8 m ρ c (Proc.devRef .tc main_arg15) = m ((c : Thread nD τ).loc main_arg15) :=
  (W8_of_ne m ρ c main_arg15 (by decide)).trans (arg15_W7 m ρ c)

theorem arg16_W0 : W0 m ρ c (Proc.devRef .tc main_arg16) = m ((c : Thread nD τ).loc main_arg16) := rfl
theorem arg16_W1 : W1 m ρ c (Proc.devRef .tc main_arg16) = m ((c : Thread nD τ).loc main_arg16) :=
  (StableHlo.after_of_forall_not_mem (b := Proc.devRef .tc main_arg16) _ _ (List.forall_iff_forall_mem.mp (by not_written hostOps0))).trans (arg16_W0 m ρ c)
theorem arg16_W2 : W2 m ρ c (Proc.devRef .tc main_arg16) = m ((c : Thread nD τ).loc main_arg16) :=
  (W2_of_ne m ρ c main_arg16 (by decide)).trans (arg16_W1 m ρ c)
theorem arg16_W3 : W3 m ρ c (Proc.devRef .tc main_arg16) = m ((c : Thread nD τ).loc main_arg16) :=
  (StableHlo.after_of_forall_not_mem (b := Proc.devRef .tc main_arg16) _ _ (List.forall_iff_forall_mem.mp (by not_written hostOps1))).trans (arg16_W2 m ρ c)
theorem arg16_W4 : W4 m ρ c (Proc.devRef .tc main_arg16) = m ((c : Thread nD τ).loc main_arg16) :=
  (W4_of_ne m ρ c main_arg16 (by decide)).trans (arg16_W3 m ρ c)
theorem arg16_W5 : W5 m ρ c (Proc.devRef .tc main_arg16) = m ((c : Thread nD τ).loc main_arg16) :=
  (StableHlo.after_of_forall_not_mem (b := Proc.devRef .tc main_arg16) _ _ (List.forall_iff_forall_mem.mp (by not_written hostOps2))).trans (arg16_W4 m ρ c)
theorem arg16_W6 : W6 m ρ c (Proc.devRef .tc main_arg16) = m ((c : Thread nD τ).loc main_arg16) :=
  (W6_of_ne m ρ c main_arg16 (by decide)).trans (arg16_W5 m ρ c)
theorem arg16_W7 : W7 m ρ c (Proc.devRef .tc main_arg16) = m ((c : Thread nD τ).loc main_arg16) :=
  (StableHlo.after_of_forall_not_mem (b := Proc.devRef .tc main_arg16) _ _ (List.forall_iff_forall_mem.mp (by not_written hostOps3))).trans (arg16_W6 m ρ c)
theorem arg16_W8 : W8 m ρ c (Proc.devRef .tc main_arg16) = m ((c : Thread nD τ).loc main_arg16) :=
  (W8_of_ne m ρ c main_arg16 (by decide)).trans (arg16_W7 m ρ c)

theorem arg17_W0 : W0 m ρ c (Proc.devRef .tc main_arg17) = m ((c : Thread nD τ).loc main_arg17) := rfl
theorem arg17_W1 : W1 m ρ c (Proc.devRef .tc main_arg17) = m ((c : Thread nD τ).loc main_arg17) :=
  (StableHlo.after_of_forall_not_mem (b := Proc.devRef .tc main_arg17) _ _ (List.forall_iff_forall_mem.mp (by not_written hostOps0))).trans (arg17_W0 m ρ c)
theorem arg17_W2 : W2 m ρ c (Proc.devRef .tc main_arg17) = m ((c : Thread nD τ).loc main_arg17) :=
  (W2_of_ne m ρ c main_arg17 (by decide)).trans (arg17_W1 m ρ c)
theorem arg17_W3 : W3 m ρ c (Proc.devRef .tc main_arg17) = m ((c : Thread nD τ).loc main_arg17) :=
  (StableHlo.after_of_forall_not_mem (b := Proc.devRef .tc main_arg17) _ _ (List.forall_iff_forall_mem.mp (by not_written hostOps1))).trans (arg17_W2 m ρ c)
theorem arg17_W4 : W4 m ρ c (Proc.devRef .tc main_arg17) = m ((c : Thread nD τ).loc main_arg17) :=
  (W4_of_ne m ρ c main_arg17 (by decide)).trans (arg17_W3 m ρ c)
theorem arg17_W5 : W5 m ρ c (Proc.devRef .tc main_arg17) = m ((c : Thread nD τ).loc main_arg17) :=
  (StableHlo.after_of_forall_not_mem (b := Proc.devRef .tc main_arg17) _ _ (List.forall_iff_forall_mem.mp (by not_written hostOps2))).trans (arg17_W4 m ρ c)
theorem arg17_W6 : W6 m ρ c (Proc.devRef .tc main_arg17) = m ((c : Thread nD τ).loc main_arg17) :=
  (W6_of_ne m ρ c main_arg17 (by decide)).trans (arg17_W5 m ρ c)
theorem arg17_W7 : W7 m ρ c (Proc.devRef .tc main_arg17) = m ((c : Thread nD τ).loc main_arg17) :=
  (StableHlo.after_of_forall_not_mem (b := Proc.devRef .tc main_arg17) _ _ (List.forall_iff_forall_mem.mp (by not_written hostOps3))).trans (arg17_W6 m ρ c)
theorem arg17_W8 : W8 m ρ c (Proc.devRef .tc main_arg17) = m ((c : Thread nD τ).loc main_arg17) :=
  (W8_of_ne m ρ c main_arg17 (by decide)).trans (arg17_W7 m ρ c)
theorem arg17_W9 : W9 m ρ c (Proc.devRef .tc main_arg17) = m ((c : Thread nD τ).loc main_arg17) :=
  (StableHlo.after_of_forall_not_mem (b := Proc.devRef .tc main_arg17) _ _ (List.forall_iff_forall_mem.mp (by not_written hostOps4))).trans (arg17_W8 m ρ c)

theorem arg18_W0 : W0 m ρ c (Proc.devRef .tc main_arg18) = m ((c : Thread nD τ).loc main_arg18) := rfl
theorem arg18_W1 : W1 m ρ c (Proc.devRef .tc main_arg18) = m ((c : Thread nD τ).loc main_arg18) :=
  (StableHlo.after_of_forall_not_mem (b := Proc.devRef .tc main_arg18) _ _ (List.forall_iff_forall_mem.mp (by not_written hostOps0))).trans (arg18_W0 m ρ c)
theorem arg18_W2 : W2 m ρ c (Proc.devRef .tc main_arg18) = m ((c : Thread nD τ).loc main_arg18) :=
  (W2_of_ne m ρ c main_arg18 (by decide)).trans (arg18_W1 m ρ c)
theorem arg18_W3 : W3 m ρ c (Proc.devRef .tc main_arg18) = m ((c : Thread nD τ).loc main_arg18) :=
  (StableHlo.after_of_forall_not_mem (b := Proc.devRef .tc main_arg18) _ _ (List.forall_iff_forall_mem.mp (by not_written hostOps1))).trans (arg18_W2 m ρ c)
theorem arg18_W4 : W4 m ρ c (Proc.devRef .tc main_arg18) = m ((c : Thread nD τ).loc main_arg18) :=
  (W4_of_ne m ρ c main_arg18 (by decide)).trans (arg18_W3 m ρ c)
theorem arg18_W5 : W5 m ρ c (Proc.devRef .tc main_arg18) = m ((c : Thread nD τ).loc main_arg18) :=
  (StableHlo.after_of_forall_not_mem (b := Proc.devRef .tc main_arg18) _ _ (List.forall_iff_forall_mem.mp (by not_written hostOps2))).trans (arg18_W4 m ρ c)
theorem arg18_W6 : W6 m ρ c (Proc.devRef .tc main_arg18) = m ((c : Thread nD τ).loc main_arg18) :=
  (W6_of_ne m ρ c main_arg18 (by decide)).trans (arg18_W5 m ρ c)
theorem arg18_W7 : W7 m ρ c (Proc.devRef .tc main_arg18) = m ((c : Thread nD τ).loc main_arg18) :=
  (StableHlo.after_of_forall_not_mem (b := Proc.devRef .tc main_arg18) _ _ (List.forall_iff_forall_mem.mp (by not_written hostOps3))).trans (arg18_W6 m ρ c)
theorem arg18_W8 : W8 m ρ c (Proc.devRef .tc main_arg18) = m ((c : Thread nD τ).loc main_arg18) :=
  (W8_of_ne m ρ c main_arg18 (by decide)).trans (arg18_W7 m ρ c)

theorem arg19_W0 : W0 m ρ c (Proc.devRef .tc main_arg19) = m ((c : Thread nD τ).loc main_arg19) := rfl
theorem arg19_W1 : W1 m ρ c (Proc.devRef .tc main_arg19) = m ((c : Thread nD τ).loc main_arg19) :=
  (StableHlo.after_of_forall_not_mem (b := Proc.devRef .tc main_arg19) _ _ (List.forall_iff_forall_mem.mp (by not_written hostOps0))).trans (arg19_W0 m ρ c)
theorem arg19_W2 : W2 m ρ c (Proc.devRef .tc main_arg19) = m ((c : Thread nD τ).loc main_arg19) :=
  (W2_of_ne m ρ c main_arg19 (by decide)).trans (arg19_W1 m ρ c)
theorem arg19_W3 : W3 m ρ c (Proc.devRef .tc main_arg19) = m ((c : Thread nD τ).loc main_arg19) :=
  (StableHlo.after_of_forall_not_mem (b := Proc.devRef .tc main_arg19) _ _ (List.forall_iff_forall_mem.mp (by not_written hostOps1))).trans (arg19_W2 m ρ c)
theorem arg19_W4 : W4 m ρ c (Proc.devRef .tc main_arg19) = m ((c : Thread nD τ).loc main_arg19) :=
  (W4_of_ne m ρ c main_arg19 (by decide)).trans (arg19_W3 m ρ c)
theorem arg19_W5 : W5 m ρ c (Proc.devRef .tc main_arg19) = m ((c : Thread nD τ).loc main_arg19) :=
  (StableHlo.after_of_forall_not_mem (b := Proc.devRef .tc main_arg19) _ _ (List.forall_iff_forall_mem.mp (by not_written hostOps2))).trans (arg19_W4 m ρ c)
theorem arg19_W6 : W6 m ρ c (Proc.devRef .tc main_arg19) = m ((c : Thread nD τ).loc main_arg19) :=
  (W6_of_ne m ρ c main_arg19 (by decide)).trans (arg19_W5 m ρ c)
theorem arg19_W7 : W7 m ρ c (Proc.devRef .tc main_arg19) = m ((c : Thread nD τ).loc main_arg19) :=
  (StableHlo.after_of_forall_not_mem (b := Proc.devRef .tc main_arg19) _ _ (List.forall_iff_forall_mem.mp (by not_written hostOps3))).trans (arg19_W6 m ρ c)
theorem arg19_W8 : W8 m ρ c (Proc.devRef .tc main_arg19) = m ((c : Thread nD τ).loc main_arg19) :=
  (W8_of_ne m ρ c main_arg19 (by decide)).trans (arg19_W7 m ρ c)
theorem arg19_W9 : W9 m ρ c (Proc.devRef .tc main_arg19) = m ((c : Thread nD τ).loc main_arg19) :=
  (StableHlo.after_of_forall_not_mem (b := Proc.devRef .tc main_arg19) _ _ (List.forall_iff_forall_mem.mp (by not_written hostOps4))).trans (arg19_W8 m ρ c)
theorem arg19_W10 : W10 m ρ c (Proc.devRef .tc main_arg19) = m ((c : Thread nD τ).loc main_arg19) :=
  (W10_of_ne m ρ c main_arg19 (by decide)).trans (arg19_W9 m ρ c)

theorem arg20_W0 : W0 m ρ c (Proc.devRef .tc main_arg20) = m ((c : Thread nD τ).loc main_arg20) := rfl
theorem arg20_W1 : W1 m ρ c (Proc.devRef .tc main_arg20) = m ((c : Thread nD τ).loc main_arg20) :=
  (StableHlo.after_of_forall_not_mem (b := Proc.devRef .tc main_arg20) _ _ (List.forall_iff_forall_mem.mp (by not_written hostOps0))).trans (arg20_W0 m ρ c)
theorem arg20_W2 : W2 m ρ c (Proc.devRef .tc main_arg20) = m ((c : Thread nD τ).loc main_arg20) :=
  (W2_of_ne m ρ c main_arg20 (by decide)).trans (arg20_W1 m ρ c)
theorem arg20_W3 : W3 m ρ c (Proc.devRef .tc main_arg20) = m ((c : Thread nD τ).loc main_arg20) :=
  (StableHlo.after_of_forall_not_mem (b := Proc.devRef .tc main_arg20) _ _ (List.forall_iff_forall_mem.mp (by not_written hostOps1))).trans (arg20_W2 m ρ c)
theorem arg20_W4 : W4 m ρ c (Proc.devRef .tc main_arg20) = m ((c : Thread nD τ).loc main_arg20) :=
  (W4_of_ne m ρ c main_arg20 (by decide)).trans (arg20_W3 m ρ c)
theorem arg20_W5 : W5 m ρ c (Proc.devRef .tc main_arg20) = m ((c : Thread nD τ).loc main_arg20) :=
  (StableHlo.after_of_forall_not_mem (b := Proc.devRef .tc main_arg20) _ _ (List.forall_iff_forall_mem.mp (by not_written hostOps2))).trans (arg20_W4 m ρ c)
theorem arg20_W6 : W6 m ρ c (Proc.devRef .tc main_arg20) = m ((c : Thread nD τ).loc main_arg20) :=
  (W6_of_ne m ρ c main_arg20 (by decide)).trans (arg20_W5 m ρ c)
theorem arg20_W7 : W7 m ρ c (Proc.devRef .tc main_arg20) = m ((c : Thread nD τ).loc main_arg20) :=
  (StableHlo.after_of_forall_not_mem (b := Proc.devRef .tc main_arg20) _ _ (List.forall_iff_forall_mem.mp (by not_written hostOps3))).trans (arg20_W6 m ρ c)
theorem arg20_W8 : W8 m ρ c (Proc.devRef .tc main_arg20) = m ((c : Thread nD τ).loc main_arg20) :=
  (W8_of_ne m ρ c main_arg20 (by decide)).trans (arg20_W7 m ρ c)
theorem arg20_W9 : W9 m ρ c (Proc.devRef .tc main_arg20) = m ((c : Thread nD τ).loc main_arg20) :=
  (StableHlo.after_of_forall_not_mem (b := Proc.devRef .tc main_arg20) _ _ (List.forall_iff_forall_mem.mp (by not_written hostOps4))).trans (arg20_W8 m ρ c)
theorem arg20_W10 : W10 m ρ c (Proc.devRef .tc main_arg20) = m ((c : Thread nD τ).loc main_arg20) :=
  (W10_of_ne m ρ c main_arg20 (by decide)).trans (arg20_W9 m ρ c)

theorem arg21_W0 : W0 m ρ c (Proc.devRef .tc main_arg21) = m ((c : Thread nD τ).loc main_arg21) := rfl
theorem arg21_W1 : W1 m ρ c (Proc.devRef .tc main_arg21) = m ((c : Thread nD τ).loc main_arg21) :=
  (StableHlo.after_of_forall_not_mem (b := Proc.devRef .tc main_arg21) _ _ (List.forall_iff_forall_mem.mp (by not_written hostOps0))).trans (arg21_W0 m ρ c)
theorem arg21_W2 : W2 m ρ c (Proc.devRef .tc main_arg21) = m ((c : Thread nD τ).loc main_arg21) :=
  (W2_of_ne m ρ c main_arg21 (by decide)).trans (arg21_W1 m ρ c)
theorem arg21_W3 : W3 m ρ c (Proc.devRef .tc main_arg21) = m ((c : Thread nD τ).loc main_arg21) :=
  (StableHlo.after_of_forall_not_mem (b := Proc.devRef .tc main_arg21) _ _ (List.forall_iff_forall_mem.mp (by not_written hostOps1))).trans (arg21_W2 m ρ c)
theorem arg21_W4 : W4 m ρ c (Proc.devRef .tc main_arg21) = m ((c : Thread nD τ).loc main_arg21) :=
  (W4_of_ne m ρ c main_arg21 (by decide)).trans (arg21_W3 m ρ c)
theorem arg21_W5 : W5 m ρ c (Proc.devRef .tc main_arg21) = m ((c : Thread nD τ).loc main_arg21) :=
  (StableHlo.after_of_forall_not_mem (b := Proc.devRef .tc main_arg21) _ _ (List.forall_iff_forall_mem.mp (by not_written hostOps2))).trans (arg21_W4 m ρ c)
theorem arg21_W6 : W6 m ρ c (Proc.devRef .tc main_arg21) = m ((c : Thread nD τ).loc main_arg21) :=
  (W6_of_ne m ρ c main_arg21 (by decide)).trans (arg21_W5 m ρ c)
theorem arg21_W7 : W7 m ρ c (Proc.devRef .tc main_arg21) = m ((c : Thread nD τ).loc main_arg21) :=
  (StableHlo.after_of_forall_not_mem (b := Proc.devRef .tc main_arg21) _ _ (List.forall_iff_forall_mem.mp (by not_written hostOps3))).trans (arg21_W6 m ρ c)
theorem arg21_W8 : W8 m ρ c (Proc.devRef .tc main_arg21) = m ((c : Thread nD τ).loc main_arg21) :=
  (W8_of_ne m ρ c main_arg21 (by decide)).trans (arg21_W7 m ρ c)
theorem arg21_W9 : W9 m ρ c (Proc.devRef .tc main_arg21) = m ((c : Thread nD τ).loc main_arg21) :=
  (StableHlo.after_of_forall_not_mem (b := Proc.devRef .tc main_arg21) _ _ (List.forall_iff_forall_mem.mp (by not_written hostOps4))).trans (arg21_W8 m ρ c)
theorem arg21_W10 : W10 m ρ c (Proc.devRef .tc main_arg21) = m ((c : Thread nD τ).loc main_arg21) :=
  (W10_of_ne m ρ c main_arg21 (by decide)).trans (arg21_W9 m ρ c)
theorem arg21_W11 : W11 m ρ c (Proc.devRef .tc main_arg21) = m ((c : Thread nD τ).loc main_arg21) :=
  (StableHlo.after_of_forall_not_mem (b := Proc.devRef .tc main_arg21) _ _ (List.forall_iff_forall_mem.mp (by not_written hostOps5))).trans (arg21_W10 m ρ c)
theorem arg21_W12 : W12 m ρ c (Proc.devRef .tc main_arg21) = m ((c : Thread nD τ).loc main_arg21) :=
  (W12_of_ne m ρ c main_arg21 (by decide)).trans (arg21_W11 m ρ c)

theorem arg22_W0 : W0 m ρ c (Proc.devRef .tc main_arg22) = m ((c : Thread nD τ).loc main_arg22) := rfl
theorem arg22_W1 : W1 m ρ c (Proc.devRef .tc main_arg22) = m ((c : Thread nD τ).loc main_arg22) :=
  (StableHlo.after_of_forall_not_mem (b := Proc.devRef .tc main_arg22) _ _ (List.forall_iff_forall_mem.mp (by not_written hostOps0))).trans (arg22_W0 m ρ c)
theorem arg22_W2 : W2 m ρ c (Proc.devRef .tc main_arg22) = m ((c : Thread nD τ).loc main_arg22) :=
  (W2_of_ne m ρ c main_arg22 (by decide)).trans (arg22_W1 m ρ c)
theorem arg22_W3 : W3 m ρ c (Proc.devRef .tc main_arg22) = m ((c : Thread nD τ).loc main_arg22) :=
  (StableHlo.after_of_forall_not_mem (b := Proc.devRef .tc main_arg22) _ _ (List.forall_iff_forall_mem.mp (by not_written hostOps1))).trans (arg22_W2 m ρ c)
theorem arg22_W4 : W4 m ρ c (Proc.devRef .tc main_arg22) = m ((c : Thread nD τ).loc main_arg22) :=
  (W4_of_ne m ρ c main_arg22 (by decide)).trans (arg22_W3 m ρ c)
theorem arg22_W5 : W5 m ρ c (Proc.devRef .tc main_arg22) = m ((c : Thread nD τ).loc main_arg22) :=
  (StableHlo.after_of_forall_not_mem (b := Proc.devRef .tc main_arg22) _ _ (List.forall_iff_forall_mem.mp (by not_written hostOps2))).trans (arg22_W4 m ρ c)
theorem arg22_W6 : W6 m ρ c (Proc.devRef .tc main_arg22) = m ((c : Thread nD τ).loc main_arg22) :=
  (W6_of_ne m ρ c main_arg22 (by decide)).trans (arg22_W5 m ρ c)
theorem arg22_W7 : W7 m ρ c (Proc.devRef .tc main_arg22) = m ((c : Thread nD τ).loc main_arg22) :=
  (StableHlo.after_of_forall_not_mem (b := Proc.devRef .tc main_arg22) _ _ (List.forall_iff_forall_mem.mp (by not_written hostOps3))).trans (arg22_W6 m ρ c)
theorem arg22_W8 : W8 m ρ c (Proc.devRef .tc main_arg22) = m ((c : Thread nD τ).loc main_arg22) :=
  (W8_of_ne m ρ c main_arg22 (by decide)).trans (arg22_W7 m ρ c)
theorem arg22_W9 : W9 m ρ c (Proc.devRef .tc main_arg22) = m ((c : Thread nD τ).loc main_arg22) :=
  (StableHlo.after_of_forall_not_mem (b := Proc.devRef .tc main_arg22) _ _ (List.forall_iff_forall_mem.mp (by not_written hostOps4))).trans (arg22_W8 m ρ c)
theorem arg22_W10 : W10 m ρ c (Proc.devRef .tc main_arg22) = m ((c : Thread nD τ).loc main_arg22) :=
  (W10_of_ne m ρ c main_arg22 (by decide)).trans (arg22_W9 m ρ c)
theorem arg22_W11 : W11 m ρ c (Proc.devRef .tc main_arg22) = m ((c : Thread nD τ).loc main_arg22) :=
  (StableHlo.after_of_forall_not_mem (b := Proc.devRef .tc main_arg22) _ _ (List.forall_iff_forall_mem.mp (by not_written hostOps5))).trans (arg22_W10 m ρ c)
theorem arg22_W12 : W12 m ρ c (Proc.devRef .tc main_arg22) = m ((c : Thread nD τ).loc main_arg22) :=
  (W12_of_ne m ρ c main_arg22 (by decide)).trans (arg22_W11 m ρ c)

theorem arg23_W0 : W0 m ρ c (Proc.devRef .tc main_arg23) = m ((c : Thread nD τ).loc main_arg23) := rfl
theorem arg23_W1 : W1 m ρ c (Proc.devRef .tc main_arg23) = m ((c : Thread nD τ).loc main_arg23) :=
  (StableHlo.after_of_forall_not_mem (b := Proc.devRef .tc main_arg23) _ _ (List.forall_iff_forall_mem.mp (by not_written hostOps0))).trans (arg23_W0 m ρ c)
theorem arg23_W2 : W2 m ρ c (Proc.devRef .tc main_arg23) = m ((c : Thread nD τ).loc main_arg23) :=
  (W2_of_ne m ρ c main_arg23 (by decide)).trans (arg23_W1 m ρ c)
theorem arg23_W3 : W3 m ρ c (Proc.devRef .tc main_arg23) = m ((c : Thread nD τ).loc main_arg23) :=
  (StableHlo.after_of_forall_not_mem (b := Proc.devRef .tc main_arg23) _ _ (List.forall_iff_forall_mem.mp (by not_written hostOps1))).trans (arg23_W2 m ρ c)
theorem arg23_W4 : W4 m ρ c (Proc.devRef .tc main_arg23) = m ((c : Thread nD τ).loc main_arg23) :=
  (W4_of_ne m ρ c main_arg23 (by decide)).trans (arg23_W3 m ρ c)
theorem arg23_W5 : W5 m ρ c (Proc.devRef .tc main_arg23) = m ((c : Thread nD τ).loc main_arg23) :=
  (StableHlo.after_of_forall_not_mem (b := Proc.devRef .tc main_arg23) _ _ (List.forall_iff_forall_mem.mp (by not_written hostOps2))).trans (arg23_W4 m ρ c)
theorem arg23_W6 : W6 m ρ c (Proc.devRef .tc main_arg23) = m ((c : Thread nD τ).loc main_arg23) :=
  (W6_of_ne m ρ c main_arg23 (by decide)).trans (arg23_W5 m ρ c)
theorem arg23_W7 : W7 m ρ c (Proc.devRef .tc main_arg23) = m ((c : Thread nD τ).loc main_arg23) :=
  (StableHlo.after_of_forall_not_mem (b := Proc.devRef .tc main_arg23) _ _ (List.forall_iff_forall_mem.mp (by not_written hostOps3))).trans (arg23_W6 m ρ c)
theorem arg23_W8 : W8 m ρ c (Proc.devRef .tc main_arg23) = m ((c : Thread nD τ).loc main_arg23) :=
  (W8_of_ne m ρ c main_arg23 (by decide)).trans (arg23_W7 m ρ c)
theorem arg23_W9 : W9 m ρ c (Proc.devRef .tc main_arg23) = m ((c : Thread nD τ).loc main_arg23) :=
  (StableHlo.after_of_forall_not_mem (b := Proc.devRef .tc main_arg23) _ _ (List.forall_iff_forall_mem.mp (by not_written hostOps4))).trans (arg23_W8 m ρ c)
theorem arg23_W10 : W10 m ρ c (Proc.devRef .tc main_arg23) = m ((c : Thread nD τ).loc main_arg23) :=
  (W10_of_ne m ρ c main_arg23 (by decide)).trans (arg23_W9 m ρ c)
theorem arg23_W11 : W11 m ρ c (Proc.devRef .tc main_arg23) = m ((c : Thread nD τ).loc main_arg23) :=
  (StableHlo.after_of_forall_not_mem (b := Proc.devRef .tc main_arg23) _ _ (List.forall_iff_forall_mem.mp (by not_written hostOps5))).trans (arg23_W10 m ρ c)
theorem arg23_W12 : W12 m ρ c (Proc.devRef .tc main_arg23) = m ((c : Thread nD τ).loc main_arg23) :=
  (W12_of_ne m ρ c main_arg23 (by decide)).trans (arg23_W11 m ρ c)
theorem arg23_W13 : W13 m ρ c (Proc.devRef .tc main_arg23) = m ((c : Thread nD τ).loc main_arg23) :=
  (StableHlo.after_of_forall_not_mem (b := Proc.devRef .tc main_arg23) _ _ (List.forall_iff_forall_mem.mp (by not_written hostOps6))).trans (arg23_W12 m ρ c)
theorem arg23_W14 : W14 m ρ c (Proc.devRef .tc main_arg23) = m ((c : Thread nD τ).loc main_arg23) :=
  (StableHlo.after_of_forall_not_mem (b := Proc.devRef .tc main_arg23) _ _ (List.forall_iff_forall_mem.mp (by not_written hostOps6_1))).trans (arg23_W13 m ρ c)

theorem arg24_W0 : W0 m ρ c (Proc.devRef .tc main_arg24) = m ((c : Thread nD τ).loc main_arg24) := rfl
theorem arg24_W1 : W1 m ρ c (Proc.devRef .tc main_arg24) = m ((c : Thread nD τ).loc main_arg24) :=
  (StableHlo.after_of_forall_not_mem (b := Proc.devRef .tc main_arg24) _ _ (List.forall_iff_forall_mem.mp (by not_written hostOps0))).trans (arg24_W0 m ρ c)
theorem arg24_W2 : W2 m ρ c (Proc.devRef .tc main_arg24) = m ((c : Thread nD τ).loc main_arg24) :=
  (W2_of_ne m ρ c main_arg24 (by decide)).trans (arg24_W1 m ρ c)
theorem arg24_W3 : W3 m ρ c (Proc.devRef .tc main_arg24) = m ((c : Thread nD τ).loc main_arg24) :=
  (StableHlo.after_of_forall_not_mem (b := Proc.devRef .tc main_arg24) _ _ (List.forall_iff_forall_mem.mp (by not_written hostOps1))).trans (arg24_W2 m ρ c)
theorem arg24_W4 : W4 m ρ c (Proc.devRef .tc main_arg24) = m ((c : Thread nD τ).loc main_arg24) :=
  (W4_of_ne m ρ c main_arg24 (by decide)).trans (arg24_W3 m ρ c)
theorem arg24_W5 : W5 m ρ c (Proc.devRef .tc main_arg24) = m ((c : Thread nD τ).loc main_arg24) :=
  (StableHlo.after_of_forall_not_mem (b := Proc.devRef .tc main_arg24) _ _ (List.forall_iff_forall_mem.mp (by not_written hostOps2))).trans (arg24_W4 m ρ c)
theorem arg24_W6 : W6 m ρ c (Proc.devRef .tc main_arg24) = m ((c : Thread nD τ).loc main_arg24) :=
  (W6_of_ne m ρ c main_arg24 (by decide)).trans (arg24_W5 m ρ c)
theorem arg24_W7 : W7 m ρ c (Proc.devRef .tc main_arg24) = m ((c : Thread nD τ).loc main_arg24) :=
  (StableHlo.after_of_forall_not_mem (b := Proc.devRef .tc main_arg24) _ _ (List.forall_iff_forall_mem.mp (by not_written hostOps3))).trans (arg24_W6 m ρ c)
theorem arg24_W8 : W8 m ρ c (Proc.devRef .tc main_arg24) = m ((c : Thread nD τ).loc main_arg24) :=
  (W8_of_ne m ρ c main_arg24 (by decide)).trans (arg24_W7 m ρ c)
theorem arg24_W9 : W9 m ρ c (Proc.devRef .tc main_arg24) = m ((c : Thread nD τ).loc main_arg24) :=
  (StableHlo.after_of_forall_not_mem (b := Proc.devRef .tc main_arg24) _ _ (List.forall_iff_forall_mem.mp (by not_written hostOps4))).trans (arg24_W8 m ρ c)
theorem arg24_W10 : W10 m ρ c (Proc.devRef .tc main_arg24) = m ((c : Thread nD τ).loc main_arg24) :=
  (W10_of_ne m ρ c main_arg24 (by decide)).trans (arg24_W9 m ρ c)
theorem arg24_W11 : W11 m ρ c (Proc.devRef .tc main_arg24) = m ((c : Thread nD τ).loc main_arg24) :=
  (StableHlo.after_of_forall_not_mem (b := Proc.devRef .tc main_arg24) _ _ (List.forall_iff_forall_mem.mp (by not_written hostOps5))).trans (arg24_W10 m ρ c)
theorem arg24_W12 : W12 m ρ c (Proc.devRef .tc main_arg24) = m ((c : Thread nD τ).loc main_arg24) :=
  (W12_of_ne m ρ c main_arg24 (by decide)).trans (arg24_W11 m ρ c)
theorem arg24_W13 : W13 m ρ c (Proc.devRef .tc main_arg24) = m ((c : Thread nD τ).loc main_arg24) :=
  (StableHlo.after_of_forall_not_mem (b := Proc.devRef .tc main_arg24) _ _ (List.forall_iff_forall_mem.mp (by not_written hostOps6))).trans (arg24_W12 m ρ c)
theorem arg24_W14 : W14 m ρ c (Proc.devRef .tc main_arg24) = m ((c : Thread nD τ).loc main_arg24) :=
  (StableHlo.after_of_forall_not_mem (b := Proc.devRef .tc main_arg24) _ _ (List.forall_iff_forall_mem.mp (by not_written hostOps6_1))).trans (arg24_W13 m ρ c)

end Cert.KernelIdeal.Args

end
-- ==== Proof.LibBlockReads.lean ====
/-
  Vector operations of a kernel body read at an index, on the extended reals: a matrix product accumulated into
  zeros as the sum over the contracted coordinate (both operand orders), a sum along the first or the last axis
  of a rank-3 block as a sum over that axis's coordinate, and the re-shapings and broadcasts that put a row
  vector or a matrix of per-row scales beside a block. Nothing here mentions a program.
-/
import Idealize.ShloMosaic.PureOps.Ideal.Laws
import Idealize.ShloMosaic.Lib.ValueIdx
import Idealize.ShloMosaic.Lib.Pipeline.Value

open scoped BigOperators

namespace Cert.Lib.BlockReads

open Idealize.ShloMosaic Idealize.ShloMosaic.ValueIdx

/-! ## Matrix products into a zero accumulator -/

section Matmul
variable {m k n : Nat} {φ₁ φ₂ : FTy}

/-- A product of an m×k by a k×n matrix (contracting the left operand's columns with the right operand's rows),
    accumulated into zeros, is at (a, b) the sum over c of A(a, c) · B(c, b). -/
theorem matmul_zero_rows_apply (d : DotDims ⟨2, ![m, k]⟩ ⟨2, ![k, n]⟩ ⟨2, ![m, n]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (A : FVec Ideal ⟨2, ![m, k]⟩ φ₁) (B : FVec Ideal ⟨2, ![k, n]⟩ φ₂)
    (a : Fin m) (b : Fin n) :
    matmul d prec A B (constant ⟨2, ![m, n]⟩ .f32 0x00000000#32) (ix2 a b) = ∑ c : Fin k, A (ix2 a c) * B (ix2 c b) := by
  obtain ⟨lc, rc, ln, rn, lb, rb, w⟩ := d
  dsimp only at hlc hrc hln hrn hlb hrb
  subst hlc hrc hln hrn hlb hrb
  show FloatOps.matmul _ prec A B _ (ix2 a b) = _
  rw [Ideal.matmul_constant_zero_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- A product of an m×k matrix by the TRANSPOSE of an n×k matrix (both operands contracted along their columns),
    accumulated into zeros, is at (a, b) the sum over c of A(a, c) · B(b, c). -/
theorem matmul_zero_cols_apply (d : DotDims ⟨2, ![m, k]⟩ ⟨2, ![n, k]⟩ ⟨2, ![m, n]⟩)
    (hlc : d.lhsContracting = [1]) (hrc : d.rhsContracting = [1]) (hln : d.lhsNonContracting = [0])
    (hrn : d.rhsNonContracting = [0]) (hlb : d.lhsBatch = []) (hrb : d.rhsBatch = [])
    (prec : Option ContractPrecision) (A : FVec Ideal ⟨2, ![m, k]⟩ φ₁) (B : FVec Ideal ⟨2, ![n, k]⟩ φ₂)
    (a : Fin m) (b : Fin n) :
    matmul d prec A B (constant ⟨2, ![m, n]⟩ .f32 0x00000000#32) (ix2 a b) = ∑ c : Fin k, A (ix2 a c) * B (ix2 b c) := by
  obtain ⟨lc, rc, ln, rn, lb, rb, w⟩ := d
  dsimp only at hlc hrc hln hrn hlb hrb
  subst hlc hrc hln hrn hlb hrb
  show FloatOps.matmul _ prec A B _ (ix2 a b) = _
  rw [Ideal.matmul_constant_zero_apply,
    ← Equiv.sum_comp (contrEquiv1 (⟨[1], [1], [0], [0], [], [], w⟩ : DotDims _ _ _) k rfl rfl).symm]
  refine Finset.sum_congr rfl fun c _ => ?_
  have c2 := contrEquiv1_symm_val
    (⟨[1], [1], [0], [0], [], [], w⟩ : DotDims ⟨2, ![m, k]⟩ ⟨2, ![n, k]⟩ ⟨2, ![m, n]⟩) k rfl rfl c
  have l2 : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

end Matmul

/-! ## Sums along one axis of a rank-3 block -/

section AxisSums
variable {a b c : Nat} {φ : FTy}

/-- The sum along the FIRST axis of an a×b×c block is at (q, r) the sum over p of the block at (p, q, r). -/
theorem sum_first_axis_apply (src : FVec Ideal ⟨3, ![a, b, c]⟩ φ) (acc : BitVec φ.bits)
    (h : (⟨3, ![a, b, c]⟩ : Shape).Reduces [0] ⟨2, ![b, c]⟩) (hφ : FKind.Formats φ) (hacc : acc = FKind.add.neutral φ hφ)
    (q : Fin b) (r : Fin c) :
    multiReduction .add [0] ⟨2, ![b, c]⟩ src acc h hφ hacc (ix2 q r) = ∑ p : Fin a, src (ix3 p q r) := by
  rw [Ideal.multiReduction_add_single]
  refine Finset.sum_congr rfl fun p _ => congrArg src ?_
  funext ax; apply Fin.ext
  match ax with
  | ⟨0, _⟩ => rfl
  | ⟨1, _⟩ => rfl
  | ⟨2, _⟩ => rfl

/-- The sum along the LAST axis of an a×b×c block is at (p, q) the sum over r of the block at (p, q, r). -/
theorem sum_last_axis_apply (src : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (p : Fin a) (q : Fin b) :
    multiReduction .add [2] ⟨2, ![a, b]⟩ src acc h hφ hacc (ix2 p q) = ∑ r : Fin c, src (ix3 p q r) := by
  rw [Ideal.multiReduction_add_single]
  refine Finset.sum_congr rfl fun r _ => congrArg src ?_
  funext ax; apply Fin.ext
  match ax with
  | ⟨0, _⟩ => rfl
  | ⟨1, _⟩ => rfl
  | ⟨2, _⟩ => rfl

end AxisSums

/-! ## Re-shapings and broadcasts of per-row values -/

section Layout
variable {α : Type} {a b c : Nat}

/-- A 1×b row broadcast down a rows reads its entry b. -/
theorem broadcast_row_apply (x : (⟨2, ![1, b]⟩ : Shape).Idx → α) (h : (⟨2, ![1, b]⟩ : Shape).Broadcasts ⟨2, ![a, b]⟩)
    (p : Fin a) (q : Fin b) : broadcastTo ⟨2, ![a, b]⟩ x h (ix2 p q) = x (ix2 0 q) :=
  broadcastTo_apply x h _ _ fun ax => by
    match ax with
    | ⟨0, _⟩ => rfl
    | ⟨1, _⟩ =>
      show q.val = if b = 1 then 0 else q.val
      split_ifs with hb
      · have := q.isLt; omega
      · rfl

/-- A b×c matrix viewed as one 1×b×c slab and broadcast along a new leading axis of extent a reads the matrix. -/
theorem broadcast_slab_apply (x : (⟨2, ![b, c]⟩ : Shape).Idx → α)
    (h₁ : (⟨2, ![b, c]⟩ : Shape).ShapeCasts ⟨3, ![1, b, c]⟩)
    (h₂ : (⟨3, ![1, b, c]⟩ : Shape).Broadcasts ⟨3, ![a, b, c]⟩) (p : Fin a) (q : Fin b) (r : Fin c) :
    broadcastTo ⟨3, ![a, b, c]⟩ (shapeCast ⟨3, ![1, b, c]⟩ x h₁) h₂ (ix3 p q r) = x (ix2 q r) := by
  refine (broadcastTo_apply _ h₂ _ (ix3 0 q r) fun ax => ?_).trans ?_
  · match ax with
    | ⟨0, _⟩ => rfl
    | ⟨1, _⟩ =>
      show q.val = if b = 1 then 0 else q.val
      split_ifs with hb
      · have := q.isLt; omega
      · rfl
    | ⟨2, _⟩ =>
      show r.val = if c = 1 then 0 else r.val
      split_ifs with hc
      · have := r.isLt; omega
      · rfl
  · refine shapeCast_apply x h₁ _ _ ?_
    rw [Shape.rowMajor_val_two, Shape.rowMajor_val_three]
    show q.val * c + r.val = ((0 : Nat) * b + q.val) * c + r.val
    rw [Nat.zero_mul, Nat.zero_add]

/-- An a×b matrix viewed as a×b×1 columns and broadcast along a new trailing axis of extent c reads the matrix. -/
theorem broadcast_cols_apply (x : (⟨2, ![a, b]⟩ : Shape).Idx → α)
    (h₁ : (⟨2, ![a, b]⟩ : Shape).ShapeCasts ⟨3, ![a, b, 1]⟩)
    (h₂ : (⟨3, ![a, b, 1]⟩ : Shape).Broadcasts ⟨3, ![a, b, c]⟩) (p : Fin a) (q : Fin b) (r : Fin c) :
    broadcastTo ⟨3, ![a, b, c]⟩ (shapeCast ⟨3, ![a, b, 1]⟩ x h₁) h₂ (ix3 p q r) = x (ix2 p q) := by
  refine (broadcastTo_apply _ h₂ _ (ix3 p q 0) fun ax => ?_).trans ?_
  · match ax with
    | ⟨0, _⟩ =>
      show p.val = if a = 1 then 0 else p.val
      split_ifs with ha
      · have := p.isLt; omega
      · rfl
    | ⟨1, _⟩ =>
      show q.val = if b = 1 then 0 else q.val
      split_ifs with hb
      · have := q.isLt; omega
      · rfl
    | ⟨2, _⟩ => rfl
  · refine shapeCast_apply x h₁ _ _ ?_
    rw [Shape.rowMajor_val_two, Shape.rowMajor_val_three]
    show p.val * b + q.val = (p.val * b + q.val) * 1 + 0
    omega

end Layout

end Cert.Lib.BlockReads
-- ==== Proof.LibMatProd.lean ====
/-
  Dense matrix products on the extended reals, as functions of whole arrays.

  `matProd A B` is the product of an m×k by a k×n array: entry (a, b) is the sum over c of A(a, c) · B(c, b). A plain
  product accumulated into zeros (the left operand's columns contracted with the right operand's rows, no batch axes)
  is this function; the host's dot_general with the same dimension numbers is the same sum with no accumulator, so it
  is this function too; and an entry of a product depends on one row of the left operand and one column of the right,
  so the product of a block of rows of A with B is those rows of `matProd A B`. Sums on the extended reals are taken
  in any order, so no finiteness is asked. Nothing here mentions a program.
-/
import Idealize.ShloMosaic.PureOps.Ideal.Laws
import Idealize.ShloMosaic.Lib.ValueIdx
import proofs.«112823_j61375082659915_1_alg».proof.Proof.LibBlockReads

open scoped BigOperators

noncomputable section

namespace Cert.Lib.MatProd

open Idealize.ShloMosaic Idealize.ShloMosaic.ValueIdx

variable {m k n : Nat}

/-- The product of an m×k by a k×n array of extended reals. -/
def matProd (A : (⟨2, ![m, k]⟩ : Shape).Idx → EReal) (B : (⟨2, ![k, n]⟩ : Shape).Idx → EReal) :
    (⟨2, ![m, n]⟩ : Shape).Idx → EReal :=
  fun i => ∑ c : Fin k, A (ix2 (i 0) c) * B (ix2 c (i 1))

theorem matProd_apply (A : (⟨2, ![m, k]⟩ : Shape).Idx → EReal) (B : (⟨2, ![k, n]⟩ : Shape).Idx → EReal)
    (a : Fin m) (b : Fin n) : matProd A B (ix2 a b) = ∑ c : Fin k, A (ix2 a c) * B (ix2 c b) := rfl

/-- A plain product into a zero accumulator is `matProd`: entry by entry it is the sum over the contracted
    coordinate. -/
theorem matmul_zero_eq_matProd {φ₁ φ₂ : FTy} (d : DotDims ⟨2, ![m, k]⟩ ⟨2, ![k, n]⟩ ⟨2, ![m, n]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (A : FVec Ideal ⟨2, ![m, k]⟩ φ₁) (B : FVec Ideal ⟨2, ![k, n]⟩ φ₂) :
    matmul d prec A B (constant ⟨2, ![m, n]⟩ .f32 0x00000000#32) = matProd A B := by
  funext i
  obtain ⟨a, b, rfl⟩ : ∃ (a : Fin m) (b : Fin n), i = ix2 a b := ⟨i 0, i 1, eq_ix2 i⟩
  exact Cert.Lib.BlockReads.matmul_zero_rows_apply d hlc hrc hln hrn hlb hrb prec A B a b

/-- The host's dot_general is, on the extended reals, the product into a zero accumulator with the same dimension
    numbers: both are the sum over the contracted index of the products of the operands' entries. -/
theorem dotGeneral_eq_matmul_zero {sl sr so : Shape} {φ₁ φ₂ : FTy} (d : DotDims sl sr so)
    (prec prec' : Option ContractPrecision) (sched : HostSchedule) (A : FVec Ideal sl φ₁) (B : FVec Ideal sr φ₂) :
    FloatOps.dotGeneral d prec sched A B = matmul d prec' A B (constant so .f32 0x00000000#32) := by
  funext j
  show _ = FloatOps.matmul d prec' A B _ j
  rw [Ideal.dotGeneral_apply, Ideal.matmul_constant_zero_apply]

/-- So the host's plain dot_general is `matProd`, whatever the precision and the schedule. -/
theorem dotGeneral_eq_matProd {φ₁ φ₂ : FTy} (d : DotDims ⟨2, ![m, k]⟩ ⟨2, ![k, n]⟩ ⟨2, ![m, n]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (sched : HostSchedule)
    (A : FVec Ideal ⟨2, ![m, k]⟩ φ₁) (B : FVec Ideal ⟨2, ![k, n]⟩ φ₂) :
    FloatOps.dotGeneral d prec sched A B = matProd A B :=
  (dotGeneral_eq_matmul_zero d prec none sched A B).trans (matmul_zero_eq_matProd d hlc hrc hln hrn hlb hrb none A B)

/-- An entry of a product depends on one row of the left operand and one column of the right: if row y of A' is row r
    of A and column b of B' is column b' of B, then `matProd A' B'` at (y, b) is `matProd A B` at (r, b'). So the
    product of a block of rows of A with B is the same rows of `matProd A B`. -/
theorem matProd_block {m' n' : Nat} (A : (⟨2, ![m, k]⟩ : Shape).Idx → EReal) (A' : (⟨2, ![m', k]⟩ : Shape).Idx → EReal)
    (B : (⟨2, ![k, n]⟩ : Shape).Idx → EReal) (B' : (⟨2, ![k, n']⟩ : Shape).Idx → EReal)
    (y : Fin m') (b : Fin n') (r : Fin m) (b' : Fin n)
    (hA : ∀ c : Fin k, A' (ix2 y c) = A (ix2 r c)) (hB : ∀ c : Fin k, B' (ix2 c b) = B (ix2 c b')) :
    matProd A' B' (ix2 y b) = matProd A B (ix2 r b') := by
  rw [matProd_apply, matProd_apply]
  exact Finset.sum_congr rfl fun c _ => by rw [hA c, hB c]

end Cert.Lib.MatProd

end
-- ==== Proof.LibRowReductions.lean ====
/-
  A row-wise reduction of an a×b block read at an index, on the extended reals: the maximum along each row as the
  fold of max over the row's entries (a vector reduction and the reference's one-operand reduce alike), the sum along
  each row as the sum over the row's entries, and the re-shapings and broadcasts that put a column of per-row values
  or a row of per-column values beside the block. Nothing here mentions a program.
-/
import Idealize.ShloMosaic.PureOps.Ideal
import Idealize.ShloMosaic.PureOps.Ideal.Laws
import Idealize.ShloMosaic.PureOps.Reduce
import Idealize.ShloMosaic.Lib.ValueIdx
import Idealize.ShloMosaic.Lib.Pipeline.Value
import Idealize.ShloMosaic.Lib.ValueLayout

open scoped BigOperators

namespace Cert.Lib.RowReductions

open Idealize.ShloMosaic Idealize.ShloMosaic.ValueIdx

/-! ## Reductions along each row -/

section Rows
variable {a b : Nat} {φ : FTy}

/-- The row index p with column k put back is (p, k). -/
theorem lift_row (h : (⟨2, ![a, b]⟩ : Shape).Reduces [1] ⟨1, ![a]⟩) (p : Fin a)
    (k : Fin ((⟨2, ![a, b]⟩ : Shape).size 1)) : h.lift (ix1 p) k = ix2 p (⟨k.val, k.isLt⟩ : Fin b) := by
  funext ax; apply Fin.ext
  match ax with
  | ⟨0, _⟩ => rfl
  | ⟨1, _⟩ => rfl

/-- The maximum along each row of an a×b block is at p the fold of max, from the accumulator's value, over the
    entries (p, k) of row p. -/
theorem rowmax_apply (src : FVec Ideal ⟨2, ![a, b]⟩ φ) (acc : BitVec φ.bits)
    (h : (⟨2, ![a, b]⟩ : Shape).Reduces [1] ⟨1, ![a]⟩) (hφ : FKind.Formats φ)
    (hacc : acc = FKind.maximumf.neutral φ hφ) (p : Fin a) :
    multiReduction .maximumf [1] ⟨1, ![a]⟩ src acc h hφ hacc (ix1 p)
      = (Finset.univ : Finset (Fin b)).fold max (FloatOps.ofBits (F := Ideal) φ acc) (fun k => src (ix2 p k)) := by
  rw [Ideal.multiReduction_maximumf_single]
  have hf : (src ∘ h.lift (ix1 p)) = fun k : Fin b => src (ix2 p k) :=
    funext fun k => congrArg src (lift_row h p k)
  exact congrArg (fun f => Finset.fold max (FloatOps.ofBits (F := Ideal) φ acc) f (Finset.univ : Finset (Fin b))) hf

/-- The sum along each row of an a×b block is at p the sum over k of the block at (p, k). -/
theorem rowsum_apply (src : FVec Ideal ⟨2, ![a, b]⟩ φ) (acc : BitVec φ.bits)
    (h : (⟨2, ![a, b]⟩ : Shape).Reduces [1] ⟨1, ![a]⟩) (hφ : FKind.Formats φ)
    (hacc : acc = FKind.add.neutral φ hφ) (p : Fin a) :
    multiReduction .add [1] ⟨1, ![a]⟩ src acc h hφ hacc (ix1 p) = ∑ k : Fin b, src (ix2 p k) := by
  rw [Ideal.multiReduction_add_single]
  exact Finset.sum_congr rfl fun k _ => congrArg src (lift_row h p k)

/-- The reference's one-operand reduce with a maximum body along each row of an a×b block is at p the fold of max,
    from the initial value's element, over the entries (p, k) of row p. -/
theorem host_rowmax_apply {u : Shape} (x : (⟨2, ![a, b]⟩ : Shape).Idx → Ideal .f32) (init : u.Idx → Ideal .f32)
    (h' : (⟨2, ![a, b]⟩ : Shape).ReducesTo [1] ⟨1, ![a]⟩) (hu : 0 < u.numel) (p : Fin a) :
    Host.reduce (FloatOps.maximumf (F := Ideal) (φ := .f32)) x init h' hu (ix1 p)
      = (Finset.univ : Finset (Fin b)).fold max (init (Shape.Idx.first hu)) (fun k => x (ix2 p k)) := by
  have h : (⟨2, ![a, b]⟩ : Shape).Reduces [1] ⟨1, ![a]⟩ := ⟨h'.1, Nat.one_pos, h'.2⟩
  rw [Host.reduce_eq_fold_single FloatOps.maximumf x init h' h hu]
  have hf : (x ∘ h.lift (ix1 p)) = fun k : Fin b => x (ix2 p k) :=
    funext fun k => congrArg x (lift_row h p k)
  exact congrArg (fun f => Finset.fold max (init (Shape.Idx.first hu)) f (Finset.univ : Finset (Fin b))) hf

end Rows

/-! ## Re-shapings and broadcasts of per-row and per-column values -/

section Layout
variable {α : Type} {a b : Nat}

/-- A vector of a entries viewed as an a×1 column reads its entry p at (p, 0). -/
theorem shapeCast_col_apply (x : (⟨1, ![a]⟩ : Shape).Idx → α) (h : (⟨1, ![a]⟩ : Shape).ShapeCasts ⟨2, ![a, 1]⟩)
    (p : Fin a) : shapeCast ⟨2, ![a, 1]⟩ x h (ix2 p 0) = x (ix1 p) := by
  refine shapeCast_apply x h _ _ ?_
  rw [Shape.rowMajor_val_one, Shape.rowMajor_val_two]
  show p.val = p.val * 1 + 0
  omega

/-- An a×1 column broadcast across b columns reads its entry p at every (p, q). -/
theorem broadcast_col_apply (x : (⟨2, ![a, 1]⟩ : Shape).Idx → α) (h : (⟨2, ![a, 1]⟩ : Shape).Broadcasts ⟨2, ![a, b]⟩)
    (p : Fin a) (q : Fin b) : broadcastTo ⟨2, ![a, b]⟩ x h (ix2 p q) = x (ix2 p 0) :=
  broadcastTo_apply x h _ _ fun ax => by
    match ax with
    | ⟨0, _⟩ =>
      show p.val = if a = 1 then 0 else p.val
      split_ifs with ha
      · have := p.isLt; omega
      · rfl
    | ⟨1, _⟩ => rfl

/-- A vector of b entries viewed as a 1×b row reads its entry q at (0, q). -/
theorem shapeCast_rowvec_apply (x : (⟨1, ![b]⟩ : Shape).Idx → α) (h : (⟨1, ![b]⟩ : Shape).ShapeCasts ⟨2, ![1, b]⟩)
    (q : Fin b) : shapeCast ⟨2, ![1, b]⟩ x h (ix2 0 q) = x (ix1 q) := by
  refine shapeCast_apply x h _ _ ?_
  rw [Shape.rowMajor_val_one, Shape.rowMajor_val_two]
  show q.val = (0 : Nat) * b + q.val
  omega

end Layout

/-! ## The accumulator of a maximum -/

/-- The maximum of −∞ and x is x. -/
theorem fold_max_bot (x : EReal) : max (⊥ : EReal) x = x := max_eq_right bot_le

/-- The single-precision bit pattern FF800000 is −∞. -/
theorem ofBits_neg_inf_f32 : Ideal.ofBits .f32 0xFF800000#32 = (⊥ : EReal) := by
  simp [Ideal.ofBits, Ideal.ieee]

/-! ## The reference's broadcasts of per-row values and of a scalar -/

section HostBroadcasts
variable {α : Type} {n c : Nat}

/-- A vector of n entries broadcast into an n×1 column along the rows reads its entry p at (p, 0). -/
theorem bcastInDim_col_apply (x : (⟨1, ![n]⟩ : Shape).Idx → α)
    (h : (⟨1, ![n]⟩ : Shape).BroadcastsInDim ⟨2, ![n, 1]⟩ ![0]) (p : Fin n) :
    broadcastInDim ⟨2, ![n, 1]⟩ ![0] h x (ix2 p 0) = x (ix1 p) :=
  broadcastInDim_apply _ h x _ _ fun ax => by
    match ax with
    | ⟨0, _⟩ =>
      show p.val = if n = 1 then 0 else p.val
      split_ifs with hn
      · have := p.isLt; omega
      · rfl

/-- An n×1 column broadcast into an n×c block, axis for axis, reads its entry p at every (p, q). -/
theorem bcastInDim_cols_apply (x : (⟨2, ![n, 1]⟩ : Shape).Idx → α)
    (h : (⟨2, ![n, 1]⟩ : Shape).BroadcastsInDim ⟨2, ![n, c]⟩ ![0, 1]) (p : Fin n) (q : Fin c) :
    broadcastInDim ⟨2, ![n, c]⟩ ![0, 1] h x (ix2 p q) = x (ix2 p 0) :=
  broadcastInDim_apply _ h x _ _ fun ax => by
    match ax with
    | ⟨0, _⟩ =>
      show p.val = if n = 1 then 0 else p.val
      split_ifs with hn
      · have := p.isLt; omega
      · rfl
    | ⟨1, _⟩ => rfl

/-- A scalar broadcast into an n×c block reads the scalar at every index. -/
theorem bcastInDim_scalar_apply (x : (⟨0, ![]⟩ : Shape).Idx → α)
    (h : (⟨0, ![]⟩ : Shape).BroadcastsInDim ⟨2, ![n, c]⟩ ![]) (i : (⟨2, ![n, c]⟩ : Shape).Idx) :
    broadcastInDim ⟨2, ![n, c]⟩ ![] h x i = x ix0 :=
  broadcastInDim_apply _ h x _ _ fun ax => ax.elim0

end HostBroadcasts

end Cert.Lib.RowReductions
-- ==== Proof.LibRowVector.lean ====
/-
  A vector of n entries as the single row of a 1×n array, and that row repeated down the r rows of an r×n array, read
  at an index: the re-shaping [n]→[1,n], the reference's broadcast of a vector along the columns of a 1×n array, its
  broadcast of a 1×n row into an r×n array, and its broadcast of a scalar into an array of any shape. Nothing here
  mentions a program.
-/
import Idealize.ShloMosaic.Lib.ValueIdx
import Idealize.ShloMosaic.Lib.Pipeline.Value
import Idealize.ShloMosaic.Lib.ValueLayout
import proofs.«112823_j61375082659915_1_alg».proof.Proof.LibRowReductions

namespace Cert.Lib.RowVector

open Idealize.ShloMosaic Idealize.ShloMosaic.ValueIdx

variable {α : Type} {r n : Nat}

/-- A vector of n entries as the single row of a 1×n array: entry (0, q) is entry q. -/
def asRow (x : (⟨1, ![n]⟩ : Shape).Idx → α) : (⟨2, ![1, n]⟩ : Shape).Idx → α := fun i => x (ix1 (i 1))

theorem asRow_apply (x : (⟨1, ![n]⟩ : Shape).Idx → α) (q : Fin n) : asRow x (ix2 0 q) = x (ix1 q) := rfl

/-- Every index of a 1×n array is in row 0. -/
theorem idx_row (i : (⟨2, ![1, n]⟩ : Shape).Idx) : i = ix2 0 (i 1) := by
  funext d
  match d with
  | ⟨0, _⟩ =>
    have h : (i 0).val < 1 := (i 0).isLt
    exact Fin.ext (by show (i 0).val = 0; omega)
  | ⟨1, _⟩ => rfl

/-- The re-shaping [n]→[1,n] is `asRow`. -/
theorem shapeCast_eq_asRow (x : (⟨1, ![n]⟩ : Shape).Idx → α) (h : (⟨1, ![n]⟩ : Shape).ShapeCasts ⟨2, ![1, n]⟩) :
    shapeCast ⟨2, ![1, n]⟩ x h = asRow x := by
  funext i
  rw [idx_row i]
  exact Cert.Lib.RowReductions.shapeCast_rowvec_apply x h (i 1)

/-- The reference's broadcast of a vector along the columns of a 1×n array is `asRow`. -/
theorem bcastInDim_eq_asRow (x : (⟨1, ![n]⟩ : Shape).Idx → α)
    (h : (⟨1, ![n]⟩ : Shape).BroadcastsInDim ⟨2, ![1, n]⟩ ![1]) :
    broadcastInDim ⟨2, ![1, n]⟩ ![1] h x = asRow x := by
  funext i
  rw [idx_row i]
  refine broadcastInDim_apply _ h x _ _ fun ax => ?_
  match ax with
  | ⟨0, _⟩ =>
    show (i 1).val = if n = 1 then 0 else (i 1).val
    have h1 : (i 1).val < n := (i 1).isLt
    split_ifs with hn
    · omega
    · rfl

/-- A 1×n row broadcast into an r×n array, axis for axis, reads its entry q at every (p, q). -/
theorem bcastInDim_rows_apply (x : (⟨2, ![1, n]⟩ : Shape).Idx → α)
    (h : (⟨2, ![1, n]⟩ : Shape).BroadcastsInDim ⟨2, ![r, n]⟩ ![0, 1]) (p : Fin r) (q : Fin n) :
    broadcastInDim ⟨2, ![r, n]⟩ ![0, 1] h x (ix2 p q) = x (ix2 0 q) :=
  broadcastInDim_apply _ h x _ _ fun ax => by
    match ax with
    | ⟨0, _⟩ =>
      show (0 : Nat) = if (1 : Nat) = 1 then 0 else p.val
      rw [if_pos rfl]
    | ⟨1, _⟩ =>
      show q.val = if n = 1 then 0 else q.val
      split_ifs with hn
      · have := q.isLt; omega
      · rfl

/-- A scalar broadcast into an array of any shape reads the scalar at every index. -/
theorem bcastInDim_scalar_apply {s : Shape} (x : (⟨0, ![]⟩ : Shape).Idx → α)
    (h : (⟨0, ![]⟩ : Shape).BroadcastsInDim s ![]) (i : s.Idx) : broadcastInDim s ![] h x i = x ix0 :=
  broadcastInDim_apply _ h x _ _ fun ax => ax.elim0

end Cert.Lib.RowVector
-- ==== Proof.LibBiasRelu.lean ====
/-
  A bias row added to every row of a matrix and the result clamped below at zero, on the extended reals: the
  function itself, the kernel body's spelling of it (the row re-shaped in place, broadcast down the rows, added, and
  the maximum taken with a splat of the zero word), the reference's spelling (the bias vector broadcast into a 1×k row
  and then into the n×k array, added, and the maximum taken with a broadcast zero), and the fact that an entry depends
  on one entry of the matrix. The zero is kept as the value of the zero word, the same on both sides.
  Nothing here mentions a program.
-/
import Idealize.ShloMosaic.PureOps.Ideal.Laws
import Idealize.ShloMosaic.Lib.ValueIdx
import Idealize.ShloMosaic.Lib.Pipeline.Value
import proofs.«112823_j61375082659915_1_alg».proof.Proof.LibBlockReads
import proofs.«112823_j61375082659915_1_alg».proof.Proof.LibRowVector

noncomputable section

namespace Cert.Lib.BiasRelu

open Idealize.ShloMosaic Idealize.ShloMosaic.ValueIdx Cert.Lib.RowVector

variable {n n' k : Nat}

/-- Entry (p, q) is the maximum of X(p, q) + b(0, q) and zero. -/
def biasRelu (X : (⟨2, ![n, k]⟩ : Shape).Idx → EReal) (b : (⟨2, ![1, k]⟩ : Shape).Idx → EReal) :
    (⟨2, ![n, k]⟩ : Shape).Idx → EReal :=
  fun i => max (X i + b (ix2 (0 : Fin 1) (⟨(i 1).val, idx2_lt1 i⟩ : Fin k))) (Ideal.ofBits .f32 0x00000000#32)

theorem biasRelu_apply (X : (⟨2, ![n, k]⟩ : Shape).Idx → EReal) (b : (⟨2, ![1, k]⟩ : Shape).Idx → EReal)
    (p : Fin n) (q : Fin k) :
    biasRelu X b (ix2 p q) = max (X (ix2 p q) + b (ix2 0 q)) (Ideal.ofBits .f32 0x00000000#32) := rfl

/-- An entry depends on one entry of the matrix: equal entries give equal results. -/
theorem biasRelu_rows (X : (⟨2, ![n, k]⟩ : Shape).Idx → EReal) (X' : (⟨2, ![n', k]⟩ : Shape).Idx → EReal)
    (b : (⟨2, ![1, k]⟩ : Shape).Idx → EReal) (p' : Fin n') (p : Fin n) (q : Fin k)
    (h : X' (ix2 p' q) = X (ix2 p q)) : biasRelu X' b (ix2 p' q) = biasRelu X b (ix2 p q) := by
  rw [biasRelu_apply, biasRelu_apply, h]

/-- The kernel body's spelling. -/
theorem body_eq (x0 : FVec Ideal ⟨2, ![n, k]⟩ .f32) (x2 : FVec Ideal ⟨2, ![1, k]⟩ .f32)
    (h0 : (⟨2, ![n, k]⟩ : Shape).ShapeCasts ⟨2, ![n, k]⟩) (h2 : (⟨2, ![1, k]⟩ : Shape).ShapeCasts ⟨2, ![1, k]⟩)
    (hb : (⟨2, ![1, k]⟩ : Shape).Broadcasts ⟨2, ![n, k]⟩) :
    maximumf (addf (shapeCast ⟨2, ![n, k]⟩ x0 h0) (broadcastTo ⟨2, ![n, k]⟩ (shapeCast ⟨2, ![1, k]⟩ x2 h2) hb))
      (broadcast ⟨2, ![n, k]⟩ (Scalar.ofBits (F := Ideal) .f32 0x00000000#32)) = biasRelu x0 x2 := by
  funext i
  obtain ⟨p, q, rfl⟩ : ∃ (p : Fin n) (q : Fin k), i = ix2 p q := ⟨i 0, i 1, eq_ix2 i⟩
  rw [maximumf_apply, addf_apply, shapeCast_self, shapeCast_self, Cert.Lib.BlockReads.broadcast_row_apply]
  rfl

/-- The reference's spelling: the bias vector as a 1×k row. -/
theorem host_eq (X : FVec Ideal ⟨2, ![n, k]⟩ .f32) (b : FVec Ideal ⟨1, ![k]⟩ .f32)
    (h1 : (⟨1, ![k]⟩ : Shape).BroadcastsInDim ⟨2, ![1, k]⟩ ![1])
    (h2 : (⟨2, ![1, k]⟩ : Shape).BroadcastsInDim ⟨2, ![n, k]⟩ ![0, 1])
    (h3 : (⟨0, ![]⟩ : Shape).BroadcastsInDim ⟨2, ![n, k]⟩ ![]) :
    maximumf (addf X (broadcastInDim ⟨2, ![n, k]⟩ ![0, 1] h2 (broadcastInDim ⟨2, ![1, k]⟩ ![1] h1 b)))
      (broadcastInDim ⟨2, ![n, k]⟩ ![] h3 (constant (F := Ideal) ⟨0, ![]⟩ .f32 0x00000000#32)) = biasRelu X (asRow b) := by
  funext i
  obtain ⟨p, q, rfl⟩ : ∃ (p : Fin n) (q : Fin k), i = ix2 p q := ⟨i 0, i 1, eq_ix2 i⟩
  rw [maximumf_apply, addf_apply, bcastInDim_rows_apply, bcastInDim_eq_asRow, bcastInDim_scalar_apply]
  rfl

end Cert.Lib.BiasRelu

end
-- ==== Proof.LibDenseLayers.lean ====
/-
  Dense layers on the extended reals, as functions of whole arrays.

  A layer takes an r×k array X, a k×n array W and a vector b of n entries to the r×n array whose entry (p, q) is the
  sum over c of X(p, c) · W(c, q), plus b(q) — `affine` — or the maximum of that and zero — `dense`. An entry of a
  layer's result depends on one row of X, one column of W and one entry of b, so a layer applied to some rows of X
  (and to some columns of W with the matching entries of b) gives those rows (and columns) of the layer applied to
  the whole arrays: `dense_rows`, `affine_rows`, `affine_block`, with the row and column maps as variables. The two
  spellings of the bias are read once — a kernel body's (the vector re-shaped to a 1×n row, broadcast down the rows,
  added: `body_bias`, and with the maximum with a splat of the zero word: `body_bias_max`) and a host program's (the
  vector broadcast into a 1×n row and that into the r×n array, added: `host_bias`; with the maximum it is
  `Cert.Lib.BiasRelu.host_eq`) — and `max_biasAdd` takes the maximum of an already-read bias with the zero splat
  (the form a rewriting pass meets, since it reads the inner sum first). Sums and maxima on the extended reals need no
  finiteness here: nothing is distributed or cancelled. Nothing here mentions a program.
-/
import Idealize.ShloMosaic.PureOps.Ideal.Laws
import Idealize.ShloMosaic.Lib.ValueIdx
import Idealize.ShloMosaic.Lib.Pipeline.Value
import proofs.«112823_j61375082659915_1_alg».proof.Proof.LibMatProd
import proofs.«112823_j61375082659915_1_alg».proof.Proof.LibBiasRelu
import proofs.«112823_j61375082659915_1_alg».proof.Proof.LibRowVector
import proofs.«112823_j61375082659915_1_alg».proof.Proof.LibBlockReads

open scoped BigOperators

noncomputable section

namespace Cert.Layers

open Idealize.ShloMosaic Idealize.ShloMosaic.ValueIdx Cert.Lib.MatProd Cert.Lib.BiasRelu Cert.Lib.RowVector

variable {r r' k n n' : Nat}

/-- Entry (p, q) is X(p, q) + b(0, q). -/
def biasAdd (X : (⟨2, ![r, n]⟩ : Shape).Idx → EReal) (b : (⟨2, ![1, n]⟩ : Shape).Idx → EReal) :
    (⟨2, ![r, n]⟩ : Shape).Idx → EReal :=
  fun i => X i + b (ix2 (0 : Fin 1) (⟨(i 1).val, idx2_lt1 i⟩ : Fin n))

theorem biasAdd_apply (X : (⟨2, ![r, n]⟩ : Shape).Idx → EReal) (b : (⟨2, ![1, n]⟩ : Shape).Idx → EReal)
    (p : Fin r) (q : Fin n) : biasAdd X b (ix2 p q) = X (ix2 p q) + b (ix2 0 q) := rfl

/-- A layer with the maximum: entry (p, q) is max (∑ c, X(p, c) · W(c, q) + b(q)) 0. -/
def dense (X : (⟨2, ![r, k]⟩ : Shape).Idx → EReal) (W : (⟨2, ![k, n]⟩ : Shape).Idx → EReal)
    (b : (⟨1, ![n]⟩ : Shape).Idx → EReal) : (⟨2, ![r, n]⟩ : Shape).Idx → EReal :=
  biasRelu (matProd X W) (asRow b)

/-- A layer without it: entry (p, q) is ∑ c, X(p, c) · W(c, q) + b(q). -/
def affine (X : (⟨2, ![r, k]⟩ : Shape).Idx → EReal) (W : (⟨2, ![k, n]⟩ : Shape).Idx → EReal)
    (b : (⟨1, ![n]⟩ : Shape).Idx → EReal) : (⟨2, ![r, n]⟩ : Shape).Idx → EReal :=
  biasAdd (matProd X W) (asRow b)

/-- If row p of X' is row ρ p of X, row p of `dense X' W b` is row ρ p of `dense X W b`. -/
theorem dense_rows (X : (⟨2, ![r, k]⟩ : Shape).Idx → EReal) (X' : (⟨2, ![r', k]⟩ : Shape).Idx → EReal)
    (W : (⟨2, ![k, n]⟩ : Shape).Idx → EReal) (b : (⟨1, ![n]⟩ : Shape).Idx → EReal) (ρ : Fin r' → Fin r)
    (h : ∀ (p : Fin r') (c : Fin k), X' (ix2 p c) = X (ix2 (ρ p) c)) (p : Fin r') (q : Fin n) :
    dense X' W b (ix2 p q) = dense X W b (ix2 (ρ p) q) :=
  biasRelu_rows _ _ _ p (ρ p) q (matProd_block X X' W W p q (ρ p) q (h p) fun _ => rfl)

/-- The same for a layer without the maximum, a block of columns of W and the matching entries of b taken as well:
    if also column q of W' is column γ q of W and entry q of b' is entry γ q of b, entry (p, q) of
    `affine X' W' b'` is entry (ρ p, γ q) of `affine X W b`. -/
theorem affine_block (X : (⟨2, ![r, k]⟩ : Shape).Idx → EReal) (X' : (⟨2, ![r', k]⟩ : Shape).Idx → EReal)
    (W : (⟨2, ![k, n]⟩ : Shape).Idx → EReal) (W' : (⟨2, ![k, n']⟩ : Shape).Idx → EReal)
    (b : (⟨1, ![n]⟩ : Shape).Idx → EReal) (b' : (⟨1, ![n']⟩ : Shape).Idx → EReal)
    (ρ : Fin r' → Fin r) (γ : Fin n' → Fin n)
    (hX : ∀ (p : Fin r') (c : Fin k), X' (ix2 p c) = X (ix2 (ρ p) c))
    (hW : ∀ (c : Fin k) (q : Fin n'), W' (ix2 c q) = W (ix2 c (γ q)))
    (hb : ∀ q : Fin n', b' (ix1 q) = b (ix1 (γ q))) (p : Fin r') (q : Fin n') :
    affine X' W' b' (ix2 p q) = affine X W b (ix2 (ρ p) (γ q)) := by
  unfold affine
  rw [biasAdd_apply, biasAdd_apply, asRow_apply, asRow_apply, hb q,
    matProd_block X X' W W' p q (ρ p) (γ q) (hX p) fun c => hW c q]

theorem affine_rows (X : (⟨2, ![r, k]⟩ : Shape).Idx → EReal) (X' : (⟨2, ![r', k]⟩ : Shape).Idx → EReal)
    (W : (⟨2, ![k, n]⟩ : Shape).Idx → EReal) (b : (⟨1, ![n]⟩ : Shape).Idx → EReal) (ρ : Fin r' → Fin r)
    (h : ∀ (p : Fin r') (c : Fin k), X' (ix2 p c) = X (ix2 (ρ p) c)) (p : Fin r') (q : Fin n) :
    affine X' W b (ix2 p q) = affine X W b (ix2 (ρ p) q) :=
  affine_block X X' W W b b ρ id h (fun _ _ => rfl) (fun _ => rfl) p q

/-! ## The two spellings of a layer's bias and maximum -/

/-- The kernel body's bias: the vector re-shaped to a 1×n row and broadcast down the rows, then added. -/
theorem body_bias (M : FVec Ideal ⟨2, ![r, n]⟩ .f32) (v : FVec Ideal ⟨1, ![n]⟩ .f32)
    (h : (⟨1, ![n]⟩ : Shape).ShapeCasts ⟨2, ![1, n]⟩) (hb : (⟨2, ![1, n]⟩ : Shape).Broadcasts ⟨2, ![r, n]⟩) :
    addf M (broadcastTo ⟨2, ![r, n]⟩ (shapeCast ⟨2, ![1, n]⟩ v h) hb) = biasAdd M (asRow v) := by
  funext i
  obtain ⟨p, q, rfl⟩ : ∃ (p : Fin r) (q : Fin n), i = ix2 p q := ⟨i 0, i 1, eq_ix2 i⟩
  rw [addf_apply, Cert.Lib.BlockReads.broadcast_row_apply, shapeCast_eq_asRow]
  rfl

/-- The kernel body's bias and maximum with a splat of the zero word. -/
theorem body_bias_max (M : FVec Ideal ⟨2, ![r, n]⟩ .f32) (v : FVec Ideal ⟨1, ![n]⟩ .f32)
    (h : (⟨1, ![n]⟩ : Shape).ShapeCasts ⟨2, ![1, n]⟩) (hb : (⟨2, ![1, n]⟩ : Shape).Broadcasts ⟨2, ![r, n]⟩) :
    maximumf (addf M (broadcastTo ⟨2, ![r, n]⟩ (shapeCast ⟨2, ![1, n]⟩ v h) hb))
      (broadcast ⟨2, ![r, n]⟩ (Scalar.ofBits (F := Ideal) .f32 0x00000000#32)) = biasRelu M (asRow v) := by
  funext i
  obtain ⟨p, q, rfl⟩ : ∃ (p : Fin r) (q : Fin n), i = ix2 p q := ⟨i 0, i 1, eq_ix2 i⟩
  rw [maximumf_apply, addf_apply, Cert.Lib.BlockReads.broadcast_row_apply, shapeCast_eq_asRow]
  rfl

/-- The reference's bias: the vector broadcast into a 1×n row and that into the r×n array, then added. -/
theorem host_bias (M : FVec Ideal ⟨2, ![r, n]⟩ .f32) (v : FVec Ideal ⟨1, ![n]⟩ .f32)
    (h1 : (⟨1, ![n]⟩ : Shape).BroadcastsInDim ⟨2, ![1, n]⟩ ![1])
    (h2 : (⟨2, ![1, n]⟩ : Shape).BroadcastsInDim ⟨2, ![r, n]⟩ ![0, 1]) :
    addf M (broadcastInDim ⟨2, ![r, n]⟩ ![0, 1] h2 (broadcastInDim ⟨2, ![1, n]⟩ ![1] h1 v)) = biasAdd M (asRow v) := by
  funext i
  obtain ⟨p, q, rfl⟩ : ∃ (p : Fin r) (q : Fin n), i = ix2 p q := ⟨i 0, i 1, eq_ix2 i⟩
  rw [addf_apply, bcastInDim_rows_apply, bcastInDim_eq_asRow]
  rfl

/-- The maximum of a biased matrix with a splat of the zero word is the bias and maximum in one. -/
theorem max_biasAdd (M : (⟨2, ![r, n]⟩ : Shape).Idx → EReal) (b : (⟨2, ![1, n]⟩ : Shape).Idx → EReal) :
    maximumf (F := Ideal) (s := ⟨2, ![r, n]⟩) (φ := .f32) (biasAdd M b)
      (broadcast ⟨2, ![r, n]⟩ (FloatOps.ofBits (F := Ideal) .f32 0x00000000#32)) = biasRelu M b := by
  funext i
  rw [maximumf_apply]
  rfl

end Cert.Layers

end
-- ==== Proof.LibNormLayers.lean ====
/-
  Normalisation layers on the extended reals, as functions of whole arrays.

  `normRelu X μ v g β` is, entry by entry, max (((X(p,q) − μ(q)) · rsqrt (v(q) + ε)) · g(q) + β(q)) 0 with the four
  per-column quantities given as 1×n rows and ε the single-precision word 0x3727C5AC: a normalisation of every
  column by a given mean and variance, an affine map per column, and a clamp below at zero. A kernel body spells it
  with re-shapings in place and broadcasts of 1×n rows; a host program spells it with vectors broadcast to a row and
  then down the rows; both are this one function, the operations being the same in the same order. An entry depends
  on one entry of X, so a block of rows of X gives the same rows of the result; followed by a matrix product and a
  bias row (`normAffine`), a block of rows of X still gives the same rows of the result. No finiteness is asked:
  nothing is re-associated or distributed. Nothing here mentions a program.
-/
import Idealize.ShloMosaic.PureOps.Ideal.Laws
import Idealize.ShloMosaic.Lib.ValueIdx
import Idealize.ShloMosaic.Lib.Pipeline.Value
import proofs.«112823_j61375082659915_1_alg».proof.Proof.LibBlockReads
import proofs.«112823_j61375082659915_1_alg».proof.Proof.LibMatProd
import proofs.«112823_j61375082659915_1_alg».proof.Proof.LibRowVector
import proofs.«112823_j61375082659915_1_alg».proof.Proof.LibDenseLayers

open scoped BigOperators

noncomputable section

namespace Cert.Lib.NormLayers

open Idealize.ShloMosaic Idealize.ShloMosaic.ValueIdx Cert.Lib.MatProd Cert.Lib.RowVector Cert.Layers

variable {r r' n k m : Nat}

/-- The column of an index of an r×n array, as an index of a 1×n row. -/
abbrev colOf (i : (⟨2, ![r, n]⟩ : Shape).Idx) : (⟨2, ![1, n]⟩ : Shape).Idx :=
  ix2 (0 : Fin 1) (⟨(i 1).val, idx2_lt1 i⟩ : Fin n)

/-- Entry (p, q) is max (((X(p,q) − μ(q)) · rsqrt (v(q) + ε)) · g(q) + β(q)) 0. -/
def normRelu (X : (⟨2, ![r, n]⟩ : Shape).Idx → EReal) (μ v g β : (⟨2, ![1, n]⟩ : Shape).Idx → EReal) :
    (⟨2, ![r, n]⟩ : Shape).Idx → EReal :=
  fun i => max ((X i - μ (colOf i)) * Ideal.rsqrt (v (colOf i) + Ideal.ofBits .f32 0x3727C5AC#32) * g (colOf i)
    + β (colOf i)) (Ideal.ofBits .f32 0x00000000#32)

theorem normRelu_apply (X : (⟨2, ![r, n]⟩ : Shape).Idx → EReal) (μ v g β : (⟨2, ![1, n]⟩ : Shape).Idx → EReal)
    (p : Fin r) (q : Fin n) :
    normRelu X μ v g β (ix2 p q) = max ((X (ix2 p q) - μ (ix2 0 q)) * Ideal.rsqrt (v (ix2 0 q)
      + Ideal.ofBits .f32 0x3727C5AC#32) * g (ix2 0 q) + β (ix2 0 q)) (Ideal.ofBits .f32 0x00000000#32) := rfl

/-- An entry depends on one entry of X and on the rows' entries of its column. -/
theorem normRelu_entry (X : (⟨2, ![r, n]⟩ : Shape).Idx → EReal) (X' : (⟨2, ![r', n]⟩ : Shape).Idx → EReal)
    (μ v g β μ' v' g' β' : (⟨2, ![1, n]⟩ : Shape).Idx → EReal) (p' : Fin r') (p : Fin r) (q : Fin n)
    (hX : X' (ix2 p' q) = X (ix2 p q)) (hμ : μ' (ix2 0 q) = μ (ix2 0 q)) (hv : v' (ix2 0 q) = v (ix2 0 q))
    (hg : g' (ix2 0 q) = g (ix2 0 q)) (hβ : β' (ix2 0 q) = β (ix2 0 q)) :
    normRelu X' μ' v' g' β' (ix2 p' q) = normRelu X μ v g β (ix2 p q) := by
  rw [normRelu_apply, normRelu_apply, hX, hμ, hv, hg, hβ]

/-- The kernel body's spelling: every operand re-shaped in place, the rows broadcast down the rows. -/
theorem body_normRelu (x0 : FVec Ideal ⟨2, ![r, n]⟩ .f32) (xv xm xg xb : FVec Ideal ⟨2, ![1, n]⟩ .f32)
    (h0 : (⟨2, ![r, n]⟩ : Shape).ShapeCasts ⟨2, ![r, n]⟩) (h1 : (⟨2, ![1, n]⟩ : Shape).ShapeCasts ⟨2, ![1, n]⟩)
    (hb : (⟨2, ![1, n]⟩ : Shape).Broadcasts ⟨2, ![r, n]⟩) :
    maximumf (addf (mulf (mulf (subf (shapeCast ⟨2, ![r, n]⟩ x0 h0)
        (broadcastTo ⟨2, ![r, n]⟩ (shapeCast ⟨2, ![1, n]⟩ xm h1) hb))
        (broadcastTo ⟨2, ![r, n]⟩ (rsqrt (addf (shapeCast ⟨2, ![1, n]⟩ xv h1)
          (broadcast ⟨2, ![1, n]⟩ (Scalar.ofBits (F := Ideal) .f32 0x3727C5AC#32)))) hb))
        (broadcastTo ⟨2, ![r, n]⟩ (shapeCast ⟨2, ![1, n]⟩ xg h1) hb))
        (broadcastTo ⟨2, ![r, n]⟩ (shapeCast ⟨2, ![1, n]⟩ xb h1) hb))
      (broadcast ⟨2, ![r, n]⟩ (Scalar.ofBits (F := Ideal) .f32 0x00000000#32)) = normRelu x0 xm xv xg xb := by
  funext i
  obtain ⟨p, q, rfl⟩ : ∃ (p : Fin r) (q : Fin n), i = ix2 p q := ⟨i 0, i 1, eq_ix2 i⟩
  rw [maximumf_apply, addf_apply, mulf_apply, mulf_apply, subf_apply]
  simp only [Cert.Lib.BlockReads.broadcast_row_apply, shapeCast_self]
  rfl

/-- The reference's spelling: every vector broadcast into a 1×n row and that down the rows. -/
theorem host_normRelu (X : FVec Ideal ⟨2, ![r, n]⟩ .f32) (μ v g β : FVec Ideal ⟨1, ![n]⟩ .f32)
    (h1 : (⟨1, ![n]⟩ : Shape).BroadcastsInDim ⟨2, ![1, n]⟩ ![1])
    (h2 : (⟨2, ![1, n]⟩ : Shape).BroadcastsInDim ⟨2, ![r, n]⟩ ![0, 1])
    (hv : (⟨0, ![]⟩ : Shape).BroadcastsInDim ⟨1, ![n]⟩ ![])
    (h3 : (⟨0, ![]⟩ : Shape).BroadcastsInDim ⟨2, ![r, n]⟩ ![]) :
    maximumf (addf (mulf (mulf (subf X
        (broadcastInDim ⟨2, ![r, n]⟩ ![0, 1] h2 (broadcastInDim ⟨2, ![1, n]⟩ ![1] h1 μ)))
        (broadcastInDim ⟨2, ![r, n]⟩ ![0, 1] h2 (broadcastInDim ⟨2, ![1, n]⟩ ![1] h1
          (Host.rsqrt (addf v (broadcastInDim ⟨1, ![n]⟩ ![] hv (constant (F := Ideal) ⟨0, ![]⟩ .f32 0x3727C5AC#32)))))))
        (broadcastInDim ⟨2, ![r, n]⟩ ![0, 1] h2 (broadcastInDim ⟨2, ![1, n]⟩ ![1] h1 g)))
        (broadcastInDim ⟨2, ![r, n]⟩ ![0, 1] h2 (broadcastInDim ⟨2, ![1, n]⟩ ![1] h1 β)))
      (broadcastInDim ⟨2, ![r, n]⟩ ![] h3 (constant (F := Ideal) ⟨0, ![]⟩ .f32 0x00000000#32))
      = normRelu X (asRow μ) (asRow v) (asRow g) (asRow β) := by
  funext i
  obtain ⟨p, q, rfl⟩ : ∃ (p : Fin r) (q : Fin n), i = ix2 p q := ⟨i 0, i 1, eq_ix2 i⟩
  rw [maximumf_apply, addf_apply, mulf_apply, mulf_apply, subf_apply, bcastInDim_rows_apply, bcastInDim_rows_apply,
    bcastInDim_rows_apply, bcastInDim_rows_apply, bcastInDim_eq_asRow, bcastInDim_eq_asRow, bcastInDim_eq_asRow,
    bcastInDim_eq_asRow, bcastInDim_scalar_apply]
  show max ((X (ix2 p q) - asRow μ (ix2 0 q)) * Ideal.rsqrt (v (ix1 q)
      + broadcastInDim ⟨1, ![n]⟩ ![] hv (constant (F := Ideal) ⟨0, ![]⟩ .f32 0x3727C5AC#32) (ix1 q)) * asRow g (ix2 0 q)
      + asRow β (ix2 0 q)) _ = _
  rw [bcastInDim_scalar_apply]
  rfl

/-! ## A bias given as a 1×n row -/

/-- The kernel body's bias when the row is re-shaped in place: broadcast down the rows, then added. -/
theorem body_bias_row (M : FVec Ideal ⟨2, ![r, n]⟩ .f32) (b : FVec Ideal ⟨2, ![1, n]⟩ .f32)
    (h : (⟨2, ![1, n]⟩ : Shape).ShapeCasts ⟨2, ![1, n]⟩) (hb : (⟨2, ![1, n]⟩ : Shape).Broadcasts ⟨2, ![r, n]⟩) :
    addf M (broadcastTo ⟨2, ![r, n]⟩ (shapeCast ⟨2, ![1, n]⟩ b h) hb) = biasAdd M b := by
  funext i
  obtain ⟨p, q, rfl⟩ : ∃ (p : Fin r) (q : Fin n), i = ix2 p q := ⟨i 0, i 1, eq_ix2 i⟩
  rw [addf_apply, Cert.Lib.BlockReads.broadcast_row_apply, shapeCast_self]
  rfl

/-- A product with a bias row: entry (p, q) is ∑ c, X(p, c) · W(c, q) + b(0, q). -/
def affineRow (X : (⟨2, ![r, k]⟩ : Shape).Idx → EReal) (W : (⟨2, ![k, n]⟩ : Shape).Idx → EReal)
    (b : (⟨2, ![1, n]⟩ : Shape).Idx → EReal) : (⟨2, ![r, n]⟩ : Shape).Idx → EReal :=
  biasAdd (matProd X W) b

/-- Entry (p', q) of the layer of X', W', b' is entry (p, q) of the layer of X, W, b when row p' of X' is row p of X,
    column q of W' is column q of W and entry q of b' is entry q of b. -/
theorem affineRow_entry (X : (⟨2, ![r, k]⟩ : Shape).Idx → EReal) (X' : (⟨2, ![r', k]⟩ : Shape).Idx → EReal)
    (W W' : (⟨2, ![k, n]⟩ : Shape).Idx → EReal) (b b' : (⟨2, ![1, n]⟩ : Shape).Idx → EReal)
    (p' : Fin r') (p : Fin r) (q : Fin n)
    (hX : ∀ c : Fin k, X' (ix2 p' c) = X (ix2 p c)) (hW : ∀ c : Fin k, W' (ix2 c q) = W (ix2 c q))
    (hb : b' (ix2 0 q) = b (ix2 0 q)) :
    affineRow X' W' b' (ix2 p' q) = affineRow X W b (ix2 p q) := by
  unfold affineRow
  rw [biasAdd_apply, biasAdd_apply, hb, matProd_block X X' W W' p' q p q hX hW]

/-- The normalisation followed by a product and a bias row. -/
def normAffine (X : (⟨2, ![r, k]⟩ : Shape).Idx → EReal) (μ v g β : (⟨2, ![1, k]⟩ : Shape).Idx → EReal)
    (W : (⟨2, ![k, n]⟩ : Shape).Idx → EReal) (b : (⟨2, ![1, n]⟩ : Shape).Idx → EReal) :
    (⟨2, ![r, n]⟩ : Shape).Idx → EReal :=
  affineRow (normRelu X μ v g β) W b

theorem normAffine_entry (X : (⟨2, ![r, k]⟩ : Shape).Idx → EReal) (X' : (⟨2, ![r', k]⟩ : Shape).Idx → EReal)
    (μ v g β μ' v' g' β' : (⟨2, ![1, k]⟩ : Shape).Idx → EReal)
    (W W' : (⟨2, ![k, n]⟩ : Shape).Idx → EReal) (b b' : (⟨2, ![1, n]⟩ : Shape).Idx → EReal)
    (p' : Fin r') (p : Fin r) (q : Fin n)
    (hX : ∀ c : Fin k, X' (ix2 p' c) = X (ix2 p c))
    (hμ : ∀ c : Fin k, μ' (ix2 0 c) = μ (ix2 0 c)) (hv : ∀ c : Fin k, v' (ix2 0 c) = v (ix2 0 c))
    (hg : ∀ c : Fin k, g' (ix2 0 c) = g (ix2 0 c)) (hβ : ∀ c : Fin k, β' (ix2 0 c) = β (ix2 0 c))
    (hW : ∀ c : Fin k, W' (ix2 c q) = W (ix2 c q)) (hb : b' (ix2 0 q) = b (ix2 0 q)) :
    normAffine X' μ' v' g' β' W' b' (ix2 p' q) = normAffine X μ v g β W b (ix2 p q) :=
  affineRow_entry _ _ W W' b b' p' p q
    (fun c => normRelu_entry X X' μ v g β μ' v' g' β' p' p c (hX c) (hμ c) (hv c) (hg c) (hβ c)) hW hb

/-- The kernel body's product with a bias row: both operands narrowed (the identity on the extended reals), the
    product accumulated into zeros, the row re-shaped in place and broadcast down the rows. -/
theorem body_affineRow {φ : FTy} (d : DotDims ⟨2, ![r, k]⟩ ⟨2, ![k, n]⟩ ⟨2, ![r, n]⟩)
    (hlc : d.lhsContracting = [1]) (hrc : d.rhsContracting = [0]) (hln : d.lhsNonContracting = [0])
    (hrn : d.rhsNonContracting = [1]) (hlb : d.lhsBatch = []) (hrb : d.rhsBatch = [])
    (Y : FVec Ideal ⟨2, ![r, k]⟩ .f32) (W : FVec Ideal ⟨2, ![k, n]⟩ .f32) (b : FVec Ideal ⟨2, ![1, n]⟩ .f32)
    (hlt : φ.bits < FTy.f32.bits)
    (h : (⟨2, ![1, n]⟩ : Shape).ShapeCasts ⟨2, ![1, n]⟩) (hb : (⟨2, ![1, n]⟩ : Shape).Broadcasts ⟨2, ![r, n]⟩) :
    addf (matmul d none (truncf φ Y hlt) (truncf φ W hlt) (constant ⟨2, ![r, n]⟩ .f32 0x00000000#32))
      (broadcastTo ⟨2, ![r, n]⟩ (shapeCast ⟨2, ![1, n]⟩ b h) hb) = affineRow Y W b := by
  rw [matmul_zero_eq_matProd d hlc hrc hln hrn hlb hrb none, body_bias_row]
  rfl

/-- The reference's product with a bias vector. -/
theorem host_affineRow (d : DotDims ⟨2, ![r, k]⟩ ⟨2, ![k, n]⟩ ⟨2, ![r, n]⟩)
    (hlc : d.lhsContracting = [1]) (hrc : d.rhsContracting = [0]) (hln : d.lhsNonContracting = [0])
    (hrn : d.rhsNonContracting = [1]) (hlb : d.lhsBatch = []) (hrb : d.rhsBatch = [])
    (Y : FVec Ideal ⟨2, ![r, k]⟩ .f32) (W : FVec Ideal ⟨2, ![k, n]⟩ .f32) (b : FVec Ideal ⟨1, ![n]⟩ .f32)
    (h1 : (⟨1, ![n]⟩ : Shape).BroadcastsInDim ⟨2, ![1, n]⟩ ![1])
    (h2 : (⟨2, ![1, n]⟩ : Shape).BroadcastsInDim ⟨2, ![r, n]⟩ ![0, 1]) :
    addf (Host.dotGeneral d none Y W)
      (broadcastInDim ⟨2, ![r, n]⟩ ![0, 1] h2 (broadcastInDim ⟨2, ![1, n]⟩ ![1] h1 b)) = affineRow Y W (asRow b) := by
  rw [host_bias]
  unfold affineRow
  congr 1
  exact dotGeneral_eq_matProd d hlc hrc hln hrn hlb hrb none _ Y W

/-- The reference's spelling of the normalisation followed by the product and the bias vector. -/
theorem host_normAffine (d : DotDims ⟨2, ![r, k]⟩ ⟨2, ![k, n]⟩ ⟨2, ![r, n]⟩)
    (hlc : d.lhsContracting = [1]) (hrc : d.rhsContracting = [0]) (hln : d.lhsNonContracting = [0])
    (hrn : d.rhsNonContracting = [1]) (hlb : d.lhsBatch = []) (hrb : d.rhsBatch = [])
    (X : FVec Ideal ⟨2, ![r, k]⟩ .f32) (μ v g β : FVec Ideal ⟨1, ![k]⟩ .f32)
    (W : FVec Ideal ⟨2, ![k, n]⟩ .f32) (b : FVec Ideal ⟨1, ![n]⟩ .f32)
    (h1 : (⟨1, ![k]⟩ : Shape).BroadcastsInDim ⟨2, ![1, k]⟩ ![1])
    (h2 : (⟨2, ![1, k]⟩ : Shape).BroadcastsInDim ⟨2, ![r, k]⟩ ![0, 1])
    (hv : (⟨0, ![]⟩ : Shape).BroadcastsInDim ⟨1, ![k]⟩ ![])
    (h3 : (⟨0, ![]⟩ : Shape).BroadcastsInDim ⟨2, ![r, k]⟩ ![])
    (h1' : (⟨1, ![n]⟩ : Shape).BroadcastsInDim ⟨2, ![1, n]⟩ ![1])
    (h2' : (⟨2, ![1, n]⟩ : Shape).BroadcastsInDim ⟨2, ![r, n]⟩ ![0, 1]) :
    normAffine X (asRow μ) (asRow v) (asRow g) (asRow β) W (asRow b)
      = addf (Host.dotGeneral d none
          (maximumf (addf (mulf (mulf (subf X
            (broadcastInDim ⟨2, ![r, k]⟩ ![0, 1] h2 (broadcastInDim ⟨2, ![1, k]⟩ ![1] h1 μ)))
            (broadcastInDim ⟨2, ![r, k]⟩ ![0, 1] h2 (broadcastInDim ⟨2, ![1, k]⟩ ![1] h1
              (Host.rsqrt (addf v (broadcastInDim ⟨1, ![k]⟩ ![] hv (constant (F := Ideal) ⟨0, ![]⟩ .f32 0x3727C5AC#32)))))))
            (broadcastInDim ⟨2, ![r, k]⟩ ![0, 1] h2 (broadcastInDim ⟨2, ![1, k]⟩ ![1] h1 g)))
            (broadcastInDim ⟨2, ![r, k]⟩ ![0, 1] h2 (broadcastInDim ⟨2, ![1, k]⟩ ![1] h1 β)))
          (broadcastInDim ⟨2, ![r, k]⟩ ![] h3 (constant (F := Ideal) ⟨0, ![]⟩ .f32 0x00000000#32))) W)
        (broadcastInDim ⟨2, ![r, n]⟩ ![0, 1] h2' (broadcastInDim ⟨2, ![1, n]⟩ ![1] h1' b)) := by
  rw [host_normRelu, host_affineRow d hlc hrc hln hrn hlb hrb]
  rfl

/-- The two host spellings read from the layer's side (for meeting a composed term of a host program). -/
theorem normRelu_host (X : FVec Ideal ⟨2, ![r, n]⟩ .f32) (μ v g β : FVec Ideal ⟨1, ![n]⟩ .f32)
    (h1 : (⟨1, ![n]⟩ : Shape).BroadcastsInDim ⟨2, ![1, n]⟩ ![1])
    (h2 : (⟨2, ![1, n]⟩ : Shape).BroadcastsInDim ⟨2, ![r, n]⟩ ![0, 1])
    (hv : (⟨0, ![]⟩ : Shape).BroadcastsInDim ⟨1, ![n]⟩ ![])
    (h3 : (⟨0, ![]⟩ : Shape).BroadcastsInDim ⟨2, ![r, n]⟩ ![]) :
    normRelu X (asRow μ) (asRow v) (asRow g) (asRow β)
      = maximumf (addf (mulf (mulf (subf X
        (broadcastInDim ⟨2, ![r, n]⟩ ![0, 1] h2 (broadcastInDim ⟨2, ![1, n]⟩ ![1] h1 μ)))
        (broadcastInDim ⟨2, ![r, n]⟩ ![0, 1] h2 (broadcastInDim ⟨2, ![1, n]⟩ ![1] h1
          (Host.rsqrt (addf v (broadcastInDim ⟨1, ![n]⟩ ![] hv (constant (F := Ideal) ⟨0, ![]⟩ .f32 0x3727C5AC#32)))))))
        (broadcastInDim ⟨2, ![r, n]⟩ ![0, 1] h2 (broadcastInDim ⟨2, ![1, n]⟩ ![1] h1 g)))
        (broadcastInDim ⟨2, ![r, n]⟩ ![0, 1] h2 (broadcastInDim ⟨2, ![1, n]⟩ ![1] h1 β)))
      (broadcastInDim ⟨2, ![r, n]⟩ ![] h3 (constant (F := Ideal) ⟨0, ![]⟩ .f32 0x00000000#32)) :=
  (host_normRelu X μ v g β h1 h2 hv h3).symm

theorem affineRow_host (d : DotDims ⟨2, ![r, k]⟩ ⟨2, ![k, n]⟩ ⟨2, ![r, n]⟩)
    (hlc : d.lhsContracting = [1]) (hrc : d.rhsContracting = [0]) (hln : d.lhsNonContracting = [0])
    (hrn : d.rhsNonContracting = [1]) (hlb : d.lhsBatch = []) (hrb : d.rhsBatch = [])
    (Y : FVec Ideal ⟨2, ![r, k]⟩ .f32) (W : FVec Ideal ⟨2, ![k, n]⟩ .f32) (b : FVec Ideal ⟨1, ![n]⟩ .f32)
    (h1 : (⟨1, ![n]⟩ : Shape).BroadcastsInDim ⟨2, ![1, n]⟩ ![1])
    (h2 : (⟨2, ![1, n]⟩ : Shape).BroadcastsInDim ⟨2, ![r, n]⟩ ![0, 1]) :
    affineRow Y W (asRow b) = addf (Host.dotGeneral d none Y W)
      (broadcastInDim ⟨2, ![r, n]⟩ ![0, 1] h2 (broadcastInDim ⟨2, ![1, n]⟩ ![1] h1 b)) :=
  (host_affineRow d hlc hrc hln hrn hlb hrb Y W b h1 h2).symm

end Cert.Lib.NormLayers

end
-- ==== Proof.LibRowBlocks.lean ====
/-
  Blocks of rows of a matrix product. An entry of a product depends on one row of the left operand, so a block of
  consecutive rows of A, multiplied by B, is the same block of rows of the product of A with B. Stated here with the
  two indices as variables: the index y inside the block and the index i of the whole array it sits at.
  Nothing here mentions a program.
-/
import Idealize.ShloMosaic.Lib.ValueIdx
import proofs.«112823_j61375082659915_1_alg».proof.Proof.LibMatProd

open scoped BigOperators

noncomputable section

namespace Cert.Lib.RowBlocks

open Idealize.ShloMosaic Idealize.ShloMosaic.ValueIdx Cert.Lib.MatProd

/-- The zero offset of a rank-2 rectangle, as a constant function. -/
theorem zero_offset2 : (![0, 0] : Fin 2 → Nat) = fun _ => 0 := funext fun a => by fin_cases a <;> rfl

/-- If row (y 0) of A' is row (i 0) of A, and y and i have the same column, the product of A' with B at y is the
    product of A with B at i. -/
theorem matProd_rows {m m' k n : Nat} (A : (⟨2, ![m, k]⟩ : Shape).Idx → EReal) (A' : (⟨2, ![m', k]⟩ : Shape).Idx → EReal)
    (B : (⟨2, ![k, n]⟩ : Shape).Idx → EReal) (y : (⟨2, ![m', n]⟩ : Shape).Idx) (i : (⟨2, ![m, n]⟩ : Shape).Idx)
    (hA : ∀ c : Fin k, A' (ix2 (⟨(y 0).val, idx2_lt0 y⟩ : Fin m') c) = A (ix2 (⟨(i 0).val, idx2_lt0 i⟩ : Fin m) c))
    (hcol : (y 1).val = (i 1).val) :
    matProd A' B y = matProd A B i := by
  obtain ⟨p, q, rfl⟩ : ∃ (p : Fin m') (q : Fin n), y = ix2 p q := ⟨y 0, y 1, eq_ix2 y⟩
  obtain ⟨r, s, rfl⟩ : ∃ (r : Fin m) (s : Fin n), i = ix2 r s := ⟨i 0, i 1, eq_ix2 i⟩
  have hqs : q = s := Fin.ext hcol
  subst hqs
  exact matProd_block A A' B B p q r q hA (fun _ => rfl)

end Cert.Lib.RowBlocks

end
-- ==== Proof.Region0.lean ====
/-
  Kernel call 0 of the idealized kernel program, read as one function of whole arrays.

  The call tiles the 100000×50 array X into 10 blocks of 10000 consecutive rows; at every point of its grid its body
  multiplies the block by the whole 50×100 array W and adds the 1×100 row b to every row of the product. An entry of a
  product depends on one row of the left operand, so what point t writes back is rows 10000·t … 10000·t + 9999 of the layer
  X·W + b of the whole arrays; the 10 blocks cover the output, so the output array ends holding that layer.
-/
import proofs.«112823_j61375082659915_1_alg».proof.Proof.Gen.KernelIdeal.Frame
import proofs.«112823_j61375082659915_1_alg».proof.Proof.LibNormLayers
import proofs.«112823_j61375082659915_1_alg».proof.Proof.LibRowBlocks
import Idealize.ShloMosaic.Lib.Pipeline.Value
import Idealize.ShloMosaic.Lib.ValueIdx

set_option maxRecDepth 16384

noncomputable section

namespace Cert.KernelIdeal.Region0

open Cert.KernelIdeal Cert.KernelIdeal.Gen
open Idealize.ShloMosaic Idealize.ShloMosaic.TcCoe Idealize.ShloMosaic.ValueIdx Idealize.SL.Sem
open Idealize.ShloMosaic.Pipeline (Dat)
open Cert.Lib.NormLayers Cert.Lib.MatProd Cert.Layers Cert.Lib.RowBlocks

variable (V : (c : Dev nD) → (b : Ref sig .tc) → Buf (Elt Ideal) ((c : Thread nD τ).loc b))

/-- The layer of the whole arrays as the call finds them. -/
def layer (c : Dev nD) : S100000x100.Idx → EReal :=
  affineRow (V c main_v10 : S100000x50.Idx → EReal) (V c main_arg5 : S50x100.Idx → EReal) (V c main_v11 : S1x100.Idx → EReal)

/-- The body's arithmetic is the layer of its three loaded blocks. -/
theorem pay_eq (x0 : Vec Ideal S10000x50 .f32) (x1 : Vec Ideal S50x100 .f32) (x2 : Vec Ideal S1x100 .f32) :
    k0_pay1 x0 x1 x2 = affineRow (x0 : S10000x50.Idx → EReal) x1 x2 := by
  unfold k0_pay1
  refine (body_affineRow dot_S10000x50_S50x100_S10000x100_1_0_0_1_n_n rfl rfl rfl rfl rfl rfl _ x1 x2 _ _ _).trans ?_
  rw [shapeCast_self]

/-- The printed index maps over the grid: the row blocks move with the point, everything else stays. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

theorem point_lt (t : Fin cfg0.N) : t.val < 10 := lt_of_lt_of_eq t.isLt N_0

/-- What point t writes back is block t of the layer of the whole arrays. -/
theorem flushed_eq (c : Dev nD) (t : Fin cfg0.N) :
    (dat0 V c).flushed 3 t = ((cfg0.win 3).blk t).view.read (Elt Ideal) (layer V c) := by
  show (cfg0.win 3).cut (grid0.coords t) ((dat0 V c).after 3 t) = _
  rw [after0_3]
  unfold out0_3
  rw [View.canon_unit_zero zero_offset2]
  simp only [View.ld_unit_zero (S := S10000x50) zero_offset2, View.ld_unit_zero (S := S50x100) zero_offset2,
    View.ld_unit_zero (S := S1x100) zero_offset2]
  rw [pay_eq]
  obtain ⟨e00, e01, e10, e11, e20, e21, e30, e31⟩ := idx_facts t
  have ht := point_lt t
  funext j
  obtain ⟨p, q, rfl⟩ : ∃ (p : Fin 10000) (q : Fin 100), j = ix2 p q := ⟨j 0, j 1, eq_ix2 j⟩
  have hp := p.isLt
  have hemb : ((cfg0.win 3).blk t).view.emb (ix2 p q)
      = ix2 (⟨t.val * 10000 + p.val, by omega⟩ : Fin 100000) q := by
    funext a; apply Fin.ext
    match a with
    | ⟨0, _⟩ => show win0_3.index t (0 : Fin 2) * 10000 + 1 * p.val = t.val * 10000 + p.val; omega
    | ⟨1, _⟩ => show win0_3.index t (1 : Fin 2) * 100 + 1 * q.val = q.val; omega
  show affineRow (iblk0 V c 0 t : S10000x50.Idx → EReal) (iblk0 V c 1 t : S50x100.Idx → EReal)
      (iblk0 V c 2 t : S1x100.Idx → EReal) (ix2 p q) = layer V c (((cfg0.win 3).blk t).view.emb (ix2 p q))
  rw [hemb]
  unfold layer
  refine affineRow_entry _ _ _ _ _ _ p _ q (fun c' => ?_) (fun c' => ?_) ?_
  · show V c main_v10 (((cfg0.win 0).blk t).view.emb (ix2 p c')) = V c main_v10 (ix2 _ c')
    refine congrArg _ (funext fun a => Fin.ext ?_)
    match a with
    | ⟨0, _⟩ => show win0_0.index t (0 : Fin 2) * 10000 + 1 * p.val = t.val * 10000 + p.val; omega
    | ⟨1, _⟩ => show win0_0.index t (1 : Fin 2) * 50 + 1 * c'.val = c'.val; omega
  · show V c main_arg5 (((cfg0.win 1).blk t).view.emb (ix2 c' q)) = V c main_arg5 (ix2 c' q)
    refine congrArg _ (funext fun a => Fin.ext ?_)
    match a with
    | ⟨0, _⟩ => show win0_1.index t (0 : Fin 2) * 50 + 1 * c'.val = c'.val; omega
    | ⟨1, _⟩ => show win0_1.index t (1 : Fin 2) * 100 + 1 * q.val = q.val; omega
  · show V c main_v11 (((cfg0.win 2).blk t).view.emb (ix2 0 q)) = V c main_v11 (ix2 0 q)
    refine congrArg _ (funext fun a => Fin.ext ?_)
    match a with
    | ⟨0, _⟩ => show win0_2.index t (0 : Fin 2) * 1 + 1 * 0 = 0; omega
    | ⟨1, _⟩ => show win0_2.index t (1 : Fin 2) * 100 + 1 * q.val = q.val; omega

/-- An index of the output array is in point t's block iff each coordinate is in the block's range on its axis. -/
theorem mem_blk (t : Fin cfg0.N) (i : S100000x100.Idx) :
    i ∈ ((cfg0.win 3).blk t).view.set ↔ ∀ a : Fin 2, win0_3.index t a * S10000x100.size a ≤ (i a).val
      ∧ (i a).val < win0_3.index t a * S10000x100.size a + S10000x100.size a := by
  show i ∈ ((View.whole main_v12).slice (win0_3.rect t)).set ↔ _
  rw [View.set_slice_whole, Rect.mem_set_unit]
  exact Iff.rfl

/-- Row i₀ of the output is in the block of point i₀ / 10000. -/
theorem cover (i : S100000x100.Idx) :
    ∃ t : Fin cfg0.N, (cfg0.win 3).flush t = true ∧ i ∈ ((cfg0.win 3).blk t).view.set := by
  have hi0 : (i 0).val < 100000 := (i 0).isLt
  have hi1 : (i 1).val < 100 := (i 1).isLt
  have hN : grid0.N = 10 := N_0
  obtain ⟨t, ht⟩ : ∃ t : Fin cfg0.N, t.val = (i 0).val / 10000 :=
    ⟨⟨(i 0).val / 10000, by show _ < grid0.N; omega⟩, rfl⟩
  obtain ⟨-, -, -, -, -, -, e30, e31⟩ := idx_facts t
  refine ⟨t, flush0_3 t, ?_⟩
  rw [mem_blk]
  intro a
  match a with
  | ⟨0, _⟩ =>
    show win0_3.index t (0 : Fin 2) * 10000 ≤ (i 0).val ∧ (i 0).val < win0_3.index t (0 : Fin 2) * 10000 + 10000
    omega
  | ⟨1, _⟩ =>
    show win0_3.index t (1 : Fin 2) * 100 ≤ (i 1).val ∧ (i 1).val < win0_3.index t (1 : Fin 2) * 100 + 100
    omega

/-- The output array after the call is the layer of the whole arrays. -/
theorem final (c : Dev nD) : (dat0 V c).arrAt 3 cfg0.N = layer V c :=
  (dat0 V c).arrAt_eq_of_cover 3 (layer V c) (fun t _ => flushed_eq V c t) cover

end Cert.KernelIdeal.Region0

end
-- ==== Proof.Region1.lean ====
/-
  Kernel call 1 of the idealized kernel program, read as one function of whole arrays.

  The call tiles the 100000×100 array X into 10 blocks of 10000 consecutive rows; at every point of its grid its body
  normalises the block column by column with the 1×100 rows of means and variances, scales and shifts it with two more
  rows, clamps it below at zero, multiplies the result by the whole 100×100 array W and adds a 1×100 row. Every entry of
  the normalised block depends on one entry of X, and an entry of a product on one row of the left operand, so what
  point t writes back is rows 10000·t … 10000·t + 9999 of the same layer of the whole arrays; the 10 blocks cover the output.
-/
import proofs.«112823_j61375082659915_1_alg».proof.Proof.Gen.KernelIdeal.Frame
import proofs.«112823_j61375082659915_1_alg».proof.Proof.LibNormLayers
import proofs.«112823_j61375082659915_1_alg».proof.Proof.LibRowBlocks
import Idealize.ShloMosaic.Lib.Pipeline.Value
import Idealize.ShloMosaic.Lib.ValueIdx

set_option maxRecDepth 16384

noncomputable section

namespace Cert.KernelIdeal.Region1

open Cert.KernelIdeal Cert.KernelIdeal.Gen
open Idealize.ShloMosaic Idealize.ShloMosaic.TcCoe Idealize.ShloMosaic.ValueIdx Idealize.SL.Sem
open Idealize.ShloMosaic.Pipeline (Dat)
open Cert.Lib.NormLayers Cert.Lib.MatProd Cert.Layers Cert.Lib.RowBlocks

variable (V : (c : Dev nD) → (b : Ref sig .tc) → Buf (Elt Ideal) ((c : Thread nD τ).loc b))

/-- The layer of the whole arrays as the call finds them. -/
def layer (c : Dev nD) : S100000x100.Idx → EReal :=
  normAffine (V c main_v12 : S100000x100.Idx → EReal) (V c main_v23 : S1x100.Idx → EReal) (V c main_v24 : S1x100.Idx → EReal)
    (V c main_v25 : S1x100.Idx → EReal) (V c main_v26 : S1x100.Idx → EReal) (V c main_arg9 : S100x100.Idx → EReal)
    (V c main_v27 : S1x100.Idx → EReal)

/-- The body's arithmetic is the layer of its loaded blocks (the variance row is loaded before the mean row). -/
theorem pay_eq (x0 : Vec Ideal S10000x100 .f32) (xv xm xg xb : Vec Ideal S1x100 .f32) (x5 : Vec Ideal S100x100 .f32)
    (x6 : Vec Ideal S1x100 .f32) :
    k1_pay1 x0 xv xm xg xb x5 x6 = normAffine (x0 : S10000x100.Idx → EReal) xm xv xg xb x5 x6 := by
  unfold k1_pay1
  refine (body_affineRow dot_S10000x100_S100x100_S10000x100_1_0_0_1_n_n rfl rfl rfl rfl rfl rfl _ x5 x6 _ _ _).trans ?_
  unfold normAffine
  rw [body_normRelu]

/-- The printed index maps over the grid: the row blocks move with the point, everything else stays. -/
theorem idx_facts : ∀ t : Fin cfg1.N, (win1_7.index t (0 : Fin 2) = t.val ∧ win1_7.index t (1 : Fin 2) = 0)
    ∧ win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0 :=
  (by decide +kernel : ∀ t : Fin grid1.N, _)

theorem point_lt (t : Fin cfg1.N) : t.val < 10 := lt_of_lt_of_eq t.isLt N_1

/-- What point t writes back is block t of the layer of the whole arrays. -/
theorem flushed_eq (c : Dev nD) (t : Fin cfg1.N) :
    (dat1 V c).flushed 7 t = ((cfg1.win 7).blk t).view.read (Elt Ideal) (layer V c) := by
  show (cfg1.win 7).cut (grid1.coords t) ((dat1 V c).after 7 t) = _
  rw [after1_7]
  unfold out1_7
  rw [View.canon_unit_zero zero_offset2]
  simp only [View.ld_unit_zero (S := S10000x100) zero_offset2, View.ld_unit_zero (S := S1x100) zero_offset2,
    View.ld_unit_zero (S := S100x100) zero_offset2]
  rw [pay_eq]
  obtain ⟨⟨eo0, eo1⟩, e00, e01, e10, e11, e20, e21, e30, e31, e40, e41, e50, e51, e60, e61⟩ := idx_facts t
  have ht := point_lt t
  funext j
  obtain ⟨p, q, rfl⟩ : ∃ (p : Fin 10000) (q : Fin 100), j = ix2 p q := ⟨j 0, j 1, eq_ix2 j⟩
  have hp := p.isLt
  have hemb : ((cfg1.win 7).blk t).view.emb (ix2 p q)
      = ix2 (⟨t.val * 10000 + p.val, by omega⟩ : Fin 100000) q := by
    funext a; apply Fin.ext
    match a with
    | ⟨0, _⟩ => show win1_7.index t (0 : Fin 2) * 10000 + 1 * p.val = t.val * 10000 + p.val; omega
    | ⟨1, _⟩ => show win1_7.index t (1 : Fin 2) * 100 + 1 * q.val = q.val; omega
  show normAffine (iblk1 V c 0 t : S10000x100.Idx → EReal) (iblk1 V c 1 t : S1x100.Idx → EReal)
      (iblk1 V c 2 t : S1x100.Idx → EReal) (iblk1 V c 3 t : S1x100.Idx → EReal) (iblk1 V c 4 t : S1x100.Idx → EReal)
      (iblk1 V c 5 t : S100x100.Idx → EReal) (iblk1 V c 6 t : S1x100.Idx → EReal) (ix2 p q)
    = layer V c (((cfg1.win 7).blk t).view.emb (ix2 p q))
  rw [hemb]
  unfold layer
  refine normAffine_entry _ _ _ _ _ _ _ _ _ _ _ _ _ _ p _ q (fun c' => ?_) (fun c' => ?_) (fun c' => ?_) (fun c' => ?_)
    (fun c' => ?_) (fun c' => ?_) ?_
  · show V c main_v12 (((cfg1.win 0).blk t).view.emb (ix2 p c')) = V c main_v12 (ix2 _ c')
    refine congrArg _ (funext fun a => Fin.ext ?_)
    match a with
    | ⟨0, _⟩ => show win1_0.index t (0 : Fin 2) * 10000 + 1 * p.val = t.val * 10000 + p.val; omega
    | ⟨1, _⟩ => show win1_0.index t (1 : Fin 2) * 100 + 1 * c'.val = c'.val; omega
  · show V c main_v23 (((cfg1.win 1).blk t).view.emb (ix2 0 c')) = V c main_v23 (ix2 0 c')
    refine congrArg _ (funext fun a => Fin.ext ?_)
    match a with
    | ⟨0, _⟩ => show win1_1.index t (0 : Fin 2) * 1 + 1 * 0 = 0; omega
    | ⟨1, _⟩ => show win1_1.index t (1 : Fin 2) * 100 + 1 * c'.val = c'.val; omega
  · show V c main_v24 (((cfg1.win 2).blk t).view.emb (ix2 0 c')) = V c main_v24 (ix2 0 c')
    refine congrArg _ (funext fun a => Fin.ext ?_)
    match a with
    | ⟨0, _⟩ => show win1_2.index t (0 : Fin 2) * 1 + 1 * 0 = 0; omega
    | ⟨1, _⟩ => show win1_2.index t (1 : Fin 2) * 100 + 1 * c'.val = c'.val; omega
  · show V c main_v25 (((cfg1.win 3).blk t).view.emb (ix2 0 c')) = V c main_v25 (ix2 0 c')
    refine congrArg _ (funext fun a => Fin.ext ?_)
    match a with
    | ⟨0, _⟩ => show win1_3.index t (0 : Fin 2) * 1 + 1 * 0 = 0; omega
    | ⟨1, _⟩ => show win1_3.index t (1 : Fin 2) * 100 + 1 * c'.val = c'.val; omega
  · show V c main_v26 (((cfg1.win 4).blk t).view.emb (ix2 0 c')) = V c main_v26 (ix2 0 c')
    refine congrArg _ (funext fun a => Fin.ext ?_)
    match a with
    | ⟨0, _⟩ => show win1_4.index t (0 : Fin 2) * 1 + 1 * 0 = 0; omega
    | ⟨1, _⟩ => show win1_4.index t (1 : Fin 2) * 100 + 1 * c'.val = c'.val; omega
  · show V c main_arg9 (((cfg1.win 5).blk t).view.emb (ix2 c' q)) = V c main_arg9 (ix2 c' q)
    refine congrArg _ (funext fun a => Fin.ext ?_)
    match a with
    | ⟨0, _⟩ => show win1_5.index t (0 : Fin 2) * 100 + 1 * c'.val = c'.val; omega
    | ⟨1, _⟩ => show win1_5.index t (1 : Fin 2) * 100 + 1 * q.val = q.val; omega
  · show V c main_v27 (((cfg1.win 6).blk t).view.emb (ix2 0 q)) = V c main_v27 (ix2 0 q)
    refine congrArg _ (funext fun a => Fin.ext ?_)
    match a with
    | ⟨0, _⟩ => show win1_6.index t (0 : Fin 2) * 1 + 1 * 0 = 0; omega
    | ⟨1, _⟩ => show win1_6.index t (1 : Fin 2) * 100 + 1 * q.val = q.val; omega

/-- An index of the output array is in point t's block iff each coordinate is in the block's range on its axis. -/
theorem mem_blk (t : Fin cfg1.N) (i : S100000x100.Idx) :
    i ∈ ((cfg1.win 7).blk t).view.set ↔ ∀ a : Fin 2, win1_7.index t a * S10000x100.size a ≤ (i a).val
      ∧ (i a).val < win1_7.index t a * S10000x100.size a + S10000x100.size a := by
  show i ∈ ((View.whole main_v28).slice (win1_7.rect t)).set ↔ _
  rw [View.set_slice_whole, Rect.mem_set_unit]
  exact Iff.rfl

/-- Row i₀ of the output is in the block of point i₀ / 10000. -/
theorem cover (i : S100000x100.Idx) :
    ∃ t : Fin cfg1.N, (cfg1.win 7).flush t = true ∧ i ∈ ((cfg1.win 7).blk t).view.set := by
  have hi0 : (i 0).val < 100000 := (i 0).isLt
  have hi1 : (i 1).val < 100 := (i 1).isLt
  have hN : grid1.N = 10 := N_1
  obtain ⟨t, ht⟩ : ∃ t : Fin cfg1.N, t.val = (i 0).val / 10000 :=
    ⟨⟨(i 0).val / 10000, by show _ < grid1.N; omega⟩, rfl⟩
  have eo := (idx_facts t).1
  refine ⟨t, flush1_7 t, ?_⟩
  rw [mem_blk]
  intro a
  match a with
  | ⟨0, _⟩ =>
    show win1_7.index t (0 : Fin 2) * 10000 ≤ (i 0).val ∧ (i 0).val < win1_7.index t (0 : Fin 2) * 10000 + 10000
    omega
  | ⟨1, _⟩ =>
    show win1_7.index t (1 : Fin 2) * 100 ≤ (i 1).val ∧ (i 1).val < win1_7.index t (1 : Fin 2) * 100 + 100
    omega

/-- The output array after the call is the layer of the whole arrays. -/
theorem final (c : Dev nD) : (dat1 V c).arrAt 7 cfg1.N = layer V c :=
  (dat1 V c).arrAt_eq_of_cover 7 (layer V c) (fun t _ => flushed_eq V c t) cover

end Cert.KernelIdeal.Region1

end
-- ==== Proof.Region2.lean ====
/-
  Kernel call 2 of the idealized kernel program, read as one function of whole arrays.

  The call tiles the 100000×100 array X into 10 blocks of 10000 consecutive rows; at every point of its grid its body
  normalises the block column by column with the 1×100 rows of means and variances, scales and shifts it with two more
  rows and clamps it below at zero. Every entry of the result depends on one entry of X, so what point t writes back
  is rows 10000·t … 10000·t + 9999 of the same layer of the whole arrays; the 10 blocks cover the output.
-/
import proofs.«112823_j61375082659915_1_alg».proof.Proof.Gen.KernelIdeal.Frame
import proofs.«112823_j61375082659915_1_alg».proof.Proof.LibNormLayers
import proofs.«112823_j61375082659915_1_alg».proof.Proof.LibRowBlocks
import Idealize.ShloMosaic.Lib.Pipeline.Value
import Idealize.ShloMosaic.Lib.ValueIdx

set_option maxRecDepth 16384

noncomputable section

namespace Cert.KernelIdeal.Region2

open Cert.KernelIdeal Cert.KernelIdeal.Gen
open Idealize.ShloMosaic Idealize.ShloMosaic.TcCoe Idealize.ShloMosaic.ValueIdx Idealize.SL.Sem
open Idealize.ShloMosaic.Pipeline (Dat)
open Cert.Lib.NormLayers Cert.Lib.MatProd Cert.Layers Cert.Lib.RowBlocks

variable (V : (c : Dev nD) → (b : Ref sig .tc) → Buf (Elt Ideal) ((c : Thread nD τ).loc b))

/-- The layer of the whole arrays as the call finds them. -/
def layer (c : Dev nD) : S100000x100.Idx → EReal :=
  normRelu (V c main_v28 : S100000x100.Idx → EReal) (V c main_v39 : S1x100.Idx → EReal) (V c main_v40 : S1x100.Idx → EReal)
    (V c main_v41 : S1x100.Idx → EReal) (V c main_v42 : S1x100.Idx → EReal)

/-- The body's arithmetic is the layer of its loaded blocks (the variance row is loaded before the mean row). -/
theorem pay_eq (x0 : Vec Ideal S10000x100 .f32) (xv xm xg xb : Vec Ideal S1x100 .f32) :
    k2_pay1 x0 xv xm xg xb = normRelu (x0 : S10000x100.Idx → EReal) xm xv xg xb := by
  unfold k2_pay1
  exact body_normRelu x0 xv xm xg xb _ _ _

/-- The printed index maps over the grid: the row blocks move with the point, everything else stays. -/
theorem idx_facts : ∀ t : Fin cfg2.N, (win2_5.index t (0 : Fin 2) = t.val ∧ win2_5.index t (1 : Fin 2) = 0)
    ∧ win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0 :=
  (by decide +kernel : ∀ t : Fin grid2.N, _)

theorem point_lt (t : Fin cfg2.N) : t.val < 10 := lt_of_lt_of_eq t.isLt N_2

/-- What point t writes back is block t of the layer of the whole arrays. -/
theorem flushed_eq (c : Dev nD) (t : Fin cfg2.N) :
    (dat2 V c).flushed 5 t = ((cfg2.win 5).blk t).view.read (Elt Ideal) (layer V c) := by
  show (cfg2.win 5).cut (grid2.coords t) ((dat2 V c).after 5 t) = _
  rw [after2_5]
  unfold out2_5
  rw [View.canon_unit_zero zero_offset2]
  simp only [View.ld_unit_zero (S := S10000x100) zero_offset2, View.ld_unit_zero (S := S1x100) zero_offset2]
  rw [pay_eq]
  obtain ⟨⟨eo0, eo1⟩, e00, e01, e10, e11, e20, e21, e30, e31, e40, e41⟩ := idx_facts t
  have ht := point_lt t
  funext j
  obtain ⟨p, q, rfl⟩ : ∃ (p : Fin 10000) (q : Fin 100), j = ix2 p q := ⟨j 0, j 1, eq_ix2 j⟩
  have hp := p.isLt
  have hemb : ((cfg2.win 5).blk t).view.emb (ix2 p q)
      = ix2 (⟨t.val * 10000 + p.val, by omega⟩ : Fin 100000) q := by
    funext a; apply Fin.ext
    match a with
    | ⟨0, _⟩ => show win2_5.index t (0 : Fin 2) * 10000 + 1 * p.val = t.val * 10000 + p.val; omega
    | ⟨1, _⟩ => show win2_5.index t (1 : Fin 2) * 100 + 1 * q.val = q.val; omega
  show normRelu (iblk2 V c 0 t : S10000x100.Idx → EReal) (iblk2 V c 1 t : S1x100.Idx → EReal)
      (iblk2 V c 2 t : S1x100.Idx → EReal) (iblk2 V c 3 t : S1x100.Idx → EReal) (iblk2 V c 4 t : S1x100.Idx → EReal)
      (ix2 p q)
    = layer V c (((cfg2.win 5).blk t).view.emb (ix2 p q))
  rw [hemb]
  unfold layer
  refine normRelu_entry _ _ _ _ _ _ _ _ _ _ p _ q ?_ ?_ ?_ ?_ ?_
  · show V c main_v28 (((cfg2.win 0).blk t).view.emb (ix2 p q)) = V c main_v28 (ix2 _ q)
    refine congrArg _ (funext fun a => Fin.ext ?_)
    match a with
    | ⟨0, _⟩ => show win2_0.index t (0 : Fin 2) * 10000 + 1 * p.val = t.val * 10000 + p.val; omega
    | ⟨1, _⟩ => show win2_0.index t (1 : Fin 2) * 100 + 1 * q.val = q.val; omega
  · show V c main_v39 (((cfg2.win 1).blk t).view.emb (ix2 0 q)) = V c main_v39 (ix2 0 q)
    refine congrArg _ (funext fun a => Fin.ext ?_)
    match a with
    | ⟨0, _⟩ => show win2_1.index t (0 : Fin 2) * 1 + 1 * 0 = 0; omega
    | ⟨1, _⟩ => show win2_1.index t (1 : Fin 2) * 100 + 1 * q.val = q.val; omega
  · show V c main_v40 (((cfg2.win 2).blk t).view.emb (ix2 0 q)) = V c main_v40 (ix2 0 q)
    refine congrArg _ (funext fun a => Fin.ext ?_)
    match a with
    | ⟨0, _⟩ => show win2_2.index t (0 : Fin 2) * 1 + 1 * 0 = 0; omega
    | ⟨1, _⟩ => show win2_2.index t (1 : Fin 2) * 100 + 1 * q.val = q.val; omega
  · show V c main_v41 (((cfg2.win 3).blk t).view.emb (ix2 0 q)) = V c main_v41 (ix2 0 q)
    refine congrArg _ (funext fun a => Fin.ext ?_)
    match a with
    | ⟨0, _⟩ => show win2_3.index t (0 : Fin 2) * 1 + 1 * 0 = 0; omega
    | ⟨1, _⟩ => show win2_3.index t (1 : Fin 2) * 100 + 1 * q.val = q.val; omega
  · show V c main_v42 (((cfg2.win 4).blk t).view.emb (ix2 0 q)) = V c main_v42 (ix2 0 q)
    refine congrArg _ (funext fun a => Fin.ext ?_)
    match a with
    | ⟨0, _⟩ => show win2_4.index t (0 : Fin 2) * 1 + 1 * 0 = 0; omega
    | ⟨1, _⟩ => show win2_4.index t (1 : Fin 2) * 100 + 1 * q.val = q.val; omega

/-- An index of the output array is in point t's block iff each coordinate is in the block's range on its axis. -/
theorem mem_blk (t : Fin cfg2.N) (i : S100000x100.Idx) :
    i ∈ ((cfg2.win 5).blk t).view.set ↔ ∀ a : Fin 2, win2_5.index t a * S10000x100.size a ≤ (i a).val
      ∧ (i a).val < win2_5.index t a * S10000x100.size a + S10000x100.size a := by
  show i ∈ ((View.whole main_v43).slice (win2_5.rect t)).set ↔ _
  rw [View.set_slice_whole, Rect.mem_set_unit]
  exact Iff.rfl

/-- Row i₀ of the output is in the block of point i₀ / 10000. -/
theorem cover (i : S100000x100.Idx) :
    ∃ t : Fin cfg2.N, (cfg2.win 5).flush t = true ∧ i ∈ ((cfg2.win 5).blk t).view.set := by
  have hi0 : (i 0).val < 100000 := (i 0).isLt
  have hi1 : (i 1).val < 100 := (i 1).isLt
  have hN : grid2.N = 10 := N_2
  obtain ⟨t, ht⟩ : ∃ t : Fin cfg2.N, t.val = (i 0).val / 10000 :=
    ⟨⟨(i 0).val / 10000, by show _ < grid2.N; omega⟩, rfl⟩
  have eo := (idx_facts t).1
  refine ⟨t, flush2_5 t, ?_⟩
  rw [mem_blk]
  intro a
  match a with
  | ⟨0, _⟩ =>
    show win2_5.index t (0 : Fin 2) * 10000 ≤ (i 0).val ∧ (i 0).val < win2_5.index t (0 : Fin 2) * 10000 + 10000
    omega
  | ⟨1, _⟩ =>
    show win2_5.index t (1 : Fin 2) * 100 ≤ (i 1).val ∧ (i 1).val < win2_5.index t (1 : Fin 2) * 100 + 100
    omega

/-- The output array after the call is the layer of the whole arrays. -/
theorem final (c : Dev nD) : (dat2 V c).arrAt 5 cfg2.N = layer V c :=
  (dat2 V c).arrAt_eq_of_cover 5 (layer V c) (fun t _ => flushed_eq V c t) cover

end Cert.KernelIdeal.Region2

end
-- ==== Proof.Region3.lean ====
/-
  Kernel call 3 of the idealized kernel program, read as one function of whole arrays.

  The call tiles the 100000×100 array X into 10 blocks of 10000 consecutive rows; at every point of its grid its body
  multiplies the block by the whole 100×20 array W and adds the 1×20 row b to every row of the product. An entry of a
  product depends on one row of the left operand, so what point t writes back is rows 10000·t … 10000·t + 9999 of the layer
  X·W + b of the whole arrays; the 10 blocks cover the output, so the output array ends holding that layer.
-/
import proofs.«112823_j61375082659915_1_alg».proof.Proof.Gen.KernelIdeal.Frame
import proofs.«112823_j61375082659915_1_alg».proof.Proof.LibNormLayers
import proofs.«112823_j61375082659915_1_alg».proof.Proof.LibRowBlocks
import Idealize.ShloMosaic.Lib.Pipeline.Value
import Idealize.ShloMosaic.Lib.ValueIdx

set_option maxRecDepth 16384

noncomputable section

namespace Cert.KernelIdeal.Region3

open Cert.KernelIdeal Cert.KernelIdeal.Gen
open Idealize.ShloMosaic Idealize.ShloMosaic.TcCoe Idealize.ShloMosaic.ValueIdx Idealize.SL.Sem
open Idealize.ShloMosaic.Pipeline (Dat)
open Cert.Lib.NormLayers Cert.Lib.MatProd Cert.Layers Cert.Lib.RowBlocks

variable (V : (c : Dev nD) → (b : Ref sig .tc) → Buf (Elt Ideal) ((c : Thread nD τ).loc b))

/-- The layer of the whole arrays as the call finds them. -/
def layer (c : Dev nD) : S100000x20.Idx → EReal :=
  affineRow (V c main_v54 : S100000x100.Idx → EReal) (V c main_arg13 : S100x20.Idx → EReal) (V c main_v55 : S1x20.Idx → EReal)

/-- The body's arithmetic is the layer of its three loaded blocks. -/
theorem pay_eq (x0 : Vec Ideal S10000x100 .f32) (x1 : Vec Ideal S100x20 .f32) (x2 : Vec Ideal S1x20 .f32) :
    k3_pay1 x0 x1 x2 = affineRow (x0 : S10000x100.Idx → EReal) x1 x2 := by
  unfold k3_pay1
  refine (body_affineRow dot_S10000x100_S100x20_S10000x20_1_0_0_1_n_n rfl rfl rfl rfl rfl rfl _ x1 x2 _ _ _).trans ?_
  rw [shapeCast_self]

/-- The printed index maps over the grid: the row blocks move with the point, everything else stays. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

theorem point_lt (t : Fin cfg3.N) : t.val < 10 := lt_of_lt_of_eq t.isLt N_3

/-- What point t writes back is block t of the layer of the whole arrays. -/
theorem flushed_eq (c : Dev nD) (t : Fin cfg3.N) :
    (dat3 V c).flushed 3 t = ((cfg3.win 3).blk t).view.read (Elt Ideal) (layer V c) := by
  show (cfg3.win 3).cut (grid3.coords t) ((dat3 V c).after 3 t) = _
  rw [after3_3]
  unfold out3_3
  rw [View.canon_unit_zero zero_offset2]
  simp only [View.ld_unit_zero (S := S10000x100) zero_offset2, View.ld_unit_zero (S := S100x20) zero_offset2,
    View.ld_unit_zero (S := S1x20) zero_offset2]
  rw [pay_eq]
  obtain ⟨e00, e01, e10, e11, e20, e21, e30, e31⟩ := idx_facts t
  have ht := point_lt t
  funext j
  obtain ⟨p, q, rfl⟩ : ∃ (p : Fin 10000) (q : Fin 20), j = ix2 p q := ⟨j 0, j 1, eq_ix2 j⟩
  have hp := p.isLt
  have hemb : ((cfg3.win 3).blk t).view.emb (ix2 p q)
      = ix2 (⟨t.val * 10000 + p.val, by omega⟩ : Fin 100000) q := by
    funext a; apply Fin.ext
    match a with
    | ⟨0, _⟩ => show win3_3.index t (0 : Fin 2) * 10000 + 1 * p.val = t.val * 10000 + p.val; omega
    | ⟨1, _⟩ => show win3_3.index t (1 : Fin 2) * 20 + 1 * q.val = q.val; omega
  show affineRow (iblk3 V c 0 t : S10000x100.Idx → EReal) (iblk3 V c 1 t : S100x20.Idx → EReal)
      (iblk3 V c 2 t : S1x20.Idx → EReal) (ix2 p q) = layer V c (((cfg3.win 3).blk t).view.emb (ix2 p q))
  rw [hemb]
  unfold layer
  refine affineRow_entry _ _ _ _ _ _ p _ q (fun c' => ?_) (fun c' => ?_) ?_
  · show V c main_v54 (((cfg3.win 0).blk t).view.emb (ix2 p c')) = V c main_v54 (ix2 _ c')
    refine congrArg _ (funext fun a => Fin.ext ?_)
    match a with
    | ⟨0, _⟩ => show win3_0.index t (0 : Fin 2) * 10000 + 1 * p.val = t.val * 10000 + p.val; omega
    | ⟨1, _⟩ => show win3_0.index t (1 : Fin 2) * 100 + 1 * c'.val = c'.val; omega
  · show V c main_arg13 (((cfg3.win 1).blk t).view.emb (ix2 c' q)) = V c main_arg13 (ix2 c' q)
    refine congrArg _ (funext fun a => Fin.ext ?_)
    match a with
    | ⟨0, _⟩ => show win3_1.index t (0 : Fin 2) * 100 + 1 * c'.val = c'.val; omega
    | ⟨1, _⟩ => show win3_1.index t (1 : Fin 2) * 20 + 1 * q.val = q.val; omega
  · show V c main_v55 (((cfg3.win 2).blk t).view.emb (ix2 0 q)) = V c main_v55 (ix2 0 q)
    refine congrArg _ (funext fun a => Fin.ext ?_)
    match a with
    | ⟨0, _⟩ => show win3_2.index t (0 : Fin 2) * 1 + 1 * 0 = 0; omega
    | ⟨1, _⟩ => show win3_2.index t (1 : Fin 2) * 20 + 1 * q.val = q.val; omega

/-- An index of the output array is in point t's block iff each coordinate is in the block's range on its axis. -/
theorem mem_blk (t : Fin cfg3.N) (i : S100000x20.Idx) :
    i ∈ ((cfg3.win 3).blk t).view.set ↔ ∀ a : Fin 2, win3_3.index t a * S10000x20.size a ≤ (i a).val
      ∧ (i a).val < win3_3.index t a * S10000x20.size a + S10000x20.size a := by
  show i ∈ ((View.whole main_v56).slice (win3_3.rect t)).set ↔ _
  rw [View.set_slice_whole, Rect.mem_set_unit]
  exact Iff.rfl

/-- Row i₀ of the output is in the block of point i₀ / 10000. -/
theorem cover (i : S100000x20.Idx) :
    ∃ t : Fin cfg3.N, (cfg3.win 3).flush t = true ∧ i ∈ ((cfg3.win 3).blk t).view.set := by
  have hi0 : (i 0).val < 100000 := (i 0).isLt
  have hi1 : (i 1).val < 20 := (i 1).isLt
  have hN : grid3.N = 10 := N_3
  obtain ⟨t, ht⟩ : ∃ t : Fin cfg3.N, t.val = (i 0).val / 10000 :=
    ⟨⟨(i 0).val / 10000, by show _ < grid3.N; omega⟩, rfl⟩
  obtain ⟨-, -, -, -, -, -, e30, e31⟩ := idx_facts t
  refine ⟨t, flush3_3 t, ?_⟩
  rw [mem_blk]
  intro a
  match a with
  | ⟨0, _⟩ =>
    show win3_3.index t (0 : Fin 2) * 10000 ≤ (i 0).val ∧ (i 0).val < win3_3.index t (0 : Fin 2) * 10000 + 10000
    omega
  | ⟨1, _⟩ =>
    show win3_3.index t (1 : Fin 2) * 20 ≤ (i 1).val ∧ (i 1).val < win3_3.index t (1 : Fin 2) * 20 + 20
    omega

/-- The output array after the call is the layer of the whole arrays. -/
theorem final (c : Dev nD) : (dat3 V c).arrAt 3 cfg3.N = layer V c :=
  (dat3 V c).arrAt_eq_of_cover 3 (layer V c) (fun t _ => flushed_eq V c t) cover

end Cert.KernelIdeal.Region3

end
-- ==== Proof.Region4.lean ====
/-
  Kernel call 4 of the idealized kernel program, read as one function of whole arrays.

  The call tiles the 100000×20 array X into 10 blocks of 10000 consecutive rows; at every point of its grid its body
  normalises the block column by column with the 1×20 rows of means and variances, scales and shifts it with two more
  rows, clamps it below at zero, multiplies the result by the whole 20×20 array W and adds a 1×20 row. Every entry of
  the normalised block depends on one entry of X, and an entry of a product on one row of the left operand, so what
  point t writes back is rows 10000·t … 10000·t + 9999 of the same layer of the whole arrays; the 10 blocks cover the output.
-/
import proofs.«112823_j61375082659915_1_alg».proof.Proof.Gen.KernelIdeal.Frame
import proofs.«112823_j61375082659915_1_alg».proof.Proof.LibNormLayers
import proofs.«112823_j61375082659915_1_alg».proof.Proof.LibRowBlocks
import Idealize.ShloMosaic.Lib.Pipeline.Value
import Idealize.ShloMosaic.Lib.ValueIdx

set_option maxRecDepth 16384

noncomputable section

namespace Cert.KernelIdeal.Region4

open Cert.KernelIdeal Cert.KernelIdeal.Gen
open Idealize.ShloMosaic Idealize.ShloMosaic.TcCoe Idealize.ShloMosaic.ValueIdx Idealize.SL.Sem
open Idealize.ShloMosaic.Pipeline (Dat)
open Cert.Lib.NormLayers Cert.Lib.MatProd Cert.Layers Cert.Lib.RowBlocks

variable (V : (c : Dev nD) → (b : Ref sig .tc) → Buf (Elt Ideal) ((c : Thread nD τ).loc b))

/-- The layer of the whole arrays as the call finds them. -/
def layer (c : Dev nD) : S100000x20.Idx → EReal :=
  normAffine (V c main_v56 : S100000x20.Idx → EReal) (V c main_v67 : S1x20.Idx → EReal) (V c main_v68 : S1x20.Idx → EReal)
    (V c main_v69 : S1x20.Idx → EReal) (V c main_v70 : S1x20.Idx → EReal) (V c main_arg17 : S20x20.Idx → EReal)
    (V c main_v71 : S1x20.Idx → EReal)

/-- The body's arithmetic is the layer of its loaded blocks (the variance row is loaded before the mean row). -/
theorem pay_eq (x0 : Vec Ideal S10000x20 .f32) (xv xm xg xb : Vec Ideal S1x20 .f32) (x5 : Vec Ideal S20x20 .f32)
    (x6 : Vec Ideal S1x20 .f32) :
    k4_pay1 x0 xv xm xg xb x5 x6 = normAffine (x0 : S10000x20.Idx → EReal) xm xv xg xb x5 x6 := by
  unfold k4_pay1
  refine (body_affineRow dot_S10000x20_S20x20_S10000x20_1_0_0_1_n_n rfl rfl rfl rfl rfl rfl _ x5 x6 _ _ _).trans ?_
  unfold normAffine
  rw [body_normRelu]

/-- The printed index maps over the grid: the row blocks move with the point, everything else stays. -/
theorem idx_facts : ∀ t : Fin cfg4.N, (win4_7.index t (0 : Fin 2) = t.val ∧ win4_7.index t (1 : Fin 2) = 0)
    ∧ win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (0 : Fin 2) = 0 ∧ win4_6.index t (1 : Fin 2) = 0 :=
  (by decide +kernel : ∀ t : Fin grid4.N, _)

theorem point_lt (t : Fin cfg4.N) : t.val < 10 := lt_of_lt_of_eq t.isLt N_4

/-- What point t writes back is block t of the layer of the whole arrays. -/
theorem flushed_eq (c : Dev nD) (t : Fin cfg4.N) :
    (dat4 V c).flushed 7 t = ((cfg4.win 7).blk t).view.read (Elt Ideal) (layer V c) := by
  show (cfg4.win 7).cut (grid4.coords t) ((dat4 V c).after 7 t) = _
  rw [after4_7]
  unfold out4_7
  rw [View.canon_unit_zero zero_offset2]
  simp only [View.ld_unit_zero (S := S10000x20) zero_offset2, View.ld_unit_zero (S := S1x20) zero_offset2,
    View.ld_unit_zero (S := S20x20) zero_offset2]
  rw [pay_eq]
  obtain ⟨⟨eo0, eo1⟩, e00, e01, e10, e11, e20, e21, e30, e31, e40, e41, e50, e51, e60, e61⟩ := idx_facts t
  have ht := point_lt t
  funext j
  obtain ⟨p, q, rfl⟩ : ∃ (p : Fin 10000) (q : Fin 20), j = ix2 p q := ⟨j 0, j 1, eq_ix2 j⟩
  have hp := p.isLt
  have hemb : ((cfg4.win 7).blk t).view.emb (ix2 p q)
      = ix2 (⟨t.val * 10000 + p.val, by omega⟩ : Fin 100000) q := by
    funext a; apply Fin.ext
    match a with
    | ⟨0, _⟩ => show win4_7.index t (0 : Fin 2) * 10000 + 1 * p.val = t.val * 10000 + p.val; omega
    | ⟨1, _⟩ => show win4_7.index t (1 : Fin 2) * 20 + 1 * q.val = q.val; omega
  show normAffine (iblk4 V c 0 t : S10000x20.Idx → EReal) (iblk4 V c 1 t : S1x20.Idx → EReal)
      (iblk4 V c 2 t : S1x20.Idx → EReal) (iblk4 V c 3 t : S1x20.Idx → EReal) (iblk4 V c 4 t : S1x20.Idx → EReal)
      (iblk4 V c 5 t : S20x20.Idx → EReal) (iblk4 V c 6 t : S1x20.Idx → EReal) (ix2 p q)
    = layer V c (((cfg4.win 7).blk t).view.emb (ix2 p q))
  rw [hemb]
  unfold layer
  refine normAffine_entry _ _ _ _ _ _ _ _ _ _ _ _ _ _ p _ q (fun c' => ?_) (fun c' => ?_) (fun c' => ?_) (fun c' => ?_)
    (fun c' => ?_) (fun c' => ?_) ?_
  · show V c main_v56 (((cfg4.win 0).blk t).view.emb (ix2 p c')) = V c main_v56 (ix2 _ c')
    refine congrArg _ (funext fun a => Fin.ext ?_)
    match a with
    | ⟨0, _⟩ => show win4_0.index t (0 : Fin 2) * 10000 + 1 * p.val = t.val * 10000 + p.val; omega
    | ⟨1, _⟩ => show win4_0.index t (1 : Fin 2) * 20 + 1 * c'.val = c'.val; omega
  · show V c main_v67 (((cfg4.win 1).blk t).view.emb (ix2 0 c')) = V c main_v67 (ix2 0 c')
    refine congrArg _ (funext fun a => Fin.ext ?_)
    match a with
    | ⟨0, _⟩ => show win4_1.index t (0 : Fin 2) * 1 + 1 * 0 = 0; omega
    | ⟨1, _⟩ => show win4_1.index t (1 : Fin 2) * 20 + 1 * c'.val = c'.val; omega
  · show V c main_v68 (((cfg4.win 2).blk t).view.emb (ix2 0 c')) = V c main_v68 (ix2 0 c')
    refine congrArg _ (funext fun a => Fin.ext ?_)
    match a with
    | ⟨0, _⟩ => show win4_2.index t (0 : Fin 2) * 1 + 1 * 0 = 0; omega
    | ⟨1, _⟩ => show win4_2.index t (1 : Fin 2) * 20 + 1 * c'.val = c'.val; omega
  · show V c main_v69 (((cfg4.win 3).blk t).view.emb (ix2 0 c')) = V c main_v69 (ix2 0 c')
    refine congrArg _ (funext fun a => Fin.ext ?_)
    match a with
    | ⟨0, _⟩ => show win4_3.index t (0 : Fin 2) * 1 + 1 * 0 = 0; omega
    | ⟨1, _⟩ => show win4_3.index t (1 : Fin 2) * 20 + 1 * c'.val = c'.val; omega
  · show V c main_v70 (((cfg4.win 4).blk t).view.emb (ix2 0 c')) = V c main_v70 (ix2 0 c')
    refine congrArg _ (funext fun a => Fin.ext ?_)
    match a with
    | ⟨0, _⟩ => show win4_4.index t (0 : Fin 2) * 1 + 1 * 0 = 0; omega
    | ⟨1, _⟩ => show win4_4.index t (1 : Fin 2) * 20 + 1 * c'.val = c'.val; omega
  · show V c main_arg17 (((cfg4.win 5).blk t).view.emb (ix2 c' q)) = V c main_arg17 (ix2 c' q)
    refine congrArg _ (funext fun a => Fin.ext ?_)
    match a with
    | ⟨0, _⟩ => show win4_5.index t (0 : Fin 2) * 20 + 1 * c'.val = c'.val; omega
    | ⟨1, _⟩ => show win4_5.index t (1 : Fin 2) * 20 + 1 * q.val = q.val; omega
  · show V c main_v71 (((cfg4.win 6).blk t).view.emb (ix2 0 q)) = V c main_v71 (ix2 0 q)
    refine congrArg _ (funext fun a => Fin.ext ?_)
    match a with
    | ⟨0, _⟩ => show win4_6.index t (0 : Fin 2) * 1 + 1 * 0 = 0; omega
    | ⟨1, _⟩ => show win4_6.index t (1 : Fin 2) * 20 + 1 * q.val = q.val; omega

/-- An index of the output array is in point t's block iff each coordinate is in the block's range on its axis. -/
theorem mem_blk (t : Fin cfg4.N) (i : S100000x20.Idx) :
    i ∈ ((cfg4.win 7).blk t).view.set ↔ ∀ a : Fin 2, win4_7.index t a * S10000x20.size a ≤ (i a).val
      ∧ (i a).val < win4_7.index t a * S10000x20.size a + S10000x20.size a := by
  show i ∈ ((View.whole main_v72).slice (win4_7.rect t)).set ↔ _
  rw [View.set_slice_whole, Rect.mem_set_unit]
  exact Iff.rfl

/-- Row i₀ of the output is in the block of point i₀ / 10000. -/
theorem cover (i : S100000x20.Idx) :
    ∃ t : Fin cfg4.N, (cfg4.win 7).flush t = true ∧ i ∈ ((cfg4.win 7).blk t).view.set := by
  have hi0 : (i 0).val < 100000 := (i 0).isLt
  have hi1 : (i 1).val < 20 := (i 1).isLt
  have hN : grid4.N = 10 := N_4
  obtain ⟨t, ht⟩ : ∃ t : Fin cfg4.N, t.val = (i 0).val / 10000 :=
    ⟨⟨(i 0).val / 10000, by show _ < grid4.N; omega⟩, rfl⟩
  have eo := (idx_facts t).1
  refine ⟨t, flush4_7 t, ?_⟩
  rw [mem_blk]
  intro a
  match a with
  | ⟨0, _⟩ =>
    show win4_7.index t (0 : Fin 2) * 10000 ≤ (i 0).val ∧ (i 0).val < win4_7.index t (0 : Fin 2) * 10000 + 10000
    omega
  | ⟨1, _⟩ =>
    show win4_7.index t (1 : Fin 2) * 20 ≤ (i 1).val ∧ (i 1).val < win4_7.index t (1 : Fin 2) * 20 + 20
    omega

/-- The output array after the call is the layer of the whole arrays. -/
theorem final (c : Dev nD) : (dat4 V c).arrAt 7 cfg4.N = layer V c :=
  (dat4 V c).arrAt_eq_of_cover 7 (layer V c) (fun t _ => flushed_eq V c t) cover

end Cert.KernelIdeal.Region4

end
-- ==== Proof.Region5.lean ====
/-
  Kernel call 5 of the idealized kernel program, read as one function of whole arrays.

  The call tiles the 100000×20 array X into 10 blocks of 10000 consecutive rows; at every point of its grid its body
  normalises the block column by column with the 1×20 rows of means and variances, scales and shifts it with two more
  rows and clamps it below at zero. Every entry of the result depends on one entry of X, so what point t writes back
  is rows 10000·t … 10000·t + 9999 of the same layer of the whole arrays; the 10 blocks cover the output.
-/
import proofs.«112823_j61375082659915_1_alg».proof.Proof.Gen.KernelIdeal.Frame
import proofs.«112823_j61375082659915_1_alg».proof.Proof.LibNormLayers
import proofs.«112823_j61375082659915_1_alg».proof.Proof.LibRowBlocks
import Idealize.ShloMosaic.Lib.Pipeline.Value
import Idealize.ShloMosaic.Lib.ValueIdx

set_option maxRecDepth 16384

noncomputable section

namespace Cert.KernelIdeal.Region5

open Cert.KernelIdeal Cert.KernelIdeal.Gen
open Idealize.ShloMosaic Idealize.ShloMosaic.TcCoe Idealize.ShloMosaic.ValueIdx Idealize.SL.Sem
open Idealize.ShloMosaic.Pipeline (Dat)
open Cert.Lib.NormLayers Cert.Lib.MatProd Cert.Layers Cert.Lib.RowBlocks

variable (V : (c : Dev nD) → (b : Ref sig .tc) → Buf (Elt Ideal) ((c : Thread nD τ).loc b))

/-- The layer of the whole arrays as the call finds them. -/
def layer (c : Dev nD) : S100000x20.Idx → EReal :=
  normRelu (V c main_v72 : S100000x20.Idx → EReal) (V c main_v83 : S1x20.Idx → EReal) (V c main_v84 : S1x20.Idx → EReal)
    (V c main_v85 : S1x20.Idx → EReal) (V c main_v86 : S1x20.Idx → EReal)

/-- The body's arithmetic is the layer of its loaded blocks (the variance row is loaded before the mean row). -/
theorem pay_eq (x0 : Vec Ideal S10000x20 .f32) (xv xm xg xb : Vec Ideal S1x20 .f32) :
    k5_pay1 x0 xv xm xg xb = normRelu (x0 : S10000x20.Idx → EReal) xm xv xg xb := by
  unfold k5_pay1
  exact body_normRelu x0 xv xm xg xb _ _ _

/-- The printed index maps over the grid: the row blocks move with the point, everything else stays. -/
theorem idx_facts : ∀ t : Fin cfg5.N, (win5_5.index t (0 : Fin 2) = t.val ∧ win5_5.index t (1 : Fin 2) = 0)
    ∧ win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0 :=
  (by decide +kernel : ∀ t : Fin grid5.N, _)

theorem point_lt (t : Fin cfg5.N) : t.val < 10 := lt_of_lt_of_eq t.isLt N_5

/-- What point t writes back is block t of the layer of the whole arrays. -/
theorem flushed_eq (c : Dev nD) (t : Fin cfg5.N) :
    (dat5 V c).flushed 5 t = ((cfg5.win 5).blk t).view.read (Elt Ideal) (layer V c) := by
  show (cfg5.win 5).cut (grid5.coords t) ((dat5 V c).after 5 t) = _
  rw [after5_5]
  unfold out5_5
  rw [View.canon_unit_zero zero_offset2]
  simp only [View.ld_unit_zero (S := S10000x20) zero_offset2, View.ld_unit_zero (S := S1x20) zero_offset2]
  rw [pay_eq]
  obtain ⟨⟨eo0, eo1⟩, e00, e01, e10, e11, e20, e21, e30, e31, e40, e41⟩ := idx_facts t
  have ht := point_lt t
  funext j
  obtain ⟨p, q, rfl⟩ : ∃ (p : Fin 10000) (q : Fin 20), j = ix2 p q := ⟨j 0, j 1, eq_ix2 j⟩
  have hp := p.isLt
  have hemb : ((cfg5.win 5).blk t).view.emb (ix2 p q)
      = ix2 (⟨t.val * 10000 + p.val, by omega⟩ : Fin 100000) q := by
    funext a; apply Fin.ext
    match a with
    | ⟨0, _⟩ => show win5_5.index t (0 : Fin 2) * 10000 + 1 * p.val = t.val * 10000 + p.val; omega
    | ⟨1, _⟩ => show win5_5.index t (1 : Fin 2) * 20 + 1 * q.val = q.val; omega
  show normRelu (iblk5 V c 0 t : S10000x20.Idx → EReal) (iblk5 V c 1 t : S1x20.Idx → EReal)
      (iblk5 V c 2 t : S1x20.Idx → EReal) (iblk5 V c 3 t : S1x20.Idx → EReal) (iblk5 V c 4 t : S1x20.Idx → EReal)
      (ix2 p q)
    = layer V c (((cfg5.win 5).blk t).view.emb (ix2 p q))
  rw [hemb]
  unfold layer
  refine normRelu_entry _ _ _ _ _ _ _ _ _ _ p _ q ?_ ?_ ?_ ?_ ?_
  · show V c main_v72 (((cfg5.win 0).blk t).view.emb (ix2 p q)) = V c main_v72 (ix2 _ q)
    refine congrArg _ (funext fun a => Fin.ext ?_)
    match a with
    | ⟨0, _⟩ => show win5_0.index t (0 : Fin 2) * 10000 + 1 * p.val = t.val * 10000 + p.val; omega
    | ⟨1, _⟩ => show win5_0.index t (1 : Fin 2) * 20 + 1 * q.val = q.val; omega
  · show V c main_v83 (((cfg5.win 1).blk t).view.emb (ix2 0 q)) = V c main_v83 (ix2 0 q)
    refine congrArg _ (funext fun a => Fin.ext ?_)
    match a with
    | ⟨0, _⟩ => show win5_1.index t (0 : Fin 2) * 1 + 1 * 0 = 0; omega
    | ⟨1, _⟩ => show win5_1.index t (1 : Fin 2) * 20 + 1 * q.val = q.val; omega
  · show V c main_v84 (((cfg5.win 2).blk t).view.emb (ix2 0 q)) = V c main_v84 (ix2 0 q)
    refine congrArg _ (funext fun a => Fin.ext ?_)
    match a with
    | ⟨0, _⟩ => show win5_2.index t (0 : Fin 2) * 1 + 1 * 0 = 0; omega
    | ⟨1, _⟩ => show win5_2.index t (1 : Fin 2) * 20 + 1 * q.val = q.val; omega
  · show V c main_v85 (((cfg5.win 3).blk t).view.emb (ix2 0 q)) = V c main_v85 (ix2 0 q)
    refine congrArg _ (funext fun a => Fin.ext ?_)
    match a with
    | ⟨0, _⟩ => show win5_3.index t (0 : Fin 2) * 1 + 1 * 0 = 0; omega
    | ⟨1, _⟩ => show win5_3.index t (1 : Fin 2) * 20 + 1 * q.val = q.val; omega
  · show V c main_v86 (((cfg5.win 4).blk t).view.emb (ix2 0 q)) = V c main_v86 (ix2 0 q)
    refine congrArg _ (funext fun a => Fin.ext ?_)
    match a with
    | ⟨0, _⟩ => show win5_4.index t (0 : Fin 2) * 1 + 1 * 0 = 0; omega
    | ⟨1, _⟩ => show win5_4.index t (1 : Fin 2) * 20 + 1 * q.val = q.val; omega

/-- An index of the output array is in point t's block iff each coordinate is in the block's range on its axis. -/
theorem mem_blk (t : Fin cfg5.N) (i : S100000x20.Idx) :
    i ∈ ((cfg5.win 5).blk t).view.set ↔ ∀ a : Fin 2, win5_5.index t a * S10000x20.size a ≤ (i a).val
      ∧ (i a).val < win5_5.index t a * S10000x20.size a + S10000x20.size a := by
  show i ∈ ((View.whole main_v87).slice (win5_5.rect t)).set ↔ _
  rw [View.set_slice_whole, Rect.mem_set_unit]
  exact Iff.rfl

/-- Row i₀ of the output is in the block of point i₀ / 10000. -/
theorem cover (i : S100000x20.Idx) :
    ∃ t : Fin cfg5.N, (cfg5.win 5).flush t = true ∧ i ∈ ((cfg5.win 5).blk t).view.set := by
  have hi0 : (i 0).val < 100000 := (i 0).isLt
  have hi1 : (i 1).val < 20 := (i 1).isLt
  have hN : grid5.N = 10 := N_5
  obtain ⟨t, ht⟩ : ∃ t : Fin cfg5.N, t.val = (i 0).val / 10000 :=
    ⟨⟨(i 0).val / 10000, by show _ < grid5.N; omega⟩, rfl⟩
  have eo := (idx_facts t).1
  refine ⟨t, flush5_5 t, ?_⟩
  rw [mem_blk]
  intro a
  match a with
  | ⟨0, _⟩ =>
    show win5_5.index t (0 : Fin 2) * 10000 ≤ (i 0).val ∧ (i 0).val < win5_5.index t (0 : Fin 2) * 10000 + 10000
    omega
  | ⟨1, _⟩ =>
    show win5_5.index t (1 : Fin 2) * 20 ≤ (i 1).val ∧ (i 1).val < win5_5.index t (1 : Fin 2) * 20 + 20
    omega

/-- The output array after the call is the layer of the whole arrays. -/
theorem final (c : Dev nD) : (dat5 V c).arrAt 5 cfg5.N = layer V c :=
  (dat5 V c).arrAt_eq_of_cover 5 (layer V c) (fun t _ => flushed_eq V c t) cover

end Cert.KernelIdeal.Region5

end
-- ==== Proof.Chain.lean ====
/-
  The idealized kernel program's intermediate arrays, one after the other, as the reference program's own stages of
  the arguments.

  The kernel program is the reference program with six stretches of it handed to kernel calls: the two dense layers
  X·W + b, the two layers "normalise by the batch mean and variance, scale, shift, clamp at zero, then X·W + b", and the
  two layers "normalise, scale, shift, clamp". Everything else — the gather and scatter-add of the two aggregations,
  the batch means and variances, the per-graph sums, counts and quotient, the two final dense layers — is the same host
  operation on both sides. So going through the kernel program boundary by boundary, every array a later stretch or
  call reads is the reference's stage of the same name-independent meaning: a host stretch by running its operations
  on arrays already identified, a kernel call by the whole-array layer it computes and the host spelling of that
  layer. The last array is the result.
-/
import proofs.«112823_j61375082659915_1_alg».proof.Proof.Gen.KernelIdeal.Frame
import proofs.«112823_j61375082659915_1_alg».proof.Proof.ReadP
import proofs.«112823_j61375082659915_1_alg».proof.Proof.Args
import proofs.«112823_j61375082659915_1_alg».proof.Proof.Region0
import proofs.«112823_j61375082659915_1_alg».proof.Proof.Region1
import proofs.«112823_j61375082659915_1_alg».proof.Proof.Region2
import proofs.«112823_j61375082659915_1_alg».proof.Proof.Region3
import proofs.«112823_j61375082659915_1_alg».proof.Proof.Region4
import proofs.«112823_j61375082659915_1_alg».proof.Proof.Region5
import proofs.«112823_j61375082659915_1_alg».proof.Proof.LibNormLayers
import Idealize.ShloMosaic.Lib.StableHlo.Run

set_option maxRecDepth 16384

noncomputable section

namespace Cert.Bridge

open Cert.KernelIdeal Cert.KernelIdeal.Gen Cert.KernelIdeal.Args
open Idealize.ShloMosaic Idealize.ShloMosaic.TcCoe Idealize.ShloMosaic.ValueIdx Idealize.SL.Sem
open Idealize.ShloMosaic.StableHlo (after_cons after_nil nullary_result unary_result binary_result ternary_result
  quaternary_result reshape_result binaryIndexed_result nary4_result nary_result unaryIndexed_result
  nullary_result_ne unary_result_ne binary_result_ne ternary_result_ne quaternary_result_ne reshape_result_ne
  binaryIndexed_result_ne nary_result_ne unaryIndexed_result_ne)
open Cert.Lib.NormLayers Cert.Lib.RowVector Cert.Layers Cert.Lib.MatProd
open Cert.ReferenceIdeal.ReadP

variable (m : (ℓ : Loc nD τ sig) → Buf (Elt Ideal) ℓ) (ρ : Dev nD → PrngReg) (c : Dev nD)

set_option maxHeartbeats 4000000 in
theorem v10_W1 : W1 m ρ c (Proc.devRef .tc main_v10) = val_main_v10 (F := Ideal) (m ((c : Thread nD τ).loc main_arg0)) (m ((c : Thread nD τ).loc main_arg2)) (m ((c : Thread nD τ).loc main_arg3)) := by
  show StableHlo.after hostOps0 (W0 m ρ c) (Proc.devRef .tc main_v10) = _
  after_results_simp
  rfl
theorem v11_W1 : W1 m ρ c (Proc.devRef .tc main_v11) = (asRow ((m ((c : Thread nD τ).loc main_arg6))) : S1x100.Idx → EReal) := by
  show StableHlo.after hostOps0 (W0 m ρ c) (Proc.devRef .tc main_v11) = _
  after_results
  exact shapeCast_eq_asRow _ _
theorem v12_W2 : W2 m ρ c (Proc.devRef .tc main_v12) = val_main_v14 (F := Ideal) (m ((c : Thread nD τ).loc main_arg0)) (m ((c : Thread nD τ).loc main_arg2)) (m ((c : Thread nD τ).loc main_arg3)) (m ((c : Thread nD τ).loc main_arg5)) (m ((c : Thread nD τ).loc main_arg6)) := by
  refine ((W2_arr m ρ c 3).trans (Cert.KernelIdeal.Region0.final (V1 m ρ) c)).trans ?_
  unfold Cert.KernelIdeal.Region0.layer
  show affineRow (W1 m ρ c (Proc.devRef .tc main_v10)) (W1 m ρ c (Proc.devRef .tc main_arg5)) (W1 m ρ c (Proc.devRef .tc main_v11)) = _
  rw [v10_W1, arg5_W1, v11_W1]
  exact affineRow_host _ rfl rfl rfl rfl rfl rfl _ _ _ _ _
theorem v12_W3 : W3 m ρ c (Proc.devRef .tc main_v12) = val_main_v14 (F := Ideal) (m ((c : Thread nD τ).loc main_arg0)) (m ((c : Thread nD τ).loc main_arg2)) (m ((c : Thread nD τ).loc main_arg3)) (m ((c : Thread nD τ).loc main_arg5)) (m ((c : Thread nD τ).loc main_arg6)) :=
  (StableHlo.after_of_forall_not_mem (b := Proc.devRef .tc main_v12) _ _ (List.forall_iff_forall_mem.mp (by not_written hostOps1))).trans (v12_W2 m ρ c)
theorem v23_W3 : W3 m ρ c (Proc.devRef .tc main_v23) = (asRow (val_main_v17 (F := Ideal) (m ((c : Thread nD τ).loc main_arg0)) (m ((c : Thread nD τ).loc main_arg2)) (m ((c : Thread nD τ).loc main_arg3)) (m ((c : Thread nD τ).loc main_arg5)) (m ((c : Thread nD τ).loc main_arg6))) : S1x100.Idx → EReal) := by
  show StableHlo.after hostOps1 (W2 m ρ c) (Proc.devRef .tc main_v23) = _
  after_results
  rw [v12_W2]
  exact shapeCast_eq_asRow _ _
theorem v24_W3 : W3 m ρ c (Proc.devRef .tc main_v24) = (asRow (val_main_v24 (F := Ideal) (m ((c : Thread nD τ).loc main_arg0)) (m ((c : Thread nD τ).loc main_arg2)) (m ((c : Thread nD τ).loc main_arg3)) (m ((c : Thread nD τ).loc main_arg5)) (m ((c : Thread nD τ).loc main_arg6))) : S1x100.Idx → EReal) := by
  show StableHlo.after hostOps1 (W2 m ρ c) (Proc.devRef .tc main_v24) = _
  after_results
  rw [v12_W2]
  exact shapeCast_eq_asRow _ _
theorem v25_W3 : W3 m ρ c (Proc.devRef .tc main_v25) = (asRow ((m ((c : Thread nD τ).loc main_arg7))) : S1x100.Idx → EReal) := by
  show StableHlo.after hostOps1 (W2 m ρ c) (Proc.devRef .tc main_v25) = _
  after_results
  rw [arg7_W2]
  exact shapeCast_eq_asRow _ _
theorem v26_W3 : W3 m ρ c (Proc.devRef .tc main_v26) = (asRow ((m ((c : Thread nD τ).loc main_arg8))) : S1x100.Idx → EReal) := by
  show StableHlo.after hostOps1 (W2 m ρ c) (Proc.devRef .tc main_v26) = _
  after_results
  rw [arg8_W2]
  exact shapeCast_eq_asRow _ _
theorem v27_W3 : W3 m ρ c (Proc.devRef .tc main_v27) = (asRow ((m ((c : Thread nD τ).loc main_arg10))) : S1x100.Idx → EReal) := by
  show StableHlo.after hostOps1 (W2 m ρ c) (Proc.devRef .tc main_v27) = _
  after_results
  rw [arg10_W2]
  exact shapeCast_eq_asRow _ _
theorem v28_W4 : W4 m ρ c (Proc.devRef .tc main_v28) = val_main_v44 (F := Ideal) (m ((c : Thread nD τ).loc main_arg0)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine ((W4_arr m ρ c 7).trans (Cert.KernelIdeal.Region1.final (V3 m ρ) c)).trans ?_
  unfold Cert.KernelIdeal.Region1.layer
  show normAffine (W3 m ρ c (Proc.devRef .tc main_v12)) (W3 m ρ c (Proc.devRef .tc main_v23)) (W3 m ρ c (Proc.devRef .tc main_v24)) (W3 m ρ c (Proc.devRef .tc main_v25))
    (W3 m ρ c (Proc.devRef .tc main_v26)) (W3 m ρ c (Proc.devRef .tc main_arg9)) (W3 m ρ c (Proc.devRef .tc main_v27)) = _
  rw [v12_W3, v23_W3, v24_W3, v25_W3, v26_W3, arg9_W3, v27_W3]
  exact host_normAffine _ rfl rfl rfl rfl rfl rfl _ _ _ _ _ _ _ _ _ _ _ _ _
theorem v28_W5 : W5 m ρ c (Proc.devRef .tc main_v28) = val_main_v44 (F := Ideal) (m ((c : Thread nD τ).loc main_arg0)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) :=
  (StableHlo.after_of_forall_not_mem (b := Proc.devRef .tc main_v28) _ _ (List.forall_iff_forall_mem.mp (by not_written hostOps2))).trans (v28_W4 m ρ c)
theorem v39_W5 : W5 m ρ c (Proc.devRef .tc main_v39) = (asRow (val_main_v47 (F := Ideal) (m ((c : Thread nD τ).loc main_arg0)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) : S1x100.Idx → EReal) := by
  show StableHlo.after hostOps2 (W4 m ρ c) (Proc.devRef .tc main_v39) = _
  after_results
  rw [v28_W4]
  exact shapeCast_eq_asRow _ _
theorem v40_W5 : W5 m ρ c (Proc.devRef .tc main_v40) = (asRow (val_main_v54 (F := Ideal) (m ((c : Thread nD τ).loc main_arg0)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) : S1x100.Idx → EReal) := by
  show StableHlo.after hostOps2 (W4 m ρ c) (Proc.devRef .tc main_v40) = _
  after_results
  rw [v28_W4]
  exact shapeCast_eq_asRow _ _
theorem v41_W5 : W5 m ρ c (Proc.devRef .tc main_v41) = (asRow ((m ((c : Thread nD τ).loc main_arg11))) : S1x100.Idx → EReal) := by
  show StableHlo.after hostOps2 (W4 m ρ c) (Proc.devRef .tc main_v41) = _
  after_results
  rw [arg11_W4]
  exact shapeCast_eq_asRow _ _
theorem v42_W5 : W5 m ρ c (Proc.devRef .tc main_v42) = (asRow ((m ((c : Thread nD τ).loc main_arg12))) : S1x100.Idx → EReal) := by
  show StableHlo.after hostOps2 (W4 m ρ c) (Proc.devRef .tc main_v42) = _
  after_results
  rw [arg12_W4]
  exact shapeCast_eq_asRow _ _
theorem v43_W6 : W6 m ρ c (Proc.devRef .tc main_v43) = val_main_v70 (F := Ideal) (m ((c : Thread nD τ).loc main_arg0)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  refine ((W6_arr m ρ c 5).trans (Cert.KernelIdeal.Region2.final (V5 m ρ) c)).trans ?_
  unfold Cert.KernelIdeal.Region2.layer
  show normRelu (W5 m ρ c (Proc.devRef .tc main_v28)) (W5 m ρ c (Proc.devRef .tc main_v39)) (W5 m ρ c (Proc.devRef .tc main_v40)) (W5 m ρ c (Proc.devRef .tc main_v41))
    (W5 m ρ c (Proc.devRef .tc main_v42)) = _
  rw [v28_W5, v39_W5, v40_W5, v41_W5, v42_W5]
  exact normRelu_host _ _ _ _ _ _ _ _ _
set_option maxHeartbeats 4000000 in
theorem v54_W7 : W7 m ρ c (Proc.devRef .tc main_v54) = val_main_v81 (F := Ideal) (m ((c : Thread nD τ).loc main_arg0)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  show StableHlo.after hostOps3 (W6 m ρ c) (Proc.devRef .tc main_v54) = _
  after_results_simp
  rw [v43_W6, arg2_W6, arg3_W6]
  rfl
theorem v55_W7 : W7 m ρ c (Proc.devRef .tc main_v55) = (asRow ((m ((c : Thread nD τ).loc main_arg14))) : S1x20.Idx → EReal) := by
  show StableHlo.after hostOps3 (W6 m ρ c) (Proc.devRef .tc main_v55) = _
  after_results
  rw [arg14_W6]
  exact shapeCast_eq_asRow _ _
theorem v56_W8 : W8 m ρ c (Proc.devRef .tc main_v56) = val_main_v85 (F := Ideal) (m ((c : Thread nD τ).loc main_arg0)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) := by
  refine ((W8_arr m ρ c 3).trans (Cert.KernelIdeal.Region3.final (V7 m ρ) c)).trans ?_
  unfold Cert.KernelIdeal.Region3.layer
  show affineRow (W7 m ρ c (Proc.devRef .tc main_v54)) (W7 m ρ c (Proc.devRef .tc main_arg13)) (W7 m ρ c (Proc.devRef .tc main_v55)) = _
  rw [v54_W7, arg13_W7, v55_W7]
  exact affineRow_host _ rfl rfl rfl rfl rfl rfl _ _ _ _ _
theorem v56_W9 : W9 m ρ c (Proc.devRef .tc main_v56) = val_main_v85 (F := Ideal) (m ((c : Thread nD τ).loc main_arg0)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) :=
  (StableHlo.after_of_forall_not_mem (b := Proc.devRef .tc main_v56) _ _ (List.forall_iff_forall_mem.mp (by not_written hostOps4))).trans (v56_W8 m ρ c)
theorem v67_W9 : W9 m ρ c (Proc.devRef .tc main_v67) = (asRow (val_main_v88 (F := Ideal) (m ((c : Thread nD τ).loc main_arg0)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))) : S1x20.Idx → EReal) := by
  show StableHlo.after hostOps4 (W8 m ρ c) (Proc.devRef .tc main_v67) = _
  after_results
  rw [v56_W8]
  exact shapeCast_eq_asRow _ _
theorem v68_W9 : W9 m ρ c (Proc.devRef .tc main_v68) = (asRow (val_main_v95 (F := Ideal) (m ((c : Thread nD τ).loc main_arg0)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))) : S1x20.Idx → EReal) := by
  show StableHlo.after hostOps4 (W8 m ρ c) (Proc.devRef .tc main_v68) = _
  after_results
  rw [v56_W8]
  exact shapeCast_eq_asRow _ _
theorem v69_W9 : W9 m ρ c (Proc.devRef .tc main_v69) = (asRow ((m ((c : Thread nD τ).loc main_arg15))) : S1x20.Idx → EReal) := by
  show StableHlo.after hostOps4 (W8 m ρ c) (Proc.devRef .tc main_v69) = _
  after_results
  rw [arg15_W8]
  exact shapeCast_eq_asRow _ _
theorem v70_W9 : W9 m ρ c (Proc.devRef .tc main_v70) = (asRow ((m ((c : Thread nD τ).loc main_arg16))) : S1x20.Idx → EReal) := by
  show StableHlo.after hostOps4 (W8 m ρ c) (Proc.devRef .tc main_v70) = _
  after_results
  rw [arg16_W8]
  exact shapeCast_eq_asRow _ _
theorem v71_W9 : W9 m ρ c (Proc.devRef .tc main_v71) = (asRow ((m ((c : Thread nD τ).loc main_arg18))) : S1x20.Idx → EReal) := by
  show StableHlo.after hostOps4 (W8 m ρ c) (Proc.devRef .tc main_v71) = _
  after_results
  rw [arg18_W8]
  exact shapeCast_eq_asRow _ _
theorem v72_W10 : W10 m ρ c (Proc.devRef .tc main_v72) = val_main_v115 (F := Ideal) (m ((c : Thread nD τ).loc main_arg0)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) := by
  refine ((W10_arr m ρ c 7).trans (Cert.KernelIdeal.Region4.final (V9 m ρ) c)).trans ?_
  unfold Cert.KernelIdeal.Region4.layer
  show normAffine (W9 m ρ c (Proc.devRef .tc main_v56)) (W9 m ρ c (Proc.devRef .tc main_v67)) (W9 m ρ c (Proc.devRef .tc main_v68)) (W9 m ρ c (Proc.devRef .tc main_v69))
    (W9 m ρ c (Proc.devRef .tc main_v70)) (W9 m ρ c (Proc.devRef .tc main_arg17)) (W9 m ρ c (Proc.devRef .tc main_v71)) = _
  rw [v56_W9, v67_W9, v68_W9, v69_W9, v70_W9, arg17_W9, v71_W9]
  exact host_normAffine _ rfl rfl rfl rfl rfl rfl _ _ _ _ _ _ _ _ _ _ _ _ _
theorem v72_W11 : W11 m ρ c (Proc.devRef .tc main_v72) = val_main_v115 (F := Ideal) (m ((c : Thread nD τ).loc main_arg0)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) :=
  (StableHlo.after_of_forall_not_mem (b := Proc.devRef .tc main_v72) _ _ (List.forall_iff_forall_mem.mp (by not_written hostOps5))).trans (v72_W10 m ρ c)
theorem v83_W11 : W11 m ρ c (Proc.devRef .tc main_v83) = (asRow (val_main_v118 (F := Ideal) (m ((c : Thread nD τ).loc main_arg0)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))) : S1x20.Idx → EReal) := by
  show StableHlo.after hostOps5 (W10 m ρ c) (Proc.devRef .tc main_v83) = _
  after_results
  rw [v72_W10]
  exact shapeCast_eq_asRow _ _
theorem v84_W11 : W11 m ρ c (Proc.devRef .tc main_v84) = (asRow (val_main_v125 (F := Ideal) (m ((c : Thread nD τ).loc main_arg0)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))) : S1x20.Idx → EReal) := by
  show StableHlo.after hostOps5 (W10 m ρ c) (Proc.devRef .tc main_v84) = _
  after_results
  rw [v72_W10]
  exact shapeCast_eq_asRow _ _
theorem v85_W11 : W11 m ρ c (Proc.devRef .tc main_v85) = (asRow ((m ((c : Thread nD τ).loc main_arg19))) : S1x20.Idx → EReal) := by
  show StableHlo.after hostOps5 (W10 m ρ c) (Proc.devRef .tc main_v85) = _
  after_results
  rw [arg19_W10]
  exact shapeCast_eq_asRow _ _
theorem v86_W11 : W11 m ρ c (Proc.devRef .tc main_v86) = (asRow ((m ((c : Thread nD τ).loc main_arg20))) : S1x20.Idx → EReal) := by
  show StableHlo.after hostOps5 (W10 m ρ c) (Proc.devRef .tc main_v86) = _
  after_results
  rw [arg20_W10]
  exact shapeCast_eq_asRow _ _
theorem v87_W12 : W12 m ρ c (Proc.devRef .tc main_v87) = val_main_v141 (F := Ideal) (m ((c : Thread nD τ).loc main_arg0)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) := by
  refine ((W12_arr m ρ c 5).trans (Cert.KernelIdeal.Region5.final (V11 m ρ) c)).trans ?_
  unfold Cert.KernelIdeal.Region5.layer
  show normRelu (W11 m ρ c (Proc.devRef .tc main_v72)) (W11 m ρ c (Proc.devRef .tc main_v83)) (W11 m ρ c (Proc.devRef .tc main_v84)) (W11 m ρ c (Proc.devRef .tc main_v85))
    (W11 m ρ c (Proc.devRef .tc main_v86)) = _
  rw [v72_W11, v83_W11, v84_W11, v85_W11, v86_W11]
  exact normRelu_host _ _ _ _ _ _ _ _ _
/-- The results of the operations still standing inside an operand list, one rewrite per operation and reference. -/
macro "results_loop" : tactic =>
  `(tactic| repeat (first
      | rw [Idealize.ShloMosaic.StableHlo.nullary_result] | rw [Idealize.ShloMosaic.StableHlo.unary_result] | rw [Idealize.ShloMosaic.StableHlo.binary_result] | rw [Idealize.ShloMosaic.StableHlo.ternary_result]
      | rw [Idealize.ShloMosaic.StableHlo.reshape_result]
      | (rw [Idealize.ShloMosaic.StableHlo.nullary_result_ne]; rotate_left; decide)
      | (rw [Idealize.ShloMosaic.StableHlo.unary_result_ne]; rotate_left; decide)
      | (rw [Idealize.ShloMosaic.StableHlo.binary_result_ne]; rotate_left; decide)
      | (rw [Idealize.ShloMosaic.StableHlo.ternary_result_ne]; rotate_left; decide)
      | (rw [Idealize.ShloMosaic.StableHlo.reshape_result_ne]; rotate_left; decide)))

set_option maxHeartbeats 16000000 in
/-- The result of the kernel program is the reference's last stage of the arguments: the per-graph sums and counts,
    the quotient, the join with the per-graph features and the two read-out layers are the same host operations on
    both sides, applied to the last kernel call's output. -/
theorem result_W15 : W15 m ρ c (Proc.devRef .tc main_v109) = val_main_v163 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) := by
  show StableHlo.after hostOps6_2 (W14 m ρ c) (Proc.devRef .tc main_v109) = _
  after_results_simp
  results_loop
  rw [v87_W12, arg4_W12, arg1_W12, arg21_W12, arg22_W12, arg23_W12, arg24_W12]
  rfl

end Cert.Bridge

end
-- ==== Proof.lean ====
/-
  Two layers of graph convolution by sum aggregation, each followed by a two-layer perceptron with batch
  normalisation and a clamp at zero, then a mean over each graph's nodes and a two-layer read-out: the kernel program
  hands the six dense and normalisation layers to kernel calls tiled over blocks of 10000 nodes and leaves everything
  else to the host, the reference program does everything on the host. On the extended reals both are one function
  of the arguments: a change of float format is the identity, a product accumulated into zeros is the host's
  contraction, a block of rows of a dense or normalisation layer is the same rows of the whole layer, and every other
  operation is the same host operation applied to arrays already identified (Proof/Chain.lean goes through the kernel
  program boundary by boundary). No law that needs finite entries is used: nothing is re-associated or distributed.

  The three frames are the programs' runs with the results forgotten; the idealization rewrote no operation, so
  there is nothing to preserve beyond the program's own text read on the extended reals.
-/
import proofs.«112823_j61375082659915_1_alg».proof.Defs
import proofs.«112823_j61375082659915_1_alg».proof.Proof.Gen.Kernel
import proofs.«112823_j61375082659915_1_alg».proof.Proof.Gen.Kernel.Frame
import proofs.«112823_j61375082659915_1_alg».proof.Proof.Gen.KernelIdeal
import proofs.«112823_j61375082659915_1_alg».proof.Proof.Gen.KernelIdeal.Frame
import proofs.«112823_j61375082659915_1_alg».proof.Proof.Gen.ReferenceIdeal
import proofs.«112823_j61375082659915_1_alg».proof.Proof.Gen.Pre_finite_inputs
import proofs.«112823_j61375082659915_1_alg».proof.Proof.RefRun
import proofs.«112823_j61375082659915_1_alg».proof.Proof.KernelRun
import proofs.«112823_j61375082659915_1_alg».proof.Proof.Chain
import Idealize.ShloMosaic.Adequacy
import Idealize.ShloMosaic.Init

set_option maxRecDepth 16384

noncomputable section

namespace Cert.Proof

open Idealize.ShloMosaic Idealize.ShloMosaic.TcCoe Idealize.SL.Sem

theorem frame_k : @Cert.frame_Kernel Cert.Kernel.Gen.facts Cert.Pre_finite_inputs.Gen.facts :=
  fun m ρ _ => Cert.Kernel.Gen.frame m ρ

theorem frame_ki : @Cert.frame_KernelIdeal Cert.KernelIdeal.Gen.facts Cert.Pre_finite_inputs.Gen.facts :=
  fun m ρ _ => Cert.KernelIdeal.Gen.frame m ρ

/-- The reference's frame is its run with the result forgotten. -/
theorem frame_ri : @Cert.frame_ReferenceIdeal Cert.ReferenceIdeal.Gen.facts Cert.Pre_finite_inputs.Gen.facts :=
  fun m ρ _ => (θ_run Cert.ReferenceIdeal.defs _ _).mono (fun _ h c => (h c).2)
    (Cert.ReferenceIdeal.RefRun.run (F := Ideal) m ρ)

/-- Both programs end with the reference's last stage of the kernel program's arguments in their result buffers:
    the kernel program by going through it boundary by boundary, the reference program by its own run, the two
    memories agreeing on the arguments. -/
theorem algebraic : @Cert.algebraic_KernelIdeal_ReferenceIdeal Cert.KernelIdeal.Gen.facts Cert.ReferenceIdeal.Gen.facts
    Cert.Pre_finite_inputs.Gen.facts := by
  intro m ρ m' ρ' _ hagree
  refine ⟨fun c => Cert.ReferenceIdeal.ReadP.val_main_v163 (F := Ideal)
    (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3))
    (m ((c.tc : Thread Cert.KernelIdeal.nD Cert.KernelIdeal.τ).loc Cert.KernelIdeal.main_arg4))
    (m ((c.tc : Thread Cert.KernelIdeal.nD Cert.KernelIdeal.τ).loc Cert.KernelIdeal.main_arg5))
    (m ((c.tc : Thread Cert.KernelIdeal.nD Cert.KernelIdeal.τ).loc Cert.KernelIdeal.main_arg6))
    (m ((c.tc : Thread Cert.KernelIdeal.nD Cert.KernelIdeal.τ).loc Cert.KernelIdeal.main_arg7))
    (m ((c.tc : Thread Cert.KernelIdeal.nD Cert.KernelIdeal.τ).loc Cert.KernelIdeal.main_arg8))
    (m ((c.tc : Thread Cert.KernelIdeal.nD Cert.KernelIdeal.τ).loc Cert.KernelIdeal.main_arg9))
    (m ((c.tc : Thread Cert.KernelIdeal.nD Cert.KernelIdeal.τ).loc Cert.KernelIdeal.main_arg10))
    (m ((c.tc : Thread Cert.KernelIdeal.nD Cert.KernelIdeal.τ).loc Cert.KernelIdeal.main_arg11))
    (m ((c.tc : Thread Cert.KernelIdeal.nD Cert.KernelIdeal.τ).loc Cert.KernelIdeal.main_arg12))
    (m ((c.tc : Thread Cert.KernelIdeal.nD Cert.KernelIdeal.τ).loc Cert.KernelIdeal.main_arg13))
    (m ((c.tc : Thread Cert.KernelIdeal.nD Cert.KernelIdeal.τ).loc Cert.KernelIdeal.main_arg14))
    (m ((c.tc : Thread Cert.KernelIdeal.nD Cert.KernelIdeal.τ).loc Cert.KernelIdeal.main_arg15))
    (m ((c.tc : Thread Cert.KernelIdeal.nD Cert.KernelIdeal.τ).loc Cert.KernelIdeal.main_arg16))
    (m ((c.tc : Thread Cert.KernelIdeal.nD Cert.KernelIdeal.τ).loc Cert.KernelIdeal.main_arg17))
    (m ((c.tc : Thread Cert.KernelIdeal.nD Cert.KernelIdeal.τ).loc Cert.KernelIdeal.main_arg18))
    (m ((c.tc : Thread Cert.KernelIdeal.nD Cert.KernelIdeal.τ).loc Cert.KernelIdeal.main_arg19))
    (m ((c.tc : Thread Cert.KernelIdeal.nD Cert.KernelIdeal.τ).loc Cert.KernelIdeal.main_arg20))
    (m ((c.tc : Thread Cert.KernelIdeal.nD Cert.KernelIdeal.τ).loc Cert.KernelIdeal.main_arg21))
    (m ((c.tc : Thread Cert.KernelIdeal.nD Cert.KernelIdeal.τ).loc Cert.KernelIdeal.main_arg22))
    (m ((c.tc : Thread Cert.KernelIdeal.nD Cert.KernelIdeal.τ).loc Cert.KernelIdeal.main_arg23))
    (m ((c.tc : Thread Cert.KernelIdeal.nD Cert.KernelIdeal.τ).loc Cert.KernelIdeal.main_arg24)), ?_, ?_⟩
  · refine (θ_run Cert.KernelIdeal.defs _ _).mono (fun r h c => ⟨?_, ?_, ?_, ?_, ?_, ?_, ?_, ?_, ?_, ?_, ?_, ?_, ?_, ?_, ?_, ?_, ?_, ?_, ?_, ?_, ?_, ?_, ?_, ?_, ?_, ?_⟩)
      (Cert.KernelIdeal.RunAll.run_all (F := Ideal) m ρ)
    · exact (h c Cert.KernelIdeal.main_v109 (by decide)).trans (Cert.Bridge.result_W15 m ρ c)
    · exact (h c Cert.KernelIdeal.main_arg0 (by decide)).trans (Cert.KernelIdeal.Gen.W15_main_arg0 m ρ c)
    · exact (h c Cert.KernelIdeal.main_arg1 (by decide)).trans (Cert.KernelIdeal.Gen.W15_main_arg1 m ρ c)
    · exact (h c Cert.KernelIdeal.main_arg2 (by decide)).trans (Cert.KernelIdeal.Gen.W15_main_arg2 m ρ c)
    · exact (h c Cert.KernelIdeal.main_arg3 (by decide)).trans (Cert.KernelIdeal.Gen.W15_main_arg3 m ρ c)
    · exact (h c Cert.KernelIdeal.main_arg4 (by decide)).trans (Cert.KernelIdeal.Gen.W15_main_arg4 m ρ c)
    · exact (h c Cert.KernelIdeal.main_arg5 (by decide)).trans (Cert.KernelIdeal.Gen.W15_main_arg5 m ρ c)
    · exact (h c Cert.KernelIdeal.main_arg6 (by decide)).trans (Cert.KernelIdeal.Gen.W15_main_arg6 m ρ c)
    · exact (h c Cert.KernelIdeal.main_arg7 (by decide)).trans (Cert.KernelIdeal.Gen.W15_main_arg7 m ρ c)
    · exact (h c Cert.KernelIdeal.main_arg8 (by decide)).trans (Cert.KernelIdeal.Gen.W15_main_arg8 m ρ c)
    · exact (h c Cert.KernelIdeal.main_arg9 (by decide)).trans (Cert.KernelIdeal.Gen.W15_main_arg9 m ρ c)
    · exact (h c Cert.KernelIdeal.main_arg10 (by decide)).trans (Cert.KernelIdeal.Gen.W15_main_arg10 m ρ c)
    · exact (h c Cert.KernelIdeal.main_arg11 (by decide)).trans (Cert.KernelIdeal.Gen.W15_main_arg11 m ρ c)
    · exact (h c Cert.KernelIdeal.main_arg12 (by decide)).trans (Cert.KernelIdeal.Gen.W15_main_arg12 m ρ c)
    · exact (h c Cert.KernelIdeal.main_arg13 (by decide)).trans (Cert.KernelIdeal.Gen.W15_main_arg13 m ρ c)
    · exact (h c Cert.KernelIdeal.main_arg14 (by decide)).trans (Cert.KernelIdeal.Gen.W15_main_arg14 m ρ c)
    · exact (h c Cert.KernelIdeal.main_arg15 (by decide)).trans (Cert.KernelIdeal.Gen.W15_main_arg15 m ρ c)
    · exact (h c Cert.KernelIdeal.main_arg16 (by decide)).trans (Cert.KernelIdeal.Gen.W15_main_arg16 m ρ c)
    · exact (h c Cert.KernelIdeal.main_arg17 (by decide)).trans (Cert.KernelIdeal.Gen.W15_main_arg17 m ρ c)
    · exact (h c Cert.KernelIdeal.main_arg18 (by decide)).trans (Cert.KernelIdeal.Gen.W15_main_arg18 m ρ c)
    · exact (h c Cert.KernelIdeal.main_arg19 (by decide)).trans (Cert.KernelIdeal.Gen.W15_main_arg19 m ρ c)
    · exact (h c Cert.KernelIdeal.main_arg20 (by decide)).trans (Cert.KernelIdeal.Gen.W15_main_arg20 m ρ c)
    · exact (h c Cert.KernelIdeal.main_arg21 (by decide)).trans (Cert.KernelIdeal.Gen.W15_main_arg21 m ρ c)
    · exact (h c Cert.KernelIdeal.main_arg22 (by decide)).trans (Cert.KernelIdeal.Gen.W15_main_arg22 m ρ c)
    · exact (h c Cert.KernelIdeal.main_arg23 (by decide)).trans (Cert.KernelIdeal.Gen.W15_main_arg23 m ρ c)
    · exact (h c Cert.KernelIdeal.main_arg24 (by decide)).trans (Cert.KernelIdeal.Gen.W15_main_arg24 m ρ c)
  · refine (θ_run Cert.ReferenceIdeal.defs _ _).mono (fun _ h c => ⟨(h c).1.trans ?_, (h c).2⟩)
      (Cert.ReferenceIdeal.RefRun.run (F := Ideal) m' ρ')
    rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2.1, (hagree c).2.2.2.2.2.2.2.2.2.2.2.2.2.2.2.1, (hagree c).2.2.2.2.2.2.2.2.2.2.2.2.2.2.2.2.1, (hagree c).2.2.2.2.2.2.2.2.2.2.2.2.2.2.2.2.2.1, (hagree c).2.2.2.2.2.2.2.2.2.2.2.2.2.2.2.2.2.2.1, (hagree c).2.2.2.2.2.2.2.2.2.2.2.2.2.2.2.2.2.2.2.1, (hagree c).2.2.2.2.2.2.2.2.2.2.2.2.2.2.2.2.2.2.2.2.1, (hagree c).2.2.2.2.2.2.2.2.2.2.2.2.2.2.2.2.2.2.2.2.2.1, (hagree c).2.2.2.2.2.2.2.2.2.2.2.2.2.2.2.2.2.2.2.2.2.2.1, (hagree c).2.2.2.2.2.2.2.2.2.2.2.2.2.2.2.2.2.2.2.2.2.2.2.1, (hagree c).2.2.2.2.2.2.2.2.2.2.2.2.2.2.2.2.2.2.2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
